-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x26 : Shape := ⟨2, ![100000, 26]⟩
abbrev S2x1200000 : Shape := ⟨2, ![2, 1200000]⟩
abbrev S26x64 : Shape := ⟨2, ![26, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x26 : S_.BroadcastsInDim S100000x26 (![] : Fin 0 → Fin S100000x26.rank)
  reducesTo_S100000x26_S_d0_1 : S100000x26.ReducesTo [0, 1] S_
  h_S_ : 0 < S_.numel
  bcast_S_S26x64 : S_.BroadcastsInDim S26x64 (![] : Fin 0 → Fin S26x64.rank)
  reducesTo_S26x64_S_d0_1 : S26x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part2 {F : FTy → Type} [FloatOps F] (main_arg1 : IVec S2x1200000 32) (main_v33 : IVec S_ 1) : IVec S_ 1 :=
  let main_c_12 : IVec S_ 32 := constantI S_ 32 0#32
  let main_v34 : IVec S2x1200000 32 := broadcastInDim S2x1200000 ![] bcast_S_S2x1200000 main_c_12
  let main_v35 : IVec S2x1200000 1 := cmpi .sge main_arg1 main_v34
  let main_c_13 : IVec S_ 32 := constantI S_ 32 100000#32
  let main_v36 : IVec S2x1200000 32 := broadcastInDim S2x1200000 ![] bcast_S_S2x1200000 main_c_13
  let main_v37 : IVec S2x1200000 1 := cmpi .slt main_arg1 main_v36
  let main_v38 : IVec S2x1200000 1 := andi main_v35 main_v37
  let main_c_14 : IVec S_ 1 := constantI S_ 1 1#1
  let main_v39 : IVec S_ 1 := (fun x v => Host.reduce IntOp.andi x v reducesTo_S2x1200000_S_d0_1 h_S_) main_v38 main_c_14
  let main_v40 : IVec S_ 1 := andi main_v33 main_v39
  main_v40

def fn_part1 {F : FTy → Type} [FloatOps F] (main_arg1 : IVec S2x1200000 32) (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S100000x26 .f32) (main_arg1 : IVec S2x1200000 32) (main_arg2 : FVec F S26x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x26 .f32 := Host.absf main_arg0
  let main_cst : FVec F S_ .f32 := constant S_ .f32 0x7F800000#32
  let main_v1 : FVec F S100000x26 .f32 := broadcastInDim S100000x26 ![] bcast_S_S100000x26 main_cst
  let main_v2 : IVec S100000x26 1 := cmpf .olt main_v0 main_v1
  let main_c : IVec S_ 1 := constantI S_ 1 1#1
  let main_v3 : IVec S_ 1 := (fun x v => Host.reduce IntOp.andi x v reducesTo_S100000x26_S_d0_1 h_S_) main_v2 main_c
  let main_v4 : FVec F S26x64 .f32 := Host.absf main_arg2
  let main_cst_0 : FVec F S_ .f32 := constant S_ .f32 0x7F800000#32
  let main_v5 : FVec F S26x64 .f32 := broadcastInDim S26x64 ![] bcast_S_S26x64 main_cst_0
  let main_v6 : IVec S26x64 1 := cmpf .olt main_v4 main_v5
  let main_c_1 : IVec S_ 1 := constantI S_ 1 1#1
  let main_v7 : IVec S_ 1 := (fun x v => Host.reduce IntOp.andi x v reducesTo_S26x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_arg6 main_arg7 main_v13 main_v16
-- ==== Kernel.lean ====
abbrev S100000x26 : Shape := ⟨2, ![100000, 26]⟩
abbrev S2x1200000 : Shape := ⟨2, ![2, 1200000]⟩
abbrev S26x64 : Shape := ⟨2, ![26, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1302528 : Shape := ⟨1, ![1302528]⟩
abbrev S1302528x1 : Shape := ⟨2, ![1302528, 1]⟩
abbrev S1x1302528 : Shape := ⟨2, ![1, 1302528]⟩
abbrev S100352x26 : Shape := ⟨2, ![100352, 26]⟩
abbrev S1302528x64 : Shape := ⟨2, ![1302528, 64]⟩
abbrev S2048x26 : Shape := ⟨2, ![2048, 26]⟩
abbrev S4096x1 : Shape := ⟨2, ![4096, 1]⟩
abbrev S4096x64 : Shape := ⟨2, ![4096, 64]⟩
abbrev S1x2048 : Shape := ⟨2, ![1, 2048]⟩
abbrev S4096x2048 : Shape := ⟨2, ![4096, 2048]⟩
abbrev S2048x64 : Shape := ⟨2, ![2048, 64]⟩
abbrev S1x64 : Shape := ⟨2, ![1, 64]⟩
abbrev S100352x64 : Shape := ⟨2, ![100352, 64]⟩
abbrev S1x4096 : Shape := ⟨2, ![1, 4096]⟩
abbrev S2048x1 : Shape := ⟨2, ![2048, 1]⟩
abbrev S2048x4096 : Shape := ⟨2, ![2048, 4096]⟩
abbrev S1302528x32 : Shape := ⟨2, ![1302528, 32]⟩
abbrev S4096x32 : Shape := ⟨2, ![4096, 32]⟩
abbrev S2048x32 : Shape := ⟨2, ![2048, 32]⟩
abbrev S1x32 : Shape := ⟨2, ![1, 32]⟩
abbrev S1x1 : Shape := ⟨2, ![1, 1]⟩
abbrev S100352x1 : Shape := ⟨2, ![100352, 1]⟩
abbrev S100000x1 : Shape := ⟨2, ![100000, 1]⟩

abbrev nBuf : Space → Nat
  | .hbm => 71
  | .vmem => 38
  | .smem => 0
  | _ => 0

abbrev bufTy : (tb : Table) → Fin (tcTables nBuf tb) → BufTy
  | .hbm, ⟨0, _⟩ => ⟨S100000x26, .f32⟩
  | .hbm, ⟨1, _⟩ => ⟨S2x1200000, .i32⟩
  | .hbm, ⟨2, _⟩ => ⟨S26x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S100000, .i32⟩
  | .hbm, ⟨13, _⟩ => ⟨S1300000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S_, .i32⟩
  | .hbm, ⟨49, _⟩ => ⟨S_, .i32⟩
  | .hbm, ⟨50, _⟩ => ⟨S1302528, .i32⟩
  | .hbm, ⟨51, _⟩ => ⟨S_, .i32⟩
  | .hbm, ⟨52, _⟩ => ⟨S_, .i32⟩
  | .hbm, ⟨53, _⟩ => ⟨S1302528, .i32⟩
  | .hbm, ⟨54, _⟩ => ⟨S_, .i32⟩
  | .hbm, ⟨55, _⟩ => ⟨S_, .f32⟩
  | .hbm, ⟨56, _⟩ => ⟨S1302528, .f32⟩
  | .hbm, ⟨57, _⟩ => ⟨S1302528x1, .i32⟩
  | .hbm, ⟨58, _⟩ => ⟨S1x1302528, .i32⟩
  | .hbm, ⟨59, _⟩ => ⟨S1302528x1, .f32⟩
  | .hbm, ⟨60, _⟩ => ⟨S_, .i32⟩
  | .hbm, ⟨61, _⟩ => ⟨S_, .f32⟩
  | .hbm, ⟨62, _⟩ => ⟨S100352x26, .f32⟩
  | .hbm, ⟨63, _⟩ => ⟨S1302528x64, .bf16⟩
  | .hbm, ⟨64, _⟩ => ⟨S1x64, .f32⟩
  | .hbm, ⟨65, _⟩ => ⟨S100352x64, .f32⟩
  | .hbm, ⟨66, _⟩ => ⟨S1302528x32, .bf16⟩
  | .hbm, ⟨67, _⟩ => ⟨S1x32, .f32⟩
  | .hbm, ⟨68, _⟩ => ⟨S1x1, .f32⟩
  | .hbm, ⟨69, _⟩ => ⟨S100352x1, .f32⟩
  | .hbm, ⟨70, _⟩ => ⟨S100000x1, .f32⟩
  | .local _ .vmem, ⟨0, _⟩ => ⟨S2048x26, .f32⟩
  | .local _ .vmem, ⟨1, _⟩ => ⟨S2048x26, .f32⟩
  | .local _ .vmem, ⟨2, _⟩ => ⟨S26x64, .f32⟩
  | .local _ .vmem, ⟨3, _⟩ => ⟨S4096x1, .i32⟩
  | .local _ .vmem, ⟨4, _⟩ => ⟨S4096x1, .i32⟩
  | .local _ .vmem, ⟨5, _⟩ => ⟨S4096x1, .f32⟩
  | .local _ .vmem, ⟨6, _⟩ => ⟨S4096x1, .f32⟩
  | .local _ .vmem, ⟨7, _⟩ => ⟨S4096x64, .bf16⟩
  | .local _ .vmem, ⟨8, _⟩ => ⟨S4096x64, .bf16⟩
  | .local _ .vmem, ⟨9, _⟩ => ⟨S4096x64, .f32⟩
  | .local _ .vmem, ⟨10, _⟩ => ⟨S4096x64, .bf16⟩
  | .local _ .vmem, ⟨11, _⟩ => ⟨S4096x64, .bf16⟩
  | .local _ .vmem, ⟨12, _⟩ => ⟨S1x4096, .i32⟩
  | .local _ .vmem, ⟨13, _⟩ => ⟨S1x4096, .i32⟩
  | .local _ .vmem, ⟨14, _⟩ => ⟨S1x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | .local _ .vmem, ⟨18, _⟩ => ⟨S2048x64, .f32⟩
  | .local _ .vmem, ⟨19, _⟩ => ⟨S2048x64, .f32⟩
  | .local _ .vmem, ⟨20, _⟩ => ⟨S64x32, .f32⟩
  | .local _ .vmem, ⟨21, _⟩ => ⟨S4096x1, .i32⟩
  | .local _ .vmem, ⟨22, _⟩ => ⟨S4096x1, .i32⟩
  | .local _ .vmem, ⟨23, _⟩ => ⟨S4096x1, .f32⟩
  | .local _ .vmem, ⟨24, _⟩ => ⟨S4096x1, .f32⟩
  | .local _ .vmem, ⟨25, _⟩ => ⟨S4096x32, .bf16⟩
  | .local _ .vmem, ⟨26, _⟩ => ⟨S4096x32, .bf16⟩
  | .local _ .vmem, ⟨27, _⟩ => ⟨S4096x32, .f32⟩
  | .local _ .vmem, ⟨28, _⟩ => ⟨S4096x32, .bf16⟩
  | .local _ .vmem, ⟨29, _⟩ => ⟨S4096x32, .bf16⟩
  | .local _ .vmem, ⟨30, _⟩ => ⟨S1x4096, .i32⟩
  | .local _ .vmem, ⟨31, _⟩ => ⟨S1x4096, .i32⟩
  | .local _ .vmem, ⟨32, _⟩ => ⟨S1x32, .f32⟩
  | .local _ .vmem, ⟨33, _⟩ => ⟨S32x1, .f32⟩
  | .local _ .vmem, ⟨34, _⟩ => ⟨S1x1, .f32⟩
  | .local _ .vmem, ⟨35, _⟩ => ⟨S2048x1, .f32⟩
  | .local _ .vmem, ⟨36, _⟩ => ⟨S2048x1, .f32⟩
  | .local _ .vmem, ⟨37, _⟩ => ⟨S2048x32, .f32⟩
  | _, _ => ⟨S100000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_call1_v0 : Ref sig .tc := ⟨.hbm, 49, rfl⟩
abbrev main_v30 : Ref sig .tc := ⟨.hbm, 50, rfl⟩
abbrev main_c_7 : Ref sig .tc := ⟨.hbm, 51, rfl⟩
abbrev main_call2_v0 : Ref sig .tc := ⟨.hbm, 52, rfl⟩
abbrev main_v31 : Ref sig .tc := ⟨.hbm, 53, rfl⟩
abbrev main_c_8 : Ref sig .tc := ⟨.hbm, 54, rfl⟩
abbrev main_call3_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_call4_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc3_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33

abbrev nD : Nat := 1
abbrev τ : Topo := Topo.v7x

variable {F : FTy → Type} [FloatOps F]

abbrev grid0 : Pipeline.Grid := ⟨2, ![318, 49], ![false, false]⟩

def k0_cond2 (i : grid0.Coords) : BitVec 1 :=
  let arg1 : BitVec 32 := BitVec.ofNat 32 (i 1).val
  let c48_i32 : BitVec 32 := 48#32
  let v28 : BitVec 1 := Scalar.cmpi .eq arg1 c48_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S26x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![49, 318], ![false, false]⟩

def k1_cond2 (i : grid1.Coords) : BitVec 1 :=
  let arg1 : BitVec 32 := BitVec.ofNat 32 (i 1).val
  let c317_i32 : BitVec 32 := 317#32
  let v23 : BitVec 1 := Scalar.cmpi .eq arg1 c317_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![318, 49], ![false, false]⟩

def k2_cond2 (i : grid2.Coords) : BitVec 1 :=
  let arg1 : BitVec 32 := BitVec.ofNat 32 (i 1).val
  let c48_i32 : BitVec 32 := 48#32
  let v28 : BitVec 1 := Scalar.cmpi .eq arg1 c48_i32
  let v29 : BitVec 32 := Scalar.extui v28
  let c0_i32_11 : BitVec 32 := 0#32
  let v30 : BitVec 1 := Scalar.cmpi .ne v29 c0_i32_11
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S4096x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S4096x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S4096x32 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![49, 318], ![false, false]⟩

def k3_cond2 (i : grid3.Coords) : BitVec 1 :=
  let arg1 : BitVec 32 := BitVec.ofNat 32 (i 1).val
  let c317_i32 : BitVec 32 := 317#32
  let v23 : BitVec 1 := Scalar.cmpi .eq arg1 c317_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096x32 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x4096 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S32x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  pads_S1300000_S1302528_025280 : S1300000.Pads (![0] : Fin 1 → Nat) ![2528] ![0] S1302528
  h_S_ : 0 < S_.numel
  shapeCasts_S1302528_S1302528x1 : S1302528.ShapeCasts S1302528x1
  shapeCasts_S1302528_S1x1302528 : S1302528.ShapeCasts S1x1302528
  pads_S100000x26_S100352x26_03520_000 : S100000x26.Pads (![0, 0] : Fin 2 → Nat) ![352, 0] ![0, 0] S100352x26
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S1x2048_d1_w32 : S1x2048.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x2048 : S4096x1.Broadcasts S4096x2048
  broadcasts_S1x2048_S4096x2048 : S1x2048.Broadcasts S4096x2048
  natLt_1_32 : 1 < 32
  bitsLt_bf16_f32 : FTy.bits .bf16 < FTy.bits .f32
  inb_S2048x26_S2048x26_0_0 : ∀ a, (![0, 0] : Fin 2 → Nat) a + S2048x26.size a ≤ S2048x26.size a
  h_S2048x26 : 0 < S2048x26.numel
  shapeCasts_S2048x26_S2048x26 : S2048x26.ShapeCasts S2048x26
  inb_S26x64_S26x64_0_0 : ∀ a, (![0, 0] : Fin 2 → Nat) a + S26x64.size a ≤ S26x64.size a
  h_S26x64 : 0 < S26x64.numel
  broadcasts_S4096x1_S4096x64 : S4096x1.Broadcasts S4096x64
  packedbf16_S4096x64_S4096x64_0_0 : (Rect.unit (s := S4096x64) ![0, 0] S4096x64.size inb_S4096x64_S4096x64_0_0).PackedRows (EltTy.packing .bf16)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2048x1_d0_w32 : S2048x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S2048x1_S2048x4096 : S2048x1.Broadcasts S2048x4096
  broadcasts_S1x4096_S2048x4096 : S1x4096.Broadcasts S2048x4096
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S64x32_S64x32_0_0 : ∀ a, (![0, 0] : Fin 2 → Nat) a + S64x32.size a ≤ S64x32.size a
  h_S64x32 : 0 < S64x32.numel
  broadcasts_S4096x1_S4096x32 : S4096x1.Broadcasts S4096x32
  packedbf16_S4096x32_S4096x32_0_0 : (Rect.unit (s := S4096x32) ![0, 0] S4096x32.size inb_S4096x32_S4096x32_0_0).PackedRows (EltTy.packing .bf16)
  shapeCasts_S32_S1x32 : S32.ShapeCasts S1x32
  shapeCasts_S1_S1x1 : S1.ShapeCasts S1x1
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  slices_S100352x1_S100000x1_0_0 : S100352x1.Slices ![0, 0] S100000x1
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S2048x26_S26x64_S2048x64_1_0_0_1_n_n_wf : DotDims.WF S2048x26 S26x64 S2048x64 [1] [0] [0] [1] [] []
  dot_S4096x2048_S2048x64_S4096x64_1_0_0_1_n_n_wf : DotDims.WF S4096x2048 S2048x64 S4096x64 [1] [0] [0] [1] [] []
  dot_S2048x4096_S4096x64_S2048x64_1_0_0_1_n_n_wf : DotDims.WF S2048x4096 S4096x64 S2048x64 [1] [0] [0] [1] [] []
  dot_S2048x64_S64x32_S2048x32_1_0_0_1_n_n_wf : DotDims.WF S2048x64 S64x32 S2048x32 [1] [0] [0] [1] [] []
  dot_S4096x2048_S2048x32_S4096x32_1_0_0_1_n_n_wf : DotDims.WF S4096x2048 S2048x32 S4096x32 [1] [0] [0] [1] [] []
  dot_S2048x4096_S4096x32_S2048x32_1_0_0_1_n_n_wf : DotDims.WF S2048x4096 S4096x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x26.size a ≤ S100352x26.size a
  hwx0_0 : ∀ i : grid0.Coords, EltTy.bits .f32 = 32 ∨ (Rect.block (s := S100352x26) S2048x26.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S26x64.size a ≤ S26x64.size a
  hwx0_1 : ∀ i : grid0.Coords, EltTy.bits .f32 = 32 ∨ (Rect.block (s := S26x64) S26x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S1302528x1.size a
  hwx0_2 : ∀ i : grid0.Coords, EltTy.bits .i32 = 32 ∨ (Rect.block (s := S1302528x1) S4096x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S1302528x1.size a
  hwx0_3 : ∀ i : grid0.Coords, EltTy.bits .f32 = 32 ∨ (Rect.block (s := S1302528x1) S4096x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S1302528x64.size a
  hwx0_4 : ∀ i : grid0.Coords, EltTy.bits .bf16 = 32 ∨ (Rect.block (s := S1302528x64) S4096x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S1302528x64.size a
  hwx1_0 : ∀ i : grid1.Coords, EltTy.bits .bf16 = 32 ∨ (Rect.block (s := S1302528x64) S4096x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x1302528.size a
  hwx1_1 : ∀ i : grid1.Coords, EltTy.bits .i32 = 32 ∨ (Rect.block (s := S1x1302528) S1x4096.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S100352x64.size a
  hwx1_3 : ∀ i : grid1.Coords, EltTy.bits .f32 = 32 ∨ (Rect.block (s := S100352x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S100352x64.size a
  hwx2_0 : ∀ i : grid2.Coords, EltTy.bits .f32 = 32 ∨ (Rect.block (s := S100352x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S1302528x1.size a
  hwx2_2 : ∀ i : grid2.Coords, EltTy.bits .i32 = 32 ∨ (Rect.block (s := S1302528x1) S4096x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x1.size a ≤ S1302528x1.size a
  hwx2_3 : ∀ i : grid2.Coords, EltTy.bits .f32 = 32 ∨ (Rect.block (s := S1302528x1) S4096x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x32.size a ≤ S1302528x32.size a
  hwx2_4 : ∀ i : grid2.Coords, EltTy.bits .bf16 = 32 ∨ (Rect.block (s := S1302528x32) S4096x32.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x32.size a ≤ S1302528x32.size a
  hwx3_0 : ∀ i : grid3.Coords, EltTy.bits .bf16 = 32 ∨ (Rect.block (s := S1302528x32) S4096x32.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x4096.size a ≤ S1x1302528.size a
  hwx3_1 : ∀ i : grid3.Coords, EltTy.bits .i32 = 32 ∨ (Rect.block (s := S1x1302528) S1x4096.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x1.size a ≤ S32x1.size a
  hwx3_3 : ∀ i : grid3.Coords, EltTy.bits .f32 = 32 ∨ (Rect.block (s := S32x1) S32x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x1.size a ≤ S100352x1.size a
  hwx3_5 : ∀ i : grid3.Coords, EltTy.bits .f32 = 32 ∨ (Rect.block (s := S100352x1) S2048x1.size (cc3_transform_5 i) (hinb3_5 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S2048x26_S26x64_S2048x64_1_0_0_1_n_n : DotDims S2048x26 S26x64 S2048x64 where
  lhsContracting := [1]
  rhsContracting := [0]
  lhsNonContracting := [0]
  rhsNonContracting := [1]
  lhsBatch := []
  rhsBatch := []
  wf := dot_S2048x26_S26x64_S2048x64_1_0_0_1_n_n_wf
def dot_S4096x2048_S2048x64_S4096x64_1_0_0_1_n_n : DotDims S4096x2048 S2048x64 S4096x64 where
  lhsContracting := [1]
  rhsContracting := [0]
  lhsNonContracting := [0]
  rhsNonContracting := [1]
  lhsBatch := []
  rhsBatch := []
  wf := dot_S4096x2048_S2048x64_S4096x64_1_0_0_1_n_n_wf
def dot_S2048x4096_S4096x64_S2048x64_1_0_0_1_n_n : DotDims S2048x4096 S4096x64 S2048x64 where
  lhsContracting := [1]
  rhsContracting := [0]
  lhsNonContracting := [0]
  rhsNonContracting := [1]
  lhsBatch := []
  rhsBatch := []
  wf := dot_S2048x4096_S4096x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S4096x2048_S2048x32_S4096x32_1_0_0_1_n_n : DotDims S4096x2048 S2048x32 S4096x32 where
  lhsContracting := [1]
  rhsContracting := [0]
  lhsNonContracting := [0]
  rhsNonContracting := [1]
  lhsBatch := []
  rhsBatch := []
  wf := dot_S4096x2048_S2048x32_S4096x32_1_0_0_1_n_n_wf
def dot_S2048x4096_S4096x32_S2048x32_1_0_0_1_n_n : DotDims S2048x4096 S4096x32 S2048x32 where
  lhsContracting := [1]
  rhsContracting := [0]
  lhsNonContracting := [0]
  rhsNonContracting := [1]
  lhsBatch := []
  rhsBatch := []
  wf := dot_S2048x4096_S4096x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_v36) S2048x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S26x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v37) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v39) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S4096x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S4096x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v40) S4096x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v40) S4096x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S32x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S2048x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S100000x26 : Shape := ⟨2, ![100000, 26]⟩
abbrev S2x1200000 : Shape := ⟨2, ![2, 1200000]⟩
abbrev S26x64 : Shape := ⟨2, ![26, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S100000x64 : Shape := ⟨2, ![100000, 64]⟩
abbrev S1300000x64 : Shape := ⟨2, ![1300000, 64]⟩
abbrev S1x64 : Shape := ⟨2, ![1, 64]⟩
abbrev S100000x32 : Shape := ⟨2, ![100000, 32]⟩
abbrev S1300000x32 : Shape := ⟨2, ![1300000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S100000x26, .f32⟩
  | 1 => ⟨S2x1200000, .i32⟩
  | 2 => ⟨S26x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S1x1200000, .i32⟩
  | 9 => ⟨S1200000, .i32⟩
  | 10 => ⟨S1x1200000, .i32⟩
  | 11 => ⟨S1200000, .i32⟩
  | 12 => ⟨S100000, .i32⟩
  | 13 => ⟨S1300000, .i32⟩
  | 14 => ⟨S1300000, .i32⟩
  | 15 => ⟨S_, .f32⟩
  | 16 => ⟨S1300000, .f32⟩
  | 17 => ⟨S_, .f32⟩
  | 18 => ⟨S100000, .f32⟩
  | 19 => ⟨S1300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1300000, .i32⟩
  | 31 => ⟨S1300000, .i1⟩
  | 32 => ⟨S_, .i32⟩
  | 33 => ⟨S1300000, .i32⟩
  | 34 => ⟨S1300000, .i32⟩
  | 35 => ⟨S1300000, .i32⟩
  | 36 => ⟨S1300000x1, .i32⟩
  | 37 => ⟨S1300000, .f32⟩
  | 38 => ⟨S_, .i32⟩
  | 39 => ⟨S1300000, .i32⟩
  | 40 => ⟨S1300000, .i1⟩
  | 41 => ⟨S_, .i32⟩
  | 42 => ⟨S1300000, .i32⟩
  | 43 => ⟨S1300000, .i32⟩
  | 44 => ⟨S1300000, .i32⟩
  | 45 => ⟨S1300000x1, .i32⟩
  | 46 => ⟨S1300000, .f32⟩
  | 47 => ⟨S1300000, .f32⟩
  | 48 => ⟨S100000x64, .f32⟩
  | 49 => ⟨S1300000x1, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000x64, .f32⟩
  | 59 => ⟨S1300000x64, .f32⟩
  | 60 => ⟨S1300000x64, .f32⟩
  | 61 => ⟨S_, .f32⟩
  | 62 => ⟨S100000x64, .f32⟩
  | 63 => ⟨S1300000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S1x1200000, .i32⟩
  | 72 => ⟨S1200000, .i32⟩
  | 73 => ⟨S1x1200000, .i32⟩
  | 74 => ⟨S1200000, .i32⟩
  | 75 => ⟨S100000, .i32⟩
  | 76 => ⟨S1300000, .i32⟩
  | 77 => ⟨S1300000, .i32⟩
  | 78 => ⟨S_, .f32⟩
  | 79 => ⟨S1300000, .f32⟩
  | 80 => ⟨S_, .f32⟩
  | 81 => ⟨S100000, .f32⟩
  | 82 => ⟨S1300000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1300000, .i32⟩
  | 94 => ⟨S1300000, .i1⟩
  | 95 => ⟨S_, .i32⟩
  | 96 => ⟨S1300000, .i32⟩
  | 97 => ⟨S1300000, .i32⟩
  | 98 => ⟨S1300000, .i32⟩
  | 99 => ⟨S1300000x1, .i32⟩
  | 100 => ⟨S1300000, .f32⟩
  | 101 => ⟨S_, .i32⟩
  | 102 => ⟨S1300000, .i32⟩
  | 103 => ⟨S1300000, .i1⟩
  | 104 => ⟨S_, .i32⟩
  | 105 => ⟨S1300000, .i32⟩
  | 106 => ⟨S1300000, .i32⟩
  | 107 => ⟨S1300000, .i32⟩
  | 108 => ⟨S1300000x1, .i32⟩
  | 109 => ⟨S1300000, .f32⟩
  | 110 => ⟨S1300000, .f32⟩
  | 111 => ⟨S100000x32, .f32⟩
  | 112 => ⟨S1300000x1, .f32⟩
  | 113 => ⟨S_, .i32⟩
  | 114 => ⟨S1300000, .i32⟩
  | 115 => ⟨S1300000, .i1⟩
  | 116 => ⟨S_, .i32⟩
  | 117 => ⟨S1300000, .i32⟩
  | 118 => ⟨S1300000, .i32⟩
  | 119 => ⟨S1300000, .i32⟩
  | 120 => ⟨S1300000x1, .i32⟩
  | 121 => ⟨S1300000x32, .f32⟩
  | 122 => ⟨S1300000x32, .f32⟩
  | 123 => ⟨S1300000x32, .f32⟩
  | 124 => ⟨S_, .f32⟩
  | 125 => ⟨S100000x32, .f32⟩
  | 126 => ⟨S1300000x1, .i32⟩
  | 127 => ⟨S100000x32, .f32⟩
  | _ => ⟨S100000x26, .f32⟩

abbrev hbmTy0_1 (i : Nat) : BufTy := match i % 128 with
  | 0 => ⟨S1x32, .f32⟩
  | 1 => ⟨S100000x32, .f32⟩
  | 2 => ⟨S100000x32, .f32⟩
  | 3 => ⟨S_, .f32⟩
  | 4 => ⟨S100000x32, .f32⟩
  | 5 => ⟨S100000x32, .f32⟩
  | 6 => ⟨S100000x1, .f32⟩
  | 7 => ⟨S1x1, .f32⟩
  | 8 => ⟨S100000x1, .f32⟩
  | 9 => ⟨S100000x1, .f32⟩
  | _ => ⟨S100000x26, .f32⟩

abbrev hbmTy (i : Nat) : BufTy := match i / 128 with
  | 0 => hbmTy0_0 i
  | 1 => hbmTy0_1 i
  | _ => ⟨S100000x26, .f32⟩

abbrev bufTy : (tb : Table) → Fin (tcTables nBuf tb) → BufTy
  | .hbm, ⟨i, _⟩ => hbmTy i
  | _, _ => ⟨S100000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_c_17 : Ref sig .tc := ⟨.hbm, 113, rfl⟩
abbrev main_v80 : Ref sig .tc := ⟨.hbm, 114, rfl⟩
abbrev main_v81 : Ref sig .tc := ⟨.hbm, 115, rfl⟩
abbrev main_c_18 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1300000x1_S1300000x32_0_1 : S1300000x1.BroadcastsInDim S1300000x32 (![0, 1] : Fin 2 → Fin S1300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x26_S26x64_S100000x64_1_0_0_1_n_n_wf : DotDims.WF S100000x26 S26x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x32_S100000x32_1_0_0_1_n_n_wf : DotDims.WF S100000x64 S64x32 S100000x32 [1] [0] [0] [1] [] []
  gather_S100000x32_S1300000x1_S1300000x32_1_0_n_n_0_1_132_wf : GatherDims.WF S100000x32 S1300000x1 S1300000x32 [1] [0] [] [0] [] 1 ![1, 32]
  scatter_S100000x32_S1300000x1_S1300000x32_1_0_0_1_wf : ScatterDims.WF S100000x32 S1300000x1 S1300000x32 [1] [0] [0] 1
  dot_S100000x32_S32x1_S100000x1_1_0_0_1_n_n_wf : DotDims.WF S100000x32 S32x1 S100000x1 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x26_S26x64_S100000x64_1_0_0_1_n_n : DotDims S100000x26 S26x64 S100000x64 where
  lhsContracting := [1]
  rhsContracting := [0]
  lhsNonContracting := [0]
  rhsNonContracting := [1]
  lhsBatch := []
  rhsBatch := []
  wf := dot_S100000x26_S26x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1300000x1_S1300000x32_1_0_n_n_0_1_132 : GatherDims S100000x32 S1300000x1 S1300000x32 where
  offsetDims := [1]
  collapsedSliceDims := [0]
  operandBatchingDims := []
  startIndicesBatchingDims := []
  startIndexMap := [0]
  indexVectorDim := 1
  sliceSizes := ![1, 32]
  wf := gather_S100000x32_S1300000x1_S1300000x32_1_0_n_n_0_1_132_wf
def scatter_S100000x32_S1300000x1_S1300000x32_1_0_0_1 : ScatterDims S100000x32 S1300000x1 S1300000x32 where
  updateWindowDims := [1]
  insertedWindowDims := [0]
  scatterDimsToOperandDims := [0]
  indexVectorDim := 1
  wf := scatter_S100000x32_S1300000x1_S1300000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.K.Reg0.lean ====
/-
  Region 0: the first gather kernel, run at every point of its 318 × 49 grid.

  The kernel keeps a running total in a scratch buffer across the 49 node tiles of one message chunk: at the
  first tile the total is set to zero, at every tile the tile's contribution (the 0/1 match matrix of the chunk's
  source words against the tile's row numbers, times the tile of x · W) is added, and at the last tile the total,
  scaled row by row with the message weights, is stored to the output block, which is written back only there.
  This module states what the scratch holds after every point (`accAt`), the proof data of the pipeline at the
  buffer contents `V` the region is entered with, and proves the body obligation point by point, by the three
  cases of the inner coordinate (first tile, a middle tile, last tile).
-/
import proofs.«115179_j73220602462691_1_alg».proof.Proof.Gen.Kernel.Launch
import proofs.«115179_j73220602462691_1_alg».proof.Proof.Gen.Kernel.Skeleton
import proofs.«115179_j73220602462691_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions of the body, in closed form over the grid -/

/-- "This is the first node tile of the chunk": the body's first condition, from the grid coordinates. -/
abbrev cond0 (i : grid0.Coords) : Prop := (Scalar.cmpi .ne (Scalar.extui (Scalar.cmpi .eq (BitVec.ofNat 32 (i 1).val) 0#32)) 0#32) = 1#1
/-- The inner coordinate of point `t` is `t mod 49`, the outer one `t / 49`. -/
theorem coords1 (t : Fin cfg0.N) : (grid0.coords t 1).val = t.val % 49 := by
  show t.val / grid0.stride 1 % 49 = _
  rw [show grid0.stride 1 = 1 from by decide, Nat.div_one]
theorem coords0 (t : Fin cfg0.N) : (grid0.coords t 0).val = t.val / 49 := by
  show t.val / grid0.stride 0 % 318 = _
  rw [show grid0.stride 0 = 49 from by decide]
  have hN : t.val < 15582 := lt_of_lt_of_eq t.isLt (show cfg0.N = 15582 from N_0)
  exact Nat.mod_eq_of_lt (by omega)

theorem cond0_iff : ∀ n : Fin 49,
    ((Scalar.cmpi .ne (Scalar.extui (Scalar.cmpi .eq (BitVec.ofNat 32 n.val) 0#32)) 0#32) = 1#1) ↔ n.val = 0 := by decide +kernel
/-- It holds at the points ≡ 0 (mod 49). -/
theorem hcond0 (t : Fin cfg0.N) : cond0 (grid0.coords t) ↔ t.val % 49 = 0 :=
  (cond0_iff (grid0.coords t 1)).trans (by rw [coords1])

/-- "This is the last node tile of the chunk": the body's second condition. -/
abbrev cond1 (i : grid0.Coords) : Prop := k0_cond2 i = 1#1
theorem cond1_iff : ∀ n : Fin 49,
    ((Scalar.cmpi .ne (Scalar.extui (Scalar.cmpi .eq (BitVec.ofNat 32 n.val) 48#32)) 0#32) = 1#1) ↔ n.val = 48 := by decide +kernel
/-- It holds at the points ≡ 48 (mod 49). -/
theorem hcond1 (t : Fin cfg0.N) : cond1 (grid0.coords t) ↔ t.val % 49 = 48 :=
  (cond1_iff (grid0.coords t 1)).trans (by rw [coords1])

/-! ## Where the windows are idle -/

theorem live0 (i : grid0.Coords) : cfg0.idle 0 i = false := rfl
theorem live1 (i : grid0.Coords) : cfg0.idle 1 i = false := rfl
theorem live2 (i : grid0.Coords) : cfg0.idle 2 i = false := rfl
theorem live3 (i : grid0.Coords) : cfg0.idle 3 i = false := rfl
/-- The output window is live exactly under the second condition. -/
theorem live4 (i : grid0.Coords) (h : cond1 i) : cfg0.idle 4 i = false := by
  show (!(k0_cond2 i == 1#1)) = false
  rw [show k0_cond2 i = 1#1 from h]; rfl
theorem idle4 (i : grid0.Coords) (h : ¬cond1 i) : cfg0.idle 4 i = true := by
  show (!(k0_cond2 i == 1#1)) = true
  rw [Bool.not_eq_true', beq_eq_false_iff_ne]; exact h
/-- Off the last tile the output block is not written back. -/
theorem noFlush4 (t : Fin cfg0.N) (h : ¬t.val % 49 = 48) : (cfg0.win 4).flush t = false :=
  Bool.eq_false_iff.mpr fun hf => h ((flush0_4 t).mp hf)

/-! ## The staging memrefs at a point, and the scratch -/

abbrev ms0 (t : Fin cfg0.N) : Memref sig .tc .vmem S2048x26 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S26x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x64 .bf16 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S4096x64 .f32 := Memref.whole cc0_scratch0

/-- The other scoped buffers, which the body never touches. -/
abbrev restBut (c : Dev nD) : sProp 𝕄 :=
  Pipeline.scopedRestBut (Ix := Unit) (Name := ℕ) (U := UR sig nD τ) (Lvl := ℕ) (Val := Elt F) spec0 c [cc0_scratch0]

/-- What the launch hands the region, with the scratch split out as a memref owned at some contents. -/
theorem PhiA_eq (c : Dev nD) :
    (Pipeline.ΦA spec0 c : sProp 𝕄)
      = iprop(iprop(iprop((∃ d, owns (c : Thread nD τ) scM fullShare d)) ∗ restBut c) ∗ (∃ r, prngReg c r)) := by
  unfold Pipeline.ΦA; rw [scopedRest0_split]; simp only [scM, owns_whole]; try rfl

/-! ## What the scratch holds after each point -/

/-- The running total after the body at position `n`: the tile's contribution added to zero at the first tile
    of a chunk, to what the point before left otherwise. -/
def accAt (c : Dev nD) : (n : ℕ) → n < cfg0.N → Vec F S4096x64 .f32
  | 0, hn => k0_pay2 (grid0.coords ⟨0, hn⟩) (iblk V c 2 ⟨0, hn⟩) (iblk V c 0 ⟨0, hn⟩) (iblk V c 1 ⟨0, hn⟩) k0_pay1
  | n + 1, hn => k0_pay2 (grid0.coords ⟨n + 1, hn⟩) (iblk V c 2 ⟨n + 1, hn⟩) (iblk V c 0 ⟨n + 1, hn⟩) (iblk V c 1 ⟨n + 1, hn⟩)
      (if (n + 1) % 49 = 0 then k0_pay1 else accAt c n (Nat.lt_of_succ_lt hn))

/-- At the first tile of a chunk. -/
theorem accAt_first (c : Dev nD) (t : Fin cfg0.N) (h0 : t.val % 49 = 0) :
    accAt V c t.val t.isLt = k0_pay2 (grid0.coords t) (iblk V c 2 t) (iblk V c 0 t) (iblk V c 1 t) k0_pay1 := by
  obtain ⟨n, hn⟩ := t
  cases n with
  | zero => rfl
  | succ n => show k0_pay2 _ _ _ _ (if (n + 1) % 49 = 0 then _ else _) = _; rw [if_pos h0]

/-- At a later tile. -/
theorem accAt_step (c : Dev nD) (t : Fin cfg0.N) (h0 : ¬t.val % 49 = 0) :
    accAt V c t.val t.isLt = k0_pay2 (grid0.coords t) (iblk V c 2 t) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => show k0_pay2 _ _ _ _ (if (n + 1) % 49 = 0 then _ else _) = _; rw [if_neg h0]; rfl

/-- The region invariant before position `n`: before the first point what the launch hands over (the scratch at
    anything); afterwards the scratch at what the point before left, the other scoped buffers and the generator
    register untouched. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restBut c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restBut c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restBut c) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at the scaled running total; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay3 (accAt V c t.val t.isLt) (iblk V c 3 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) :
    (dat V c).after 4 t = k0_pay3 (accAt V c t.val t.isLt) (iblk V c 3 t) := by dsimp only [dat]

/-- Each input's current staging buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- An input window's array ends as entered. -/
theorem arrAt_in (c : Dev nD) (w : Fin cfg0.W) (hw : w ≠ 4) : (dat V c).arrAt w cfg0.N = V c (Pipeline.arrRef spec0 w) := by
  refine ((dat V c).arrAt_in w ?_ _).trans (A_eq V c w)
  match w, hw with
  | ⟨0, _⟩, _ => rfl
  | ⟨1, _⟩, _ => rfl
  | ⟨2, _⟩, _ => rfl
  | ⟨3, _⟩, _ => rfl
  | ⟨4, _⟩, h => exact absurd rfl h

/-! ## The body on any staging memrefs, case by case

On whole memrefs — the inputs' at their contents, the scratch at what it is handed — the body runs to the
continuation with the inputs as they were and the scratch at the tile's contribution added to the running total
(to zero at the first tile); at the last tile the output's buffer ends at the total scaled by the weights,
elsewhere it is handed back untouched. -/

theorem hz2 : (![0, 0] : Fin 2 → Nat) = fun _ => 0 := funext fun a => by fin_cases a <;> rfl

set_option maxHeartbeats 4000000 in
theorem run_first (c : Dev nD) (E : Set ℕ) (i : grid0.Coords)
    (arg2 : Memref sig .tc .vmem S2048x26 .f32) (harg2 : arg2.IsWhole) (arg3 : Memref sig .tc .vmem S26x64 .f32) (harg3 : arg3.IsWhole)
    (arg4 : Memref sig .tc .vmem S4096x1 .i32) (harg4 : arg4.IsWhole) (arg5 : Memref sig .tc .vmem S4096x1 .f32) (harg5 : arg5.IsWhole)
    (arg6 : Memref sig .tc .vmem S4096x64 .bf16) (harg6 : arg6.IsWhole) (arg7 : Memref sig .tc .vmem S4096x64 .f32) (harg7 : arg7.IsWhole)
    (hc0 : cond0 i) (hc1 : ¬cond1 i)
    (x0 : Vec F S2048x26 .f32) (x1 : Vec F S26x64 .f32) (x2 : Vec F S4096x1 .i32) (x3 : Vec F S4096x1 .f32) (xi4 : Vec F S4096x64 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k0_pay2 i x2 x0 x1 k0_pay1)) -∗ K ⟨⟩))
      ⊢ wp frame (wpE (defs₀ (F := F)) Variants.none c none) E
          (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  subst hf0; subst hf1; subst hf2; subst hf3; subst hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr
  swap; · iexact HS0
  ipureintro
  rw [View.read_writes_eq_canon _ _ _ (fun y => ⟨_, List.mem_cons_self, View.mem_set_unit_zero hz2 inb_S4096x64_S4096x64_0_0 y⟩)]
  rw [View.canon_cons_unit_zero (S := S4096x64) hz2]
  sl_unfold_words
  rw [View.readCov_unit_zero (S := S4096x64) _ hz2]
  simp only [View.readAt_eq_ld, View.ld_unit_zero (S := S4096x1) hz2, View.ld_unit_zero (S := S2048x26) hz2, View.ld_unit_zero (S := S26x64) hz2]

set_option maxHeartbeats 4000000 in
theorem run_middle (c : Dev nD) (E : Set ℕ) (i : grid0.Coords)
    (arg2 : Memref sig .tc .vmem S2048x26 .f32) (harg2 : arg2.IsWhole) (arg3 : Memref sig .tc .vmem S26x64 .f32) (harg3 : arg3.IsWhole)
    (arg4 : Memref sig .tc .vmem S4096x1 .i32) (harg4 : arg4.IsWhole) (arg5 : Memref sig .tc .vmem S4096x1 .f32) (harg5 : arg5.IsWhole)
    (arg6 : Memref sig .tc .vmem S4096x64 .bf16) (harg6 : arg6.IsWhole) (arg7 : Memref sig .tc .vmem S4096x64 .f32) (harg7 : arg7.IsWhole)
    (hc0 : ¬cond0 i) (hc1 : ¬cond1 i)
    (x0 : Vec F S2048x26 .f32) (x1 : Vec F S26x64 .f32) (x2 : Vec F S4096x1 .i32) (x3 : Vec F S4096x1 .f32) (xi4 : Vec F S4096x64 .bf16) (xs : Vec F S4096x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k0_pay2 i x2 x0 x1 xs)) -∗ K ⟨⟩))
      ⊢ wp frame (wpE (defs₀ (F := F)) Variants.none c none) E
          (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  subst hf0; subst hf1; subst hf2; subst hf3; subst hf4; subst hfs0
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr
  swap; · iexact HS0
  ipureintro
  rw [View.read_writes_eq_canon _ _ _ (fun y => ⟨_, List.mem_cons_self, View.mem_set_unit_zero hz2 inb_S4096x64_S4096x64_0_0 y⟩)]
  rw [View.canon_cons_unit_zero (S := S4096x64) hz2]
  simp only [View.readAt_eq_ld, View.ld_unit_zero (S := S4096x1) hz2, View.ld_unit_zero (S := S2048x26) hz2, View.ld_unit_zero (S := S26x64) hz2, View.ld_unit_zero (S := S4096x64) hz2]

set_option maxHeartbeats 4000000 in
theorem run_last (c : Dev nD) (E : Set ℕ) (i : grid0.Coords)
    (arg2 : Memref sig .tc .vmem S2048x26 .f32) (harg2 : arg2.IsWhole) (arg3 : Memref sig .tc .vmem S26x64 .f32) (harg3 : arg3.IsWhole)
    (arg4 : Memref sig .tc .vmem S4096x1 .i32) (harg4 : arg4.IsWhole) (arg5 : Memref sig .tc .vmem S4096x1 .f32) (harg5 : arg5.IsWhole)
    (arg6 : Memref sig .tc .vmem S4096x64 .bf16) (harg6 : arg6.IsWhole) (arg7 : Memref sig .tc .vmem S4096x64 .f32) (harg7 : arg7.IsWhole)
    (hc0 : ¬cond0 i) (hc1 : cond1 i)
    (x0 : Vec F S2048x26 .f32) (x1 : Vec F S26x64 .f32) (x2 : Vec F S4096x1 .i32) (x3 : Vec F S4096x1 .f32) (xs : Vec F S4096x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 (k0_pay2 i x2 x0 x1 xs) x3)
            ∗ owns (c : Thread nD τ) arg7 fullShare (k0_pay2 i x2 x0 x1 xs)) -∗ K ⟨⟩))
      ⊢ wp frame (wpE (defs₀ (F := F)) Variants.none c none) E
          (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  subst hf0; subst hf1; subst hf2; subst hf3; subst hfs0
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S4096x64_S4096x64_0_0 y⟩)]
    rw [View.canon_cons_unit_zero (S := S4096x64) hz2]
    sl_unfold_words
    rw [View.readCov_unit_zero (S := S4096x64) _ hz2]
    simp only [View.readAt_eq_ld, View.ld_unit_zero (S := S4096x1) hz2, View.ld_unit_zero (S := S2048x26) hz2, View.ld_unit_zero (S := S26x64) hz2, View.ld_unit_zero (S := S4096x64) hz2]
  iexists _; isplitr
  swap; · iexact HS0
  ipureintro
  sl_unfold_words
  rw [View.read_writes_eq_canon _ _ _ (fun y => ⟨_, List.mem_cons_self, View.mem_set_unit_zero hz2 inb_S4096x64_S4096x64_0_0 y⟩)]
  rw [View.canon_cons_unit_zero (S := S4096x64) hz2]
  simp only [View.readAt_eq_ld, View.ld_unit_zero (S := S4096x1) hz2, View.ld_unit_zero (S := S2048x26) hz2, View.ld_unit_zero (S := S26x64) hz2, View.ld_unit_zero (S := S4096x64) hz2]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves0 (c : Dev nD) (t : Fin cfg0.N) :
    (dat V c).leavesExact 0 t = owns (c : Thread nD τ) (ms0 t) fullShare (iblk V c 0 t) := by
  unfold Dat.leavesExact; rw [live0 (grid0.coords t), after0]
theorem leaves1 (c : Dev nD) (t : Fin cfg0.N) :
    (dat V c).leavesExact 1 t = owns (c : Thread nD τ) (ms1 t) fullShare (iblk V c 1 t) := by
  unfold Dat.leavesExact; rw [live1 (grid0.coords t), after1]
theorem leaves2 (c : Dev nD) (t : Fin cfg0.N) :
    (dat V c).leavesExact 2 t = owns (c : Thread nD τ) (ms2 t) fullShare (iblk V c 2 t) := by
  unfold Dat.leavesExact; rw [live2 (grid0.coords t), after2]
theorem leaves3 (c : Dev nD) (t : Fin cfg0.N) :
    (dat V c).leavesExact 3 t = owns (c : Thread nD τ) (ms3 t) fullShare (iblk V c 3 t) := by
  unfold Dat.leavesExact; rw [live3 (grid0.coords t), after3]
theorem leaves4_last (c : Dev nD) (t : Fin cfg0.N) (h1 : t.val % 49 = 48) :
    (dat V c).leavesExact 4 t = owns (c : Thread nD τ) (ms4 t) fullShare (k0_pay3 (accAt V c t.val t.isLt) (iblk V c 3 t)) := by
  unfold Dat.leavesExact; rw [live4 (grid0.coords t) ((hcond1 t).mpr h1), after4]
theorem leaves4_idle (c : Dev nD) (t : Fin cfg0.N) (h1 : ¬t.val % 49 = 48) :
    (dat V c).leavesExact 4 t = iprop(∃ d, owns (c : Thread nD τ) (ms4 t) fullShare ((dat V c).before 4 t d)) :=
  Dat.leavesExact_idle (dat V c) 4 t (idle4 (grid0.coords t) (fun h => h1 ((hcond1 t).mp h))) (noFlush4 t h1)

set_option maxHeartbeats 4800000 in
/-- The body at any point: the inputs' memrefs hold their blocks; the closed forms say which case the point is
    in; the invariant hands the body the scratch at what the point before left (at anything at the very first
    point) and takes it back at this point's total. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [leaves0, leaves1, leaves2, leaves3]
  have hN : t.val < 15582 := lt_of_lt_of_eq t.isLt (show cfg0.N = 15582 from N_0)
  by_cases h0 : t.val % 49 = 0
  · have h1 : ¬t.val % 49 = 48 := by omega
    rw [leaves4_idle V c t h1, accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply (run_first c Set.univ (grid0.coords t) _ _ _ _ _ _ _ _ _ _ _ _ ((hcond0 t).mpr h0) (fun h => h1 ((hcond1 t).mp h))
        (iblk V c 0 t) (iblk V c 1 t) (iblk V c 2 t) (iblk V c 3 t) ((dat V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run_first c Set.univ (grid0.coords t) _ _ _ _ _ _ _ _ _ _ _ _ ((hcond0 t).mpr h0) (fun h => h1 ((hcond1 t).mp h))
        (iblk V c 0 t) (iblk V c 1 t) (iblk V c 2 t) (iblk V c 3 t) ((dat V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS_castSucc V c t, PhiS_pos V c _ _ hz, accAt_step V c t h0]
    by_cases h1 : t.val % 49 = 48
    · rw [leaves4_last V c t h1, accAt_step V c t h0]
      iintro ⟨⟨⟨HS, HR⟩, Hg⟩, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ (fun h => h0 ((hcond0 t).mp h)) ((hcond1 t).mpr h1)
        (iblk V c 0 t) (iblk V c 1 t) (iblk V c 2 t) (iblk V c 3 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [leaves4_idle V c t h1]
      iintro ⟨⟨⟨HS, HR⟩, Hg⟩, Ho, ⟨%d0, H0⟩, ⟨%d1, H1⟩, ⟨%d2, H2⟩, ⟨%d3, H3⟩, ⟨%d4, H4⟩⟩
      iapply (run_middle c Set.univ (grid0.coords t) _ _ _ _ _ _ _ _ _ _ _ _ (fun h => h0 ((hcond0 t).mp h)) (fun h => h1 ((hcond1 t).mp h))
        (iblk V c 0 t) (iblk V c 1 t) (iblk V c 2 t) (iblk V c 3 t) ((dat V c).before 4 t d4) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives it back: the scratch's named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ (Pipeline.ΦA spec0 c : sProp 𝕄) :=
  Phi_out V c _ (by rw [Fin.val_last]; have : cfg0.N = 15582 := N_0; omega)

end Cert.Kernel.Reg0

end
-- ==== Proof.K.Reg1.lean ====
/-
  The scatter step of the first layer, one block of 2048 rows at a time.

  The grid is 49 row blocks by 318 message chunks, the chunk index running fastest.  Within one row block the
  body keeps a running total in a scratch buffer: the first chunk starts it from zero, every chunk adds the
  product of the 0/1 matrix "row r is the destination of message e" with the chunk's message rows, and the
  last chunk adds the bias, clamps at zero and stores the block of the result.  This module states what the
  scratch buffer holds after every grid point (accAt), what the last chunk of a row block stores
  (outAt), and proves that the body run at any point takes the one to the next.
-/
import proofs.«115179_j73220602462691_1_alg».proof.Proof.Gen.Kernel.Launch
import proofs.«115179_j73220602462691_1_alg».proof.Proof.Gen.Kernel.Skeleton
import proofs.«115179_j73220602462691_1_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form -/

/-- The chunk coordinate of point t is t modulo 318, -/
theorem coords_1 (t : Fin cfg1.N) : (grid1.coords t 1).val = t.val % 318 := by
  show t.val / grid1.stride 1 % 318 = _
  rw [show grid1.stride 1 = 1 from by decide, Nat.div_one]
/-- and its row-block coordinate the quotient by 318. -/
theorem coords_0 (t : Fin cfg1.N) : (grid1.coords t 0).val = t.val / 318 := by
  have hN : t.val < 15582 := lt_of_lt_of_eq t.isLt (show cfg1.N = 15582 from N_1)
  show t.val / grid1.stride 0 % 49 = _
  rw [show grid1.stride 0 = 318 from by decide]
  exact Nat.mod_eq_of_lt (by omega)

/-- The word of a number below 2^32 compared with the word of k: the comparison's bit, widened and tested against
    zero, is set exactly when the number is k. -/
theorem eq_word_iff (n k : ℕ) (hn : n < 2 ^ 32) (hk : k < 2 ^ 32) :
    (Scalar.cmpi .ne (Scalar.extui (Scalar.cmpi .eq (BitVec.ofNat 32 n) (BitVec.ofNat 32 k))) 0#32) = 1#1 ↔ n = k := by
  show BitVec.ofBool ((BitVec.ofBool (BitVec.ofNat 32 n == BitVec.ofNat 32 k)).setWidth 32 != 0#32) = 1#1 ↔ n = k
  by_cases h : n = k
  · subst h
    rw [beq_self_eq_true]
    exact ⟨fun _ => rfl, fun _ => by decide⟩
  · have hne : (BitVec.ofNat 32 n == BitVec.ofNat 32 k) = false := by
      rw [beq_eq_false_iff_ne]
      intro e
      have e' := congrArg BitVec.toNat e
      rw [BitVec.toNat_ofNat, BitVec.toNat_ofNat, Nat.mod_eq_of_lt hn, Nat.mod_eq_of_lt hk] at e'
      exact h e'
    rw [hne]
    exact ⟨fun hc => absurd hc (by decide), fun e => absurd e h⟩

/-- "This is the first chunk of the row block": the chunk coordinate is zero. -/
abbrev cond0 (i : grid1.Coords) : Prop :=
  (Scalar.cmpi .ne (Scalar.extui (Scalar.cmpi .eq (BitVec.ofNat 32 (i 1).val) 0#32)) 0#32) = 1#1

/-- It holds at the points that are multiples of 318. -/
theorem hcond0 (t : Fin cfg1.N) : cond0 (grid1.coords t) ↔ t.val % 318 = 0 := by
  rw [← coords_1 t]
  have hlt : (grid1.coords t 1).val < 318 := (grid1.coords t 1).isLt
  exact eq_word_iff _ 0 (by omega) (by omega)

/-- "This is the last chunk of the row block": the chunk coordinate is 317. -/
abbrev cond1 (i : grid1.Coords) : Prop := k1_cond2 i = 1#1

/-- It holds at the points that are 317 modulo 318. -/
theorem hcond1 (t : Fin cfg1.N) : cond1 (grid1.coords t) ↔ t.val % 318 = 317 := by
  rw [← coords_1 t]
  have hlt : (grid1.coords t 1).val < 318 := (grid1.coords t 1).isLt
  exact eq_word_iff _ 317 (by omega) (by omega)

/-! ## Where the output window is idle -/

theorem idleAt3 (t : Fin cfg1.N) (h : ¬cond1 (grid1.coords t)) : cfg1.idle 3 (grid1.coords t) = true := by
  show (!(k1_cond2 (grid1.coords t) == 1#1)) = true
  rw [Bool.not_eq_true', beq_eq_false_iff_ne]; exact h

theorem liveAt3 (t : Fin cfg1.N) (h : cond1 (grid1.coords t)) : cfg1.idle 3 (grid1.coords t) = false := by
  show (!(k1_cond2 (grid1.coords t) == 1#1)) = false
  rw [Bool.not_eq_false', beq_iff_eq]; exact h

theorem noFlush3 (t : Fin cfg1.N) (h : ¬cond1 (grid1.coords t)) : (cfg1.win 3).flush t = false :=
  Bool.eq_false_iff.mpr fun hf => h ((hcond1 t).mpr ((flush1_3 t).mp hf))

/-! ## The staging memrefs at a point, and the scratch -/

abbrev ms0 (t : Fin cfg1.N) : Memref sig .tc .vmem S4096x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x4096 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x64 .f32 := win1_3.stage (cfg1.slots t 3)
abbrev hs3 (t : Fin cfg1.N) : (ms3 t).IsWhole := hstage1_3 ((cfg1.slots t 3).cast nbuf1_3)
/-- The running total's buffer. -/
abbrev scM : Memref sig .tc .vmem S2048x64 .f32 := Memref.whole cc1_scratch0

/-- Every scoped buffer but the running total's, untouched by the body. -/
abbrev restBut (c : Dev nD) : sProp 𝕄 :=
  Pipeline.scopedRestBut (Ix := Unit) (Name := ℕ) (U := UR sig nD τ) (Lvl := ℕ) (Val := Elt F) spec1 c [cc1_scratch0]

/-- What the region is entered with: the running total's buffer at anything, the other scoped buffers, the
    generator register. -/
theorem PhiA_eq (c : Dev nD) :
    (Pipeline.ΦA spec1 c : sProp 𝕄)
      = iprop(iprop(iprop(∃ d, owns (c : Thread nD τ) scM fullShare d) ∗ restBut (F := F) c) ∗ (∃ r, prngReg c r)) := by
  unfold Pipeline.ΦA; rw [scopedRest1_split]; simp only [scM, owns_whole]; try rfl

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The running total, point by point -/

/-- What the scratch buffer holds after the body at point n: the chunk's contribution added to the zero block at
    the first chunk of a row block, to what the point before left at every other chunk. -/
def accAt (c : Dev nD) : (n : ℕ) → n < cfg1.N → Vec F S2048x64 .f32
  | 0, hn => k1_pay2 (grid1.coords ⟨0, hn⟩) (iblk V c 1 ⟨0, hn⟩) (k1_pay1 (F := F)) (iblk V c 0 ⟨0, hn⟩)
  | n + 1, hn => k1_pay2 (grid1.coords ⟨n + 1, hn⟩) (iblk V c 1 ⟨n + 1, hn⟩)
      (if (n + 1) % 318 = 0 then k1_pay1 (F := F) else accAt c n (Nat.lt_of_succ_lt hn)) (iblk V c 0 ⟨n + 1, hn⟩)

theorem accAt_first (c : Dev nD) (t : Fin cfg1.N) (h0 : t.val % 318 = 0) :
    accAt V c t.val t.isLt = k1_pay2 (grid1.coords t) (iblk V c 1 t) (k1_pay1 (F := F)) (iblk V c 0 t) := by
  obtain ⟨n, hn⟩ := t
  cases n with
  | zero => rfl
  | succ n => show k1_pay2 _ _ (if (n + 1) % 318 = 0 then _ else _) _ = _; rw [if_pos h0]

theorem accAt_next (c : Dev nD) (t : Fin cfg1.N) (h0 : ¬t.val % 318 = 0) :
    accAt V c t.val t.isLt = k1_pay2 (grid1.coords t) (iblk V c 1 t)
      (accAt V c (t.val - 1) (Nat.lt_of_le_of_lt (Nat.sub_le _ _) t.isLt)) (iblk V c 0 t) := by
  obtain ⟨n, hn⟩ := t
  cases n with
  | zero => exact absurd (Nat.zero_mod _) h0
  | succ n => show k1_pay2 _ _ (if (n + 1) % 318 = 0 then _ else _) _ = _; rw [if_neg h0]; rfl

/-- What the last chunk of a row block stores into the output block: the total plus the bias, clamped at zero. -/
def outAt (c : Dev nD) (t : Fin cfg1.N) : Vec F S2048x64 .f32 :=
  k1_pay3 (accAt V c t.val t.isLt) (iblk V c 2 t)

/-! ## The invariant -/

/-- Before the first point what the region is entered with; afterwards the same with the running total's buffer at
    what the point before left. -/
def PhiS (c : Dev nD) : (n : ℕ) → n ≤ cfg1.N → sProp 𝕄
  | 0, _ => Pipeline.ΦA spec1 c
  | n + 1, hn => iprop(iprop(owns (c : Thread nD τ) scM fullShare (accAt V c n hn) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-- At any point the invariant gives the running total's buffer at something. -/
theorem PhiS_any (c : Dev nD) (n : ℕ) (h : n ≤ cfg1.N) :
    PhiS V c n h ⊢ iprop(iprop(iprop(∃ d, owns (c : Thread nD τ) scM fullShare d) ∗ restBut (F := F) c) ∗ (∃ r, prngReg c r)) := by
  cases n with
  | zero => rw [PhiS_zero V c 0 h rfl, PhiA_eq]
  | succ n =>
    rw [PhiS_succ]
    iintro ⟨⟨HS, Hr⟩, Hg⟩
    isplitl [HS Hr]
    · isplitl [HS]
      · iexists _; iexact HS
      iexact Hr
    iexact Hg

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-! ## The body on any whole staging memrefs, case by case -/

theorem hz : (![0, 0] : Fin 2 → Nat) = fun _ => 0 := funext fun a => by fin_cases a <;> rfl

set_option maxHeartbeats 1000000 in
/-- First chunk of a row block: the running total is started from the zero block. -/
theorem run_first (c : Dev nD) (E : Set ℕ) (i : grid1.Coords)
    (arg2 : Memref sig .tc .vmem S4096x64 .bf16) (harg2 : arg2.IsWhole) (arg3 : Memref sig .tc .vmem S1x4096 .i32) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole) (hc0 : cond0 i) (hc1 : ¬cond1 i)
    (x0 : Vec F S4096x64 .bf16) (x1 : Vec F S1x4096 .i32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 i x1 (k1_pay1 (F := F)) x0)) -∗ K ⟨⟩))
      ⊢ wp frame (wpE (defs₀ (F := F)) Variants.none c none) E (cc1__scatter_relu_kernel i arg2 harg2 arg3 harg3 arg4 harg4 arg5 harg5 arg6 harg6) K := by
  simp only [cc1__scatter_relu_kernel_eq_skeleton]; unfold cc1__scatter_relu_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (fun y => ⟨_, List.mem_cons_self, View.mem_set_unit_zero hz inb_S2048x64_S2048x64_0_0 y⟩)]
  rw [View.canon_cons_unit_zero (S := S2048x64) hz, View.readCov_unit_zero (S := S2048x64) _ hz]
  simp only [View.readAt_eq_ld, View.ld_unit_zero (S := S4096x64) hz, View.ld_unit_zero (S := S1x4096) hz]

set_option maxHeartbeats 1000000 in
/-- A chunk that is neither first nor last: the chunk's contribution is added to the running total. -/
theorem run_mid (c : Dev nD) (E : Set ℕ) (i : grid1.Coords)
    (arg2 : Memref sig .tc .vmem S4096x64 .bf16) (harg2 : arg2.IsWhole) (arg3 : Memref sig .tc .vmem S1x4096 .i32) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole) (hc0 : ¬cond0 i) (hc1 : ¬cond1 i)
    (x0 : Vec F S4096x64 .bf16) (x1 : Vec F S1x4096 .i32) (xs : Vec F S2048x64 .f32) (K : PUnit → sProp 𝕄) :
    iprop(owns (c : Thread nD τ) arg2 fullShare x0 ∗ owns (c : Thread nD τ) arg3 fullShare x1
        ∗ owns (c : Thread nD τ) arg6 fullShare xs
        ∗ (iprop(owns (c : Thread nD τ) arg2 fullShare x0 ∗ owns (c : Thread nD τ) arg3 fullShare x1
            ∗ owns (c : Thread nD τ) arg6 fullShare (k1_pay2 i x1 xs x0)) -∗ K ⟨⟩))
      ⊢ wp frame (wpE (defs₀ (F := F)) Variants.none c none) E (cc1__scatter_relu_kernel i arg2 harg2 arg3 harg3 arg4 harg4 arg5 harg5 arg6 harg6) K := by
  simp only [cc1__scatter_relu_kernel_eq_skeleton]; unfold cc1__scatter_relu_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  rw [View.read_writes_eq_canon _ _ _ (fun y => ⟨_, List.mem_cons_self, View.mem_set_unit_zero hz inb_S2048x64_S2048x64_0_0 y⟩)]
  rw [View.canon_cons_unit_zero (S := S2048x64) hz]
  simp only [View.readAt_eq_ld, View.ld_unit_zero (S := S4096x64) hz, View.ld_unit_zero (S := S1x4096) hz, View.ld_unit_zero (S := S2048x64) hz]

set_option maxHeartbeats 1000000 in
/-- Last chunk of a row block: the contribution is added, then the total plus the bias, clamped at zero, is stored
    into the output block. -/
theorem run_last (c : Dev nD) (E : Set ℕ) (i : grid1.Coords)
    (arg2 : Memref sig .tc .vmem S4096x64 .bf16) (harg2 : arg2.IsWhole) (arg3 : Memref sig .tc .vmem S1x4096 .i32) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole) (hc0 : ¬cond0 i) (hc1 : cond1 i)
    (x0 : Vec F S4096x64 .bf16) (x1 : Vec F S1x4096 .i32) (x2 : Vec F S1x64 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 i x1 xs x0) x2)
            ∗ owns (c : Thread nD τ) arg6 fullShare (k1_pay2 i x1 xs x0)) -∗ K ⟨⟩))
      ⊢ wp frame (wpE (defs₀ (F := F)) Variants.none c none) E (cc1__scatter_relu_kernel i arg2 harg2 arg3 harg3 arg4 harg4 arg5 harg5 arg6 harg6) K := by
  simp only [cc1__scatter_relu_kernel_eq_skeleton]; unfold cc1__scatter_relu_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_cons_self, View.mem_set_unit_zero hz inb_S2048x64_S2048x64_0_0 y⟩)]
    rw [View.canon_cons_unit_zero (S := S2048x64) hz, View.readCov_unit_zero (S := S2048x64) _ hz]
    simp only [View.readAt_eq_ld, View.ld_unit_zero (S := S4096x64) hz, View.ld_unit_zero (S := S1x4096) hz, View.ld_unit_zero (S := S2048x64) hz, View.ld_unit_zero (S := S1x64) hz]
  iexists _; isplitr
  swap; · iexact H6
  ipureintro
  sl_unfold_words
  rw [View.read_writes_eq_canon _ _ _ (fun y => ⟨_, List.mem_cons_self, View.mem_set_unit_zero hz inb_S2048x64_S2048x64_0_0 y⟩)]
  rw [View.canon_cons_unit_zero (S := S2048x64) hz]
  simp only [View.readAt_eq_ld, View.ld_unit_zero (S := S4096x64) hz, View.ld_unit_zero (S := S1x4096) hz, View.ld_unit_zero (S := S2048x64) hz]

/-! ## The body obligation at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg1.N) :
    (dat V c).leavesExact 0 t = owns (c : Thread nD τ) (ms0 t) fullShare (iblk V c 0 t) := by
  rw [← after0]
theorem leaves1 (c : Dev nD) (t : Fin cfg1.N) :
    (dat V c).leavesExact 1 t = owns (c : Thread nD τ) (ms1 t) fullShare (iblk V c 1 t) := by
  rw [← after1]
theorem leaves2 (c : Dev nD) (t : Fin cfg1.N) :
    (dat V c).leavesExact 2 t = owns (c : Thread nD τ) (ms2 t) fullShare (iblk V c 2 t) := by
  rw [← after2]

set_option maxHeartbeats 4800000 in
/-- The body at any point.  The three inputs' buffers hold their blocks; the position of the chunk in its row block
    says which case runs; the invariant hands over the running total at what the point before left (at anything, at
    the first chunk) and takes it back at this point's; the output block is handed back untouched except at the last
    chunk, which fills it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [leaves0, leaves1, leaves2, PhiS_castSucc V c t]
  have hN : t.val < 15582 := lt_of_lt_of_eq t.isLt (show cfg1.N = 15582 from N_1)
  by_cases h0 : t.val % 318 = 0
  · have h1 : ¬t.val % 318 = 317 := by omega
    have hc0 : cond0 (grid1.coords t) := (hcond0 t).mpr h0
    have hc1 : ¬cond1 (grid1.coords t) := fun h => h1 ((hcond1 t).mp h)
    rw [Dat.leavesExact_idle (dat V c) 3 t (idleAt3 t hc1) (noFlush3 t hc1)]
    rw [accAt_first V c t h0]
    iintro ⟨HP, Ho, ⟨%d0, H0⟩, ⟨%d1, H1⟩, ⟨%d2, H2⟩, H3⟩
    ihave HP' := (PhiS_any V c t.val (Nat.le_of_lt t.isLt)) $$ HP
    icases HP' with ⟨⟨⟨%ds, HS⟩, Hr⟩, Hg⟩
    iapply (run_first c Set.univ (grid1.coords t) (ms0 t) (hs0 t) (ms1 t) (hs1 t) (ms2 t) (hs2 t) (ms3 t) (hs3 t) scM (Memref.isWhole_whole _) hc0 hc1 (iblk V c 0 t) (iblk V c 1 t) _)
    isplitl [H0]; · iexact H0
    isplitl [H1]; · iexact H1
    isplitl [HS]; · iexists _; iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hne : t.val ≠ 0 := fun h => h0 (by rw [h])
    have hc0 : ¬cond0 (grid1.coords t) := fun h => h0 ((hcond0 t).mp h)
    rw [PhiS_pos V c _ _ hne, accAt_next V c t h0]
    by_cases h1 : t.val % 318 = 317
    · have hc1 : cond1 (grid1.coords t) := (hcond1 t).mpr h1
      rw [show (dat V c).leavesExact 3 t = owns (c : Thread nD τ) (ms3 t) fullShare ((dat V c).after 3 t) from by
        unfold Dat.leavesExact; rw [liveAt3 t hc1], after3]
      unfold outAt
      rw [accAt_next V c t h0]
      iintro ⟨⟨⟨HS, Hr⟩, Hg⟩, Ho, ⟨%d0, H0⟩, ⟨%d1, H1⟩, ⟨%d2, H2⟩, ⟨%d3, H3⟩⟩
      iapply (run_last c Set.univ (grid1.coords t) (ms0 t) (hs0 t) (ms1 t) (hs1 t) (ms2 t) (hs2 t) (ms3 t) (hs3 t) scM (Memref.isWhole_whole _) hc0 hc1 (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hc1 : ¬cond1 (grid1.coords t) := fun h => h1 ((hcond1 t).mp h)
      rw [Dat.leavesExact_idle (dat V c) 3 t (idleAt3 t hc1) (noFlush3 t hc1)]
      iintro ⟨⟨⟨HS, Hr⟩, Hg⟩, Ho, ⟨%d0, H0⟩, ⟨%d1, H1⟩, ⟨%d2, H2⟩, H3⟩
      iapply (run_mid c Set.univ (grid1.coords t) (ms0 t) (hs0 t) (ms1 t) (hs1 t) (ms2 t) (hs2 t) (ms3 t) (hs3 t) scM (Memref.isWhole_whole _) hc0 hc1 (iblk V c 0 t) (iblk V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl, PhiA_eq]
  exact PhiS_any V c _ _

theorem arrAt_in (c : Dev nD) (w : Fin cfg1.W) (hw : w ≠ 3) : (dat V c).arrAt w cfg1.N = V c (Pipeline.arrRef spec1 w) :=
  ((dat V c).arrAt_in w (by fin_cases w <;> first | rfl | exact absurd rfl hw) _).trans (A_eq V c w)

end Cert.Kernel.Reg1

end
-- ==== Proof.K.Reg2.lean ====
/-
  The second gather of the graph convolution: for every message chunk (4096 messages) the kernel walks the 49 node
  tiles (2048 rows of the hidden features each), adding to a running block the product of the chunk's 0/1 selector
  of source rows in the tile with the tile's rows of h · W; after the last tile the block, scaled message by
  message by the message weight, is the chunk's block of the output.  This module runs the kernel body in its
  three cases (first tile of a chunk: the running block is zeroed first; a middle tile; last tile: the output
  block is stored), names what the running block and the output block hold point by point, and proves the body
  obligation of the pipeline rule at the buffer contents the region is entered with.
-/
import proofs.«115179_j73220602462691_1_alg».proof.Proof.Gen.Kernel.Launch
import proofs.«115179_j73220602462691_1_alg».proof.Proof.Gen.Kernel.Skeleton
import proofs.«115179_j73220602462691_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form -/

theorem lt_N (t : Fin cfg2.N) : t.val < 15582 := lt_of_lt_of_eq t.isLt N_2

/-- The inner coordinate of point `t` is its node tile, the outer one its message chunk. -/
theorem coords1 (t : Fin cfg2.N) : (grid2.coords t 1).val = t.val % 49 := by
  show t.val / grid2.stride 1 % 49 = _
  rw [show grid2.stride 1 = 1 from by decide, Nat.div_one]
theorem coords0 (t : Fin cfg2.N) : (grid2.coords t 0).val = t.val / 49 := by
  show t.val / grid2.stride 0 % 318 = _
  rw [show grid2.stride 0 = 49 from by decide]
  have := lt_N t; omega

/-- The kernel's test "coordinate = k" — compare, widen, compare with zero — holds exactly when the numbers agree. -/
theorem word_test_iff (v k : ℕ) (hv : v < 4294967296) (hk : k < 4294967296) :
    Scalar.cmpi .ne (Scalar.extui (Scalar.cmpi .eq (BitVec.ofNat 32 v) (BitVec.ofNat 32 k))) 0#32 = 1#1 ↔ v = k := by
  have hinj : BitVec.ofNat 32 v = BitVec.ofNat 32 k ↔ v = k := by
    constructor
    · intro h
      have h' := congrArg BitVec.toNat h
      rw [BitVec.toNat_ofNat, BitVec.toNat_ofNat, Nat.mod_eq_of_lt hv, Nat.mod_eq_of_lt hk] at h'
      exact h'
    · intro h; rw [h]
  rw [← hinj]
  show BitVec.ofBool ((BitVec.ofBool (BitVec.ofNat 32 v == BitVec.ofNat 32 k)).setWidth 32 != 0#32) = 1#1 ↔ _
  by_cases h : BitVec.ofNat 32 v = BitVec.ofNat 32 k
  · rw [show (BitVec.ofNat 32 v == BitVec.ofNat 32 k) = true from beq_iff_eq.mpr h]
    exact ⟨fun _ => h, fun _ => by decide⟩
  · rw [show (BitVec.ofNat 32 v == BitVec.ofNat 32 k) = false from beq_eq_false_iff_ne.mpr h]
    exact ⟨fun h' => absurd h' (by decide), fun h' => absurd h' h⟩

/-- The body is at the first node tile of its chunk (it zeroes the running block). -/
abbrev condFirst (i : grid2.Coords) : Prop :=
  (Scalar.cmpi .ne (Scalar.extui (Scalar.cmpi .eq (BitVec.ofNat 32 (i 1).val) 0#32)) 0#32) = 1#1
theorem hFirst (t : Fin cfg2.N) : condFirst (grid2.coords t) ↔ t.val % 49 = 0 := by
  exact (word_test_iff (grid2.coords t 1).val 0 (by rw [coords1]; omega) (by omega)).trans (by rw [coords1])

/-- The body is at the last node tile of its chunk (it stores the output block). -/
abbrev condLast (i : grid2.Coords) : Prop := k2_cond2 i = 1#1
theorem hLast (t : Fin cfg2.N) : condLast (grid2.coords t) ↔ t.val % 49 = 48 := by
  exact (word_test_iff (grid2.coords t 1).val 48 (by rw [coords1]; omega) (by omega)).trans (by rw [coords1])

set_option maxHeartbeats 4000000 in
noncomputable def kernelRun_A (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : condFirst i) (hc1 : ¬condLast i)
    (x0 : Vec F S2048x64 .f32) (x1 : Vec F S64x32 .f32) (x2 : Vec F S4096x1 .i32) (x3 : Vec F S4096x1 .f32) :
    { LS : List (View.Piece (Elt F) S4096x32 .f32) //
      ∀ (xi4 : Vec F S4096x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, fun xi4 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
noncomputable def kernelRun_B (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : ¬condLast i)
    (x0 : Vec F S2048x64 .f32) (x1 : Vec F S64x32 .f32) (x2 : Vec F S4096x1 .i32) (x3 : Vec F S4096x1 .f32) (xs : Vec F S4096x32 .f32) :
    { LS : List (View.Piece (Elt F) S4096x32 .f32) //
      ∀ (xi4 : Vec F S4096x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, fun xi4 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
noncomputable def kernelRun_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i)
    (x0 : Vec F S2048x64 .f32) (x1 : Vec F S64x32 .f32) (x2 : Vec F S4096x1 .i32) (x3 : Vec F S4096x1 .f32) (xs : Vec F S4096x32 .f32) :
    Σ' (L4 : List (View.Piece (Elt F) S4096x32 .bf16)), { LS : List (View.Piece (Elt F) S4096x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, ?_, fun E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## The memrefs the body is called with at a point -/

abbrev ms0 (t : Fin cfg2.N) : Memref sig .tc .vmem S2048x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S64x32 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S4096x1 .i32 := win2_2.stage (cfg2.slots t 2)
abbrev hs2 (t : Fin cfg2.N) : (ms2 t).IsWhole := hstage2_2 ((cfg2.slots t 2).cast nbuf2_2)
abbrev ms3 (t : Fin cfg2.N) : Memref sig .tc .vmem S4096x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S4096x32 .bf16 := win2_4.stage (cfg2.slots t 4)
abbrev hs4 (t : Fin cfg2.N) : (ms4 t).IsWhole := hstage2_4 ((cfg2.slots t 4).cast nbuf2_4)
/-- The running block: the kernel's scratch operand, a whole buffer of its own. -/
abbrev scM : Memref sig .tc .vmem S4096x32 .f32 := Memref.whole cc2_scratch0
abbrev VS : View sig .tc .vmem S4096x32 .f32 := scM.view
/-- A view of the output block's shape, through which the stored block is read back. -/
abbrev VO : View sig .tc .vmem S4096x32 .bf16 := (Memref.whole cc2_stg4_0 : Memref sig .tc .vmem S4096x32 .bf16).view

/-- The region's invariant with the running block opened: the scratch at some contents, the other scoped buffers
    unopened, the generator register at some state. -/
theorem PhiA_eq (c : Dev nD) :
    (Pipeline.ΦA spec2 c : sProp 𝕄)
      = iprop(iprop(iprop(∃ d, owns (c : Thread nD τ) scM fullShare d) ∗ Pipeline.scopedRestBut spec2 c [cc2_scratch0]) ∗ (∃ r, prngReg c r)) := by
  unfold Pipeline.ΦA; rw [scopedRest2_split]; simp only [scM, owns_whole]; try rfl

/-! ## Where the output window is idle -/

theorem idle4_of (i : grid2.Coords) (h : ¬condLast i) : cfg2.idle 4 i = true := by
  show (!(k2_cond2 i == 1#1)) = true
  rw [Bool.not_eq_true', beq_eq_false_iff_ne]; exact h
theorem live4_of (i : grid2.Coords) (h : condLast i) : cfg2.idle 4 i = false := by
  show (!(k2_cond2 i == 1#1)) = false
  rw [Bool.not_eq_false', beq_iff_eq]; exact h
theorem noFlush4 (t : Fin cfg2.N) (h : ¬t.val % 49 = 48) : (cfg2.win 4).flush t = false :=
  Bool.eq_false_iff.mpr fun hf => h ((flush2_4 t).mp hf)

/-! ## What each case leaves -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

omit V in
theorem scover_A (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : condFirst i) (hc1 : ¬condLast i) (x0 : Vec F S2048x64 .f32) (x1 : Vec F S64x32 .f32) (x2 : Vec F S4096x1 .i32) (x3 : Vec F S4096x1 .f32) (y : S4096x32.Idx) :
    ∃ pc ∈ (kernelRun_A c i arg2 harg2 arg3 harg3 arg4 harg4 arg5 harg5 arg6 harg6 arg7 harg7 hc0 hc1 x0 x1 x2 x3).1, y ∈ pc.1.set :=
  View.cover_of_tiledL (kernelRun_A c i arg2 harg2 arg3 harg3 arg4 harg4 arg5 harg5 arg6 harg6 arg7 harg7 hc0 hc1 x0 x1 x2 x3).1 S4096x32.size (by sl_kernel_rfl) y
omit V in
/-- The running block after a first-tile point. -/
def sout_A (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : condFirst i) (hc1 : ¬condLast i) (x0 : Vec F S2048x64 .f32) (x1 : Vec F S64x32 .f32) (x2 : Vec F S4096x1 .i32) (x3 : Vec F S4096x1 .f32) : Vec F S4096x32 .f32 :=
  VS.read (Elt F) (VS.writes (Elt F) VS.junk (kernelRun_A c i arg2 harg2 arg3 harg3 arg4 harg4 arg5 harg5 arg6 harg6 arg7 harg7 hc0 hc1 x0 x1 x2 x3).1)

omit V in
theorem scover_B (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : ¬condLast i) (x0 : Vec F S2048x64 .f32) (x1 : Vec F S64x32 .f32) (x2 : Vec F S4096x1 .i32) (x3 : Vec F S4096x1 .f32) (xs : Vec F S4096x32 .f32) (y : S4096x32.Idx) :
    ∃ pc ∈ (kernelRun_B c i arg2 harg2 arg3 harg3 arg4 harg4 arg5 harg5 arg6 harg6 arg7 harg7 hc0 hc1 x0 x1 x2 x3 xs).1, y ∈ pc.1.set :=
  View.cover_of_tiledL (kernelRun_B c i arg2 harg2 arg3 harg3 arg4 harg4 arg5 harg5 arg6 harg6 arg7 harg7 hc0 hc1 x0 x1 x2 x3 xs).1 S4096x32.size (by sl_kernel_rfl) y
omit V in
/-- The running block after a middle-tile point, over what the point before left. -/
def sout_B (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : ¬condLast i) (x0 : Vec F S2048x64 .f32) (x1 : Vec F S64x32 .f32) (x2 : Vec F S4096x1 .i32) (x3 : Vec F S4096x1 .f32) (xs : Vec F S4096x32 .f32) : Vec F S4096x32 .f32 :=
  VS.read (Elt F) (VS.writes (Elt F) VS.junk (kernelRun_B c i arg2 harg2 arg3 harg3 arg4 harg4 arg5 harg5 arg6 harg6 arg7 harg7 hc0 hc1 x0 x1 x2 x3 xs).1)

omit V in
theorem cover_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) (y : S4096x32.Idx) :
    ∃ pc ∈ (kernelRun_C c i arg2 harg2 arg3 harg3 arg4 harg4 arg5 harg5 arg6 harg6 arg7 harg7 hc0 hc1 x0 x1 x2 x3 xs).1, y ∈ pc.1.set :=
  View.cover_of_tiledL (kernelRun_C c i arg2 harg2 arg3 harg3 arg4 harg4 arg5 harg5 arg6 harg6 arg7 harg7 hc0 hc1 x0 x1 x2 x3 xs).1 S4096x32.size (by sl_kernel_rfl) y
omit V in
/-- The output block a last-tile point stores. -/
def out_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) : Vec F S4096x32 .bf16 :=
  VO.read (Elt F) (VO.writes (Elt F) VO.junk (kernelRun_C c i arg2 harg2 arg3 harg3 arg4 harg4 arg5 harg5 arg6 harg6 arg7 harg7 hc0 hc1 x0 x1 x2 x3 xs).1)
omit V in
theorem scover_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) (y : S4096x32.Idx) :
    ∃ pc ∈ (kernelRun_C c i arg2 harg2 arg3 harg3 arg4 harg4 arg5 harg5 arg6 harg6 arg7 harg7 hc0 hc1 x0 x1 x2 x3 xs).2.1, y ∈ pc.1.set :=
  View.cover_of_tiledL (kernelRun_C c i arg2 harg2 arg3 harg3 arg4 harg4 arg5 harg5 arg6 harg6 arg7 harg7 hc0 hc1 x0 x1 x2 x3 xs).2.1 S4096x32.size (by sl_kernel_rfl) y
omit V in
/-- The running block after a last-tile point. -/
def sout_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) : Vec F S4096x32 .f32 :=
  VS.read (Elt F) (VS.writes (Elt F) VS.junk (kernelRun_C c i arg2 harg2 arg3 harg3 arg4 harg4 arg5 harg5 arg6 harg6 arg7 harg7 hc0 hc1 x0 x1 x2 x3 xs).2.1)

/-- What the output window's buffer is said to hold after a point that stores nothing into it: nothing reads it. -/
def idleOut : Vec F S4096x32 .bf16 := VO.read (Elt F) VO.junk

/-! ## The output block and the running block, point by point -/

/-- After the body at position `n`: (the output window's buffer, the running block).  The case is chosen by the
    position modulo 49; a middle or last tile adds to what the position before left. -/
def outsAt (c : Dev nD) : (n : ℕ) → n < cfg2.N → Vec F S4096x32 .bf16 × Vec F S4096x32 .f32
  | 0, hn => (idleOut, sout_A c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hFirst ⟨0, hn⟩).mpr (Nat.zero_mod _)) (fun h => (fun h => by (try dsimp only at h); omega) ((hLast ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 49 = 0 then
      if h1 : (n + 1) % 49 = 48 then
        False.elim (by omega)
      else
        (idleOut, sout_A c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hFirst ⟨n + 1, hn⟩).mpr h0) (fun h => h1 ((hLast ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 49 = 48 then
        (out_C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hFirst ⟨n + 1, hn⟩).mp h)) ((hLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         sout_C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hFirst ⟨n + 1, hn⟩).mp h)) ((hLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (idleOut, sout_B c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hFirst ⟨n + 1, hn⟩).mp h)) (fun h => h1 ((hLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg2.N) (h0 : t.val % 49 = 0) (h1 : ¬t.val % 49 = 48) :
    outsAt V c t.val t.isLt = (idleOut, sout_A c (grid2.coords t) (ms0 t) (hs0 t) (ms1 t) (hs1 t) (ms2 t) (hs2 t) (ms3 t) (hs3 t) (ms4 t) (hs4 t) scM (Memref.isWhole_whole _) ((hFirst t).mpr h0) (fun h => h1 ((hLast t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt_B (c : Dev nD) (t : Fin cfg2.N) (h0 : ¬t.val % 49 = 0) (h1 : ¬t.val % 49 = 48) :
    outsAt V c t.val t.isLt = (idleOut, sout_B c (grid2.coords t) (ms0 t) (hs0 t) (ms1 t) (hs1 t) (ms2 t) (hs2 t) (ms3 t) (hs3 t) (ms4 t) (hs4 t) scM (Memref.isWhole_whole _) (fun h => h0 ((hFirst t).mp h)) (fun h => h1 ((hLast t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 49 = 0) (h1 : t.val % 49 = 48) :
    outsAt V c t.val t.isLt = (out_C c (grid2.coords t) (ms0 t) (hs0 t) (ms1 t) (hs1 t) (ms2 t) (hs2 t) (ms3 t) (hs3 t) (ms4 t) (hs4 t) scM (Memref.isWhole_whole _) (fun h => h0 ((hFirst t).mp h)) ((hLast t).mpr h1) (iblk V c 0 t) (iblk V c 1 t) (iblk V c 2 t) (iblk V c 3 t) (outsAt V c (t.val - 1) (Nat.lt_of_le_of_lt (Nat.sub_le _ _) t.isLt)).2,
      sout_C c (grid2.coords t) (ms0 t) (hs0 t) (ms1 t) (hs1 t) (ms2 t) (hs2 t) (ms3 t) (hs3 t) (ms4 t) (hs4 t) scM (Memref.isWhole_whole _) (fun h => h0 ((hFirst t).mp h)) ((hLast t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: at the region's entry the class's; afterwards the running block at what the
    position before left, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut spec2 c [cc2_scratch0]) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ Pipeline.scopedRestBut spec2 c [cc2_scratch0]) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ Pipeline.scopedRestBut spec2 c [cc2_scratch0]) ∗ (∃ r, prngReg c r)) := by
  cases n with
  | zero => exact absurd rfl hz
  | succ n => rfl

/-! ## The proof data -/

theorem before0_of {c : Dev nD} (dt : Dat τ (Elt F) Unit ℕ (UR sig nD τ) ℕ cfg2 c) (hA : dt.A 0 = V c (Pipeline.arrRef spec2 0))
    (hafter : ∀ t, dt.after 0 t = iblk V c 0 t) (t : Fin cfg2.N) (d) : dt.before 0 t d = iblk V c 0 t :=
  (dt.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dt : Dat τ (Elt F) Unit ℕ (UR sig nD τ) ℕ cfg2 c) (hA : dt.A 1 = V c (Pipeline.arrRef spec2 1))
    (hafter : ∀ t, dt.after 1 t = iblk V c 1 t) (t : Fin cfg2.N) (d) : dt.before 1 t d = iblk V c 1 t :=
  (dt.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dt : Dat τ (Elt F) Unit ℕ (UR sig nD τ) ℕ cfg2 c) (hA : dt.A 2 = V c (Pipeline.arrRef spec2 2))
    (hafter : ∀ t, dt.after 2 t = iblk V c 2 t) (t : Fin cfg2.N) (d) : dt.before 2 t d = iblk V c 2 t :=
  (dt.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dt : Dat τ (Elt F) Unit ℕ (UR sig nD τ) ℕ cfg2 c) (hA : dt.A 3 = V c (Pipeline.arrRef spec2 3))
    (hafter : ∀ t, dt.after 3 t = iblk V c 3 t) (t : Fin cfg2.N) (d) : dt.before 3 t d = iblk V c 3 t :=
  (dt.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data of the region on core `c`: the arrays as the region finds them; after the body each input's
    buffer at its block, the output's at `outsAt`'s first component; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (outsAt V c t.val t.isLt).1 := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' buffers hold their blocks; the position modulo 49 says which case the point
    is in; the invariant hands the body the running block at what the point before left (at anything at the
    region's first point) and takes it back at this point's contents; the output's buffer is handed back untouched
    where the body stores nothing into it, and at the stored block at a last-tile point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 15582 := lt_of_lt_of_eq t.isLt (show cfg2.N = 15582 from N_2)
  rw [show (dat V c).leavesExact 0 t = owns (c : Thread nD τ) (ms0 t) fullShare ((dat V c).after 0 t) from by
        unfold Dat.leavesExact; rw [show cfg2.idle 0 (grid2.coords t) = false from rfl], after0]
  rw [show (dat V c).leavesExact 1 t = owns (c : Thread nD τ) (ms1 t) fullShare ((dat V c).after 1 t) from by
        unfold Dat.leavesExact; rw [show cfg2.idle 1 (grid2.coords t) = false from rfl], after1]
  rw [show (dat V c).leavesExact 2 t = owns (c : Thread nD τ) (ms2 t) fullShare ((dat V c).after 2 t) from by
        unfold Dat.leavesExact; rw [show cfg2.idle 2 (grid2.coords t) = false from rfl], after2]
  rw [show (dat V c).leavesExact 3 t = owns (c : Thread nD τ) (ms3 t) fullShare ((dat V c).after 3 t) from by
        unfold Dat.leavesExact; rw [show cfg2.idle 3 (grid2.coords t) = false from rfl], after3]
  by_cases h0 : t.val % 49 = 0
  · by_cases h1 : t.val % 49 = 48
    · exfalso; omega
    · rw [Dat.leavesExact_idle (dat V c) 4 t (idle4_of _ (fun h => h1 ((hLast t).mp h))) (noFlush4 t h1)]
      rw [outsAt_A V c t h0 h1]
      unfold sout_A; (try dsimp only)
      by_cases hz : t.val = 0
      · rw [PhiS_castSucc V c t, PhiS_zero V c _ _ hz, PhiA_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun_A c (grid2.coords t) _ _ _ _ _ _ _ _ _ _ _ _ ((hFirst t).mpr h0) (fun h => h1 ((hLast t).mp h)) (iblk V c 0 t) (iblk V c 1 t) (iblk V c 2 t) (iblk V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover_A c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun_A c (grid2.coords t) _ _ _ _ _ _ _ _ _ _ _ _ ((hFirst t).mpr h0) (fun h => h1 ((hLast t).mp h)) (iblk V c 0 t) (iblk V c 1 t) (iblk V c 2 t) (iblk V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover_A c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 49 = 48
    · rw [show (dat V c).leavesExact 4 t = owns (c : Thread nD τ) (ms4 t) fullShare ((dat V c).after 4 t) from by
        unfold Dat.leavesExact; rw [live4_of _ ((hLast t).mpr h1)], after4]
      rw [outsAt_C V c t h0 h1]
      unfold out_C sout_C; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun_C c (grid2.coords t) _ _ _ _ _ _ _ _ _ _ _ _ (fun h => h0 ((hFirst t).mp h)) ((hLast t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C c _ _ _ _ _ _ _ _ _ _ _ _ _ _ _ _ _ _ _ _)
    · rw [Dat.leavesExact_idle (dat V c) 4 t (idle4_of _ (fun h => h1 ((hLast t).mp h))) (noFlush4 t h1)]
      rw [outsAt_B V c t h0 h1]
      unfold sout_B; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun_B c (grid2.coords t) _ _ _ _ _ _ _ _ _ _ _ _ (fun h => h0 ((hFirst t).mp h)) (fun h => h1 ((hLast t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class's back: the running block's contents are forgotten. -/
theorem Phi_out (c : Dev nD) (t : Fin (cfg2.N + 1)) (ht : t.val ≠ 0) : (dat V c).Φ t ⊢ (Pipeline.ΦA spec2 c : sProp 𝕄) := by
  rw [show (dat V c).Φ t = PhiS V c t.val (Nat.le_of_lt_succ t.isLt) from rfl, PhiS_pos V c _ _ ht, PhiA_eq]
  iintro ⟨⟨HS0, Hr⟩, Hg⟩
  isplitl [HS0 Hr]
  · isplitl [HS0]
    · iexists _; iexact HS0
    iexact Hr
  iexact Hg

theorem hout (c : Dev nD) : (dat V c).Φ (Fin.last cfg2.N) ⊢ (Pipeline.ΦA spec2 c : sProp 𝕄) :=
  Phi_out V c _ (by rw [Fin.val_last]; have : cfg2.N = 15582 := N_2; omega)

/-- An input window's array ends as the region found it. -/
theorem arrAt_in (c : Dev nD) (w : Fin cfg2.W) (hw : w ≠ 4) : (dat V c).arrAt w cfg2.N = V c (Pipeline.arrRef spec2 w) := by
  have hin : (cfg2.win w).isOut = false := by
    fin_cases w <;> first | rfl | exact absurd rfl hw
  exact ((dat V c).arrAt_in w hin _).trans (A_eq V c w)

end Cert.Kernel.Reg2

end
-- ==== Proof.K.Reg3Runs.lean ====
/-
  Region 3 (the last layer's scatter and the linear read-out): the body on any whole staging memrefs, case by case.

  The body has two conditions on the message chunk of the grid point: it is the first of its node tile (the
  accumulator is zeroed before the chunk's product is added) or the last (after the product is added, the output
  block is stored: the clamped accumulator plus bias, times the read-out weights, plus the read-out bias).  Each of
  the three cases that occur is run once: what the accumulator and, in the last case, the output's buffer hold
  afterwards is the body's arithmetic applied to the blocks it loaded.  Buffers a case does not touch are left out.
-/
import proofs.«115179_j73220602462691_1_alg».proof.Proof.Gen.Kernel.Launch
import proofs.«115179_j73220602462691_1_alg».proof.Proof.Gen.Kernel.Skeleton
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition, from the grid coordinates: the message chunk is the first of its node tile. -/
abbrev cond3_0 (i : grid3.Coords) : Prop := (Scalar.cmpi .ne (Scalar.extui (Scalar.cmpi .eq (BitVec.ofNat 32 (i 1).val) 0#32)) 0#32) = 1#1
/-- The body's second condition: the message chunk is the last of its node tile. -/
abbrev cond3_1 (i : grid3.Coords) : Prop := k3_cond2 i = 1#1

theorem hz2 : (![0, 0] : Fin 2 → Nat) = fun _ => 0 := funext fun a => by
  match a with
  | ⟨0, _⟩ => rfl
  | ⟨1, _⟩ => rfl

set_option maxHeartbeats 1000000 in
/-- First chunk of a node tile: the accumulator ends at the chunk's product added to the zero block. -/
theorem run_first (c : Dev nD) (E : Set ℕ) (i : grid3.Coords) (arg2 : Memref sig .tc .vmem S4096x32 .bf16) (harg2 : arg2.IsWhole) (arg3 : Memref sig .tc .vmem S1x4096 .i32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S2048x1 .f32) (harg7 : arg7.IsWhole) (arg8 : Memref sig .tc .vmem S2048x32 .f32) (harg8 : arg8.IsWhole) (hc0 : cond3_0 i) (hc1 : ¬cond3_1 i)
    (x0 : Vec F S4096x32 .bf16) (x1 : Vec F S1x4096 .i32) (K : PUnit → sProp 𝕄) :
    iprop(owns (c : Thread nD τ) arg2 fullShare x0 ∗ owns (c : Thread nD τ) arg3 fullShare x1
        ∗ (∃ d, owns (c : Thread nD τ) arg8 fullShare d)
        ∗ (iprop(owns (c : Thread nD τ) arg2 fullShare x0 ∗ owns (c : Thread nD τ) arg3 fullShare x1
            ∗ owns (c : Thread nD τ) arg8 fullShare (k3_pay2 i x1 (k3_pay1 (F := F)) x0)) -∗ K ⟨⟩))
      ⊢ wp frame (wpE (defs₀ (F := F)) Variants.none c none) E (cc3__scatter_final_kernel i arg2 harg2 arg3 harg3 arg4 harg4 arg5 harg5 arg6 harg6 arg7 harg7 arg8 harg8) K := by
  simp only [cc3__scatter_final_kernel_eq_skeleton]; unfold cc3__scatter_final_kernel_skel
  unfold owns
  iintro ⟨⟨%f0, %hf0, H0⟩, ⟨%f1, %hf1, H1⟩, ⟨%d8, %f8, -, H8⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H8
  ipureintro
  sl_unfold_words
  rw [View.read_writes_eq_canon _ _ _ (fun y => ⟨_, List.mem_cons_self, View.mem_set_unit_zero hz2 inb_S2048x32_S2048x32_0_0 y⟩)]
  rw [View.canon_cons_unit_zero (S := S2048x32) hz2, View.readCov_unit_zero (S := S2048x32) _ hz2]
  simp only [View.readAt_eq_ld, View.ld_unit_zero (S := S4096x32) hz2, View.ld_unit_zero (S := S1x4096) hz2]

set_option maxHeartbeats 1000000 in
/-- A chunk that is neither first nor last: the chunk's product is added to what the accumulator held. -/
theorem run_mid (c : Dev nD) (E : Set ℕ) (i : grid3.Coords) (arg2 : Memref sig .tc .vmem S4096x32 .bf16) (harg2 : arg2.IsWhole) (arg3 : Memref sig .tc .vmem S1x4096 .i32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S2048x1 .f32) (harg7 : arg7.IsWhole) (arg8 : Memref sig .tc .vmem S2048x32 .f32) (harg8 : arg8.IsWhole) (hc0 : ¬cond3_0 i) (hc1 : ¬cond3_1 i)
    (x0 : Vec F S4096x32 .bf16) (x1 : Vec F S1x4096 .i32) (xs : Vec F S2048x32 .f32) (K : PUnit → sProp 𝕄) :
    iprop(owns (c : Thread nD τ) arg2 fullShare x0 ∗ owns (c : Thread nD τ) arg3 fullShare x1
        ∗ owns (c : Thread nD τ) arg8 fullShare xs
        ∗ (iprop(owns (c : Thread nD τ) arg2 fullShare x0 ∗ owns (c : Thread nD τ) arg3 fullShare x1
            ∗ owns (c : Thread nD τ) arg8 fullShare (k3_pay2 i x1 xs x0)) -∗ K ⟨⟩))
      ⊢ wp frame (wpE (defs₀ (F := F)) Variants.none c none) E (cc3__scatter_final_kernel i arg2 harg2 arg3 harg3 arg4 harg4 arg5 harg5 arg6 harg6 arg7 harg7 arg8 harg8) K := by
  simp only [cc3__scatter_final_kernel_eq_skeleton]; unfold cc3__scatter_final_kernel_skel
  unfold owns
  iintro ⟨⟨%f0, %hf0, H0⟩, ⟨%f1, %hf1, H1⟩, ⟨%f8, %hf8, H8⟩, Hk⟩
  subst hf0; subst hf1; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H8
  ipureintro
  rw [View.read_writes_eq_canon _ _ _ (fun y => ⟨_, List.mem_cons_self, View.mem_set_unit_zero hz2 inb_S2048x32_S2048x32_0_0 y⟩)]
  rw [View.canon_cons_unit_zero (S := S2048x32) hz2]
  simp only [View.readAt_eq_ld, View.ld_unit_zero (S := S4096x32) hz2, View.ld_unit_zero (S := S1x4096) hz2, View.ld_unit_zero (S := S2048x32) hz2]

set_option maxHeartbeats 1000000 in
/-- Last chunk of a node tile: the product is added, then the read-out of the sum is stored into the output block. -/
theorem run_last (c : Dev nD) (E : Set ℕ) (i : grid3.Coords) (arg2 : Memref sig .tc .vmem S4096x32 .bf16) (harg2 : arg2.IsWhole) (arg3 : Memref sig .tc .vmem S1x4096 .i32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S2048x1 .f32) (harg7 : arg7.IsWhole) (arg8 : Memref sig .tc .vmem S2048x32 .f32) (harg8 : arg8.IsWhole) (hc0 : ¬cond3_0 i) (hc1 : cond3_1 i)
    (x0 : Vec F S4096x32 .bf16) (x1 : Vec F S1x4096 .i32) (x2 : Vec F S1x32 .f32) (x3 : Vec F S32x1 .f32) (x4 : Vec F S1x1 .f32)
    (xs : Vec F S2048x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k3_pay3 (k3_pay2 i x1 xs x0) x2 x3 x4)
            ∗ owns (c : Thread nD τ) arg8 fullShare (k3_pay2 i x1 xs x0)) -∗ K ⟨⟩))
      ⊢ wp frame (wpE (defs₀ (F := F)) Variants.none c none) E (cc3__scatter_final_kernel i arg2 harg2 arg3 harg3 arg4 harg4 arg5 harg5 arg6 harg6 arg7 harg7 arg8 harg8) K := by
  simp only [cc3__scatter_final_kernel_eq_skeleton]; unfold cc3__scatter_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  subst hf0; subst hf1; subst hf2; subst hf3; subst hf4; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_words
    rw [View.read_writes_eq_canon _ _ _ (fun y => ⟨_, List.mem_cons_self, View.mem_set_unit_zero hz2 inb_S2048x1_S2048x1_0_0 y⟩)]
    rw [View.canon_cons_unit_zero (S := S2048x1) hz2, View.readCov_unit_zero (S := S2048x32) _ hz2]
    simp only [View.readAt_eq_ld, View.ld_unit_zero (S := S4096x32) hz2, View.ld_unit_zero (S := S1x4096) hz2, View.ld_unit_zero (S := S2048x32) hz2, View.ld_unit_zero (S := S1x32) hz2, View.ld_unit_zero (S := S32x1) hz2, View.ld_unit_zero (S := S1x1) hz2]
  iexists _; isplitr
  swap; · iexact H8
  ipureintro
  sl_unfold_words
  rw [View.read_writes_eq_canon _ _ _ (fun y => ⟨_, List.mem_cons_self, View.mem_set_unit_zero hz2 inb_S2048x32_S2048x32_0_0 y⟩)]
  rw [View.canon_cons_unit_zero (S := S2048x32) hz2]
  simp only [View.readAt_eq_ld, View.ld_unit_zero (S := S4096x32) hz2, View.ld_unit_zero (S := S1x4096) hz2, View.ld_unit_zero (S := S2048x32) hz2]

end Cert.Kernel.Reg3

end
-- ==== Proof.K.Reg3Kit.lean ====
/-
  Region 3 (the last layer's scatter and the linear read-out): the schedule of its grid and the region invariant.

  The blocks the windows read at a grid point, the two conditions of the body in closed form over the point
  (the first chunk of a node tile: `t % 318 = 0`; its last chunk: `t % 318 = 317`), where the output window is
  idle, the staging memrefs the pipeline passes at a point, and the region invariant with the accumulator split out.
-/
import proofs.«115179_j73220602462691_1_alg».proof.Proof.K.Reg3Runs
import proofs.«115179_j73220602462691_1_alg».proof.Proof.Gen.Kernel.Points

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the point -/

/-- The message-chunk coordinate of point `t` is `t % 318`, -/
theorem coords3_1 (t : Fin cfg3.N) : (grid3.coords t 1).val = t.val % 318 := by
  show t.val / grid3.stride 1 % 318 = _
  rw [show grid3.stride 1 = 1 from by decide, Nat.div_one]
/-- and its node-tile coordinate `t / 318`. -/
theorem coords3_0 (t : Fin cfg3.N) : (grid3.coords t 0).val = t.val / 318 := by
  have hN : t.val < 15582 := lt_of_lt_of_eq t.isLt (show cfg3.N = 15582 from N_3)
  show t.val / grid3.stride 0 % 49 = _
  rw [show grid3.stride 0 = 318 from by decide]
  exact Nat.mod_eq_of_lt (by omega)

/-- A number below 2³² whose word is compared with the word of `k`: the comparison's bit, widened and compared
    with zero, is set exactly when the number is `k`. -/
theorem eq_word_iff (n k : ℕ) (hn : n < 2 ^ 32) (hk : k < 2 ^ 32) :
    (Scalar.cmpi .ne (Scalar.extui (Scalar.cmpi .eq (BitVec.ofNat 32 n) (BitVec.ofNat 32 k))) 0#32) = 1#1 ↔ n = k := by
  show BitVec.ofBool ((BitVec.ofBool (BitVec.ofNat 32 n == BitVec.ofNat 32 k)).setWidth 32 != 0#32) = 1#1 ↔ n = k
  by_cases h : n = k
  · subst h
    rw [beq_self_eq_true]
    exact ⟨fun _ => rfl, fun _ => by decide⟩
  · have hne : (BitVec.ofNat 32 n == BitVec.ofNat 32 k) = false := by
      rw [beq_eq_false_iff_ne]
      intro e
      have e' := congrArg BitVec.toNat e
      rw [BitVec.toNat_ofNat, BitVec.toNat_ofNat, Nat.mod_eq_of_lt hn, Nat.mod_eq_of_lt hk] at e'
      exact h e'
    rw [hne]
    exact ⟨fun hc => absurd hc (by decide), fun e => absurd e h⟩

/-- The first condition holds at the points ≡ 0 (mod 318). -/
theorem hcond3_0 (t : Fin cfg3.N) : cond3_0 (grid3.coords t) ↔ t.val % 318 = 0 := by
  rw [← coords3_1 t]
  have hlt : (grid3.coords t 1).val < 318 := (grid3.coords t 1).isLt
  exact eq_word_iff _ 0 (by omega) (by omega)

/-- The second condition holds at the points ≡ 317 (mod 318). -/
theorem hcond3_1 (t : Fin cfg3.N) : cond3_1 (grid3.coords t) ↔ t.val % 318 = 317 := by
  rw [← coords3_1 t]
  have hlt : (grid3.coords t 1).val < 318 := (grid3.coords t 1).isLt
  exact eq_word_iff _ 317 (by omega) (by omega)

/-! ## Where the windows are idle -/

/-- The inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
/-- Where the second condition fails the output window is idle: the body stores nothing into it, -/
theorem idleAt3_5 (i : grid3.Coords) (h : ¬cond3_1 i) : cfg3.idle 5 i = true := by
  show (!(k3_cond2 i == 1#1)) = true
  rw [beq_eq_false_iff_ne.mpr h]; rfl
/-- and the pipeline does not write its block back. -/
theorem noFlush3_5 (t : Fin cfg3.N) (h : ¬t.val % 318 = 317) : (cfg3.win 5).flush t = false :=
  Bool.eq_false_iff.mpr fun hf => h ((flush3_5 t).mp hf)
/-- Where it holds the output window is live. -/
theorem liveAt3_5 (i : grid3.Coords) (h : cond3_1 i) : cfg3.idle 5 i = false := by
  show (!(k3_cond2 i == 1#1)) = false
  rw [show k3_cond2 i = 1#1 from h]; rfl

/-! ## The memrefs the body is called with -/

/-- Each window's current staging memref at point `t`, as the pipeline passes it, and its wholeness. -/
abbrev ms3_0 (t : Fin cfg3.N) : Memref sig .tc .vmem S4096x32 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x4096 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x32 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S32x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x1 .f32 := win3_5.stage (cfg3.slots t 5)
abbrev hs3_5 (t : Fin cfg3.N) : (ms3_5 t).IsWhole := hstage3_5 ((cfg3.slots t 5).cast nbuf3_5)
/-- The accumulator: a whole scoped buffer of the kernel's own, passed beside the windows. -/
abbrev scM3_0 : Memref sig .tc .vmem S2048x32 .f32 := Memref.whole cc3_scratch0

/-- The scoped buffers of the core other than the staging buffers and the accumulator, unopened. -/
abbrev restBut (c : Dev nD) : sProp 𝕄 :=
  Pipeline.scopedRestBut (Ix := Unit) (Name := ℕ) (U := UR sig nD τ) (Lvl := ℕ) (Val := Elt F) spec3 c [cc3_scratch0]

/-- The region invariant as the launch hands it over, with the accumulator as a memref owned at some contents. -/
theorem PhiA3_eq (c : Dev nD) :
    (Pipeline.ΦA spec3 c : sProp 𝕄)
      = iprop(iprop(iprop((∃ d, owns (c : Thread nD τ) scM3_0 fullShare d)) ∗ restBut (F := F) c) ∗ (∃ r, prngReg c r)) := by
  unfold Pipeline.ΦA; rw [scopedRest3_split]; simp only [scM3_0, owns_whole]; try rfl

end Cert.Kernel.Reg3

end
-- ==== Proof.K.Reg3.lean ====
/-
  Region 3: the last graph-convolution layer's scatter followed by the linear read-out, as the pipeline runs it.

  The grid is 49 node tiles by 318 message chunks; point `t` is node tile `t / 318` at chunk `t % 318`.  At every
  point the body adds to a 2048 x 32 accumulator the product of the 0/1 matrix "row `r` of the tile is the
  destination of message `e` of the chunk" with the chunk's 4096 x 32 block of messages; at a tile's first chunk the
  accumulator is zeroed first, and at its last chunk the output block, the clamped accumulator plus bias times the
  read-out weights plus the read-out bias, is stored.  The accumulator is carried from point to point: the
  invariant before a point other than the first says that it holds what the point before left, a function
  (`scrAt`) of the blocks read so far.  Elsewhere than at a tile's last chunk the output window is idle.
-/
import proofs.«115179_j73220602462691_1_alg».proof.Proof.K.Reg3Kit

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulator holds after each point -/

/-- The accumulator after the body at position `n`: at a tile's first chunk the chunk's product added to the zero
    block, elsewhere added to what the point before left. -/
def scrAt (c : Dev nD) : (n : ℕ) → n < cfg3.N → Vec F S2048x32 .f32
  | 0, hn => k3_pay2 (grid3.coords ⟨0, hn⟩) (iblk V c 1 ⟨0, hn⟩) (k3_pay1 (F := F)) (iblk V c 0 ⟨0, hn⟩)
  | n + 1, hn =>
    if (n + 1) % 318 = 0 then
      k3_pay2 (grid3.coords ⟨n + 1, hn⟩) (iblk V c 1 ⟨n + 1, hn⟩) (k3_pay1 (F := F)) (iblk V c 0 ⟨n + 1, hn⟩)
    else
      k3_pay2 (grid3.coords ⟨n + 1, hn⟩) (iblk V c 1 ⟨n + 1, hn⟩) (scrAt c n (Nat.lt_of_succ_lt hn)) (iblk V c 0 ⟨n + 1, hn⟩)

/-- At a tile's first chunk. -/
theorem scrAt_first (c : Dev nD) (t : Fin cfg3.N) (h0 : t.val % 318 = 0) :
    scrAt V c t.val t.isLt = k3_pay2 (grid3.coords t) (iblk V c 1 t) (k3_pay1 (F := F)) (iblk V c 0 t) := by
  obtain ⟨n, hn⟩ := t
  cases n with
  | zero => exact rfl
  | succ n => exact if_pos h0

/-- At any other chunk. -/
theorem scrAt_next (c : Dev nD) (t : Fin cfg3.N) (h0 : ¬t.val % 318 = 0) :
    scrAt V c t.val t.isLt = k3_pay2 (grid3.coords t) (iblk V c 1 t)
      (scrAt V c (t.val - 1) (Nat.lt_of_le_of_lt (Nat.sub_le _ _) t.isLt)) (iblk V c 0 t) := by
  obtain ⟨n, hn⟩ := t
  cases n with
  | zero => exact absurd (Nat.zero_mod _) h0
  | succ n => exact if_neg h0

/-- The region invariant before position `n`: before the first point what the launch hands over; afterwards the
    accumulator at what the point before left, the other scoped buffers unopened, the generator register at some
    state. -/
def PhiS (c : Dev nD) : (n : ℕ) → n ≤ cfg3.N → sProp 𝕄
  | 0, _ => Pipeline.ΦA spec3 c
  | n + 1, hn => iprop(iprop(iprop(owns (c : Thread nD τ) scM3_0 fullShare (scrAt V c n hn)) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM3_0 fullShare (scrAt V c n hn)) ∗ restBut (F := F) c) ∗ (∃ r, prngReg c r)) := rfl

theorem PhiS_pos (c : Dev nD) (n : ℕ) (h : n ≤ cfg3.N) (hz : n ≠ 0) :
    PhiS V c n h = iprop(iprop(iprop(owns (c : Thread nD τ) scM3_0 fullShare (scrAt V c (n - 1) (by omega))) ∗ restBut (F := F) c) ∗ (∃ r, prngReg c r)) := by
  cases n with
  | zero => exact absurd rfl hz
  | succ n => rfl

/-! ## The pipeline's proof data -/

/-- The proof data of the region on core `c`: the arrays as the region finds them; after the body at a point each
    input's buffer at its block and the output's at the read-out of the accumulator (consulted only at a tile's
    last chunk); the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k3_pay3 (scrAt V c t.val t.isLt) (iblk V c 2 t) (iblk V c 3 t) (iblk V c 4 t)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = iblk V c 4 t := by dsimp only [dat]
theorem after3_5 (c : Dev nD) (t : Fin cfg3.N) :
    (dat V c).after 5 t = k3_pay3 (scrAt V c t.val t.isLt) (iblk V c 2 t) (iblk V c 3 t) (iblk V c 4 t) := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d
theorem before3_4 (c : Dev nD) (t : Fin cfg3.N) (d) : (dat V c).before 4 t d = iblk V c 4 t :=
  before3_4_of V (dat V c) (A_eq V c 4) (after3_4 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms3_0 t) fullShare ((dat V c).before 0 t d))
    ∗ (∃ d, owns (c : Thread nD τ) (ms3_1 t) fullShare ((dat V c).before 1 t d))
    ∗ (∃ d, owns (c : Thread nD τ) (ms3_2 t) fullShare ((dat V c).before 2 t d))
    ∗ (∃ d, owns (c : Thread nD τ) (ms3_3 t) fullShare ((dat V c).before 3 t d))
    ∗ (∃ d, owns (c : Thread nD τ) (ms3_4 t) fullShare ((dat V c).before 4 t d))
    ∗ (∃ d, owns (c : Thread nD τ) (ms3_5 t) fullShare ((dat V c).before 5 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which of the three cases
    the point is in; the invariant hands the body the accumulator at what the point before left (at anything at the
    first point) and takes it back at this point's contents; where the output window is idle its buffer goes back
    as it came; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4]
  rw [show (dat V c).owesAt () t.succ = (dat V c).owesAt () t.castSucc from rfl]
  rw [show (dat V c).Φ t.succ = PhiS V c (t.val + 1) t.isLt from rfl, PhiS_succ]
  have hN : t.val < 15582 := lt_of_lt_of_eq t.isLt (show cfg3.N = 15582 from N_3)
  rw [show (dat V c).leavesExact 0 t = owns (c : Thread nD τ) (ms3_0 t) fullShare ((dat V c).after 0 t) from by
    unfold Dat.leavesExact; rw [liveAt3_0 t], after3_0]
  rw [show (dat V c).leavesExact 1 t = owns (c : Thread nD τ) (ms3_1 t) fullShare ((dat V c).after 1 t) from by
    unfold Dat.leavesExact; rw [liveAt3_1 t], after3_1]
  rw [show (dat V c).leavesExact 2 t = owns (c : Thread nD τ) (ms3_2 t) fullShare ((dat V c).after 2 t) from by
    unfold Dat.leavesExact; rw [liveAt3_2 t], after3_2]
  rw [show (dat V c).leavesExact 3 t = owns (c : Thread nD τ) (ms3_3 t) fullShare ((dat V c).after 3 t) from by
    unfold Dat.leavesExact; rw [liveAt3_3 t], after3_3]
  rw [show (dat V c).leavesExact 4 t = owns (c : Thread nD τ) (ms3_4 t) fullShare ((dat V c).after 4 t) from by
    unfold Dat.leavesExact; rw [liveAt3_4 t], after3_4]
  by_cases h0 : t.val % 318 = 0
  · have h1 : ¬t.val % 318 = 317 := by omega
    rw [Dat.leavesExact_idle (dat V c) 5 t (idleAt3_5 _ (fun h => h1 ((hcond3_1 t).mp h))) (noFlush3_5 t h1)]
    rw [scrAt_first V c t h0]
    by_cases hz : t.val = 0
    · rw [PhiS_castSucc V c t, PhiS_zero V c _ _ hz, PhiA3_eq]
      iintro ⟨⟨⟨HS0, HR⟩, Hg⟩, Ho, ⟨%d0, H0⟩, ⟨%d1, H1⟩, ⟨%d2, H2⟩, ⟨%d3, H3⟩, ⟨%d4, H4⟩, H5⟩
      iapply (run_first c Set.univ (grid3.coords t) _ _ _ _ _ _ _ _ _ _ _ _ _ _ ((hcond3_0 t).mpr h0) (fun h => h1 ((hcond3_1 t).mp h)) (iblk V c 0 t) (iblk V c 1 t) _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, H5⟩
      iapply (run_first c Set.univ (grid3.coords t) _ _ _ _ _ _ _ _ _ _ _ _ _ _ ((hcond3_0 t).mpr h0) (fun h => h1 ((hcond3_1 t).mp h)) (iblk V c 0 t) (iblk V c 1 t) _)
      isplitl [H0]; · iexact H0
      isplitl [H1]; · iexact H1
      isplitl [HS0]; · iexists _; iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    rw [scrAt_next V c t h0]
    rw [PhiS_castSucc V c t, PhiS_pos V c _ _ hz]
    by_cases h1 : t.val % 318 = 317
    · rw [show (dat V c).leavesExact 5 t = owns (c : Thread nD τ) (ms3_5 t) fullShare ((dat V c).after 5 t) from by
        unfold Dat.leavesExact; rw [liveAt3_5 _ ((hcond3_1 t).mpr h1)], after3_5]
      rw [scrAt_next V c t h0]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (run_last c Set.univ (grid3.coords t) _ _ _ _ _ _ _ _ _ _ _ _ _ _ (fun h => h0 ((hcond3_0 t).mp h)) ((hcond3_1 t).mpr h1) (iblk V c 0 t) (iblk V c 1 t) (iblk V c 2 t) (iblk V c 3 t) (iblk V c 4 t) (scrAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat V c) 5 t (idleAt3_5 _ (fun h => h1 ((hcond3_1 t).mp h))) (noFlush3_5 t h1)]
      iintro ⟨⟨⟨HS0, HR⟩, Hg⟩, Ho, ⟨%d0, H0⟩, ⟨%d1, H1⟩, ⟨%d2, H2⟩, ⟨%d3, H3⟩, ⟨%d4, H4⟩, H5⟩
      iapply (run_mid c Set.univ (grid3.coords t) _ _ _ _ _ _ _ _ _ _ _ _ _ _ (fun h => h0 ((hcond3_0 t).mp h)) (fun h => h1 ((hcond3_1 t).mp h)) (iblk V c 0 t) (iblk V c 1 t) (scrAt V c (t.val - 1) (Nat.lt_of_le_of_lt (Nat.sub_le _ _) t.isLt)) _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : (Pipeline.ΦA spec3 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg3.N + 1)) (ht : t.val ≠ 0) : (dat V c).Φ t ⊢ (Pipeline.ΦA spec3 c : sProp 𝕄) := by
  rw [show (dat V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

theorem hout (c : Dev nD) : (dat V c).Φ (Fin.last cfg3.N) ⊢ (Pipeline.ΦA spec3 c : sProp 𝕄) :=
  Phi_out V c _ (by rw [Fin.val_last]; have : cfg3.N = 15582 := N_3; omega)

/-- An input window's array ends as the region found it. -/
theorem arrAt_in (c : Dev nD) (w : Fin cfg3.W) (hw : w ≠ 5) : (dat V c).arrAt w cfg3.N = V c (Pipeline.arrRef spec3 w) := by
  have hin : (cfg3.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat V c).arrAt_in w hin _).trans (A_eq V c w)

end Cert.Kernel.Reg3

end
-- ==== Proof.K.Run.lean ====
/-
  The program's run, region by region.

  @main is host operations, then four kernel regions with host operations between them.  Each region's proof data
  says what its pipeline leaves in its arrays; here these are threaded through @main: the buffers' contents after each
  item are named (`outs`), each region becomes a segment entered from the contents before it and left at the contents
  after it, and the launch theorem for a list of segments gives that every weakly fair execution terminates with
  every unscoped buffer at the last contents — from which both the frame (the arguments end as launched) and the
  result's value are read.
-/
import proofs.«115179_j73220602462691_1_alg».proof.Proof.Gen.Kernel.Regions
import proofs.«115179_j73220602462691_1_alg».proof.Proof.K.Reg0
import proofs.«115179_j73220602462691_1_alg».proof.Proof.K.Reg1
import proofs.«115179_j73220602462691_1_alg».proof.Proof.K.Reg2
import proofs.«115179_j73220602462691_1_alg».proof.Proof.K.Reg3
import Idealize.ShloMosaic.Lib.Pipeline.FrameSuffix
import Idealize.ShloMosaic.Lib.Pipeline.RegionsLoop
import Idealize.ShloMosaic.Lib.Pipeline.Kit
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the regions leave, stage by stage

Each region's arrays end at what its pipeline leaves (`Dat.arrAt … N`); every other buffer is as the region was
entered.  The contents after a region feed the host operations and the regions after it, so they are named in
order: `W11` from the launch contents alone, `W13` from `W11`, and so on. -/

def W11 (c : Dev nD) : Valuation τ sig (Elt F) :=
  Pipeline.withArrays spec0 c (V10 m c) fun w => (Reg0.dat (fun c b => V10 m c b) c).arrAt w cfg0.N
def o1 : Outs (F := F) := fun _ r c => W11 m c r
def W13 (c : Dev nD) : Valuation τ sig (Elt F) :=
  Pipeline.withArrays spec1 c (V12 m (o1 m) c) fun w => (Reg1.dat (fun c b => V12 m (o1 m) c b) c).arrAt w cfg1.N
def o2 : Outs (F := F) := fun J r c => if J = 11 then W11 m c r else W13 m c r
def W14 (c : Dev nD) : Valuation τ sig (Elt F) :=
  Pipeline.withArrays spec2 c (V13 m (o2 m) c) fun w => (Reg2.dat (fun c b => V13 m (o2 m) c b) c).arrAt w cfg2.N
def o3 : Outs (F := F) := fun J r c => if J = 11 then W11 m c r else if J = 13 then W13 m c r else W14 m c r
def W16 (c : Dev nD) : Valuation τ sig (Elt F) :=
  Pipeline.withArrays spec3 c (V15 m (o3 m) c) fun w => (Reg3.dat (fun c b => V15 m (o3 m) c b) c).arrAt w cfg3.N
/-- What every region leaves. -/
def outs : Outs (F := F) := fun J r c =>
  if J = 11 then W11 m c r else if J = 13 then W13 m c r else if J = 14 then W14 m c r else W16 m c r

theorem outs_at11 (r : Ref sig .tc) (c : Dev nD) : outs m 11 r c = W11 m c r := if_pos rfl
theorem outs_at13 (r : Ref sig .tc) (c : Dev nD) : outs m 13 r c = W13 m c r :=
  (if_neg (by decide)).trans (if_pos rfl)
theorem outs_at14 (r : Ref sig .tc) (c : Dev nD) : outs m 14 r c = W14 m c r :=
  (if_neg (by decide)).trans ((if_neg (by decide)).trans (if_pos rfl))
theorem outs_at16 (r : Ref sig .tc) (c : Dev nD) : outs m 16 r c = W16 m c r :=
  (if_neg (by decide)).trans ((if_neg (by decide)).trans (if_neg (by decide)))
theorem o2_at11 (r : Ref sig .tc) (c : Dev nD) : o2 m 11 r c = W11 m c r := if_pos rfl
theorem o2_at13 (r : Ref sig .tc) (c : Dev nD) : o2 m 13 r c = W13 m c r := if_neg (by decide)
theorem o3_at11 (r : Ref sig .tc) (c : Dev nD) : o3 m 11 r c = W11 m c r := if_pos rfl
theorem o3_at13 (r : Ref sig .tc) (c : Dev nD) : o3 m 13 r c = W13 m c r := (if_neg (by decide)).trans (if_pos rfl)
theorem o3_at14 (r : Ref sig .tc) (c : Dev nD) : o3 m 14 r c = W14 m c r := (if_neg (by decide)).trans (if_neg (by decide))

theorem V11_stage (o o' : Outs (F := F)) (c : Dev nD) (h : o 11 main_v37 c = o' 11 main_v37 c) : V11 m o c = V11 m o' c := by
  unfold V11; rw [h]
theorem V12_stage (o o' : Outs (F := F)) (c : Dev nD) (h : o 11 main_v37 c = o' 11 main_v37 c) : V12 m o c = V12 m o' c := by
  unfold V12; rw [V11_stage m o o' c h]
theorem V13_stage (o o' : Outs (F := F)) (c : Dev nD) (h11 : o 11 main_v37 c = o' 11 main_v37 c) (h13 : o 13 main_v39 c = o' 13 main_v39 c) :
    V13 m o c = V13 m o' c := by
  unfold V13; rw [V12_stage m o o' c h11, h13]
theorem V14_stage (o o' : Outs (F := F)) (c : Dev nD) (h11 : o 11 main_v37 c = o' 11 main_v37 c) (h13 : o 13 main_v39 c = o' 13 main_v39 c)
    (h14 : o 14 main_v40 c = o' 14 main_v40 c) : V14 m o c = V14 m o' c := by
  unfold V14; rw [V13_stage m o o' c h11 h13, h14]
theorem V15_stage (o o' : Outs (F := F)) (c : Dev nD) (h11 : o 11 main_v37 c = o' 11 main_v37 c) (h13 : o 13 main_v39 c = o' 13 main_v39 c)
    (h14 : o 14 main_v40 c = o' 14 main_v40 c) : V15 m o c = V15 m o' c := by
  unfold V15; rw [V14_stage m o o' c h11 h13 h14]

theorem V12_outs (c : Dev nD) : V12 m (outs m) c = V12 m (o1 m) c :=
  V12_stage m _ _ c (outs_at11 m _ c)
theorem V13_outs (c : Dev nD) : V13 m (outs m) c = V13 m (o2 m) c :=
  V13_stage m _ _ c ((outs_at11 m _ c).trans (o2_at11 m _ c).symm) ((outs_at13 m _ c).trans (o2_at13 m _ c).symm)
theorem V15_outs (c : Dev nD) : V15 m (outs m) c = V15 m (o3 m) c :=
  V15_stage m _ _ c ((outs_at11 m _ c).trans (o3_at11 m _ c).symm) ((outs_at13 m _ c).trans (o3_at13 m _ c).symm)
    ((outs_at14 m _ c).trans (o3_at14 m _ c).symm)

/-- The contents each region is entered with, read at the TensorCore's references. -/
abbrev En0 : (c : Dev nD) → (b : Ref sig .tc) → Buf (Elt F) ((c : Thread nD τ).loc b) := fun c b => V10 m c b
abbrev En1 : (c : Dev nD) → (b : Ref sig .tc) → Buf (Elt F) ((c : Thread nD τ).loc b) := fun c b => V12 m (outs m) c b
abbrev En2 : (c : Dev nD) → (b : Ref sig .tc) → Buf (Elt F) ((c : Thread nD τ).loc b) := fun c b => V13 m (outs m) c b
abbrev En3 : (c : Dev nD) → (b : Ref sig .tc) → Buf (Elt F) ((c : Thread nD τ).loc b) := fun c b => V15 m (outs m) c b

/-- The stage forms the definitions above are written over are the same contents. -/
theorem En1_stage : (fun (c : Dev nD) (b : Ref sig .tc) => V12 m (o1 m) c b) = En1 m :=
  funext fun c => funext fun b => (congrFun (V12_outs m c) _).symm
theorem En2_stage : (fun (c : Dev nD) (b : Ref sig .tc) => V13 m (o2 m) c b) = En2 m :=
  funext fun c => funext fun b => (congrFun (V13_outs m c) _).symm
theorem En3_stage : (fun (c : Dev nD) (b : Ref sig .tc) => V15 m (o3 m) c b) = En3 m :=
  funext fun c => funext fun b => (congrFun (V15_outs m c) _).symm

theorem outs_11 (c : Dev nD) : outs m 11 main_v37 c = (Reg0.dat (En0 m) c).arrAt 4 cfg0.N := by
  rw [outs_at11]; unfold W11
  exact Pipeline.withArrays_arr spec0 launch0.win.arr_inj c _ _ 4
theorem outs_13 (c : Dev nD) : outs m 13 main_v39 c = (Reg1.dat (En1 m) c).arrAt 3 cfg1.N := by
  rw [outs_at13, ← En1_stage m]; unfold W13
  exact Pipeline.withArrays_arr spec1 launch1.win.arr_inj c _ _ 3
theorem outs_14 (c : Dev nD) : outs m 14 main_v40 c = (Reg2.dat (En2 m) c).arrAt 4 cfg2.N := by
  rw [outs_at14, ← En2_stage m]; unfold W14
  exact Pipeline.withArrays_arr spec2 launch2.win.arr_inj c _ _ 4
theorem outs_16 (c : Dev nD) : outs m 16 main_v43 c = (Reg3.dat (En3 m) c).arrAt 5 cfg3.N := by
  rw [outs_at16, ← En3_stage m]; unfold W16
  exact Pipeline.withArrays_arr spec3 launch3.win.arr_inj c _ _ 5

/-! ## The proof data family and what rides beside the buffers -/

abbrev adm' : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm' p) c
  | ⟨0, _⟩ => fun c => Reg0.dat (En0 m) c
  | ⟨1, _⟩ => fun c => Reg1.dat (En1 m) c
  | ⟨2, _⟩ => fun c => Reg2.dat (En2 m) c
  | ⟨3, _⟩ => fun c => Reg3.dat (En3 m) c

abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

/-! ## Region 0 as a segment -/

theorem hF0 (c : Dev nD) : ∀ w : Fin cfg0.W, (pdats m 0 c).arrAt w cfg0.N = V11 m (outs m) c (Pipeline.arrRef spec0 w) :=
  fun
    | 0 => (Reg0.arrAt_in (En0 m) c 0 (by decide)).trans (V11_of m (outs m) c _ (by decide)).symm
    | 1 => (Reg0.arrAt_in (En0 m) c 1 (by decide)).trans (V11_of m (outs m) c _ (by decide)).symm
    | 2 => (Reg0.arrAt_in (En0 m) c 2 (by decide)).trans (V11_of m (outs m) c _ (by decide)).symm
    | 3 => (Reg0.arrAt_in (En0 m) c 3 (by decide)).trans (V11_of m (outs m) c _ (by decide)).symm
    | 4 => (outs_11 m c).symm.trans (by simp only [V11, Function.update_self])

theorem hrest0 (c : Dev nD) : ∀ b : Ref sig .tc, b ∉ Finset.univ.image (Pipeline.arrRef spec0) → V11 m (outs m) c b = V10 m c b :=
  fun b hb => V11_of m (outs m) c b (by
    intro h; rw [List.mem_singleton] at h; subst h
    exact hb (Finset.mem_image.mpr ⟨4, Finset.mem_univ _, rfl⟩))

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (En0 m) c).loose
  hwaits := Pipeline.hwaits_of_owed_zero _ _ _ _ L lv 0 fun _ _ => rfl
  pre c := iprop(StableHlo.held (c : Thread nD τ) (Pipeline.ucRefs τ sig) (V10 m c) ∗ E 0 c)
  post c := iprop(StableHlo.held (c : Thread nD τ) (Pipeline.ucRefs τ sig) (V11 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (En0 m c) fun w => Reg0.A_eq (En0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm' (F := F) 0).1
          ∗ Pipeline.scopedRest (Pipeline.pin (pcfgs (F := F)) adm' 0).spec c) : sProp 𝕄) ⊢ Pipeline.ΦA spec0 c := by
      unfold Pipeline.ΦA
      iintro ⟨Hp, -, Hr⟩
      isplitl [Hr]; · iexact Hr
      iexact Hp
    exact h.trans (Reg0.hin (En0 m) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) adm' 0).spec c) := by
      unfold Pipeline.ΦA
      iintro ⟨Hr, Hp⟩
      isplitl [Hp]; · iexact Hp
      isplitr; · iempintro
      iexact Hr
    exact (Reg0.hout (En0 m) c).trans h
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (En0 m c) (fun b => V11 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

theorem hF1 (c : Dev nD) : ∀ w : Fin cfg1.W, (pdats m 1 c).arrAt w cfg1.N = V13 m (outs m) c (Pipeline.arrRef spec1 w) :=
  fun
    | 0 => (Reg1.arrAt_in (En1 m) c 0 (by decide)).trans (V13_of m (outs m) c _ (by decide)).symm
    | 1 => (Reg1.arrAt_in (En1 m) c 1 (by decide)).trans (V13_of m (outs m) c _ (by decide)).symm
    | 2 => (Reg1.arrAt_in (En1 m) c 2 (by decide)).trans (V13_of m (outs m) c _ (by decide)).symm
    | 3 => (outs_13 m c).symm.trans (by simp only [V13, Function.update_self])

theorem hrest1 (c : Dev nD) : ∀ b : Ref sig .tc, b ∉ Finset.univ.image (Pipeline.arrRef spec1) → V13 m (outs m) c b = V12 m (outs m) c b :=
  fun b hb => V13_of m (outs m) c b (by
    intro h; rw [List.mem_singleton] at h; subst h
    exact hb (Finset.mem_image.mpr ⟨3, Finset.mem_univ _, rfl⟩))

set_option backward.isDefEq.respectTransparency.types false in
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (En1 m) c).loose
  hwaits := Pipeline.hwaits_of_owed_zero _ _ _ _ L lv 1 fun _ _ => rfl
  pre c := iprop(StableHlo.held (c : Thread nD τ) (Pipeline.ucRefs τ sig) (V12 m (outs m) c) ∗ E 1 c)
  post c := iprop(StableHlo.held (c : Thread nD τ) (Pipeline.ucRefs τ sig) (V13 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (En1 m c) fun w => Reg1.A_eq (En1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm' (F := F) 1).1
          ∗ Pipeline.scopedRest (Pipeline.pin (pcfgs (F := F)) adm' 1).spec c) : sProp 𝕄) ⊢ Pipeline.ΦA spec1 c := by
      unfold Pipeline.ΦA
      iintro ⟨Hp, -, Hr⟩
      isplitl [Hr]; · iexact Hr
      iexact Hp
    exact h.trans (Reg1.hin (En1 m) c)
  hout c := by
    rw [Pipeline.ownSems0_none]
    have h : (Pipeline.ΦA spec1 c : sProp 𝕄) ⊢ iprop((∃ r, prngReg c r) ∗ BI.emp
          ∗ Pipeline.scopedRest (Pipeline.pin (pcfgs (F := F)) adm' 1).spec c) := by
      unfold Pipeline.ΦA
      iintro ⟨Hr, Hp⟩
      isplitl [Hp]; · iexact Hp
      isplitr; · iempintro
      iexact Hr
    exact (Reg1.hout (En1 m) c).trans h
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (En1 m c) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

theorem hF2 (c : Dev nD) : ∀ w : Fin cfg2.W, (pdats m 2 c).arrAt w cfg2.N = V14 m (outs m) c (Pipeline.arrRef spec2 w) :=
  fun
    | 0 => (Reg2.arrAt_in (En2 m) c 0 (by decide)).trans (V14_of m (outs m) c _ (by decide)).symm
    | 1 => (Reg2.arrAt_in (En2 m) c 1 (by decide)).trans (V14_of m (outs m) c _ (by decide)).symm
    | 2 => (Reg2.arrAt_in (En2 m) c 2 (by decide)).trans (V14_of m (outs m) c _ (by decide)).symm
    | 3 => (Reg2.arrAt_in (En2 m) c 3 (by decide)).trans (V14_of m (outs m) c _ (by decide)).symm
    | 4 => (outs_14 m c).symm.trans (by simp only [V14, Function.update_self])

theorem hrest2 (c : Dev nD) : ∀ b : Ref sig .tc, b ∉ Finset.univ.image (Pipeline.arrRef spec2) → V14 m (outs m) c b = V13 m (outs m) c b :=
  fun b hb => V14_of m (outs m) c b (by
    intro h; rw [List.mem_singleton] at h; subst h
    exact hb (Finset.mem_image.mpr ⟨4, Finset.mem_univ _, rfl⟩))

set_option backward.isDefEq.respectTransparency.types false in
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (En2 m) c).loose
  hwaits := Pipeline.hwaits_of_owed_zero _ _ _ _ L lv 2 fun _ _ => rfl
  pre c := iprop(StableHlo.held (c : Thread nD τ) (Pipeline.ucRefs τ sig) (V13 m (outs m) c) ∗ E 2 c)
  post c := iprop(StableHlo.held (c : Thread nD τ) (Pipeline.ucRefs τ sig) (V14 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (En2 m c) fun w => Reg2.A_eq (En2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm' (F := F) 2).1
          ∗ Pipeline.scopedRest (Pipeline.pin (pcfgs (F := F)) adm' 2).spec c) : sProp 𝕄) ⊢ Pipeline.ΦA spec2 c := by
      unfold Pipeline.ΦA
      iintro ⟨Hp, -, Hr⟩
      isplitl [Hr]; · iexact Hr
      iexact Hp
    exact h.trans (Reg2.hin (En2 m) c)
  hout c := by
    rw [Pipeline.ownSems0_none]
    have h : (Pipeline.ΦA spec2 c : sProp 𝕄) ⊢ iprop((∃ r, prngReg c r) ∗ BI.emp
          ∗ Pipeline.scopedRest (Pipeline.pin (pcfgs (F := F)) adm' 2).spec c) := by
      unfold Pipeline.ΦA
      iintro ⟨Hr, Hp⟩
      isplitl [Hp]; · iexact Hp
      isplitr; · iempintro
      iexact Hr
    exact (Reg2.hout (En2 m) c).trans h
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (En2 m c) (fun b => V14 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

theorem hF3 (c : Dev nD) : ∀ w : Fin cfg3.W, (pdats m 3 c).arrAt w cfg3.N = V16 m (outs m) c (Pipeline.arrRef spec3 w) :=
  fun
    | 0 => (Reg3.arrAt_in (En3 m) c 0 (by decide)).trans (V16_of m (outs m) c _ (by decide)).symm
    | 1 => (Reg3.arrAt_in (En3 m) c 1 (by decide)).trans (V16_of m (outs m) c _ (by decide)).symm
    | 2 => (Reg3.arrAt_in (En3 m) c 2 (by decide)).trans (V16_of m (outs m) c _ (by decide)).symm
    | 3 => (Reg3.arrAt_in (En3 m) c 3 (by decide)).trans (V16_of m (outs m) c _ (by decide)).symm
    | 4 => (Reg3.arrAt_in (En3 m) c 4 (by decide)).trans (V16_of m (outs m) c _ (by decide)).symm
    | 5 => (outs_16 m c).symm.trans (by simp only [V16, Function.update_self])

theorem hrest3 (c : Dev nD) : ∀ b : Ref sig .tc, b ∉ Finset.univ.image (Pipeline.arrRef spec3) → V16 m (outs m) c b = V15 m (outs m) c b :=
  fun b hb => V16_of m (outs m) c b (by
    intro h; rw [List.mem_singleton] at h; subst h
    exact hb (Finset.mem_image.mpr ⟨5, Finset.mem_univ _, rfl⟩))

set_option backward.isDefEq.respectTransparency.types false in
def reg3 : Pipeline.RegionSeg (pcfgs (F := F)) adm' (pdats m) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation (En3 m) c).loose
  hwaits := Pipeline.hwaits_of_owed_zero _ _ _ _ L lv 3 fun _ _ => rfl
  pre c := iprop(StableHlo.held (c : Thread nD τ) (Pipeline.ucRefs τ sig) (V15 m (outs m) c) ∗ E 3 c)
  post c := iprop(StableHlo.held (c : Thread nD τ) (Pipeline.ucRefs τ sig) (V16 m (outs m) c) ∗ E 4 c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm' (pdats m) launch3.win launch3.arr_whole c
      ((pdats m 3 c).share_full fun _ => rfl) (En3 m c) fun w => Reg3.A_eq (En3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 3).pre c (fun _ => fullShare) (adm' (F := F) 3).1
          ∗ Pipeline.scopedRest (Pipeline.pin (pcfgs (F := F)) adm' 3).spec c) : sProp 𝕄) ⊢ Pipeline.ΦA spec3 c := by
      unfold Pipeline.ΦA
      iintro ⟨Hp, -, Hr⟩
      isplitl [Hr]; · iexact Hr
      iexact Hp
    exact h.trans (Reg3.hin (En3 m) c)
  hout c := by
    rw [Pipeline.ownSems0_none]
    have h : (Pipeline.ΦA spec3 c : sProp 𝕄) ⊢ iprop((∃ r, prngReg c r) ∗ BI.emp
          ∗ Pipeline.scopedRest (Pipeline.pin (pcfgs (F := F)) adm' 3).spec c) := by
      unfold Pipeline.ΦA
      iintro ⟨Hr, Hp⟩
      isplitl [Hp]; · iexact Hp
      isplitr; · iempintro
      iexact Hr
    exact (Reg3.hout (En3 m) c).trans h
  hexit c := by
    have hjoin := Pipeline.unscopedBufs_of_arrays (p := 3) (pcfgs (F := F)) adm' (Ix := Unit) (Name := ℕ) (U := UR sig nD τ) (Lvl := ℕ)
      launch3.win launch3.arr_whole c (pdats m) ((pdats m 3 c).share_full fun _ => rfl)
      (En3 m c) (fun b => V16 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run: every weakly fair execution ends with every unscoped buffer at the last valuation -/

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm' (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (show (E (F := F) 4 c) ⊢ (iprop(∃ W, owes (c : Thread nD τ) (0 : CellTallies nD τ sig Unit) W) : sProp 𝕄) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨Hh, HSI⟩
      unfold StableHlo.held
      imodintro
      iapply (pointsTo_read_all (Pipeline.ucRefs τ sig) (fun b => (((c : Thread nD τ)).1, b)) (V17 m (outs m) c) s')
      isplitl [Hh] <;> iassumption)
    (hQ := fun _ h => h)

/-! ## What is read off the run -/

/-- The run with the result named: the result buffer ends at the last contents, every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v44) = V17 m (outs m) c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c (Proc.devRef .tc main_v44) (Finset.mem_filter.mpr ⟨StableHlo.devRef_mem_tcRefs main_v44, by decide⟩)),
      (h c (Proc.devRef .tc main_arg0) (Finset.mem_filter.mpr ⟨StableHlo.devRef_mem_tcRefs main_arg0, by decide⟩)).trans (V17_main_arg0 m (outs m) c),
      (h c (Proc.devRef .tc main_arg1) (Finset.mem_filter.mpr ⟨StableHlo.devRef_mem_tcRefs main_arg1, by decide⟩)).trans (V17_main_arg1 m (outs m) c),
      (h c (Proc.devRef .tc main_arg2) (Finset.mem_filter.mpr ⟨StableHlo.devRef_mem_tcRefs main_arg2, by decide⟩)).trans (V17_main_arg2 m (outs m) c),
      (h c (Proc.devRef .tc main_arg3) (Finset.mem_filter.mpr ⟨StableHlo.devRef_mem_tcRefs main_arg3, by decide⟩)).trans (V17_main_arg3 m (outs m) c),
      (h c (Proc.devRef .tc main_arg4) (Finset.mem_filter.mpr ⟨StableHlo.devRef_mem_tcRefs main_arg4, by decide⟩)).trans (V17_main_arg4 m (outs m) c),
      (h c (Proc.devRef .tc main_arg5) (Finset.mem_filter.mpr ⟨StableHlo.devRef_mem_tcRefs main_arg5, by decide⟩)).trans (V17_main_arg5 m (outs m) c),
      (h c (Proc.devRef .tc main_arg6) (Finset.mem_filter.mpr ⟨StableHlo.devRef_mem_tcRefs main_arg6, by decide⟩)).trans (V17_main_arg6 m (outs m) c),
      (h c (Proc.devRef .tc main_arg7) (Finset.mem_filter.mpr ⟨StableHlo.devRef_mem_tcRefs main_arg7, by decide⟩)).trans (V17_main_arg7 m (outs m) c)⟩) (run_all m ρ)

/-- The frame: every weakly fair execution terminates, nothing faulting, with every argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.Kernel.Run

end
-- ==== Proof.KI.Reg0.lean ====
/-
  Region 0: the first gather kernel, run at every point of its 318 × 49 grid.

  The kernel keeps a running total in a scratch buffer across the 49 node tiles of one message chunk: at the
  first tile the total is set to zero, at every tile the tile's contribution (the 0/1 match matrix of the chunk's
  source words against the tile's row numbers, times the tile of x · W) is added, and at the last tile the total,
  scaled row by row with the message weights, is stored to the output block, which is written back only there.
  This module states what the scratch holds after every point (`accAt`), the proof data of the pipeline at the
  buffer contents `V` the region is entered with, and proves the body obligation point by point, by the three
  cases of the inner coordinate (first tile, a middle tile, last tile).
-/
import proofs.«115179_j73220602462691_1_alg».proof.Proof.Gen.KernelIdeal.Launch
import proofs.«115179_j73220602462691_1_alg».proof.Proof.Gen.KernelIdeal.Skeleton
import proofs.«115179_j73220602462691_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The two conditions of the body, in closed form over the grid -/

/-- "This is the first node tile of the chunk": the body's first condition, from the grid coordinates. -/
abbrev cond0 (i : grid0.Coords) : Prop := (Scalar.cmpi .ne (Scalar.extui (Scalar.cmpi .eq (BitVec.ofNat 32 (i 1).val) 0#32)) 0#32) = 1#1
/-- The inner coordinate of point `t` is `t mod 49`, the outer one `t / 49`. -/
theorem coords1 (t : Fin cfg0.N) : (grid0.coords t 1).val = t.val % 49 := by
  show t.val / grid0.stride 1 % 49 = _
  rw [show grid0.stride 1 = 1 from by decide, Nat.div_one]
theorem coords0 (t : Fin cfg0.N) : (grid0.coords t 0).val = t.val / 49 := by
  show t.val / grid0.stride 0 % 318 = _
  rw [show grid0.stride 0 = 49 from by decide]
  have hN : t.val < 15582 := lt_of_lt_of_eq t.isLt (show cfg0.N = 15582 from N_0)
  exact Nat.mod_eq_of_lt (by omega)

theorem cond0_iff : ∀ n : Fin 49,
    ((Scalar.cmpi .ne (Scalar.extui (Scalar.cmpi .eq (BitVec.ofNat 32 n.val) 0#32)) 0#32) = 1#1) ↔ n.val = 0 := by decide +kernel
/-- It holds at the points ≡ 0 (mod 49). -/
theorem hcond0 (t : Fin cfg0.N) : cond0 (grid0.coords t) ↔ t.val % 49 = 0 :=
  (cond0_iff (grid0.coords t 1)).trans (by rw [coords1])

/-- "This is the last node tile of the chunk": the body's second condition. -/
abbrev cond1 (i : grid0.Coords) : Prop := k0_cond2 i = 1#1
theorem cond1_iff : ∀ n : Fin 49,
    ((Scalar.cmpi .ne (Scalar.extui (Scalar.cmpi .eq (BitVec.ofNat 32 n.val) 48#32)) 0#32) = 1#1) ↔ n.val = 48 := by decide +kernel
/-- It holds at the points ≡ 48 (mod 49). -/
theorem hcond1 (t : Fin cfg0.N) : cond1 (grid0.coords t) ↔ t.val % 49 = 48 :=
  (cond1_iff (grid0.coords t 1)).trans (by rw [coords1])

/-! ## Where the windows are idle -/

theorem live0 (i : grid0.Coords) : cfg0.idle 0 i = false := rfl
theorem live1 (i : grid0.Coords) : cfg0.idle 1 i = false := rfl
theorem live2 (i : grid0.Coords) : cfg0.idle 2 i = false := rfl
theorem live3 (i : grid0.Coords) : cfg0.idle 3 i = false := rfl
/-- The output window is live exactly under the second condition. -/
theorem live4 (i : grid0.Coords) (h : cond1 i) : cfg0.idle 4 i = false := by
  show (!(k0_cond2 i == 1#1)) = false
  rw [show k0_cond2 i = 1#1 from h]; rfl
theorem idle4 (i : grid0.Coords) (h : ¬cond1 i) : cfg0.idle 4 i = true := by
  show (!(k0_cond2 i == 1#1)) = true
  rw [Bool.not_eq_true', beq_eq_false_iff_ne]; exact h
/-- Off the last tile the output block is not written back. -/
theorem noFlush4 (t : Fin cfg0.N) (h : ¬t.val % 49 = 48) : (cfg0.win 4).flush t = false :=
  Bool.eq_false_iff.mpr fun hf => h ((flush0_4 t).mp hf)

/-! ## The staging memrefs at a point, and the scratch -/

abbrev ms0 (t : Fin cfg0.N) : Memref sig .tc .vmem S2048x26 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S26x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x64 .bf16 := win0_4.stage (cfg0.slots t 4)
abbrev hs4 (t : Fin cfg0.N) : (ms4 t).IsWhole := hstage0_4 ((cfg0.slots t 4).cast nbuf0_4)
/-- The scratch operand: a whole scoped buffer of the kernel's own. -/
abbrev scM : Memref sig .tc .vmem S4096x64 .f32 := Memref.whole cc0_scratch0

/-- The other scoped buffers, which the body never touches. -/
abbrev restBut (c : Dev nD) : sProp 𝕄 :=
  Pipeline.scopedRestBut (Ix := Unit) (Name := ℕ) (U := UR sig nD τ) (Lvl := ℕ) (Val := Elt F) spec0 c [cc0_scratch0]

/-- What the launch hands the region, with the scratch split out as a memref owned at some contents. -/
theorem PhiA_eq (c : Dev nD) :
    (Pipeline.ΦA spec0 c : sProp 𝕄)
      = iprop(iprop(iprop((∃ d, owns (c : Thread nD τ) scM fullShare d)) ∗ restBut c) ∗ (∃ r, prngReg c r)) := by
  unfold Pipeline.ΦA; rw [scopedRest0_split]; simp only [scM, owns_whole]; try rfl

/-! ## What the scratch holds after each point -/

/-- The running total after the body at position `n`: the tile's contribution added to zero at the first tile
    of a chunk, to what the point before left otherwise. -/
def accAt (c : Dev nD) : (n : ℕ) → n < cfg0.N → Vec F S4096x64 .f32
  | 0, hn => k0_pay2 (grid0.coords ⟨0, hn⟩) (iblk V c 2 ⟨0, hn⟩) (iblk V c 0 ⟨0, hn⟩) (iblk V c 1 ⟨0, hn⟩) k0_pay1
  | n + 1, hn => k0_pay2 (grid0.coords ⟨n + 1, hn⟩) (iblk V c 2 ⟨n + 1, hn⟩) (iblk V c 0 ⟨n + 1, hn⟩) (iblk V c 1 ⟨n + 1, hn⟩)
      (if (n + 1) % 49 = 0 then k0_pay1 else accAt c n (Nat.lt_of_succ_lt hn))

/-- At the first tile of a chunk. -/
theorem accAt_first (c : Dev nD) (t : Fin cfg0.N) (h0 : t.val % 49 = 0) :
    accAt V c t.val t.isLt = k0_pay2 (grid0.coords t) (iblk V c 2 t) (iblk V c 0 t) (iblk V c 1 t) k0_pay1 := by
  obtain ⟨n, hn⟩ := t
  cases n with
  | zero => rfl
  | succ n => show k0_pay2 _ _ _ _ (if (n + 1) % 49 = 0 then _ else _) = _; rw [if_pos h0]

/-- At a later tile. -/
theorem accAt_step (c : Dev nD) (t : Fin cfg0.N) (h0 : ¬t.val % 49 = 0) :
    accAt V c t.val t.isLt = k0_pay2 (grid0.coords t) (iblk V c 2 t) (iblk V c 0 t) (iblk V c 1 t)
      (accAt V c (t.val - 1) (Nat.lt_of_le_of_lt (Nat.sub_le _ _) t.isLt)) := by
  obtain ⟨n, hn⟩ := t
  cases n with
  | zero => exact absurd (Nat.zero_mod _) h0
  | succ n => show k0_pay2 _ _ _ _ (if (n + 1) % 49 = 0 then _ else _) = _; rw [if_neg h0]; rfl

/-- The region invariant before position `n`: before the first point what the launch hands over (the scratch at
    anything); afterwards the scratch at what the point before left, the other scoped buffers and the generator
    register untouched. -/
def PhiS (c : Dev nD) : (n : ℕ) → n ≤ cfg0.N → sProp 𝕄
  | 0, _ => Pipeline.ΦA spec0 c
  | n + 1, hn => iprop(iprop(owns (c : Thread nD τ) scM fullShare (accAt V c n hn) ∗ restBut c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ restBut c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ restBut c) ∗ (∃ r, prngReg c r)) := by
  cases n with
  | zero => exact absurd rfl hz
  | succ n => rfl

/-! ## The pipeline's proof data -/

/-- The proof data of the pipeline on core `c`: the arrays as the region finds them; after the body at point `t`
    each input's buffer at its block and the output's at the scaled running total; the invariant `PhiS`; nothing
    owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay3 (accAt V c t.val t.isLt) (iblk V c 3 t)
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) :
    (dat V c).after 4 t = k0_pay3 (accAt V c t.val t.isLt) (iblk V c 3 t) := by dsimp only [dat]

/-- Each input's current staging buffer holds its block at every point, fetched there or not. -/
theorem before0 (c : Dev nD) (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dat V c).before 3 t d = iblk V c 3 t :=
  ((dat V c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- An input window's array ends as entered. -/
theorem arrAt_in (c : Dev nD) (w : Fin cfg0.W) (hw : w ≠ 4) : (dat V c).arrAt w cfg0.N = V c (Pipeline.arrRef spec0 w) := by
  refine ((dat V c).arrAt_in w ?_ _).trans (A_eq V c w)
  match w, hw with
  | ⟨0, _⟩, _ => rfl
  | ⟨1, _⟩, _ => rfl
  | ⟨2, _⟩, _ => rfl
  | ⟨3, _⟩, _ => rfl
  | ⟨4, _⟩, h => exact absurd rfl h

/-! ## The body on any staging memrefs, case by case

On whole memrefs — the inputs' at their contents, the scratch at what it is handed — the body runs to the
continuation with the inputs as they were and the scratch at the tile's contribution added to the running total
(to zero at the first tile); at the last tile the output's buffer ends at the total scaled by the weights,
elsewhere it is handed back untouched. -/

theorem hz2 : (![0, 0] : Fin 2 → Nat) = fun _ => 0 := funext fun a => by fin_cases a <;> rfl

set_option maxHeartbeats 4000000 in
theorem run_first (c : Dev nD) (E : Set ℕ) (i : grid0.Coords)
    (arg2 : Memref sig .tc .vmem S2048x26 .f32) (harg2 : arg2.IsWhole) (arg3 : Memref sig .tc .vmem S26x64 .f32) (harg3 : arg3.IsWhole)
    (arg4 : Memref sig .tc .vmem S4096x1 .i32) (harg4 : arg4.IsWhole) (arg5 : Memref sig .tc .vmem S4096x1 .f32) (harg5 : arg5.IsWhole)
    (arg6 : Memref sig .tc .vmem S4096x64 .bf16) (harg6 : arg6.IsWhole) (arg7 : Memref sig .tc .vmem S4096x64 .f32) (harg7 : arg7.IsWhole)
    (hc0 : cond0 i) (hc1 : ¬cond1 i)
    (x0 : Vec F S2048x26 .f32) (x1 : Vec F S26x64 .f32) (x2 : Vec F S4096x1 .i32) (x3 : Vec F S4096x1 .f32) (xi4 : Vec F S4096x64 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k0_pay2 i x2 x0 x1 k0_pay1)) -∗ K ⟨⟩))
      ⊢ wp frame (wpE (defs₀ (F := F)) Variants.none c none) E
          (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  subst hf0; subst hf1; subst hf2; subst hf3; subst hf4
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr
  swap; · iexact HS0
  ipureintro
  rw [View.read_writes_eq_canon _ _ _ (fun y => ⟨_, List.mem_cons_self, View.mem_set_unit_zero hz2 inb_S4096x64_S4096x64_0_0 y⟩)]
  rw [View.canon_cons_unit_zero (S := S4096x64) hz2]
  sl_unfold_words
  rw [View.readCov_unit_zero (S := S4096x64) _ hz2]
  simp only [View.readAt_eq_ld, View.ld_unit_zero (S := S4096x1) hz2, View.ld_unit_zero (S := S2048x26) hz2, View.ld_unit_zero (S := S26x64) hz2]

set_option maxHeartbeats 4000000 in
theorem run_middle (c : Dev nD) (E : Set ℕ) (i : grid0.Coords)
    (arg2 : Memref sig .tc .vmem S2048x26 .f32) (harg2 : arg2.IsWhole) (arg3 : Memref sig .tc .vmem S26x64 .f32) (harg3 : arg3.IsWhole)
    (arg4 : Memref sig .tc .vmem S4096x1 .i32) (harg4 : arg4.IsWhole) (arg5 : Memref sig .tc .vmem S4096x1 .f32) (harg5 : arg5.IsWhole)
    (arg6 : Memref sig .tc .vmem S4096x64 .bf16) (harg6 : arg6.IsWhole) (arg7 : Memref sig .tc .vmem S4096x64 .f32) (harg7 : arg7.IsWhole)
    (hc0 : ¬cond0 i) (hc1 : ¬cond1 i)
    (x0 : Vec F S2048x26 .f32) (x1 : Vec F S26x64 .f32) (x2 : Vec F S4096x1 .i32) (x3 : Vec F S4096x1 .f32) (xi4 : Vec F S4096x64 .bf16) (xs : Vec F S4096x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xi4
            ∗ owns (c : Thread nD τ) arg7 fullShare (k0_pay2 i x2 x0 x1 xs)) -∗ K ⟨⟩))
      ⊢ wp frame (wpE (defs₀ (F := F)) Variants.none c none) E
          (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  subst hf0; subst hf1; subst hf2; subst hf3; subst hf4; subst hfs0
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr
  swap; · iexact HS0
  ipureintro
  rw [View.read_writes_eq_canon _ _ _ (fun y => ⟨_, List.mem_cons_self, View.mem_set_unit_zero hz2 inb_S4096x64_S4096x64_0_0 y⟩)]
  rw [View.canon_cons_unit_zero (S := S4096x64) hz2]
  simp only [View.readAt_eq_ld, View.ld_unit_zero (S := S4096x1) hz2, View.ld_unit_zero (S := S2048x26) hz2, View.ld_unit_zero (S := S26x64) hz2, View.ld_unit_zero (S := S4096x64) hz2]

set_option maxHeartbeats 4000000 in
theorem run_last (c : Dev nD) (E : Set ℕ) (i : grid0.Coords)
    (arg2 : Memref sig .tc .vmem S2048x26 .f32) (harg2 : arg2.IsWhole) (arg3 : Memref sig .tc .vmem S26x64 .f32) (harg3 : arg3.IsWhole)
    (arg4 : Memref sig .tc .vmem S4096x1 .i32) (harg4 : arg4.IsWhole) (arg5 : Memref sig .tc .vmem S4096x1 .f32) (harg5 : arg5.IsWhole)
    (arg6 : Memref sig .tc .vmem S4096x64 .bf16) (harg6 : arg6.IsWhole) (arg7 : Memref sig .tc .vmem S4096x64 .f32) (harg7 : arg7.IsWhole)
    (hc0 : ¬cond0 i) (hc1 : cond1 i)
    (x0 : Vec F S2048x26 .f32) (x1 : Vec F S26x64 .f32) (x2 : Vec F S4096x1 .i32) (x3 : Vec F S4096x1 .f32) (xs : Vec F S4096x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k0_pay3 (k0_pay2 i x2 x0 x1 xs) x3)
            ∗ owns (c : Thread nD τ) arg7 fullShare (k0_pay2 i x2 x0 x1 xs)) -∗ K ⟨⟩))
      ⊢ wp frame (wpE (defs₀ (F := F)) Variants.none c none) E
          (cc0__gather_kernel i arg2 harg2 arg3 harg3 arg4 harg4 arg5 harg5 arg6 harg6 arg7 harg7) K := by
  simp only [cc0__gather_kernel_eq_skeleton]; unfold cc0__gather_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  subst hf0; subst hf1; subst hf2; subst hf3; subst hfs0
  sl_exec (disch := first | exact hc0 | exact hc1)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr
    swap; · iexact H4
    ipureintro
    rw [View.read_writes_eq_canon _ _ _ (fun y => ⟨_, List.mem_cons_self, View.mem_set_unit_zero hz2 inb_S4096x64_S4096x64_0_0 y⟩)]
    rw [View.canon_cons_unit_zero (S := S4096x64) hz2]
    sl_unfold_words
    rw [View.readCov_unit_zero (S := S4096x64) _ hz2]
    simp only [View.readAt_eq_ld, View.ld_unit_zero (S := S4096x1) hz2, View.ld_unit_zero (S := S2048x26) hz2, View.ld_unit_zero (S := S26x64) hz2, View.ld_unit_zero (S := S4096x64) hz2]
  iexists _; isplitr
  swap; · iexact HS0
  ipureintro
  sl_unfold_words
  rw [View.read_writes_eq_canon _ _ _ (fun y => ⟨_, List.mem_cons_self, View.mem_set_unit_zero hz2 inb_S4096x64_S4096x64_0_0 y⟩)]
  rw [View.canon_cons_unit_zero (S := S4096x64) hz2]
  simp only [View.readAt_eq_ld, View.ld_unit_zero (S := S4096x1) hz2, View.ld_unit_zero (S := S2048x26) hz2, View.ld_unit_zero (S := S26x64) hz2, View.ld_unit_zero (S := S4096x64) hz2]

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

theorem leaves0 (c : Dev nD) (t : Fin cfg0.N) :
    (dat V c).leavesExact 0 t = owns (c : Thread nD τ) (ms0 t) fullShare (iblk V c 0 t) := by
  unfold Dat.leavesExact; rw [live0 (grid0.coords t), after0]
theorem leaves1 (c : Dev nD) (t : Fin cfg0.N) :
    (dat V c).leavesExact 1 t = owns (c : Thread nD τ) (ms1 t) fullShare (iblk V c 1 t) := by
  unfold Dat.leavesExact; rw [live1 (grid0.coords t), after1]
theorem leaves2 (c : Dev nD) (t : Fin cfg0.N) :
    (dat V c).leavesExact 2 t = owns (c : Thread nD τ) (ms2 t) fullShare (iblk V c 2 t) := by
  unfold Dat.leavesExact; rw [live2 (grid0.coords t), after2]
theorem leaves3 (c : Dev nD) (t : Fin cfg0.N) :
    (dat V c).leavesExact 3 t = owns (c : Thread nD τ) (ms3 t) fullShare (iblk V c 3 t) := by
  unfold Dat.leavesExact; rw [live3 (grid0.coords t), after3]
theorem leaves4_last (c : Dev nD) (t : Fin cfg0.N) (h1 : t.val % 49 = 48) :
    (dat V c).leavesExact 4 t = owns (c : Thread nD τ) (ms4 t) fullShare (k0_pay3 (accAt V c t.val t.isLt) (iblk V c 3 t)) := by
  unfold Dat.leavesExact; rw [live4 (grid0.coords t) ((hcond1 t).mpr h1), after4]
theorem leaves4_idle (c : Dev nD) (t : Fin cfg0.N) (h1 : ¬t.val % 49 = 48) :
    (dat V c).leavesExact 4 t = iprop(∃ d, owns (c : Thread nD τ) (ms4 t) fullShare ((dat V c).before 4 t d)) :=
  Dat.leavesExact_idle (dat V c) 4 t (idle4 (grid0.coords t) (fun h => h1 ((hcond1 t).mp h))) (noFlush4 t h1)

set_option maxHeartbeats 4800000 in
/-- The body at any point: the inputs' memrefs hold their blocks; the closed forms say which case the point is
    in; the invariant hands the body the scratch at what the point before left (at anything at the very first
    point) and takes it back at this point's total. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).owesAt () t.succ = (dat V c).owesAt () t.castSucc from rfl]
  rw [show (dat V c).Φ t.succ = PhiS V c (t.val + 1) t.isLt from rfl, PhiS_succ]
  rw [leaves0, leaves1, leaves2, leaves3]
  have hN : t.val < 15582 := lt_of_lt_of_eq t.isLt (show cfg0.N = 15582 from N_0)
  by_cases h0 : t.val % 49 = 0
  · have h1 : ¬t.val % 49 = 48 := by omega
    rw [leaves4_idle V c t h1, accAt_first V c t h0]
    by_cases hz : t.val = 0
    · rw [PhiS_castSucc V c t, PhiS_zero V c _ _ hz, PhiA_eq]
      iintro ⟨⟨⟨HS, HR⟩, Hg⟩, Ho, ⟨%d0, H0⟩, ⟨%d1, H1⟩, ⟨%d2, H2⟩, ⟨%d3, H3⟩, ⟨%d4, H4⟩⟩
      iapply (run_first c Set.univ (grid0.coords t) _ _ _ _ _ _ _ _ _ _ _ _ ((hcond0 t).mpr h0) (fun h => h1 ((hcond1 t).mp h))
        (iblk V c 0 t) (iblk V c 1 t) (iblk V c 2 t) (iblk V c 3 t) ((dat V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run_first c Set.univ (grid0.coords t) _ _ _ _ _ _ _ _ _ _ _ _ ((hcond0 t).mpr h0) (fun h => h1 ((hcond1 t).mp h))
        (iblk V c 0 t) (iblk V c 1 t) (iblk V c 2 t) (iblk V c 3 t) ((dat V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [PhiS_castSucc V c t, PhiS_pos V c _ _ hz, accAt_step V c t h0]
    by_cases h1 : t.val % 49 = 48
    · rw [leaves4_last V c t h1, accAt_step V c t h0]
      iintro ⟨⟨⟨HS, HR⟩, Hg⟩, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ (fun h => h0 ((hcond0 t).mp h)) ((hcond1 t).mpr h1)
        (iblk V c 0 t) (iblk V c 1 t) (iblk V c 2 t) (iblk V c 3 t) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [leaves4_idle V c t h1]
      iintro ⟨⟨⟨HS, HR⟩, Hg⟩, Ho, ⟨%d0, H0⟩, ⟨%d1, H1⟩, ⟨%d2, H2⟩, ⟨%d3, H3⟩, ⟨%d4, H4⟩⟩
      iapply (run_middle c Set.univ (grid0.coords t) _ _ _ _ _ _ _ _ _ _ _ _ (fun h => h0 ((hcond0 t).mp h)) (fun h => h1 ((hcond1 t).mp h))
        (iblk V c 0 t) (iblk V c 1 t) (iblk V c 2 t) (iblk V c 3 t) ((dat V c).before 4 t d4) (accAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : (Pipeline.ΦA spec0 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives it back: the scratch's named contents are forgotten. -/
theorem Phi_out (c : Dev nD) (t : Fin (cfg0.N + 1)) (ht : t.val ≠ 0) : (dat V c).Φ t ⊢ (Pipeline.ΦA spec0 c : sProp 𝕄) := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ (Pipeline.ΦA spec0 c : sProp 𝕄) :=
  Phi_out V c _ (by rw [Fin.val_last]; have : cfg0.N = 15582 := N_0; omega)

end Cert.KernelIdeal.Reg0

end
-- ==== Proof.KI.Reg1.lean ====
/-
  The scatter step of the first layer, one block of 2048 rows at a time.

  The grid is 49 row blocks by 318 message chunks, the chunk index running fastest.  Within one row block the
  body keeps a running total in a scratch buffer: the first chunk starts it from zero, every chunk adds the
  product of the 0/1 matrix "row r is the destination of message e" with the chunk's message rows, and the
  last chunk adds the bias, clamps at zero and stores the block of the result.  This module states what the
  scratch buffer holds after every grid point (accAt), what the last chunk of a row block stores
  (outAt), and proves that the body run at any point takes the one to the next.
-/
import proofs.«115179_j73220602462691_1_alg».proof.Proof.Gen.KernelIdeal.Launch
import proofs.«115179_j73220602462691_1_alg».proof.Proof.Gen.KernelIdeal.Skeleton
import proofs.«115179_j73220602462691_1_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, in closed form -/

/-- The chunk coordinate of point t is t modulo 318, -/
theorem coords_1 (t : Fin cfg1.N) : (grid1.coords t 1).val = t.val % 318 := by
  show t.val / grid1.stride 1 % 318 = _
  rw [show grid1.stride 1 = 1 from by decide, Nat.div_one]
/-- and its row-block coordinate the quotient by 318. -/
theorem coords_0 (t : Fin cfg1.N) : (grid1.coords t 0).val = t.val / 318 := by
  have hN : t.val < 15582 := lt_of_lt_of_eq t.isLt (show cfg1.N = 15582 from N_1)
  show t.val / grid1.stride 0 % 49 = _
  rw [show grid1.stride 0 = 318 from by decide]
  exact Nat.mod_eq_of_lt (by omega)

/-- The word of a number below 2^32 compared with the word of k: the comparison's bit, widened and tested against
    zero, is set exactly when the number is k. -/
theorem eq_word_iff (n k : ℕ) (hn : n < 2 ^ 32) (hk : k < 2 ^ 32) :
    (Scalar.cmpi .ne (Scalar.extui (Scalar.cmpi .eq (BitVec.ofNat 32 n) (BitVec.ofNat 32 k))) 0#32) = 1#1 ↔ n = k := by
  show BitVec.ofBool ((BitVec.ofBool (BitVec.ofNat 32 n == BitVec.ofNat 32 k)).setWidth 32 != 0#32) = 1#1 ↔ n = k
  by_cases h : n = k
  · subst h
    rw [beq_self_eq_true]
    exact ⟨fun _ => rfl, fun _ => by decide⟩
  · have hne : (BitVec.ofNat 32 n == BitVec.ofNat 32 k) = false := by
      rw [beq_eq_false_iff_ne]
      intro e
      have e' := congrArg BitVec.toNat e
      rw [BitVec.toNat_ofNat, BitVec.toNat_ofNat, Nat.mod_eq_of_lt hn, Nat.mod_eq_of_lt hk] at e'
      exact h e'
    rw [hne]
    exact ⟨fun hc => absurd hc (by decide), fun e => absurd e h⟩

/-- "This is the first chunk of the row block": the chunk coordinate is zero. -/
abbrev cond0 (i : grid1.Coords) : Prop :=
  (Scalar.cmpi .ne (Scalar.extui (Scalar.cmpi .eq (BitVec.ofNat 32 (i 1).val) 0#32)) 0#32) = 1#1

/-- It holds at the points that are multiples of 318. -/
theorem hcond0 (t : Fin cfg1.N) : cond0 (grid1.coords t) ↔ t.val % 318 = 0 := by
  rw [← coords_1 t]
  have hlt : (grid1.coords t 1).val < 318 := (grid1.coords t 1).isLt
  exact eq_word_iff _ 0 (by omega) (by omega)

/-- "This is the last chunk of the row block": the chunk coordinate is 317. -/
abbrev cond1 (i : grid1.Coords) : Prop := k1_cond2 i = 1#1

/-- It holds at the points that are 317 modulo 318. -/
theorem hcond1 (t : Fin cfg1.N) : cond1 (grid1.coords t) ↔ t.val % 318 = 317 := by
  rw [← coords_1 t]
  have hlt : (grid1.coords t 1).val < 318 := (grid1.coords t 1).isLt
  exact eq_word_iff _ 317 (by omega) (by omega)

/-! ## Where the output window is idle -/

theorem idleAt3 (t : Fin cfg1.N) (h : ¬cond1 (grid1.coords t)) : cfg1.idle 3 (grid1.coords t) = true := by
  show (!(k1_cond2 (grid1.coords t) == 1#1)) = true
  rw [Bool.not_eq_true', beq_eq_false_iff_ne]; exact h

theorem liveAt3 (t : Fin cfg1.N) (h : cond1 (grid1.coords t)) : cfg1.idle 3 (grid1.coords t) = false := by
  show (!(k1_cond2 (grid1.coords t) == 1#1)) = false
  rw [Bool.not_eq_false', beq_iff_eq]; exact h

theorem noFlush3 (t : Fin cfg1.N) (h : ¬cond1 (grid1.coords t)) : (cfg1.win 3).flush t = false :=
  Bool.eq_false_iff.mpr fun hf => h ((hcond1 t).mpr ((flush1_3 t).mp hf))

/-! ## The staging memrefs at a point, and the scratch -/

abbrev ms0 (t : Fin cfg1.N) : Memref sig .tc .vmem S4096x64 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x4096 .i32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x64 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S2048x64 .f32 := win1_3.stage (cfg1.slots t 3)
abbrev hs3 (t : Fin cfg1.N) : (ms3 t).IsWhole := hstage1_3 ((cfg1.slots t 3).cast nbuf1_3)
/-- The running total's buffer. -/
abbrev scM : Memref sig .tc .vmem S2048x64 .f32 := Memref.whole cc1_scratch0

/-- Every scoped buffer but the running total's, untouched by the body. -/
abbrev restBut (c : Dev nD) : sProp 𝕄 :=
  Pipeline.scopedRestBut (Ix := Unit) (Name := ℕ) (U := UR sig nD τ) (Lvl := ℕ) (Val := Elt F) spec1 c [cc1_scratch0]

/-- What the region is entered with: the running total's buffer at anything, the other scoped buffers, the
    generator register. -/
theorem PhiA_eq (c : Dev nD) :
    (Pipeline.ΦA spec1 c : sProp 𝕄)
      = iprop(iprop(iprop(∃ d, owns (c : Thread nD τ) scM fullShare d) ∗ restBut (F := F) c) ∗ (∃ r, prngReg c r)) := by
  unfold Pipeline.ΦA; rw [scopedRest1_split]; simp only [scM, owns_whole]; try rfl

/-! ## The windows' blocks -/

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The running total, point by point -/

/-- What the scratch buffer holds after the body at point n: the chunk's contribution added to the zero block at
    the first chunk of a row block, to what the point before left at every other chunk. -/
def accAt (c : Dev nD) : (n : ℕ) → n < cfg1.N → Vec F S2048x64 .f32
  | 0, hn => k1_pay2 (grid1.coords ⟨0, hn⟩) (iblk V c 1 ⟨0, hn⟩) (k1_pay1 (F := F)) (iblk V c 0 ⟨0, hn⟩)
  | n + 1, hn => k1_pay2 (grid1.coords ⟨n + 1, hn⟩) (iblk V c 1 ⟨n + 1, hn⟩)
      (if (n + 1) % 318 = 0 then k1_pay1 (F := F) else accAt c n (Nat.lt_of_succ_lt hn)) (iblk V c 0 ⟨n + 1, hn⟩)

theorem accAt_first (c : Dev nD) (t : Fin cfg1.N) (h0 : t.val % 318 = 0) :
    accAt V c t.val t.isLt = k1_pay2 (grid1.coords t) (iblk V c 1 t) (k1_pay1 (F := F)) (iblk V c 0 t) := by
  obtain ⟨n, hn⟩ := t
  cases n with
  | zero => rfl
  | succ n => show k1_pay2 _ _ (if (n + 1) % 318 = 0 then _ else _) _ = _; rw [if_pos h0]

theorem accAt_next (c : Dev nD) (t : Fin cfg1.N) (h0 : ¬t.val % 318 = 0) :
    accAt V c t.val t.isLt = k1_pay2 (grid1.coords t) (iblk V c 1 t)
      (accAt V c (t.val - 1) (Nat.lt_of_le_of_lt (Nat.sub_le _ _) t.isLt)) (iblk V c 0 t) := by
  obtain ⟨n, hn⟩ := t
  cases n with
  | zero => exact absurd (Nat.zero_mod _) h0
  | succ n => show k1_pay2 _ _ (if (n + 1) % 318 = 0 then _ else _) _ = _; rw [if_neg h0]; rfl

/-- What the last chunk of a row block stores into the output block: the total plus the bias, clamped at zero. -/
def outAt (c : Dev nD) (t : Fin cfg1.N) : Vec F S2048x64 .f32 :=
  k1_pay3 (accAt V c t.val t.isLt) (iblk V c 2 t)

/-! ## The invariant -/

/-- Before the first point what the region is entered with; afterwards the same with the running total's buffer at
    what the point before left. -/
def PhiS (c : Dev nD) : (n : ℕ) → n ≤ cfg1.N → sProp 𝕄
  | 0, _ => Pipeline.ΦA spec1 c
  | n + 1, hn => iprop(iprop(owns (c : Thread nD τ) scM fullShare (accAt V c n hn) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM fullShare (accAt V c n hn) ∗ restBut (F := F) c) ∗ (∃ r, prngReg c r)) := rfl

theorem PhiS_pos (c : Dev nD) (n : ℕ) (h : n ≤ cfg1.N) (hz : n ≠ 0) :
    PhiS V c n h = iprop(iprop(owns (c : Thread nD τ) scM fullShare (accAt V c (n - 1) (by omega)) ∗ restBut (F := F) c) ∗ (∃ r, prngReg c r)) := by
  cases n with
  | zero => exact absurd rfl hz
  | succ n => rfl

/-- At any point the invariant gives the running total's buffer at something. -/
theorem PhiS_any (c : Dev nD) (n : ℕ) (h : n ≤ cfg1.N) :
    PhiS V c n h ⊢ iprop(iprop(iprop(∃ d, owns (c : Thread nD τ) scM fullShare d) ∗ restBut (F := F) c) ∗ (∃ r, prngReg c r)) := by
  cases n with
  | zero => rw [PhiS_zero V c 0 h rfl, PhiA_eq]
  | succ n =>
    rw [PhiS_succ]
    iintro ⟨⟨HS, Hr⟩, Hg⟩
    isplitl [HS Hr]
    · isplitl [HS]
      · iexists _; iexact HS
      iexact Hr
    iexact Hg

/-! ## The proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = outAt V c t := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-! ## The body on any whole staging memrefs, case by case -/

theorem hz : (![0, 0] : Fin 2 → Nat) = fun _ => 0 := funext fun a => by fin_cases a <;> rfl

set_option maxHeartbeats 1000000 in
/-- First chunk of a row block: the running total is started from the zero block. -/
theorem run_first (c : Dev nD) (E : Set ℕ) (i : grid1.Coords)
    (arg2 : Memref sig .tc .vmem S4096x64 .bf16) (harg2 : arg2.IsWhole) (arg3 : Memref sig .tc .vmem S1x4096 .i32) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole) (hc0 : cond0 i) (hc1 : ¬cond1 i)
    (x0 : Vec F S4096x64 .bf16) (x1 : Vec F S1x4096 .i32) (K : PUnit → sProp 𝕄) :
    iprop(owns (c : Thread nD τ) arg2 fullShare x0 ∗ owns (c : Thread nD τ) arg3 fullShare x1
        ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 i x1 (k1_pay1 (F := F)) x0)) -∗ K ⟨⟩))
      ⊢ wp frame (wpE (defs₀ (F := F)) Variants.none c none) E (cc1__scatter_relu_kernel i arg2 harg2 arg3 harg3 arg4 harg4 arg5 harg5 arg6 harg6) K := by
  simp only [cc1__scatter_relu_kernel_eq_skeleton]; unfold cc1__scatter_relu_kernel_skel
  unfold owns
  iintro ⟨⟨%f0, %hf0, H0⟩, ⟨%f1, %hf1, H1⟩, ⟨%d6, %f6, -, H6⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_words
  rw [View.read_writes_eq_canon _ _ _ (fun y => ⟨_, List.mem_cons_self, View.mem_set_unit_zero hz inb_S2048x64_S2048x64_0_0 y⟩)]
  rw [View.canon_cons_unit_zero (S := S2048x64) hz, View.readCov_unit_zero (S := S2048x64) _ hz]
  simp only [View.readAt_eq_ld, View.ld_unit_zero (S := S4096x64) hz, View.ld_unit_zero (S := S1x4096) hz]

set_option maxHeartbeats 1000000 in
/-- A chunk that is neither first nor last: the chunk's contribution is added to the running total. -/
theorem run_mid (c : Dev nD) (E : Set ℕ) (i : grid1.Coords)
    (arg2 : Memref sig .tc .vmem S4096x64 .bf16) (harg2 : arg2.IsWhole) (arg3 : Memref sig .tc .vmem S1x4096 .i32) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole) (hc0 : ¬cond0 i) (hc1 : ¬cond1 i)
    (x0 : Vec F S4096x64 .bf16) (x1 : Vec F S1x4096 .i32) (xs : Vec F S2048x64 .f32) (K : PUnit → sProp 𝕄) :
    iprop(owns (c : Thread nD τ) arg2 fullShare x0 ∗ owns (c : Thread nD τ) arg3 fullShare x1
        ∗ owns (c : Thread nD τ) arg6 fullShare xs
        ∗ (iprop(owns (c : Thread nD τ) arg2 fullShare x0 ∗ owns (c : Thread nD τ) arg3 fullShare x1
            ∗ owns (c : Thread nD τ) arg6 fullShare (k1_pay2 i x1 xs x0)) -∗ K ⟨⟩))
      ⊢ wp frame (wpE (defs₀ (F := F)) Variants.none c none) E (cc1__scatter_relu_kernel i arg2 harg2 arg3 harg3 arg4 harg4 arg5 harg5 arg6 harg6) K := by
  simp only [cc1__scatter_relu_kernel_eq_skeleton]; unfold cc1__scatter_relu_kernel_skel
  unfold owns
  iintro ⟨⟨%f0, %hf0, H0⟩, ⟨%f1, %hf1, H1⟩, ⟨%f6, %hf6, H6⟩, Hk⟩
  subst hf0; subst hf1; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  rw [View.read_writes_eq_canon _ _ _ (fun y => ⟨_, List.mem_cons_self, View.mem_set_unit_zero hz inb_S2048x64_S2048x64_0_0 y⟩)]
  rw [View.canon_cons_unit_zero (S := S2048x64) hz]
  simp only [View.readAt_eq_ld, View.ld_unit_zero (S := S4096x64) hz, View.ld_unit_zero (S := S1x4096) hz, View.ld_unit_zero (S := S2048x64) hz]

set_option maxHeartbeats 1000000 in
/-- Last chunk of a row block: the contribution is added, then the total plus the bias, clamped at zero, is stored
    into the output block. -/
theorem run_last (c : Dev nD) (E : Set ℕ) (i : grid1.Coords)
    (arg2 : Memref sig .tc .vmem S4096x64 .bf16) (harg2 : arg2.IsWhole) (arg3 : Memref sig .tc .vmem S1x4096 .i32) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole) (hc0 : ¬cond0 i) (hc1 : cond1 i)
    (x0 : Vec F S4096x64 .bf16) (x1 : Vec F S1x4096 .i32) (x2 : Vec F S1x64 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 i x1 xs x0) x2)
            ∗ owns (c : Thread nD τ) arg6 fullShare (k1_pay2 i x1 xs x0)) -∗ K ⟨⟩))
      ⊢ wp frame (wpE (defs₀ (F := F)) Variants.none c none) E (cc1__scatter_relu_kernel i arg2 harg2 arg3 harg3 arg4 harg4 arg5 harg5 arg6 harg6) K := by
  simp only [cc1__scatter_relu_kernel_eq_skeleton]; unfold cc1__scatter_relu_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_cons_self, View.mem_set_unit_zero hz inb_S2048x64_S2048x64_0_0 y⟩)]
    rw [View.canon_cons_unit_zero (S := S2048x64) hz, View.readCov_unit_zero (S := S2048x64) _ hz]
    simp only [View.readAt_eq_ld, View.ld_unit_zero (S := S4096x64) hz, View.ld_unit_zero (S := S1x4096) hz, View.ld_unit_zero (S := S2048x64) hz, View.ld_unit_zero (S := S1x64) hz]
  iexists _; isplitr
  swap; · iexact H6
  ipureintro
  sl_unfold_words
  rw [View.read_writes_eq_canon _ _ _ (fun y => ⟨_, List.mem_cons_self, View.mem_set_unit_zero hz inb_S2048x64_S2048x64_0_0 y⟩)]
  rw [View.canon_cons_unit_zero (S := S2048x64) hz]
  simp only [View.readAt_eq_ld, View.ld_unit_zero (S := S4096x64) hz, View.ld_unit_zero (S := S1x4096) hz, View.ld_unit_zero (S := S2048x64) hz]

/-! ## The body obligation at a generic point -/

/-- What the body is called with at point t, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

theorem leaves0 (c : Dev nD) (t : Fin cfg1.N) :
    (dat V c).leavesExact 0 t = owns (c : Thread nD τ) (ms0 t) fullShare (iblk V c 0 t) := by
  rw [← after0]
theorem leaves1 (c : Dev nD) (t : Fin cfg1.N) :
    (dat V c).leavesExact 1 t = owns (c : Thread nD τ) (ms1 t) fullShare (iblk V c 1 t) := by
  rw [← after1]
theorem leaves2 (c : Dev nD) (t : Fin cfg1.N) :
    (dat V c).leavesExact 2 t = owns (c : Thread nD τ) (ms2 t) fullShare (iblk V c 2 t) := by
  rw [← after2]

set_option maxHeartbeats 4800000 in
/-- The body at any point.  The three inputs' buffers hold their blocks; the position of the chunk in its row block
    says which case runs; the invariant hands over the running total at what the point before left (at anything, at
    the first chunk) and takes it back at this point's; the output block is handed back untouched except at the last
    chunk, which fills it. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [leaves0, leaves1, leaves2, PhiS_castSucc V c t]
  have hN : t.val < 15582 := lt_of_lt_of_eq t.isLt (show cfg1.N = 15582 from N_1)
  by_cases h0 : t.val % 318 = 0
  · have h1 : ¬t.val % 318 = 317 := by omega
    have hc0 : cond0 (grid1.coords t) := (hcond0 t).mpr h0
    have hc1 : ¬cond1 (grid1.coords t) := fun h => h1 ((hcond1 t).mp h)
    rw [Dat.leavesExact_idle (dat V c) 3 t (idleAt3 t hc1) (noFlush3 t hc1)]
    rw [accAt_first V c t h0]
    iintro ⟨HP, Ho, ⟨%d0, H0⟩, ⟨%d1, H1⟩, ⟨%d2, H2⟩, H3⟩
    ihave HP' := (PhiS_any V c t.val (Nat.le_of_lt t.isLt)) $$ HP
    icases HP' with ⟨⟨⟨%ds, HS⟩, Hr⟩, Hg⟩
    iapply (run_first c Set.univ (grid1.coords t) (ms0 t) (hs0 t) (ms1 t) (hs1 t) (ms2 t) (hs2 t) (ms3 t) (hs3 t) scM (Memref.isWhole_whole _) hc0 hc1 (iblk V c 0 t) (iblk V c 1 t) _)
    isplitl [H0]; · iexact H0
    isplitl [H1]; · iexact H1
    isplitl [HS]; · iexists _; iexact HS
    iintro ⟨H0, H1, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    isplitl [H2]; · iexact H2
    iexact H3
  · have hne : t.val ≠ 0 := fun h => h0 (by rw [h])
    have hc0 : ¬cond0 (grid1.coords t) := fun h => h0 ((hcond0 t).mp h)
    rw [PhiS_pos V c _ _ hne, accAt_next V c t h0]
    by_cases h1 : t.val % 318 = 317
    · have hc1 : cond1 (grid1.coords t) := (hcond1 t).mpr h1
      rw [show (dat V c).leavesExact 3 t = owns (c : Thread nD τ) (ms3 t) fullShare ((dat V c).after 3 t) from by
        unfold Dat.leavesExact; rw [liveAt3 t hc1], after3]
      unfold outAt
      rw [accAt_next V c t h0]
      iintro ⟨⟨⟨HS, Hr⟩, Hg⟩, Ho, ⟨%d0, H0⟩, ⟨%d1, H1⟩, ⟨%d2, H2⟩, ⟨%d3, H3⟩⟩
      iapply (run_last c Set.univ (grid1.coords t) (ms0 t) (hs0 t) (ms1 t) (hs1 t) (ms2 t) (hs2 t) (ms3 t) (hs3 t) scM (Memref.isWhole_whole _) hc0 hc1 (iblk V c 0 t) (iblk V c 1 t) (iblk V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3
    · have hc1 : ¬cond1 (grid1.coords t) := fun h => h1 ((hcond1 t).mp h)
      rw [Dat.leavesExact_idle (dat V c) 3 t (idleAt3 t hc1) (noFlush3 t hc1)]
      iintro ⟨⟨⟨HS, Hr⟩, Hg⟩, Ho, ⟨%d0, H0⟩, ⟨%d1, H1⟩, ⟨%d2, H2⟩, H3⟩
      iapply (run_mid c Set.univ (grid1.coords t) (ms0 t) (hs0 t) (ms1 t) (hs1 t) (ms2 t) (hs2 t) (ms3 t) (hs3 t) scM (Memref.isWhole_whole _) hc0 hc1 (iblk V c 0 t) (iblk V c 1 t) _ _)
      isplitl [H0]; · iexact H0
      isplitl [H1]; · iexact H1
      isplitl [HS]; · iexact HS
      iintro ⟨H0, H1, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

theorem hin (c : Dev nD) : (Pipeline.ΦA spec1 c : sProp 𝕄) ⊢ (dat V c).Φ 0 := by
  rw [show (dat V c).Φ 0 = PhiS V c 0 (Nat.zero_le _) from rfl, PhiS_zero V c 0 _ rfl]
  try exact Idealize.SL.BI.Entails.refl _

theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl, PhiA_eq]
  exact PhiS_any V c _ _

theorem arrAt_in (c : Dev nD) (w : Fin cfg1.W) (hw : w ≠ 3) : (dat V c).arrAt w cfg1.N = V c (Pipeline.arrRef spec1 w) :=
  ((dat V c).arrAt_in w (by fin_cases w <;> first | rfl | exact absurd rfl hw) _).trans (A_eq V c w)

end Cert.KernelIdeal.Reg1

end
-- ==== Proof.KI.Reg2.lean ====
/-
  The second gather of the graph convolution: for every message chunk (4096 messages) the kernel walks the 49 node
  tiles (2048 rows of the hidden features each), adding to a running block the product of the chunk's 0/1 selector
  of source rows in the tile with the tile's rows of h · W; after the last tile the block, scaled message by
  message by the message weight, is the chunk's block of the output.  This module runs the kernel body in its
  three cases (first tile of a chunk: the running block is zeroed first; a middle tile; last tile: the output
  block is stored), names what the running block and the output block hold point by point, and proves the body
  obligation of the pipeline rule at the buffer contents the region is entered with.
-/
import proofs.«115179_j73220602462691_1_alg».proof.Proof.Gen.KernelIdeal.Launch
import proofs.«115179_j73220602462691_1_alg».proof.Proof.Gen.KernelIdeal.Skeleton
import proofs.«115179_j73220602462691_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form -/

theorem lt_N (t : Fin cfg2.N) : t.val < 15582 := lt_of_lt_of_eq t.isLt N_2

/-- The inner coordinate of point `t` is its node tile, the outer one its message chunk. -/
theorem coords1 (t : Fin cfg2.N) : (grid2.coords t 1).val = t.val % 49 := by
  show t.val / grid2.stride 1 % 49 = _
  rw [show grid2.stride 1 = 1 from by decide, Nat.div_one]
theorem coords0 (t : Fin cfg2.N) : (grid2.coords t 0).val = t.val / 49 := by
  show t.val / grid2.stride 0 % 318 = _
  rw [show grid2.stride 0 = 49 from by decide]
  have := lt_N t; omega

/-- The kernel's test "coordinate = k" — compare, widen, compare with zero — holds exactly when the numbers agree. -/
theorem word_test_iff (v k : ℕ) (hv : v < 4294967296) (hk : k < 4294967296) :
    Scalar.cmpi .ne (Scalar.extui (Scalar.cmpi .eq (BitVec.ofNat 32 v) (BitVec.ofNat 32 k))) 0#32 = 1#1 ↔ v = k := by
  have hinj : BitVec.ofNat 32 v = BitVec.ofNat 32 k ↔ v = k := by
    constructor
    · intro h
      have h' := congrArg BitVec.toNat h
      rw [BitVec.toNat_ofNat, BitVec.toNat_ofNat, Nat.mod_eq_of_lt hv, Nat.mod_eq_of_lt hk] at h'
      exact h'
    · intro h; rw [h]
  rw [← hinj]
  show BitVec.ofBool ((BitVec.ofBool (BitVec.ofNat 32 v == BitVec.ofNat 32 k)).setWidth 32 != 0#32) = 1#1 ↔ _
  by_cases h : BitVec.ofNat 32 v = BitVec.ofNat 32 k
  · rw [show (BitVec.ofNat 32 v == BitVec.ofNat 32 k) = true from beq_iff_eq.mpr h]
    exact ⟨fun _ => h, fun _ => by decide⟩
  · rw [show (BitVec.ofNat 32 v == BitVec.ofNat 32 k) = false from beq_eq_false_iff_ne.mpr h]
    exact ⟨fun h' => absurd h' (by decide), fun h' => absurd h' h⟩

/-- The body is at the first node tile of its chunk (it zeroes the running block). -/
abbrev condFirst (i : grid2.Coords) : Prop :=
  (Scalar.cmpi .ne (Scalar.extui (Scalar.cmpi .eq (BitVec.ofNat 32 (i 1).val) 0#32)) 0#32) = 1#1
theorem hFirst (t : Fin cfg2.N) : condFirst (grid2.coords t) ↔ t.val % 49 = 0 := by
  exact (word_test_iff (grid2.coords t 1).val 0 (by rw [coords1]; omega) (by omega)).trans (by rw [coords1])

/-- The body is at the last node tile of its chunk (it stores the output block). -/
abbrev condLast (i : grid2.Coords) : Prop := k2_cond2 i = 1#1
theorem hLast (t : Fin cfg2.N) : condLast (grid2.coords t) ↔ t.val % 49 = 48 := by
  exact (word_test_iff (grid2.coords t 1).val 48 (by rw [coords1]; omega) (by omega)).trans (by rw [coords1])

set_option maxHeartbeats 4000000 in
noncomputable def kernelRun_A (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : condFirst i) (hc1 : ¬condLast i)
    (x0 : Vec F S2048x64 .f32) (x1 : Vec F S64x32 .f32) (x2 : Vec F S4096x1 .i32) (x3 : Vec F S4096x1 .f32) :
    { LS : List (View.Piece (Elt F) S4096x32 .f32) //
      ∀ (xi4 : Vec F S4096x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, fun xi4 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
noncomputable def kernelRun_B (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : ¬condLast i)
    (x0 : Vec F S2048x64 .f32) (x1 : Vec F S64x32 .f32) (x2 : Vec F S4096x1 .i32) (x3 : Vec F S4096x1 .f32) (xs : Vec F S4096x32 .f32) :
    { LS : List (View.Piece (Elt F) S4096x32 .f32) //
      ∀ (xi4 : Vec F S4096x32 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, fun xi4 E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
noncomputable def kernelRun_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i)
    (x0 : Vec F S2048x64 .f32) (x1 : Vec F S64x32 .f32) (x2 : Vec F S4096x1 .i32) (x3 : Vec F S4096x1 .f32) (xs : Vec F S4096x32 .f32) :
    Σ' (L4 : List (View.Piece (Elt F) S4096x32 .bf16)), { LS : List (View.Piece (Elt F) S4096x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS)) -∗ K ⟨⟩))
          ⊢ wp frame (wpE (defs₀ (F := F)) Variants.none c none) E (cc2__gather_kernel i arg2 harg2 arg3 harg3 arg4 harg4 arg5 harg5 arg6 harg6 arg7 harg7) K } := by
  refine ⟨?_, ?_, fun E K => ?run⟩
  case run =>
    simp only [cc2__gather_kernel_eq_skeleton]; unfold cc2__gather_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2
    obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

/-! ## The memrefs the body is called with at a point -/

abbrev ms0 (t : Fin cfg2.N) : Memref sig .tc .vmem S2048x64 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S64x32 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S4096x1 .i32 := win2_2.stage (cfg2.slots t 2)
abbrev hs2 (t : Fin cfg2.N) : (ms2 t).IsWhole := hstage2_2 ((cfg2.slots t 2).cast nbuf2_2)
abbrev ms3 (t : Fin cfg2.N) : Memref sig .tc .vmem S4096x1 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S4096x32 .bf16 := win2_4.stage (cfg2.slots t 4)
abbrev hs4 (t : Fin cfg2.N) : (ms4 t).IsWhole := hstage2_4 ((cfg2.slots t 4).cast nbuf2_4)
/-- The running block: the kernel's scratch operand, a whole buffer of its own. -/
abbrev scM : Memref sig .tc .vmem S4096x32 .f32 := Memref.whole cc2_scratch0
abbrev VS : View sig .tc .vmem S4096x32 .f32 := scM.view
/-- A view of the output block's shape, through which the stored block is read back. -/
abbrev VO : View sig .tc .vmem S4096x32 .bf16 := (Memref.whole cc2_stg4_0 : Memref sig .tc .vmem S4096x32 .bf16).view

/-- The region's invariant with the running block opened: the scratch at some contents, the other scoped buffers
    unopened, the generator register at some state. -/
theorem PhiA_eq (c : Dev nD) :
    (Pipeline.ΦA spec2 c : sProp 𝕄)
      = iprop(iprop(iprop(∃ d, owns (c : Thread nD τ) scM fullShare d) ∗ Pipeline.scopedRestBut spec2 c [cc2_scratch0]) ∗ (∃ r, prngReg c r)) := by
  unfold Pipeline.ΦA; rw [scopedRest2_split]; simp only [scM, owns_whole]; try rfl

/-! ## Where the output window is idle -/

theorem idle4_of (i : grid2.Coords) (h : ¬condLast i) : cfg2.idle 4 i = true := by
  show (!(k2_cond2 i == 1#1)) = true
  rw [Bool.not_eq_true', beq_eq_false_iff_ne]; exact h
theorem live4_of (i : grid2.Coords) (h : condLast i) : cfg2.idle 4 i = false := by
  show (!(k2_cond2 i == 1#1)) = false
  rw [Bool.not_eq_false', beq_iff_eq]; exact h
theorem noFlush4 (t : Fin cfg2.N) (h : ¬t.val % 49 = 48) : (cfg2.win 4).flush t = false :=
  Bool.eq_false_iff.mpr fun hf => h ((flush2_4 t).mp hf)

/-! ## What each case leaves -/

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

omit V in
theorem scover_A (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : condFirst i) (hc1 : ¬condLast i) (x0 : Vec F S2048x64 .f32) (x1 : Vec F S64x32 .f32) (x2 : Vec F S4096x1 .i32) (x3 : Vec F S4096x1 .f32) (y : S4096x32.Idx) :
    ∃ pc ∈ (kernelRun_A c i arg2 harg2 arg3 harg3 arg4 harg4 arg5 harg5 arg6 harg6 arg7 harg7 hc0 hc1 x0 x1 x2 x3).1, y ∈ pc.1.set :=
  View.cover_of_tiledL (kernelRun_A c i arg2 harg2 arg3 harg3 arg4 harg4 arg5 harg5 arg6 harg6 arg7 harg7 hc0 hc1 x0 x1 x2 x3).1 S4096x32.size (by sl_kernel_rfl) y
omit V in
/-- The running block after a first-tile point. -/
def sout_A (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : condFirst i) (hc1 : ¬condLast i) (x0 : Vec F S2048x64 .f32) (x1 : Vec F S64x32 .f32) (x2 : Vec F S4096x1 .i32) (x3 : Vec F S4096x1 .f32) : Vec F S4096x32 .f32 :=
  VS.read (Elt F) (VS.writes (Elt F) VS.junk (kernelRun_A c i arg2 harg2 arg3 harg3 arg4 harg4 arg5 harg5 arg6 harg6 arg7 harg7 hc0 hc1 x0 x1 x2 x3).1)

omit V in
theorem scover_B (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : ¬condLast i) (x0 : Vec F S2048x64 .f32) (x1 : Vec F S64x32 .f32) (x2 : Vec F S4096x1 .i32) (x3 : Vec F S4096x1 .f32) (xs : Vec F S4096x32 .f32) (y : S4096x32.Idx) :
    ∃ pc ∈ (kernelRun_B c i arg2 harg2 arg3 harg3 arg4 harg4 arg5 harg5 arg6 harg6 arg7 harg7 hc0 hc1 x0 x1 x2 x3 xs).1, y ∈ pc.1.set :=
  View.cover_of_tiledL (kernelRun_B c i arg2 harg2 arg3 harg3 arg4 harg4 arg5 harg5 arg6 harg6 arg7 harg7 hc0 hc1 x0 x1 x2 x3 xs).1 S4096x32.size (by sl_kernel_rfl) y
omit V in
/-- The running block after a middle-tile point, over what the point before left. -/
def sout_B (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : ¬condLast i) (x0 : Vec F S2048x64 .f32) (x1 : Vec F S64x32 .f32) (x2 : Vec F S4096x1 .i32) (x3 : Vec F S4096x1 .f32) (xs : Vec F S4096x32 .f32) : Vec F S4096x32 .f32 :=
  VS.read (Elt F) (VS.writes (Elt F) VS.junk (kernelRun_B c i arg2 harg2 arg3 harg3 arg4 harg4 arg5 harg5 arg6 harg6 arg7 harg7 hc0 hc1 x0 x1 x2 x3 xs).1)

omit V in
theorem cover_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) (y : S4096x32.Idx) :
    ∃ pc ∈ (kernelRun_C c i arg2 harg2 arg3 harg3 arg4 harg4 arg5 harg5 arg6 harg6 arg7 harg7 hc0 hc1 x0 x1 x2 x3 xs).1, y ∈ pc.1.set :=
  View.cover_of_tiledL (kernelRun_C c i arg2 harg2 arg3 harg3 arg4 harg4 arg5 harg5 arg6 harg6 arg7 harg7 hc0 hc1 x0 x1 x2 x3 xs).1 S4096x32.size (by sl_kernel_rfl) y
omit V in
/-- The output block a last-tile point stores. -/
def out_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) : Vec F S4096x32 .bf16 :=
  VO.read (Elt F) (VO.writes (Elt F) VO.junk (kernelRun_C c i arg2 harg2 arg3 harg3 arg4 harg4 arg5 harg5 arg6 harg6 arg7 harg7 hc0 hc1 x0 x1 x2 x3 xs).1)
omit V in
theorem scover_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) (y : S4096x32.Idx) :
    ∃ pc ∈ (kernelRun_C c i arg2 harg2 arg3 harg3 arg4 harg4 arg5 harg5 arg6 harg6 arg7 harg7 hc0 hc1 x0 x1 x2 x3 xs).2.1, y ∈ pc.1.set :=
  View.cover_of_tiledL (kernelRun_C c i arg2 harg2 arg3 harg3 arg4 harg4 arg5 harg5 arg6 harg6 arg7 harg7 hc0 hc1 x0 x1 x2 x3 xs).2.1 S4096x32.size (by sl_kernel_rfl) y
omit V in
/-- The running block after a last-tile point. -/
def sout_C (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) : Vec F S4096x32 .f32 :=
  VS.read (Elt F) (VS.writes (Elt F) VS.junk (kernelRun_C c i arg2 harg2 arg3 harg3 arg4 harg4 arg5 harg5 arg6 harg6 arg7 harg7 hc0 hc1 x0 x1 x2 x3 xs).2.1)

/-- What the output window's buffer is said to hold after a point that stores nothing into it: nothing reads it. -/
def idleOut : Vec F S4096x32 .bf16 := VO.read (Elt F) VO.junk

/-! ## The output block and the running block, point by point -/

/-- After the body at position `n`: (the output window's buffer, the running block).  The case is chosen by the
    position modulo 49; a middle or last tile adds to what the position before left. -/
def outsAt (c : Dev nD) : (n : ℕ) → n < cfg2.N → Vec F S4096x32 .bf16 × Vec F S4096x32 .f32
  | 0, hn => (idleOut, sout_A c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hFirst ⟨0, hn⟩).mpr (Nat.zero_mod _)) (fun h => (fun h => by (try dsimp only at h); omega) ((hLast ⟨0, hn⟩).mp h)) (iblk V c 0 ⟨0, hn⟩) (iblk V c 1 ⟨0, hn⟩) (iblk V c 2 ⟨0, hn⟩) (iblk V c 3 ⟨0, hn⟩))
  | n + 1, hn =>
    if h0 : (n + 1) % 49 = 0 then
      if h1 : (n + 1) % 49 = 48 then
        False.elim (by omega)
      else
        (idleOut, sout_A c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hFirst ⟨n + 1, hn⟩).mpr h0) (fun h => h1 ((hLast ⟨n + 1, hn⟩).mp h)) (iblk V c 0 ⟨n + 1, hn⟩) (iblk V c 1 ⟨n + 1, hn⟩) (iblk V c 2 ⟨n + 1, hn⟩) (iblk V c 3 ⟨n + 1, hn⟩))
    else
      if h1 : (n + 1) % 49 = 48 then
        (out_C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hFirst ⟨n + 1, hn⟩).mp h)) ((hLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2,
         sout_C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hFirst ⟨n + 1, hn⟩).mp h)) ((hLast ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)
      else
        (idleOut, sout_B c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hFirst ⟨n + 1, hn⟩).mp h)) (fun h => h1 ((hLast ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2)

theorem outsAt_A (c : Dev nD) (t : Fin cfg2.N) (h0 : t.val % 49 = 0) (h1 : ¬t.val % 49 = 48) :
    outsAt V c t.val t.isLt = (idleOut, sout_A c (grid2.coords t) (ms0 t) (hs0 t) (ms1 t) (hs1 t) (ms2 t) (hs2 t) (ms3 t) (hs3 t) (ms4 t) (hs4 t) scM (Memref.isWhole_whole _) ((hFirst t).mpr h0) (fun h => h1 ((hLast t).mp h)) (iblk V c 0 t) (iblk V c 1 t) (iblk V c 2 t) (iblk V c 3 t)) := by
  obtain ⟨n, hn⟩ := t
  cases n with
  | zero => exact rfl
  | succ n => exact (dif_pos h0).trans ((dif_neg h1).trans rfl)

theorem outsAt_B (c : Dev nD) (t : Fin cfg2.N) (h0 : ¬t.val % 49 = 0) (h1 : ¬t.val % 49 = 48) :
    outsAt V c t.val t.isLt = (idleOut, sout_B c (grid2.coords t) (ms0 t) (hs0 t) (ms1 t) (hs1 t) (ms2 t) (hs2 t) (ms3 t) (hs3 t) (ms4 t) (hs4 t) scM (Memref.isWhole_whole _) (fun h => h0 ((hFirst t).mp h)) (fun h => h1 ((hLast t).mp h)) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 49 = 0) (h1 : t.val % 49 = 48) :
    outsAt V c t.val t.isLt = (out_C c (grid2.coords t) (ms0 t) (hs0 t) (ms1 t) (hs1 t) (ms2 t) (hs2 t) (ms3 t) (hs3 t) (ms4 t) (hs4 t) scM (Memref.isWhole_whole _) (fun h => h0 ((hFirst t).mp h)) ((hLast t).mpr h1) (iblk V c 0 t) (iblk V c 1 t) (iblk V c 2 t) (iblk V c 3 t) (outsAt V c (t.val - 1) (Nat.lt_of_le_of_lt (Nat.sub_le _ _) t.isLt)).2,
      sout_C c (grid2.coords t) (ms0 t) (hs0 t) (ms1 t) (hs1 t) (ms2 t) (hs2 t) (ms3 t) (hs3 t) (ms4 t) (hs4 t) scM (Memref.isWhole_whole _) (fun h => h0 ((hFirst t).mp h)) ((hLast t).mpr h1) (iblk V c 0 t) (iblk V c 1 t) (iblk V c 2 t) (iblk V c 3 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: at the region's entry the class's; afterwards the running block at what the
    position before left, the other scoped buffers unopened, the generator register at some state. -/
def PhiS (c : Dev nD) : (n : ℕ) → n ≤ cfg2.N → sProp 𝕄
  | 0, _ => Pipeline.ΦA spec2 c
  | n + 1, hn => iprop(iprop(owns (c : Thread nD τ) scM fullShare ((outsAt V c n hn).2) ∗ Pipeline.scopedRestBut spec2 c [cc2_scratch0]) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) scM fullShare ((outsAt V c n hn).2) ∗ Pipeline.scopedRestBut spec2 c [cc2_scratch0]) ∗ (∃ r, prngReg c r)) := rfl
theorem PhiS_pos (c : Dev nD) (n : ℕ) (h : n ≤ cfg2.N) (hz : n ≠ 0) :
    PhiS V c n h = iprop(iprop(owns (c : Thread nD τ) scM fullShare ((outsAt V c (n - 1) (by omega)).2) ∗ Pipeline.scopedRestBut spec2 c [cc2_scratch0]) ∗ (∃ r, prngReg c r)) := by
  cases n with
  | zero => exact absurd rfl hz
  | succ n => rfl

/-! ## The proof data -/

theorem before0_of {c : Dev nD} (dt : Dat τ (Elt F) Unit ℕ (UR sig nD τ) ℕ cfg2 c) (hA : dt.A 0 = V c (Pipeline.arrRef spec2 0))
    (hafter : ∀ t, dt.after 0 t = iblk V c 0 t) (t : Fin cfg2.N) (d) : dt.before 0 t d = iblk V c 0 t :=
  (dt.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dt : Dat τ (Elt F) Unit ℕ (UR sig nD τ) ℕ cfg2 c) (hA : dt.A 1 = V c (Pipeline.arrRef spec2 1))
    (hafter : ∀ t, dt.after 1 t = iblk V c 1 t) (t : Fin cfg2.N) (d) : dt.before 1 t d = iblk V c 1 t :=
  (dt.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dt : Dat τ (Elt F) Unit ℕ (UR sig nD τ) ℕ cfg2 c) (hA : dt.A 2 = V c (Pipeline.arrRef spec2 2))
    (hafter : ∀ t, dt.after 2 t = iblk V c 2 t) (t : Fin cfg2.N) (d) : dt.before 2 t d = iblk V c 2 t :=
  (dt.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dt : Dat τ (Elt F) Unit ℕ (UR sig nD τ) ℕ cfg2 c) (hA : dt.A 3 = V c (Pipeline.arrRef spec2 3))
    (hafter : ∀ t, dt.after 3 t = iblk V c 3 t) (t : Fin cfg2.N) (d) : dt.before 3 t d = iblk V c 3 t :=
  (dt.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The proof data of the region on core `c`: the arrays as the region finds them; after the body each input's
    buffer at its block, the output's at `outsAt`'s first component; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (outsAt V c t.val t.isLt).1 := by dsimp only [dat]

theorem before0 (c : Dev nD) (t : Fin cfg2.N) (d) : (dat V c).before 0 t d = iblk V c 0 t :=
  before0_of V (dat V c) (A_eq V c 0) (after0 V c) t d
theorem before1 (c : Dev nD) (t : Fin cfg2.N) (d) : (dat V c).before 1 t d = iblk V c 1 t :=
  before1_of V (dat V c) (A_eq V c 1) (after1 V c) t d
theorem before2 (c : Dev nD) (t : Fin cfg2.N) (d) : (dat V c).before 2 t d = iblk V c 2 t :=
  before2_of V (dat V c) (A_eq V c 2) (after2 V c) t d
theorem before3 (c : Dev nD) (t : Fin cfg2.N) (d) : (dat V c).before 3 t d = iblk V c 3 t :=
  before3_of V (dat V c) (A_eq V c 3) (after3 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t)

set_option maxHeartbeats 4800000 in
/-- The body at any point: the inputs' buffers hold their blocks; the position modulo 49 says which case the point
    is in; the invariant hands the body the running block at what the point before left (at anything at the
    region's first point) and takes it back at this point's contents; the output's buffer is handed back untouched
    where the body stores nothing into it, and at the stored block at a last-tile point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  have hN : t.val < 15582 := lt_of_lt_of_eq t.isLt (show cfg2.N = 15582 from N_2)
  rw [show (dat V c).leavesExact 0 t = owns (c : Thread nD τ) (ms0 t) fullShare ((dat V c).after 0 t) from by
        unfold Dat.leavesExact; rw [show cfg2.idle 0 (grid2.coords t) = false from rfl], after0]
  rw [show (dat V c).leavesExact 1 t = owns (c : Thread nD τ) (ms1 t) fullShare ((dat V c).after 1 t) from by
        unfold Dat.leavesExact; rw [show cfg2.idle 1 (grid2.coords t) = false from rfl], after1]
  rw [show (dat V c).leavesExact 2 t = owns (c : Thread nD τ) (ms2 t) fullShare ((dat V c).after 2 t) from by
        unfold Dat.leavesExact; rw [show cfg2.idle 2 (grid2.coords t) = false from rfl], after2]
  rw [show (dat V c).leavesExact 3 t = owns (c : Thread nD τ) (ms3 t) fullShare ((dat V c).after 3 t) from by
        unfold Dat.leavesExact; rw [show cfg2.idle 3 (grid2.coords t) = false from rfl], after3]
  by_cases h0 : t.val % 49 = 0
  · by_cases h1 : t.val % 49 = 48
    · exfalso; omega
    · rw [Dat.leavesExact_idle (dat V c) 4 t (idle4_of _ (fun h => h1 ((hLast t).mp h))) (noFlush4 t h1)]
      rw [outsAt_A V c t h0 h1]
      unfold sout_A; (try dsimp only)
      by_cases hz : t.val = 0
      · rw [PhiS_castSucc V c t, PhiS_zero V c _ _ hz, PhiA_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun_A c (grid2.coords t) _ _ _ _ _ _ _ _ _ _ _ _ ((hFirst t).mpr h0) (fun h => h1 ((hLast t).mp h)) (iblk V c 0 t) (iblk V c 1 t) (iblk V c 2 t) (iblk V c 3 t)).2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover_A c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun_A c (grid2.coords t) _ _ _ _ _ _ _ _ _ _ _ _ ((hFirst t).mpr h0) (fun h => h1 ((hLast t).mp h)) (iblk V c 0 t) (iblk V c 1 t) (iblk V c 2 t) (iblk V c 3 t)).2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover_A c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 49 = 48
    · rw [show (dat V c).leavesExact 4 t = owns (c : Thread nD τ) (ms4 t) fullShare ((dat V c).after 4 t) from by
        unfold Dat.leavesExact; rw [live4_of _ ((hLast t).mpr h1)], after4]
      rw [outsAt_C V c t h0 h1]
      unfold out_C sout_C; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun_C c (grid2.coords t) _ _ _ _ _ _ _ _ _ _ _ _ (fun h => h0 ((hFirst t).mp h)) ((hLast t).mpr h1) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover_C c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover_C c _ _ _ _ _ _ _ _ _ _ _ _ _ _ _ _ _ _ _ _)
    · rw [Dat.leavesExact_idle (dat V c) 4 t (idle4_of _ (fun h => h1 ((hLast t).mp h))) (noFlush4 t h1)]
      rw [outsAt_B V c t h0 h1]
      unfold sout_B; (try dsimp only)
      rw [PhiS_castSucc V c t, PhiS_pos V c _ _ hz]
      iintro ⟨⟨⟨HS0, Hr⟩, Hg⟩, Ho, ⟨%d0, H0⟩, ⟨%d1, H1⟩, ⟨%d2, H2⟩, ⟨%d3, H3⟩, ⟨%d4, H4⟩⟩
      iapply ((kernelRun_B c (grid2.coords t) _ _ _ _ _ _ _ _ _ _ _ _ (fun h => h0 ((hFirst t).mp h)) (fun h => h1 ((hLast t).mp h)) (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover_B c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : (Pipeline.ΦA spec2 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives the class's back: the running block's contents are forgotten. -/
theorem Phi_out (c : Dev nD) (t : Fin (cfg2.N + 1)) (ht : t.val ≠ 0) : (dat V c).Φ t ⊢ (Pipeline.ΦA spec2 c : sProp 𝕄) := by
  rw [show (dat V c).Φ t = PhiS V c t.val (Nat.le_of_lt_succ t.isLt) from rfl, PhiS_pos V c _ _ ht, PhiA_eq]
  iintro ⟨⟨HS0, Hr⟩, Hg⟩
  isplitl [HS0 Hr]
  · isplitl [HS0]
    · iexists _; iexact HS0
    iexact Hr
  iexact Hg

theorem hout (c : Dev nD) : (dat V c).Φ (Fin.last cfg2.N) ⊢ (Pipeline.ΦA spec2 c : sProp 𝕄) :=
  Phi_out V c _ (by rw [Fin.val_last]; have : cfg2.N = 15582 := N_2; omega)

/-- An input window's array ends as the region found it. -/
theorem arrAt_in (c : Dev nD) (w : Fin cfg2.W) (hw : w ≠ 4) : (dat V c).arrAt w cfg2.N = V c (Pipeline.arrRef spec2 w) := by
  have hin : (cfg2.win w).isOut = false := by
    fin_cases w <;> first | rfl | exact absurd rfl hw
  exact ((dat V c).arrAt_in w hin _).trans (A_eq V c w)

end Cert.KernelIdeal.Reg2

end
-- ==== Proof.KI.Reg3Runs.lean ====
/-
  Region 3 (the last layer's scatter and the linear read-out): the body on any whole staging memrefs, case by case.

  The body has two conditions on the message chunk of the grid point: it is the first of its node tile (the
  accumulator is zeroed before the chunk's product is added) or the last (after the product is added, the output
  block is stored: the clamped accumulator plus bias, times the read-out weights, plus the read-out bias).  Each of
  the three cases that occur is run once: what the accumulator and, in the last case, the output's buffer hold
  afterwards is the body's arithmetic applied to the blocks it loaded.  Buffers a case does not touch are left out.
-/
import proofs.«115179_j73220602462691_1_alg».proof.Proof.Gen.KernelIdeal.Launch
import proofs.«115179_j73220602462691_1_alg».proof.Proof.Gen.KernelIdeal.Skeleton
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first condition, from the grid coordinates: the message chunk is the first of its node tile. -/
abbrev cond3_0 (i : grid3.Coords) : Prop := (Scalar.cmpi .ne (Scalar.extui (Scalar.cmpi .eq (BitVec.ofNat 32 (i 1).val) 0#32)) 0#32) = 1#1
/-- The body's second condition: the message chunk is the last of its node tile. -/
abbrev cond3_1 (i : grid3.Coords) : Prop := k3_cond2 i = 1#1

theorem hz2 : (![0, 0] : Fin 2 → Nat) = fun _ => 0 := funext fun a => by
  match a with
  | ⟨0, _⟩ => rfl
  | ⟨1, _⟩ => rfl

set_option maxHeartbeats 1000000 in
/-- First chunk of a node tile: the accumulator ends at the chunk's product added to the zero block. -/
theorem run_first (c : Dev nD) (E : Set ℕ) (i : grid3.Coords) (arg2 : Memref sig .tc .vmem S4096x32 .bf16) (harg2 : arg2.IsWhole) (arg3 : Memref sig .tc .vmem S1x4096 .i32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S2048x1 .f32) (harg7 : arg7.IsWhole) (arg8 : Memref sig .tc .vmem S2048x32 .f32) (harg8 : arg8.IsWhole) (hc0 : cond3_0 i) (hc1 : ¬cond3_1 i)
    (x0 : Vec F S4096x32 .bf16) (x1 : Vec F S1x4096 .i32) (K : PUnit → sProp 𝕄) :
    iprop(owns (c : Thread nD τ) arg2 fullShare x0 ∗ owns (c : Thread nD τ) arg3 fullShare x1
        ∗ (∃ d, owns (c : Thread nD τ) arg8 fullShare d)
        ∗ (iprop(owns (c : Thread nD τ) arg2 fullShare x0 ∗ owns (c : Thread nD τ) arg3 fullShare x1
            ∗ owns (c : Thread nD τ) arg8 fullShare (k3_pay2 i x1 (k3_pay1 (F := F)) x0)) -∗ K ⟨⟩))
      ⊢ wp frame (wpE (defs₀ (F := F)) Variants.none c none) E (cc3__scatter_final_kernel i arg2 harg2 arg3 harg3 arg4 harg4 arg5 harg5 arg6 harg6 arg7 harg7 arg8 harg8) K := by
  simp only [cc3__scatter_final_kernel_eq_skeleton]; unfold cc3__scatter_final_kernel_skel
  unfold owns
  iintro ⟨⟨%f0, %hf0, H0⟩, ⟨%f1, %hf1, H1⟩, ⟨%d8, %f8, -, H8⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H8
  ipureintro
  sl_unfold_words
  rw [View.read_writes_eq_canon _ _ _ (fun y => ⟨_, List.mem_cons_self, View.mem_set_unit_zero hz2 inb_S2048x32_S2048x32_0_0 y⟩)]
  rw [View.canon_cons_unit_zero (S := S2048x32) hz2, View.readCov_unit_zero (S := S2048x32) _ hz2]
  simp only [View.readAt_eq_ld, View.ld_unit_zero (S := S4096x32) hz2, View.ld_unit_zero (S := S1x4096) hz2]

set_option maxHeartbeats 1000000 in
/-- A chunk that is neither first nor last: the chunk's product is added to what the accumulator held. -/
theorem run_mid (c : Dev nD) (E : Set ℕ) (i : grid3.Coords) (arg2 : Memref sig .tc .vmem S4096x32 .bf16) (harg2 : arg2.IsWhole) (arg3 : Memref sig .tc .vmem S1x4096 .i32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S2048x1 .f32) (harg7 : arg7.IsWhole) (arg8 : Memref sig .tc .vmem S2048x32 .f32) (harg8 : arg8.IsWhole) (hc0 : ¬cond3_0 i) (hc1 : ¬cond3_1 i)
    (x0 : Vec F S4096x32 .bf16) (x1 : Vec F S1x4096 .i32) (xs : Vec F S2048x32 .f32) (K : PUnit → sProp 𝕄) :
    iprop(owns (c : Thread nD τ) arg2 fullShare x0 ∗ owns (c : Thread nD τ) arg3 fullShare x1
        ∗ owns (c : Thread nD τ) arg8 fullShare xs
        ∗ (iprop(owns (c : Thread nD τ) arg2 fullShare x0 ∗ owns (c : Thread nD τ) arg3 fullShare x1
            ∗ owns (c : Thread nD τ) arg8 fullShare (k3_pay2 i x1 xs x0)) -∗ K ⟨⟩))
      ⊢ wp frame (wpE (defs₀ (F := F)) Variants.none c none) E (cc3__scatter_final_kernel i arg2 harg2 arg3 harg3 arg4 harg4 arg5 harg5 arg6 harg6 arg7 harg7 arg8 harg8) K := by
  simp only [cc3__scatter_final_kernel_eq_skeleton]; unfold cc3__scatter_final_kernel_skel
  unfold owns
  iintro ⟨⟨%f0, %hf0, H0⟩, ⟨%f1, %hf1, H1⟩, ⟨%f8, %hf8, H8⟩, Hk⟩
  subst hf0; subst hf1; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H8
  ipureintro
  rw [View.read_writes_eq_canon _ _ _ (fun y => ⟨_, List.mem_cons_self, View.mem_set_unit_zero hz2 inb_S2048x32_S2048x32_0_0 y⟩)]
  rw [View.canon_cons_unit_zero (S := S2048x32) hz2]
  simp only [View.readAt_eq_ld, View.ld_unit_zero (S := S4096x32) hz2, View.ld_unit_zero (S := S1x4096) hz2, View.ld_unit_zero (S := S2048x32) hz2]

set_option maxHeartbeats 1000000 in
/-- Last chunk of a node tile: the product is added, then the read-out of the sum is stored into the output block. -/
theorem run_last (c : Dev nD) (E : Set ℕ) (i : grid3.Coords) (arg2 : Memref sig .tc .vmem S4096x32 .bf16) (harg2 : arg2.IsWhole) (arg3 : Memref sig .tc .vmem S1x4096 .i32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S2048x1 .f32) (harg7 : arg7.IsWhole) (arg8 : Memref sig .tc .vmem S2048x32 .f32) (harg8 : arg8.IsWhole) (hc0 : ¬cond3_0 i) (hc1 : cond3_1 i)
    (x0 : Vec F S4096x32 .bf16) (x1 : Vec F S1x4096 .i32) (x2 : Vec F S1x32 .f32) (x3 : Vec F S32x1 .f32) (x4 : Vec F S1x1 .f32)
    (xs : Vec F S2048x32 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k3_pay3 (k3_pay2 i x1 xs x0) x2 x3 x4)
            ∗ owns (c : Thread nD τ) arg8 fullShare (k3_pay2 i x1 xs x0)) -∗ K ⟨⟩))
      ⊢ wp frame (wpE (defs₀ (F := F)) Variants.none c none) E (cc3__scatter_final_kernel i arg2 harg2 arg3 harg3 arg4 harg4 arg5 harg5 arg6 harg6 arg7 harg7 arg8 harg8) K := by
  simp only [cc3__scatter_final_kernel_eq_skeleton]; unfold cc3__scatter_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, Hk⟩
  subst hf0; subst hf1; subst hf2; subst hf3; subst hf4; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H7]
  · iexists _; isplitr
    swap; · iexact H7
    ipureintro
    sl_unfold_words
    rw [View.read_writes_eq_canon _ _ _ (fun y => ⟨_, List.mem_cons_self, View.mem_set_unit_zero hz2 inb_S2048x1_S2048x1_0_0 y⟩)]
    rw [View.canon_cons_unit_zero (S := S2048x1) hz2, View.readCov_unit_zero (S := S2048x32) _ hz2]
    simp only [View.readAt_eq_ld, View.ld_unit_zero (S := S4096x32) hz2, View.ld_unit_zero (S := S1x4096) hz2, View.ld_unit_zero (S := S2048x32) hz2, View.ld_unit_zero (S := S1x32) hz2, View.ld_unit_zero (S := S32x1) hz2, View.ld_unit_zero (S := S1x1) hz2]
  iexists _; isplitr
  swap; · iexact H8
  ipureintro
  sl_unfold_words
  rw [View.read_writes_eq_canon _ _ _ (fun y => ⟨_, List.mem_cons_self, View.mem_set_unit_zero hz2 inb_S2048x32_S2048x32_0_0 y⟩)]
  rw [View.canon_cons_unit_zero (S := S2048x32) hz2]
  simp only [View.readAt_eq_ld, View.ld_unit_zero (S := S4096x32) hz2, View.ld_unit_zero (S := S1x4096) hz2, View.ld_unit_zero (S := S2048x32) hz2]

end Cert.KernelIdeal.Reg3

end
-- ==== Proof.KI.Reg3Kit.lean ====
/-
  Region 3 (the last layer's scatter and the linear read-out): the schedule of its grid and the region invariant.

  The blocks the windows read at a grid point, the two conditions of the body in closed form over the point
  (the first chunk of a node tile: `t % 318 = 0`; its last chunk: `t % 318 = 317`), where the output window is
  idle, the staging memrefs the pipeline passes at a point, and the region invariant with the accumulator split out.
-/
import proofs.«115179_j73220602462691_1_alg».proof.Proof.KI.Reg3Runs
import proofs.«115179_j73220602462691_1_alg».proof.Proof.Gen.KernelIdeal.Points

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof
    data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the point -/

/-- The message-chunk coordinate of point `t` is `t % 318`, -/
theorem coords3_1 (t : Fin cfg3.N) : (grid3.coords t 1).val = t.val % 318 := by
  show t.val / grid3.stride 1 % 318 = _
  rw [show grid3.stride 1 = 1 from by decide, Nat.div_one]
/-- and its node-tile coordinate `t / 318`. -/
theorem coords3_0 (t : Fin cfg3.N) : (grid3.coords t 0).val = t.val / 318 := by
  have hN : t.val < 15582 := lt_of_lt_of_eq t.isLt (show cfg3.N = 15582 from N_3)
  show t.val / grid3.stride 0 % 49 = _
  rw [show grid3.stride 0 = 318 from by decide]
  exact Nat.mod_eq_of_lt (by omega)

/-- A number below 2³² whose word is compared with the word of `k`: the comparison's bit, widened and compared
    with zero, is set exactly when the number is `k`. -/
theorem eq_word_iff (n k : ℕ) (hn : n < 2 ^ 32) (hk : k < 2 ^ 32) :
    (Scalar.cmpi .ne (Scalar.extui (Scalar.cmpi .eq (BitVec.ofNat 32 n) (BitVec.ofNat 32 k))) 0#32) = 1#1 ↔ n = k := by
  show BitVec.ofBool ((BitVec.ofBool (BitVec.ofNat 32 n == BitVec.ofNat 32 k)).setWidth 32 != 0#32) = 1#1 ↔ n = k
  by_cases h : n = k
  · subst h
    rw [beq_self_eq_true]
    exact ⟨fun _ => rfl, fun _ => by decide⟩
  · have hne : (BitVec.ofNat 32 n == BitVec.ofNat 32 k) = false := by
      rw [beq_eq_false_iff_ne]
      intro e
      have e' := congrArg BitVec.toNat e
      rw [BitVec.toNat_ofNat, BitVec.toNat_ofNat, Nat.mod_eq_of_lt hn, Nat.mod_eq_of_lt hk] at e'
      exact h e'
    rw [hne]
    exact ⟨fun hc => absurd hc (by decide), fun e => absurd e h⟩

/-- The first condition holds at the points ≡ 0 (mod 318). -/
theorem hcond3_0 (t : Fin cfg3.N) : cond3_0 (grid3.coords t) ↔ t.val % 318 = 0 := by
  rw [← coords3_1 t]
  have hlt : (grid3.coords t 1).val < 318 := (grid3.coords t 1).isLt
  exact eq_word_iff _ 0 (by omega) (by omega)

/-- The second condition holds at the points ≡ 317 (mod 318). -/
theorem hcond3_1 (t : Fin cfg3.N) : cond3_1 (grid3.coords t) ↔ t.val % 318 = 317 := by
  rw [← coords3_1 t]
  have hlt : (grid3.coords t 1).val < 318 := (grid3.coords t 1).isLt
  exact eq_word_iff _ 317 (by omega) (by omega)

/-! ## Where the windows are idle -/

/-- The inputs are never idle. -/
theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
theorem liveAt3_3 : ∀ t : Fin cfg3.N, cfg3.idle 3 (grid3.coords t) = false := fun _ => rfl
theorem liveAt3_4 : ∀ t : Fin cfg3.N, cfg3.idle 4 (grid3.coords t) = false := fun _ => rfl
/-- Where the second condition fails the output window is idle: the body stores nothing into it, -/
theorem idleAt3_5 (i : grid3.Coords) (h : ¬cond3_1 i) : cfg3.idle 5 i = true := by
  show (!(k3_cond2 i == 1#1)) = true
  rw [beq_eq_false_iff_ne.mpr h]; rfl
/-- and the pipeline does not write its block back. -/
theorem noFlush3_5 (t : Fin cfg3.N) (h : ¬t.val % 318 = 317) : (cfg3.win 5).flush t = false :=
  Bool.eq_false_iff.mpr fun hf => h ((flush3_5 t).mp hf)
/-- Where it holds the output window is live. -/
theorem liveAt3_5 (i : grid3.Coords) (h : cond3_1 i) : cfg3.idle 5 i = false := by
  show (!(k3_cond2 i == 1#1)) = false
  rw [show k3_cond2 i = 1#1 from h]; rfl

/-! ## The memrefs the body is called with -/

/-- Each window's current staging memref at point `t`, as the pipeline passes it, and its wholeness. -/
abbrev ms3_0 (t : Fin cfg3.N) : Memref sig .tc .vmem S4096x32 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x4096 .i32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x32 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S32x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2048x1 .f32 := win3_5.stage (cfg3.slots t 5)
abbrev hs3_5 (t : Fin cfg3.N) : (ms3_5 t).IsWhole := hstage3_5 ((cfg3.slots t 5).cast nbuf3_5)
/-- The accumulator: a whole scoped buffer of the kernel's own, passed beside the windows. -/
abbrev scM3_0 : Memref sig .tc .vmem S2048x32 .f32 := Memref.whole cc3_scratch0

/-- The scoped buffers of the core other than the staging buffers and the accumulator, unopened. -/
abbrev restBut (c : Dev nD) : sProp 𝕄 :=
  Pipeline.scopedRestBut (Ix := Unit) (Name := ℕ) (U := UR sig nD τ) (Lvl := ℕ) (Val := Elt F) spec3 c [cc3_scratch0]

/-- The region invariant as the launch hands it over, with the accumulator as a memref owned at some contents. -/
theorem PhiA3_eq (c : Dev nD) :
    (Pipeline.ΦA spec3 c : sProp 𝕄)
      = iprop(iprop(iprop((∃ d, owns (c : Thread nD τ) scM3_0 fullShare d)) ∗ restBut (F := F) c) ∗ (∃ r, prngReg c r)) := by
  unfold Pipeline.ΦA; rw [scopedRest3_split]; simp only [scM3_0, owns_whole]; try rfl

end Cert.KernelIdeal.Reg3

end
-- ==== Proof.KI.Reg3.lean ====
/-
  Region 3: the last graph-convolution layer's scatter followed by the linear read-out, as the pipeline runs it.

  The grid is 49 node tiles by 318 message chunks; point `t` is node tile `t / 318` at chunk `t % 318`.  At every
  point the body adds to a 2048 x 32 accumulator the product of the 0/1 matrix "row `r` of the tile is the
  destination of message `e` of the chunk" with the chunk's 4096 x 32 block of messages; at a tile's first chunk the
  accumulator is zeroed first, and at its last chunk the output block, the clamped accumulator plus bias times the
  read-out weights plus the read-out bias, is stored.  The accumulator is carried from point to point: the
  invariant before a point other than the first says that it holds what the point before left, a function
  (`scrAt`) of the blocks read so far.  Elsewhere than at a tile's last chunk the output window is idle.
-/
import proofs.«115179_j73220602462691_1_alg».proof.Proof.KI.Reg3Kit

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the accumulator holds after each point -/

/-- The accumulator after the body at position `n`: at a tile's first chunk the chunk's product added to the zero
    block, elsewhere added to what the point before left. -/
def scrAt (c : Dev nD) : (n : ℕ) → n < cfg3.N → Vec F S2048x32 .f32
  | 0, hn => k3_pay2 (grid3.coords ⟨0, hn⟩) (iblk V c 1 ⟨0, hn⟩) (k3_pay1 (F := F)) (iblk V c 0 ⟨0, hn⟩)
  | n + 1, hn =>
    if (n + 1) % 318 = 0 then
      k3_pay2 (grid3.coords ⟨n + 1, hn⟩) (iblk V c 1 ⟨n + 1, hn⟩) (k3_pay1 (F := F)) (iblk V c 0 ⟨n + 1, hn⟩)
    else
      k3_pay2 (grid3.coords ⟨n + 1, hn⟩) (iblk V c 1 ⟨n + 1, hn⟩) (scrAt c n (Nat.lt_of_succ_lt hn)) (iblk V c 0 ⟨n + 1, hn⟩)

/-- At a tile's first chunk. -/
theorem scrAt_first (c : Dev nD) (t : Fin cfg3.N) (h0 : t.val % 318 = 0) :
    scrAt V c t.val t.isLt = k3_pay2 (grid3.coords t) (iblk V c 1 t) (k3_pay1 (F := F)) (iblk V c 0 t) := by
  obtain ⟨n, hn⟩ := t
  cases n with
  | zero => exact rfl
  | succ n => exact if_pos h0

/-- At any other chunk. -/
theorem scrAt_next (c : Dev nD) (t : Fin cfg3.N) (h0 : ¬t.val % 318 = 0) :
    scrAt V c t.val t.isLt = k3_pay2 (grid3.coords t) (iblk V c 1 t)
      (scrAt V c (t.val - 1) (Nat.lt_of_le_of_lt (Nat.sub_le _ _) t.isLt)) (iblk V c 0 t) := by
  obtain ⟨n, hn⟩ := t
  cases n with
  | zero => exact absurd (Nat.zero_mod _) h0
  | succ n => exact if_neg h0

/-- The region invariant before position `n`: before the first point what the launch hands over; afterwards the
    accumulator at what the point before left, the other scoped buffers unopened, the generator register at some
    state. -/
def PhiS (c : Dev nD) : (n : ℕ) → n ≤ cfg3.N → sProp 𝕄
  | 0, _ => Pipeline.ΦA spec3 c
  | n + 1, hn => iprop(iprop(iprop(owns (c : Thread nD τ) scM3_0 fullShare (scrAt V c n hn)) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM3_0 fullShare (scrAt V c n hn)) ∗ restBut (F := F) c) ∗ (∃ r, prngReg c r)) := rfl

theorem PhiS_pos (c : Dev nD) (n : ℕ) (h : n ≤ cfg3.N) (hz : n ≠ 0) :
    PhiS V c n h = iprop(iprop(iprop(owns (c : Thread nD τ) scM3_0 fullShare (scrAt V c (n - 1) (by omega))) ∗ restBut (F := F) c) ∗ (∃ r, prngReg c r)) := by
  cases n with
  | zero => exact absurd rfl hz
  | succ n => rfl

/-! ## The pipeline's proof data -/

/-- The proof data of the region on core `c`: the arrays as the region finds them; after the body at a point each
    input's buffer at its block and the output's at the read-out of the accumulator (consulted only at a tile's
    last chunk); the invariant `PhiS`; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => k3_pay3 (scrAt V c t.val t.isLt) (iblk V c 2 t) (iblk V c 3 t) (iblk V c 4 t)
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after3_0 (c : Dev nD) (t : Fin cfg3.N) : (dat V c).after 0 t = iblk V c 0 t := by dsimp only [dat]
theorem after3_1 (c : Dev nD) (t : Fin cfg3.N) : (dat V c).after 1 t = iblk V c 1 t := by dsimp only [dat]
theorem after3_2 (c : Dev nD) (t : Fin cfg3.N) : (dat V c).after 2 t = iblk V c 2 t := by dsimp only [dat]
theorem after3_3 (c : Dev nD) (t : Fin cfg3.N) : (dat V c).after 3 t = iblk V c 3 t := by dsimp only [dat]
theorem after3_4 (c : Dev nD) (t : Fin cfg3.N) : (dat V c).after 4 t = iblk V c 4 t := by dsimp only [dat]
theorem after3_5 (c : Dev nD) (t : Fin cfg3.N) :
    (dat V c).after 5 t = k3_pay3 (scrAt V c t.val t.isLt) (iblk V c 2 t) (iblk V c 3 t) (iblk V c 4 t) := by dsimp only [dat]

theorem before3_0 (c : Dev nD) (t : Fin cfg3.N) (d) : (dat V c).before 0 t d = iblk V c 0 t :=
  before3_0_of V (dat V c) (A_eq V c 0) (after3_0 V c) t d
theorem before3_1 (c : Dev nD) (t : Fin cfg3.N) (d) : (dat V c).before 1 t d = iblk V c 1 t :=
  before3_1_of V (dat V c) (A_eq V c 1) (after3_1 V c) t d
theorem before3_2 (c : Dev nD) (t : Fin cfg3.N) (d) : (dat V c).before 2 t d = iblk V c 2 t :=
  before3_2_of V (dat V c) (A_eq V c 2) (after3_2 V c) t d
theorem before3_3 (c : Dev nD) (t : Fin cfg3.N) (d) : (dat V c).before 3 t d = iblk V c 3 t :=
  before3_3_of V (dat V c) (A_eq V c 3) (after3_3 V c) t d
theorem before3_4 (c : Dev nD) (t : Fin cfg3.N) (d) : (dat V c).before 4 t d = iblk V c 4 t :=
  before3_4_of V (dat V c) (A_eq V c 4) (after3_4 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (ms3_0 t) fullShare ((dat V c).before 0 t d))
    ∗ (∃ d, owns (c : Thread nD τ) (ms3_1 t) fullShare ((dat V c).before 1 t d))
    ∗ (∃ d, owns (c : Thread nD τ) (ms3_2 t) fullShare ((dat V c).before 2 t d))
    ∗ (∃ d, owns (c : Thread nD τ) (ms3_3 t) fullShare ((dat V c).before 3 t d))
    ∗ (∃ d, owns (c : Thread nD τ) (ms3_4 t) fullShare ((dat V c).before 4 t d))
    ∗ (∃ d, owns (c : Thread nD τ) (ms3_5 t) fullShare ((dat V c).before 5 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point: the inputs' memrefs hold their blocks; the closed forms say which of the three cases
    the point is in; the invariant hands the body the accumulator at what the point before left (at anything at the
    first point) and takes it back at this point's contents; where the output window is idle its buffer goes back
    as it came; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before3_0, before3_1, before3_2, before3_3, before3_4]
  rw [show (dat V c).owesAt () t.succ = (dat V c).owesAt () t.castSucc from rfl]
  rw [show (dat V c).Φ t.succ = PhiS V c (t.val + 1) t.isLt from rfl, PhiS_succ]
  have hN : t.val < 15582 := lt_of_lt_of_eq t.isLt (show cfg3.N = 15582 from N_3)
  rw [show (dat V c).leavesExact 0 t = owns (c : Thread nD τ) (ms3_0 t) fullShare ((dat V c).after 0 t) from by
    unfold Dat.leavesExact; rw [liveAt3_0 t], after3_0]
  rw [show (dat V c).leavesExact 1 t = owns (c : Thread nD τ) (ms3_1 t) fullShare ((dat V c).after 1 t) from by
    unfold Dat.leavesExact; rw [liveAt3_1 t], after3_1]
  rw [show (dat V c).leavesExact 2 t = owns (c : Thread nD τ) (ms3_2 t) fullShare ((dat V c).after 2 t) from by
    unfold Dat.leavesExact; rw [liveAt3_2 t], after3_2]
  rw [show (dat V c).leavesExact 3 t = owns (c : Thread nD τ) (ms3_3 t) fullShare ((dat V c).after 3 t) from by
    unfold Dat.leavesExact; rw [liveAt3_3 t], after3_3]
  rw [show (dat V c).leavesExact 4 t = owns (c : Thread nD τ) (ms3_4 t) fullShare ((dat V c).after 4 t) from by
    unfold Dat.leavesExact; rw [liveAt3_4 t], after3_4]
  by_cases h0 : t.val % 318 = 0
  · have h1 : ¬t.val % 318 = 317 := by omega
    rw [Dat.leavesExact_idle (dat V c) 5 t (idleAt3_5 _ (fun h => h1 ((hcond3_1 t).mp h))) (noFlush3_5 t h1)]
    rw [scrAt_first V c t h0]
    by_cases hz : t.val = 0
    · rw [PhiS_castSucc V c t, PhiS_zero V c _ _ hz, PhiA3_eq]
      iintro ⟨⟨⟨HS0, HR⟩, Hg⟩, Ho, ⟨%d0, H0⟩, ⟨%d1, H1⟩, ⟨%d2, H2⟩, ⟨%d3, H3⟩, ⟨%d4, H4⟩, H5⟩
      iapply (run_first c Set.univ (grid3.coords t) _ _ _ _ _ _ _ _ _ _ _ _ _ _ ((hcond3_0 t).mpr h0) (fun h => h1 ((hcond3_1 t).mp h)) (iblk V c 0 t) (iblk V c 1 t) _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, H5⟩
      iapply (run_first c Set.univ (grid3.coords t) _ _ _ _ _ _ _ _ _ _ _ _ _ _ ((hcond3_0 t).mpr h0) (fun h => h1 ((hcond3_1 t).mp h)) (iblk V c 0 t) (iblk V c 1 t) _)
      isplitl [H0]; · iexact H0
      isplitl [H1]; · iexact H1
      isplitl [HS0]; · iexists _; iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    rw [scrAt_next V c t h0]
    rw [PhiS_castSucc V c t, PhiS_pos V c _ _ hz]
    by_cases h1 : t.val % 318 = 317
    · rw [show (dat V c).leavesExact 5 t = owns (c : Thread nD τ) (ms3_5 t) fullShare ((dat V c).after 5 t) from by
        unfold Dat.leavesExact; rw [liveAt3_5 _ ((hcond3_1 t).mpr h1)], after3_5]
      rw [scrAt_next V c t h0]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (run_last c Set.univ (grid3.coords t) _ _ _ _ _ _ _ _ _ _ _ _ _ _ (fun h => h0 ((hcond3_0 t).mp h)) ((hcond3_1 t).mpr h1) (iblk V c 0 t) (iblk V c 1 t) (iblk V c 2 t) (iblk V c 3 t) (iblk V c 4 t) (scrAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat V c) 5 t (idleAt3_5 _ (fun h => h1 ((hcond3_1 t).mp h))) (noFlush3_5 t h1)]
      iintro ⟨⟨⟨HS0, HR⟩, Hg⟩, Ho, ⟨%d0, H0⟩, ⟨%d1, H1⟩, ⟨%d2, H2⟩, ⟨%d3, H3⟩, ⟨%d4, H4⟩, H5⟩
      iapply (run_mid c Set.univ (grid3.coords t) _ _ _ _ _ _ _ _ _ _ _ _ _ _ (fun h => h0 ((hcond3_0 t).mp h)) (fun h => h1 ((hcond3_1 t).mp h)) (iblk V c 0 t) (iblk V c 1 t) (scrAt V c (t.val - 1) (Nat.lt_of_le_of_lt (Nat.sub_le _ _) t.isLt)) _)
      isplitl [H0]; · iexact H0
      isplitl [H1]; · iexact H1
      isplitl [HS0]; · iexact HS0
      iintro ⟨H0, H1, HS0⟩
      isplitl [HS0 HR Hg]
      · isplitl [HS0 HR]
        · isplitl [HS0]; · iexact HS0
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : (Pipeline.ΦA spec3 c : sProp 𝕄) ⊢ (dat V c).Φ 0 := by
  rw [show (dat V c).Φ 0 = PhiS V c 0 (Nat.zero_le _) from rfl, PhiS_zero V c 0 _ rfl]
  try exact Idealize.SL.BI.Entails.refl _

/-- After any point the invariant gives it back: the accumulator's named contents are forgotten. -/
theorem Phi_out (c : Dev nD) (t : Fin (cfg3.N + 1)) (ht : t.val ≠ 0) : (dat V c).Φ t ⊢ (Pipeline.ΦA spec3 c : sProp 𝕄) := by
  rw [show (dat V c).Φ t = PhiS V c t.val (Nat.le_of_lt_succ t.isLt) from rfl, PhiS_pos V c _ _ ht, PhiA3_eq]
  iintro ⟨⟨HS0, HR⟩, Hg⟩
  isplitl [HS0 HR]
  · isplitl [HS0]
    · iexists _; iexact HS0
    iexact HR
  iexact Hg

theorem hout (c : Dev nD) : (dat V c).Φ (Fin.last cfg3.N) ⊢ (Pipeline.ΦA spec3 c : sProp 𝕄) :=
  Phi_out V c _ (by rw [Fin.val_last]; have : cfg3.N = 15582 := N_3; omega)

/-- An input window's array ends as the region found it. -/
theorem arrAt_in (c : Dev nD) (w : Fin cfg3.W) (hw : w ≠ 5) : (dat V c).arrAt w cfg3.N = V c (Pipeline.arrRef spec3 w) := by
  have hin : (cfg3.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat V c).arrAt_in w hin _).trans (A_eq V c w)

end Cert.KernelIdeal.Reg3

end
-- ==== Proof.KI.Run.lean ====
/-
  The program's run, region by region.

  @main is host operations, then four kernel regions with host operations between them.  Each region's proof data
  says what its pipeline leaves in its arrays; here these are threaded through @main: the buffers' contents after each
  item are named (`outs`), each region becomes a segment entered from the contents before it and left at the contents
  after it, and the launch theorem for a list of segments gives that every weakly fair execution terminates with
  every unscoped buffer at the last contents — from which both the frame (the arguments end as launched) and the
  result's value are read.
-/
import proofs.«115179_j73220602462691_1_alg».proof.Proof.Gen.KernelIdeal.Regions
import proofs.«115179_j73220602462691_1_alg».proof.Proof.KI.Reg0
import proofs.«115179_j73220602462691_1_alg».proof.Proof.KI.Reg1
import proofs.«115179_j73220602462691_1_alg».proof.Proof.KI.Reg2
import proofs.«115179_j73220602462691_1_alg».proof.Proof.KI.Reg3
import Idealize.ShloMosaic.Lib.Pipeline.FrameSuffix
import Idealize.ShloMosaic.Lib.Pipeline.RegionsLoop
import Idealize.ShloMosaic.Lib.Pipeline.Kit
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave, stage by stage

Each region's arrays end at what its pipeline leaves (`Dat.arrAt … N`); every other buffer is as the region was
entered.  The contents after a region feed the host operations and the regions after it, so they are named in
order: `W11` from the launch contents alone, `W13` from `W11`, and so on. -/

def W11 (c : Dev nD) : Valuation τ sig (Elt F) :=
  Pipeline.withArrays spec0 c (V10 m c) fun w => (Reg0.dat (fun c b => V10 m c b) c).arrAt w cfg0.N
def o1 : Outs (F := F) := fun _ r c => W11 m c r
def W13 (c : Dev nD) : Valuation τ sig (Elt F) :=
  Pipeline.withArrays spec1 c (V12 m (o1 m) c) fun w => (Reg1.dat (fun c b => V12 m (o1 m) c b) c).arrAt w cfg1.N
def o2 : Outs (F := F) := fun J r c => if J = 11 then W11 m c r else W13 m c r
def W14 (c : Dev nD) : Valuation τ sig (Elt F) :=
  Pipeline.withArrays spec2 c (V13 m (o2 m) c) fun w => (Reg2.dat (fun c b => V13 m (o2 m) c b) c).arrAt w cfg2.N
def o3 : Outs (F := F) := fun J r c => if J = 11 then W11 m c r else if J = 13 then W13 m c r else W14 m c r
def W16 (c : Dev nD) : Valuation τ sig (Elt F) :=
  Pipeline.withArrays spec3 c (V15 m (o3 m) c) fun w => (Reg3.dat (fun c b => V15 m (o3 m) c b) c).arrAt w cfg3.N
/-- What every region leaves. -/
def outs : Outs (F := F) := fun J r c =>
  if J = 11 then W11 m c r else if J = 13 then W13 m c r else if J = 14 then W14 m c r else W16 m c r

theorem outs_at11 (r : Ref sig .tc) (c : Dev nD) : outs m 11 r c = W11 m c r := if_pos rfl
theorem outs_at13 (r : Ref sig .tc) (c : Dev nD) : outs m 13 r c = W13 m c r :=
  (if_neg (by decide)).trans (if_pos rfl)
theorem outs_at14 (r : Ref sig .tc) (c : Dev nD) : outs m 14 r c = W14 m c r :=
  (if_neg (by decide)).trans ((if_neg (by decide)).trans (if_pos rfl))
theorem outs_at16 (r : Ref sig .tc) (c : Dev nD) : outs m 16 r c = W16 m c r :=
  (if_neg (by decide)).trans ((if_neg (by decide)).trans (if_neg (by decide)))
theorem o2_at11 (r : Ref sig .tc) (c : Dev nD) : o2 m 11 r c = W11 m c r := if_pos rfl
theorem o2_at13 (r : Ref sig .tc) (c : Dev nD) : o2 m 13 r c = W13 m c r := if_neg (by decide)
theorem o3_at11 (r : Ref sig .tc) (c : Dev nD) : o3 m 11 r c = W11 m c r := if_pos rfl
theorem o3_at13 (r : Ref sig .tc) (c : Dev nD) : o3 m 13 r c = W13 m c r := (if_neg (by decide)).trans (if_pos rfl)
theorem o3_at14 (r : Ref sig .tc) (c : Dev nD) : o3 m 14 r c = W14 m c r := (if_neg (by decide)).trans (if_neg (by decide))

theorem V11_stage (o o' : Outs (F := F)) (c : Dev nD) (h : o 11 main_v37 c = o' 11 main_v37 c) : V11 m o c = V11 m o' c := by
  unfold V11; rw [h]
theorem V12_stage (o o' : Outs (F := F)) (c : Dev nD) (h : o 11 main_v37 c = o' 11 main_v37 c) : V12 m o c = V12 m o' c := by
  unfold V12; rw [V11_stage m o o' c h]
theorem V13_stage (o o' : Outs (F := F)) (c : Dev nD) (h11 : o 11 main_v37 c = o' 11 main_v37 c) (h13 : o 13 main_v39 c = o' 13 main_v39 c) :
    V13 m o c = V13 m o' c := by
  unfold V13; rw [V12_stage m o o' c h11, h13]
theorem V14_stage (o o' : Outs (F := F)) (c : Dev nD) (h11 : o 11 main_v37 c = o' 11 main_v37 c) (h13 : o 13 main_v39 c = o' 13 main_v39 c)
    (h14 : o 14 main_v40 c = o' 14 main_v40 c) : V14 m o c = V14 m o' c := by
  unfold V14; rw [V13_stage m o o' c h11 h13, h14]
theorem V15_stage (o o' : Outs (F := F)) (c : Dev nD) (h11 : o 11 main_v37 c = o' 11 main_v37 c) (h13 : o 13 main_v39 c = o' 13 main_v39 c)
    (h14 : o 14 main_v40 c = o' 14 main_v40 c) : V15 m o c = V15 m o' c := by
  unfold V15; rw [V14_stage m o o' c h11 h13 h14]

theorem V12_outs (c : Dev nD) : V12 m (outs m) c = V12 m (o1 m) c :=
  V12_stage m _ _ c (outs_at11 m _ c)
theorem V13_outs (c : Dev nD) : V13 m (outs m) c = V13 m (o2 m) c :=
  V13_stage m _ _ c ((outs_at11 m _ c).trans (o2_at11 m _ c).symm) ((outs_at13 m _ c).trans (o2_at13 m _ c).symm)
theorem V15_outs (c : Dev nD) : V15 m (outs m) c = V15 m (o3 m) c :=
  V15_stage m _ _ c ((outs_at11 m _ c).trans (o3_at11 m _ c).symm) ((outs_at13 m _ c).trans (o3_at13 m _ c).symm)
    ((outs_at14 m _ c).trans (o3_at14 m _ c).symm)

/-- The contents each region is entered with, read at the TensorCore's references. -/
abbrev En0 : (c : Dev nD) → (b : Ref sig .tc) → Buf (Elt F) ((c : Thread nD τ).loc b) := fun c b => V10 m c b
abbrev En1 : (c : Dev nD) → (b : Ref sig .tc) → Buf (Elt F) ((c : Thread nD τ).loc b) := fun c b => V12 m (outs m) c b
abbrev En2 : (c : Dev nD) → (b : Ref sig .tc) → Buf (Elt F) ((c : Thread nD τ).loc b) := fun c b => V13 m (outs m) c b
abbrev En3 : (c : Dev nD) → (b : Ref sig .tc) → Buf (Elt F) ((c : Thread nD τ).loc b) := fun c b => V15 m (outs m) c b

/-- The stage forms the definitions above are written over are the same contents. -/
theorem En1_stage : (fun (c : Dev nD) (b : Ref sig .tc) => V12 m (o1 m) c b) = En1 m :=
  funext fun c => funext fun b => (congrFun (V12_outs m c) _).symm
theorem En2_stage : (fun (c : Dev nD) (b : Ref sig .tc) => V13 m (o2 m) c b) = En2 m :=
  funext fun c => funext fun b => (congrFun (V13_outs m c) _).symm
theorem En3_stage : (fun (c : Dev nD) (b : Ref sig .tc) => V15 m (o3 m) c b) = En3 m :=
  funext fun c => funext fun b => (congrFun (V15_outs m c) _).symm

theorem outs_11 (c : Dev nD) : outs m 11 main_v37 c = (Reg0.dat (En0 m) c).arrAt 4 cfg0.N := by
  rw [outs_at11]; unfold W11
  exact Pipeline.withArrays_arr spec0 launch0.win.arr_inj c _ _ 4
theorem outs_13 (c : Dev nD) : outs m 13 main_v39 c = (Reg1.dat (En1 m) c).arrAt 3 cfg1.N := by
  rw [outs_at13, ← En1_stage m]; unfold W13
  exact Pipeline.withArrays_arr spec1 launch1.win.arr_inj c _ _ 3
theorem outs_14 (c : Dev nD) : outs m 14 main_v40 c = (Reg2.dat (En2 m) c).arrAt 4 cfg2.N := by
  rw [outs_at14, ← En2_stage m]; unfold W14
  exact Pipeline.withArrays_arr spec2 launch2.win.arr_inj c _ _ 4
theorem outs_16 (c : Dev nD) : outs m 16 main_v43 c = (Reg3.dat (En3 m) c).arrAt 5 cfg3.N := by
  rw [outs_at16, ← En3_stage m]; unfold W16
  exact Pipeline.withArrays_arr spec3 launch3.win.arr_inj c _ _ 5

/-! ## The proof data family and what rides beside the buffers -/

abbrev adm' : (p : Fin 4) → (pcfgs (F := F) p).Adm := fun p => (cfgs p).toPCfg_adm

def pdats : (p : Fin 4) → (c : Dev nD) → Dat τ (Elt F) Unit ℕ (UR sig nD τ) ℕ (Pipeline.pin (pcfgs (F := F)) adm' p) c
  | ⟨0, _⟩ => fun c => Reg0.dat (En0 m) c
  | ⟨1, _⟩ => fun c => Reg1.dat (En1 m) c
  | ⟨2, _⟩ => fun c => Reg2.dat (En2 m) c
  | ⟨3, _⟩ => fun c => Reg3.dat (En3 m) c

abbrev 𝒱₀ : Variants := Variants.none
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
abbrev E : Fin 5 → Dev nD → sProp 𝕄 := fun _ c => R c

/-! ## Region 0 as a segment -/

theorem hF0 (c : Dev nD) : ∀ w : Fin cfg0.W, (pdats m 0 c).arrAt w cfg0.N = V11 m (outs m) c (Pipeline.arrRef spec0 w) :=
  fun
    | 0 => (Reg0.arrAt_in (En0 m) c 0 (by decide)).trans (V11_of m (outs m) c _ (by decide)).symm
    | 1 => (Reg0.arrAt_in (En0 m) c 1 (by decide)).trans (V11_of m (outs m) c _ (by decide)).symm
    | 2 => (Reg0.arrAt_in (En0 m) c 2 (by decide)).trans (V11_of m (outs m) c _ (by decide)).symm
    | 3 => (Reg0.arrAt_in (En0 m) c 3 (by decide)).trans (V11_of m (outs m) c _ (by decide)).symm
    | 4 => (outs_11 m c).symm.trans (by simp only [V11, Function.update_self])

theorem hrest0 (c : Dev nD) : ∀ b : Ref sig .tc, b ∉ Finset.univ.image (Pipeline.arrRef spec0) → V11 m (outs m) c b = V10 m c b :=
  fun b hb => V11_of m (outs m) c b (by
    intro h; rw [List.mem_singleton] at h; subst h
    exact hb (Finset.mem_image.mpr ⟨4, Finset.mem_univ _, rfl⟩))

set_option backward.isDefEq.respectTransparency.types false in
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (En0 m) c).loose
  hwaits := Pipeline.hwaits_of_owed_zero _ _ _ _ L lv 0 fun _ _ => rfl
  pre c := iprop(StableHlo.held (c : Thread nD τ) (Pipeline.ucRefs τ sig) (V10 m c) ∗ E 0 c)
  post c := iprop(StableHlo.held (c : Thread nD τ) (Pipeline.ucRefs τ sig) (V11 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (En0 m c) fun w => Reg0.A_eq (En0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 0).pre c (fun _ => fullShare) (adm' (F := F) 0).1
          ∗ Pipeline.scopedRest (Pipeline.pin (pcfgs (F := F)) adm' 0).spec c) : sProp 𝕄) ⊢ Pipeline.ΦA spec0 c := by
      unfold Pipeline.ΦA
      iintro ⟨Hp, -, Hr⟩
      isplitl [Hr]; · iexact Hr
      iexact Hp
    exact h.trans (Reg0.hin (En0 m) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) adm' 0).spec c) := by
      unfold Pipeline.ΦA
      iintro ⟨Hr, Hp⟩
      isplitl [Hp]; · iexact Hp
      isplitr; · iempintro
      iexact Hr
    exact (Reg0.hout (En0 m) c).trans h
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (En0 m c) (fun b => V11 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

theorem hF1 (c : Dev nD) : ∀ w : Fin cfg1.W, (pdats m 1 c).arrAt w cfg1.N = V13 m (outs m) c (Pipeline.arrRef spec1 w) :=
  fun
    | 0 => (Reg1.arrAt_in (En1 m) c 0 (by decide)).trans (V13_of m (outs m) c _ (by decide)).symm
    | 1 => (Reg1.arrAt_in (En1 m) c 1 (by decide)).trans (V13_of m (outs m) c _ (by decide)).symm
    | 2 => (Reg1.arrAt_in (En1 m) c 2 (by decide)).trans (V13_of m (outs m) c _ (by decide)).symm
    | 3 => (outs_13 m c).symm.trans (by simp only [V13, Function.update_self])

theorem hrest1 (c : Dev nD) : ∀ b : Ref sig .tc, b ∉ Finset.univ.image (Pipeline.arrRef spec1) → V13 m (outs m) c b = V12 m (outs m) c b :=
  fun b hb => V13_of m (outs m) c b (by
    intro h; rw [List.mem_singleton] at h; subst h
    exact hb (Finset.mem_image.mpr ⟨3, Finset.mem_univ _, rfl⟩))

set_option backward.isDefEq.respectTransparency.types false in
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (En1 m) c).loose
  hwaits := Pipeline.hwaits_of_owed_zero _ _ _ _ L lv 1 fun _ _ => rfl
  pre c := iprop(StableHlo.held (c : Thread nD τ) (Pipeline.ucRefs τ sig) (V12 m (outs m) c) ∗ E 1 c)
  post c := iprop(StableHlo.held (c : Thread nD τ) (Pipeline.ucRefs τ sig) (V13 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (En1 m c) fun w => Reg1.A_eq (En1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm' (F := F) 1).1
          ∗ Pipeline.scopedRest (Pipeline.pin (pcfgs (F := F)) adm' 1).spec c) : sProp 𝕄) ⊢ Pipeline.ΦA spec1 c := by
      unfold Pipeline.ΦA
      iintro ⟨Hp, -, Hr⟩
      isplitl [Hr]; · iexact Hr
      iexact Hp
    exact h.trans (Reg1.hin (En1 m) c)
  hout c := by
    rw [Pipeline.ownSems0_none]
    have h : (Pipeline.ΦA spec1 c : sProp 𝕄) ⊢ iprop((∃ r, prngReg c r) ∗ BI.emp
          ∗ Pipeline.scopedRest (Pipeline.pin (pcfgs (F := F)) adm' 1).spec c) := by
      unfold Pipeline.ΦA
      iintro ⟨Hr, Hp⟩
      isplitl [Hp]; · iexact Hp
      isplitr; · iempintro
      iexact Hr
    exact (Reg1.hout (En1 m) c).trans h
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (En1 m c) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

theorem hF2 (c : Dev nD) : ∀ w : Fin cfg2.W, (pdats m 2 c).arrAt w cfg2.N = V14 m (outs m) c (Pipeline.arrRef spec2 w) :=
  fun
    | 0 => (Reg2.arrAt_in (En2 m) c 0 (by decide)).trans (V14_of m (outs m) c _ (by decide)).symm
    | 1 => (Reg2.arrAt_in (En2 m) c 1 (by decide)).trans (V14_of m (outs m) c _ (by decide)).symm
    | 2 => (Reg2.arrAt_in (En2 m) c 2 (by decide)).trans (V14_of m (outs m) c _ (by decide)).symm
    | 3 => (Reg2.arrAt_in (En2 m) c 3 (by decide)).trans (V14_of m (outs m) c _ (by decide)).symm
    | 4 => (outs_14 m c).symm.trans (by simp only [V14, Function.update_self])

theorem hrest2 (c : Dev nD) : ∀ b : Ref sig .tc, b ∉ Finset.univ.image (Pipeline.arrRef spec2) → V14 m (outs m) c b = V13 m (outs m) c b :=
  fun b hb => V14_of m (outs m) c b (by
    intro h; rw [List.mem_singleton] at h; subst h
    exact hb (Finset.mem_image.mpr ⟨4, Finset.mem_univ _, rfl⟩))

set_option backward.isDefEq.respectTransparency.types false in
def reg2 : Pipeline.RegionSeg (pcfgs (F := F)) adm' (pdats m) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (En2 m) c).loose
  hwaits := Pipeline.hwaits_of_owed_zero _ _ _ _ L lv 2 fun _ _ => rfl
  pre c := iprop(StableHlo.held (c : Thread nD τ) (Pipeline.ucRefs τ sig) (V13 m (outs m) c) ∗ E 2 c)
  post c := iprop(StableHlo.held (c : Thread nD τ) (Pipeline.ucRefs τ sig) (V14 m (outs m) c) ∗ E 3 c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm' (pdats m) launch2.win launch2.arr_whole c
      ((pdats m 2 c).share_full fun _ => rfl) (En2 m c) fun w => Reg2.A_eq (En2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 2).pre c (fun _ => fullShare) (adm' (F := F) 2).1
          ∗ Pipeline.scopedRest (Pipeline.pin (pcfgs (F := F)) adm' 2).spec c) : sProp 𝕄) ⊢ Pipeline.ΦA spec2 c := by
      unfold Pipeline.ΦA
      iintro ⟨Hp, -, Hr⟩
      isplitl [Hr]; · iexact Hr
      iexact Hp
    exact h.trans (Reg2.hin (En2 m) c)
  hout c := by
    rw [Pipeline.ownSems0_none]
    have h : (Pipeline.ΦA spec2 c : sProp 𝕄) ⊢ iprop((∃ r, prngReg c r) ∗ BI.emp
          ∗ Pipeline.scopedRest (Pipeline.pin (pcfgs (F := F)) adm' 2).spec c) := by
      unfold Pipeline.ΦA
      iintro ⟨Hr, Hp⟩
      isplitl [Hp]; · iexact Hp
      isplitr; · iempintro
      iexact Hr
    exact (Reg2.hout (En2 m) c).trans h
  hexit c := by
    have hjoin := Pipeline.unscopedBufs_of_arrays (p := 2) (pcfgs (F := F)) adm' (Ix := Unit) (Name := ℕ) (U := UR sig nD τ) (Lvl := ℕ)
      launch2.win launch2.arr_whole c (pdats m) ((pdats m 2 c).share_full fun _ => rfl)
      (En2 m c) (fun b => V14 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

theorem hF3 (c : Dev nD) : ∀ w : Fin cfg3.W, (pdats m 3 c).arrAt w cfg3.N = V16 m (outs m) c (Pipeline.arrRef spec3 w) :=
  fun
    | 0 => (Reg3.arrAt_in (En3 m) c 0 (by decide)).trans (V16_of m (outs m) c _ (by decide)).symm
    | 1 => (Reg3.arrAt_in (En3 m) c 1 (by decide)).trans (V16_of m (outs m) c _ (by decide)).symm
    | 2 => (Reg3.arrAt_in (En3 m) c 2 (by decide)).trans (V16_of m (outs m) c _ (by decide)).symm
    | 3 => (Reg3.arrAt_in (En3 m) c 3 (by decide)).trans (V16_of m (outs m) c _ (by decide)).symm
    | 4 => (Reg3.arrAt_in (En3 m) c 4 (by decide)).trans (V16_of m (outs m) c _ (by decide)).symm
    | 5 => (outs_16 m c).symm.trans (by simp only [V16, Function.update_self])

theorem hrest3 (c : Dev nD) : ∀ b : Ref sig .tc, b ∉ Finset.univ.image (Pipeline.arrRef spec3) → V16 m (outs m) c b = V15 m (outs m) c b :=
  fun b hb => V16_of m (outs m) c b (by
    intro h; rw [List.mem_singleton] at h; subst h
    exact hb (Finset.mem_image.mpr ⟨5, Finset.mem_univ _, rfl⟩))

set_option backward.isDefEq.respectTransparency.types false in
def reg3 : Pipeline.RegionSeg (pcfgs (F := F)) adm' (pdats m) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation (En3 m) c).loose
  hwaits := Pipeline.hwaits_of_owed_zero _ _ _ _ L lv 3 fun _ _ => rfl
  pre c := iprop(StableHlo.held (c : Thread nD τ) (Pipeline.ucRefs τ sig) (V15 m (outs m) c) ∗ E 3 c)
  post c := iprop(StableHlo.held (c : Thread nD τ) (Pipeline.ucRefs τ sig) (V16 m (outs m) c) ∗ E 4 c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm' (pdats m) launch3.win launch3.arr_whole c
      ((pdats m 3 c).share_full fun _ => rfl) (En3 m c) fun w => Reg3.A_eq (En3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 3).pre c (fun _ => fullShare) (adm' (F := F) 3).1
          ∗ Pipeline.scopedRest (Pipeline.pin (pcfgs (F := F)) adm' 3).spec c) : sProp 𝕄) ⊢ Pipeline.ΦA spec3 c := by
      unfold Pipeline.ΦA
      iintro ⟨Hp, -, Hr⟩
      isplitl [Hr]; · iexact Hr
      iexact Hp
    exact h.trans (Reg3.hin (En3 m) c)
  hout c := by
    rw [Pipeline.ownSems0_none]
    have h : (Pipeline.ΦA spec3 c : sProp 𝕄) ⊢ iprop((∃ r, prngReg c r) ∗ BI.emp
          ∗ Pipeline.scopedRest (Pipeline.pin (pcfgs (F := F)) adm' 3).spec c) := by
      unfold Pipeline.ΦA
      iintro ⟨Hr, Hp⟩
      isplitl [Hp]; · iexact Hp
      isplitr; · iempintro
      iexact Hr
    exact (Reg3.hout (En3 m) c).trans h
  hexit c := by
    have hjoin := Pipeline.unscopedBufs_of_arrays (p := 3) (pcfgs (F := F)) adm' (Ix := Unit) (Name := ℕ) (U := UR sig nD τ) (Lvl := ℕ)
      launch3.win launch3.arr_whole c (pdats m) ((pdats m 3 c).share_full fun _ => rfl)
      (En3 m c) (fun b => V16 m (outs m) c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run: every weakly fair execution ends with every unscoped buffer at the last valuation -/

set_option backward.isDefEq.respectTransparency.types false in
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V17 m (outs m) c b) := by
  refine Pipeline.θ_run_regions_kit_dev (pcfgs (F := F)) adm' (pdats m) () cellOf_inj emb₁ defs₀ 𝒱₀ L lv m ρ main
    (segs m (outs m) 𝒱₀ L lv E () (pdats m) (reg0 m) (reg1 m) (reg2 m) (reg3 m))
    (fun c Q => by
      rewrite [main_chain c, Seg.run_eq_chain,
        show (segs m (outs m) 𝒱₀ L lv E () (pdats m) (reg0 m) (reg1 m) (reg2 m) (reg3 m) c).map Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8, StableHlo.seq hostOps0_9,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V17 m (outs m) c))
    (hch := fun c => ⟨.rfl, .rfl, .rfl, .rfl, .rfl, .rfl, .rfl, .rfl, .rfl, .rfl, .rfl, .rfl, .rfl, .rfl, .rfl, .rfl, .rfl,
      sep_mono .rfl (show (E (F := F) 4 c) ⊢ (iprop(∃ W, owes (c : Thread nD τ) (0 : CellTallies nD τ sig Unit) W) : sProp 𝕄) from by
        iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V17 m (outs m) c b)
    (hfin := fun c s' => by
      iintro ⟨Hh, HSI⟩
      unfold StableHlo.held
      imodintro
      iapply (pointsTo_read_all (Pipeline.ucRefs τ sig) (fun b => (((c : Thread nD τ)).1, b)) (V17 m (outs m) c) s')
      isplitl [Hh] <;> iassumption)
    (hQ := fun _ h => h)

/-! ## What is read off the run -/

/-- The run with the result named: the result buffer ends at the last contents, every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v44) = V17 m (outs m) c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c (Proc.devRef .tc main_v44) (Finset.mem_filter.mpr ⟨StableHlo.devRef_mem_tcRefs main_v44, by decide⟩)),
      (h c (Proc.devRef .tc main_arg0) (Finset.mem_filter.mpr ⟨StableHlo.devRef_mem_tcRefs main_arg0, by decide⟩)).trans (V17_main_arg0 m (outs m) c),
      (h c (Proc.devRef .tc main_arg1) (Finset.mem_filter.mpr ⟨StableHlo.devRef_mem_tcRefs main_arg1, by decide⟩)).trans (V17_main_arg1 m (outs m) c),
      (h c (Proc.devRef .tc main_arg2) (Finset.mem_filter.mpr ⟨StableHlo.devRef_mem_tcRefs main_arg2, by decide⟩)).trans (V17_main_arg2 m (outs m) c),
      (h c (Proc.devRef .tc main_arg3) (Finset.mem_filter.mpr ⟨StableHlo.devRef_mem_tcRefs main_arg3, by decide⟩)).trans (V17_main_arg3 m (outs m) c),
      (h c (Proc.devRef .tc main_arg4) (Finset.mem_filter.mpr ⟨StableHlo.devRef_mem_tcRefs main_arg4, by decide⟩)).trans (V17_main_arg4 m (outs m) c),
      (h c (Proc.devRef .tc main_arg5) (Finset.mem_filter.mpr ⟨StableHlo.devRef_mem_tcRefs main_arg5, by decide⟩)).trans (V17_main_arg5 m (outs m) c),
      (h c (Proc.devRef .tc main_arg6) (Finset.mem_filter.mpr ⟨StableHlo.devRef_mem_tcRefs main_arg6, by decide⟩)).trans (V17_main_arg6 m (outs m) c),
      (h c (Proc.devRef .tc main_arg7) (Finset.mem_filter.mpr ⟨StableHlo.devRef_mem_tcRefs main_arg7, by decide⟩)).trans (V17_main_arg7 m (outs m) c)⟩) (run_all m ρ)

/-- The frame: every weakly fair execution terminates, nothing faulting, with every argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.KernelIdeal.Run

end
-- ==== Proof.Spec.lean ====
/-
  The mathematics both programs compute, as plain functions on the extended reals over literal index ranges.

  A graph-convolution layer sends along every message `e` (an edge, or a node's self loop) the row `src e` of the
  product `x · w`, scaled by the message's weight `nrm e`, into the row `dst e`, adds a bias and clamps at zero.
  Rows are named by 32-bit index words.  The reference reads the row a word names directly and sums the messages
  whose destination word names the row; the kernel multiplies by 0/1 weights (`hit`) and sums over every row,
  over arrays padded with zeros.  Both forms are stated here; that they agree when every source word names a row
  is proved in the modules that import this one.
-/
import Idealize.ShloMosaic.PureOps.Ideal

noncomputable section

namespace Cert.Spec

open scoped BigOperators

/-- The 0/1 weight of a match between two index words. -/
def hit (a b : BitVec 32) : EReal := if a = b then 1 else 0

/-- One entry of the matrix product `x · w`. -/
def mm {N K D : ℕ} (x : Fin N → Fin K → EReal) (w : Fin K → Fin D → EReal) (n : Fin N) (d : Fin D) : EReal :=
  ∑ k : Fin K, x n k * w k d

/-! ## The kernel's form: 0/1 weights over every row -/

/-- Message `e`: the rows of `x · w` weighted by whether the word `src e` names them, summed, times `nrm e`. -/
def gather {N K D M : ℕ} (x : Fin N → Fin K → EReal) (w : Fin K → Fin D → EReal) (src : Fin M → BitVec 32)
    (nrm : Fin M → EReal) (e : Fin M) (d : Fin D) : EReal :=
  (∑ n : Fin N, hit (src e) (BitVec.ofNat 32 n.val) * mm x w n d) * nrm e

/-- Row `i` after the layer: every message weighted by whether its word `dst e` names row `i`, summed, plus the
    bias, clamped at zero. -/
def scatterRelu {M D N : ℕ} (msg : Fin M → Fin D → EReal) (dst : Fin M → BitVec 32) (b : Fin D → EReal)
    (i : Fin N) (d : Fin D) : EReal :=
  max ((∑ e : Fin M, hit (BitVec.ofNat 32 i.val) (dst e) * msg e d) + b d) 0

/-- The last layer followed by the linear read-out `· wl + bl`. -/
def scatterFinal {M D N : ℕ} (msg : Fin M → Fin D → EReal) (dst : Fin M → BitVec 32) (b : Fin D → EReal)
    (wl : Fin D → EReal) (bl : EReal) (i : Fin N) : EReal :=
  (∑ d : Fin D, scatterRelu (N := N) msg dst b i d * wl d) + bl

/-- A vector of words, of reals, and the rows of a matrix, continued by zeros. -/
def padW {M : ℕ} (M' : ℕ) (s : Fin M → BitVec 32) : Fin M' → BitVec 32 :=
  fun e => if h : e.val < M then s ⟨e.val, h⟩ else 0
def padR {M : ℕ} (M' : ℕ) (s : Fin M → EReal) : Fin M' → EReal :=
  fun e => if h : e.val < M then s ⟨e.val, h⟩ else 0
def padX {N K : ℕ} (N' : ℕ) (x : Fin N → Fin K → EReal) : Fin N' → Fin K → EReal :=
  fun n k => if h : n.val < N then x ⟨n.val, h⟩ k else 0

/-- The kernel's whole computation: 100000 nodes padded to 100352, 1300000 messages padded to 1302528, features
    26 → 64 → 32 → 1. -/
def kernelModel (x : Fin 100000 → Fin 26 → EReal) (w1 : Fin 26 → Fin 64 → EReal) (b1 : Fin 64 → EReal)
    (w2 : Fin 64 → Fin 32 → EReal) (b2 : Fin 32 → EReal) (wl : Fin 32 → EReal) (bl : EReal)
    (src dst : Fin 1300000 → BitVec 32) (nrm : Fin 1300000 → EReal) (i : Fin 100000) : EReal :=
  let srcP := padW 1302528 src
  let dstP := padW 1302528 dst
  let nrmP := padR 1302528 nrm
  let m1 : Fin 1302528 → Fin 64 → EReal := gather (padX 100352 x) w1 srcP nrmP
  let h1 : Fin 100352 → Fin 64 → EReal := scatterRelu m1 dstP b1
  let m2 : Fin 1302528 → Fin 32 → EReal := gather h1 w2 srcP nrmP
  scatterFinal (N := 100352) m2 dstP b2 wl bl ⟨i.val, by have := i.isLt; omega⟩

/-! ## The reference's form: the named row read directly -/

/-- Row `i` of one layer before the clamp: the messages whose destination word names row `i`, each the row
    `srcRow e` of `x · w` times its weight, summed, plus the bias. -/
def refLayer {N K D M : ℕ} (x : Fin N → Fin K → EReal) (w : Fin K → Fin D → EReal) (b : Fin D → EReal)
    (srcRow : Fin M → Fin N) (dst : Fin M → BitVec 32) (nrm : Fin M → EReal) (i : Fin N) (d : Fin D) : EReal :=
  (∑ e : Fin M, if dst e = BitVec.ofNat 32 i.val then nrm e * mm x w (srcRow e) d else 0) + b d

/-- The reference's whole computation. -/
def refModel (x : Fin 100000 → Fin 26 → EReal) (w1 : Fin 26 → Fin 64 → EReal) (b1 : Fin 64 → EReal)
    (w2 : Fin 64 → Fin 32 → EReal) (b2 : Fin 32 → EReal) (wl : Fin 32 → EReal) (bl : EReal)
    (srcRow : Fin 1300000 → Fin 100000) (dst : Fin 1300000 → BitVec 32) (nrm : Fin 1300000 → EReal)
    (i : Fin 100000) : EReal :=
  let h1 : Fin 100000 → Fin 64 → EReal := fun n d => max (refLayer x w1 b1 srcRow dst nrm n d) 0
  (∑ d : Fin 32, max (refLayer h1 w2 b2 srcRow dst nrm i d) 0 * wl d) + bl

end Cert.Spec

end
-- ==== Proof.SpecBlocks.lean ====
/-
  Sums by blocks, running sums, and the words of rows: small facts shared by the value computations.

  The padded nodes are 49 blocks of 2048 and the padded messages 318 blocks of 4096, so a sum over all of them is a
  double sum over the block and the place in the block.  A kernel that starts an accumulator at zero on the first
  trip of an axis and adds one term per trip holds, after trip k, the sum of the terms of trips 0 … k, and after the
  last trip the whole sum.  The word of row p·c + q is the word of q plus the word of p times the word of c, and
  numbers below 2^32 have different words.  The 0/1 weight of a match is symmetric and multiplies as a choice.
-/
import proofs.«115179_j73220602462691_1_alg».proof.Proof.Spec
import Mathlib.Algebra.BigOperators.Fin
import Mathlib.Logic.Equiv.Fin.Basic

noncomputable section

namespace Cert.Spec

open scoped BigOperators

/-! ## Sums by blocks -/

/-- Place `q` of block `p` lies inside `m` blocks of `n`. -/
theorem blk_lt {m n p q : ℕ} (hp : p < m) (hq : q < n) : p * n + q < m * n :=
  calc p * n + q < p * n + n := Nat.add_lt_add_left hq _
    _ = (p + 1) * n := (Nat.succ_mul p n).symm
    _ ≤ m * n := Nat.mul_le_mul_right n hp

/-- A sum over `m · n` indices is the double sum over the block and the place in the block. -/
theorem sum_blocks {α : Type*} [AddCommMonoid α] {N m n : ℕ} (hN : N = m * n) (f : Fin N → α) :
    ∑ e, f e = ∑ p : Fin m, ∑ q : Fin n, f ⟨p.val * n + q.val, by rw [hN]; exact blk_lt p.isLt q.isLt⟩ := by
  subst hN
  rw [← Equiv.sum_comp (finProdFinEquiv (m := m) (n := n)) f, Fintype.sum_prod_type]
  apply Finset.sum_congr rfl
  intro p _
  apply Finset.sum_congr rfl
  intro q _
  apply congrArg f
  apply Fin.ext
  show q.val + n * p.val = p.val * n + q.val
  rw [Nat.mul_comm, Nat.add_comm]

/-- The padded nodes: 49 blocks of 2048. -/
theorem sum_nodes {α : Type*} [AddCommMonoid α] (f : Fin 100352 → α) :
    ∑ n, f n = ∑ p : Fin 49, ∑ q : Fin 2048,
      f ⟨p.val * 2048 + q.val, by have := p.isLt; have := q.isLt; omega⟩ :=
  sum_blocks (m := 49) (n := 2048) (by norm_num) f

/-- The padded messages: 318 blocks of 4096. -/
theorem sum_msgs {α : Type*} [AddCommMonoid α] (f : Fin 1302528 → α) :
    ∑ e, f e = ∑ p : Fin 318, ∑ q : Fin 4096,
      f ⟨p.val * 4096 + q.val, by have := p.isLt; have := q.isLt; omega⟩ :=
  sum_blocks (m := 318) (n := 4096) (by norm_num) f

/-! ## Running sums -/

section Running

variable {α : Type*} [AddCommMonoid α] {T : ℕ}

/-- The sum of the terms of trips `0 … k`. -/
def accUpto (g : Fin T → α) (k : ℕ) : α := ∑ j : Fin T, if j.val ≤ k then g j else 0

theorem accUpto_zero (g : Fin T → α) (hT : 0 < T) : accUpto g 0 = g ⟨0, hT⟩ := by
  unfold accUpto
  rw [Finset.sum_eq_single (⟨0, hT⟩ : Fin T)]
  · rw [if_pos (Nat.le_refl 0)]
  · intro j _ hj
    rw [if_neg]
    intro h
    apply hj
    apply Fin.ext
    show j.val = 0
    omega
  · intro h
    exact absurd (Finset.mem_univ _) h

theorem accUpto_succ (g : Fin T → α) (k : ℕ) (h : k + 1 < T) :
    accUpto g (k + 1) = accUpto g k + g ⟨k + 1, h⟩ := by
  have hs : g ⟨k + 1, h⟩ = ∑ j : Fin T, if j.val = k + 1 then g j else 0 := by
    rw [Finset.sum_eq_single (⟨k + 1, h⟩ : Fin T)]
    · rw [if_pos rfl]
    · intro j _ hj
      rw [if_neg]
      intro hc
      exact hj (Fin.ext hc)
    · intro hc
      exact absurd (Finset.mem_univ _) hc
  unfold accUpto
  rw [hs, ← Finset.sum_add_distrib]
  apply Finset.sum_congr rfl
  intro j _
  by_cases h1 : j.val ≤ k
  · rw [if_pos h1, if_pos (by omega), if_neg (by omega), add_zero]
  · by_cases h2 : j.val = k + 1
    · rw [if_neg h1, if_pos (by omega), if_pos h2, zero_add]
    · rw [if_neg h1, if_neg (by omega), if_neg h2, add_zero]

/-- After the last trip the running sum is the whole sum. -/
theorem accUpto_last (g : Fin T → α) (k : ℕ) (h : T ≤ k + 1) : accUpto g k = ∑ j, g j := by
  unfold accUpto
  apply Finset.sum_congr rfl
  intro j _
  rw [if_pos]
  have := j.isLt
  omega

/-- One trip: an accumulator that is zero before the first trip, and the running sum of the earlier trips before
    any other, is the running sum through this trip after this trip's term is added. -/
theorem acc_step (g : Fin T → α) (k : Fin T) (acc : α) (hacc : k.val ≠ 0 → acc = accUpto g (k.val - 1)) :
    (if k.val = 0 then 0 else acc) + g k = accUpto g k.val := by
  by_cases h0 : k.val = 0
  · have hT : 0 < T := Nat.lt_of_le_of_lt (Nat.zero_le _) k.isLt
    have hk : k = ⟨0, hT⟩ := Fin.ext h0
    rw [if_pos h0, zero_add, h0, accUpto_zero g hT, hk]
  · obtain ⟨k', hk'⟩ := Nat.exists_eq_succ_of_ne_zero h0
    have hlt : k' + 1 < T := by have := k.isLt; omega
    have hk : k = ⟨k' + 1, hlt⟩ := Fin.ext hk'
    rw [if_neg h0, hacc h0, hk', Nat.succ_sub_one, accUpto_succ g k' hlt, hk]

/-- The same with the accumulator's earlier value given for every trip (whatever it is on the first). -/
theorem acc_step' (g : Fin T → α) (k : Fin T) (acc : α) (hacc : ∀ k', k.val = k' + 1 → acc = accUpto g k') :
    (if k.val = 0 then 0 else acc) + g k = accUpto g k.val :=
  acc_step g k acc (fun h0 => by
    obtain ⟨k', hk'⟩ := Nat.exists_eq_succ_of_ne_zero h0
    rw [hacc k' hk', hk', Nat.succ_sub_one])

/-- After the last trip's step the accumulator is the whole sum. -/
theorem acc_step_last (g : Fin T → α) (k : Fin T) (hk : k.val + 1 = T) (acc : α)
    (hacc : k.val ≠ 0 → acc = accUpto g (k.val - 1)) :
    (if k.val = 0 then 0 else acc) + g k = ∑ j, g j := by
  rw [acc_step g k acc hacc, accUpto_last g k.val (Nat.le_of_eq hk.symm)]

end Running

/-! ## Words of rows -/

/-- Numbers below 2^32 have equal words exactly when they are equal. -/
theorem ofNat_inj_iff {a b : ℕ} (ha : a < 2 ^ 32) (hb : b < 2 ^ 32) :
    BitVec.ofNat 32 a = BitVec.ofNat 32 b ↔ a = b := by
  constructor
  · intro h
    have h' := congrArg BitVec.toNat h
    simp only [BitVec.toNat_ofNat] at h'
    rw [Nat.mod_eq_of_lt ha, Nat.mod_eq_of_lt hb] at h'
    exact h'
  · intro h
    rw [h]

/-- The word of `p · c + q` from the words of `p`, `c` and `q`. -/
theorem word_blk (p c q : ℕ) :
    BitVec.ofNat 32 q + BitVec.ofNat 32 p * BitVec.ofNat 32 c = BitVec.ofNat 32 (p * c + q) := by
  rw [← BitVec.ofNat_mul, ← BitVec.ofNat_add, Nat.add_comm]

theorem word_blk' (p c q : ℕ) :
    BitVec.ofNat 32 p * BitVec.ofNat 32 c + BitVec.ofNat 32 q = BitVec.ofNat 32 (p * c + q) := by
  rw [← BitVec.ofNat_mul, ← BitVec.ofNat_add]

/-- The same with the product already one word. -/
theorem word_add (a q : ℕ) : BitVec.ofNat 32 q + BitVec.ofNat 32 a = BitVec.ofNat 32 (a + q) := by
  rw [← BitVec.ofNat_add, Nat.add_comm]

theorem word_add' (a q : ℕ) : BitVec.ofNat 32 a + BitVec.ofNat 32 q = BitVec.ofNat 32 (a + q) := by
  rw [← BitVec.ofNat_add]

/-- Rows in blocks of 2048. -/
theorem word_row (p q : ℕ) : BitVec.ofNat 32 q + BitVec.ofNat 32 p * 2048#32 = BitVec.ofNat 32 (p * 2048 + q) :=
  word_blk p 2048 q

theorem word_row' (p q : ℕ) : BitVec.ofNat 32 p * 2048#32 + BitVec.ofNat 32 q = BitVec.ofNat 32 (p * 2048 + q) :=
  word_blk' p 2048 q

/-- Messages in blocks of 4096. -/
theorem word_msg (p q : ℕ) : BitVec.ofNat 32 q + BitVec.ofNat 32 p * 4096#32 = BitVec.ofNat 32 (p * 4096 + q) :=
  word_blk p 4096 q

theorem word_msg' (p q : ℕ) : BitVec.ofNat 32 p * 4096#32 + BitVec.ofNat 32 q = BitVec.ofNat 32 (p * 4096 + q) :=
  word_blk' p 4096 q

/-! ## The 0/1 weight -/

theorem ite_eq_hit (a b : BitVec 32) : (if a = b then (1 : EReal) else 0) = hit a b := rfl

theorem hit_comm (a b : BitVec 32) : hit a b = hit b a := by
  unfold hit
  by_cases h : a = b
  · rw [if_pos h, if_pos h.symm]
  · rw [if_neg h, if_neg (fun hc => h hc.symm)]

theorem hit_mul (a b : BitVec 32) (y : EReal) : hit a b * y = if a = b then y else 0 := by
  unfold hit
  by_cases h : a = b
  · rw [if_pos h, if_pos h, one_mul]
  · rw [if_neg h, if_neg h, zero_mul]

theorem mul_hit (a b : BitVec 32) (y : EReal) : y * hit a b = if a = b then y else 0 := by
  rw [mul_comm, hit_mul]

/-! ## The two sums of a layer, by blocks -/

/-- A message over the padded nodes, block by block. -/
theorem gather_blocks {K D M : ℕ} (x : Fin 100352 → Fin K → EReal) (w : Fin K → Fin D → EReal)
    (src : Fin M → BitVec 32) (nrm : Fin M → EReal) (e : Fin M) (d : Fin D) :
    gather x w src nrm e d
      = (∑ p : Fin 49, ∑ q : Fin 2048,
          hit (src e) (BitVec.ofNat 32 (p.val * 2048 + q.val))
            * mm x w ⟨p.val * 2048 + q.val, by have := p.isLt; have := q.isLt; omega⟩ d) * nrm e := by
  unfold gather
  rw [sum_nodes]

/-- A row over the padded messages, block by block. -/
theorem scatterRelu_blocks {D N : ℕ} (msg : Fin 1302528 → Fin D → EReal) (dst : Fin 1302528 → BitVec 32)
    (b : Fin D → EReal) (i : Fin N) (d : Fin D) :
    scatterRelu msg dst b i d
      = max ((∑ p : Fin 318, ∑ q : Fin 4096,
          hit (BitVec.ofNat 32 i.val) (dst ⟨p.val * 4096 + q.val, by have := p.isLt; have := q.isLt; omega⟩)
            * msg ⟨p.val * 4096 + q.val, by have := p.isLt; have := q.isLt; omega⟩ d) + b d) 0 := by
  unfold scatterRelu
  rw [sum_msgs]

/-- A message as the running sum over the 49 node blocks, after the last one, times its weight. -/
theorem gather_chunks {K D M : ℕ} (x : Fin 100352 → Fin K → EReal) (w : Fin K → Fin D → EReal)
    (src : Fin M → BitVec 32) (nrm : Fin M → EReal) (e : Fin M) (d : Fin D) :
    gather x w src nrm e d
      = accUpto (fun p : Fin 49 => ∑ q : Fin 2048,
          hit (src e) (BitVec.ofNat 32 (p.val * 2048 + q.val))
            * mm x w ⟨p.val * 2048 + q.val, by have := p.isLt; have := q.isLt; omega⟩ d) 48 * nrm e := by
  rw [gather_blocks, accUpto_last _ 48 (by norm_num)]

/-- A row as the running sum over the 318 message blocks, after the last one, plus the bias, clamped. -/
theorem scatterRelu_chunks' {D N : ℕ} (msg : Fin 1302528 → Fin D → EReal) (dst : Fin 1302528 → BitVec 32)
    (b : Fin D → EReal) (i : Fin N) (d : Fin D) :
    scatterRelu msg dst b i d
      = max (accUpto (fun k : Fin 318 => ∑ j : Fin 4096,
          hit (BitVec.ofNat 32 i.val) (dst ⟨k.val * 4096 + j.val, by have := k.isLt; have := j.isLt; omega⟩)
            * msg ⟨k.val * 4096 + j.val, by have := k.isLt; have := j.isLt; omega⟩ d) 317 + b d) 0 := by
  rw [scatterRelu_blocks, accUpto_last _ 317 (by norm_num)]

/-- The same at place `q` of node block `p`. -/
theorem scatterRelu_chunks {D : ℕ} (msg : Fin 1302528 → Fin D → EReal) (dst : Fin 1302528 → BitVec 32)
    (b : Fin D → EReal) (p : Fin 49) (q : Fin 2048) (d : Fin D) (hi : p.val * 2048 + q.val < 100352) :
    scatterRelu (M := 1302528) (N := 100352) msg dst b ⟨p.val * 2048 + q.val, hi⟩ d
      = max (accUpto (fun k : Fin 318 => ∑ j : Fin 4096,
          hit (BitVec.ofNat 32 (p.val * 2048 + q.val))
              (dst ⟨k.val * 4096 + j.val, by have := k.isLt; have := j.isLt; omega⟩)
            * msg ⟨k.val * 4096 + j.val, by have := k.isLt; have := j.isLt; omega⟩ d) 317 + b d) 0 :=
  scatterRelu_chunks' msg dst b ⟨p.val * 2048 + q.val, hi⟩ d

end Cert.Spec

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.KI.Reg0Value.lean ====
/-
  What region 0 leaves in its output array, entry by entry, over the extended reals.

  One tile's step adds to the running total, at row r of the chunk and feature d, the sum over the tile's 2048
  rows of the match weight of the message's source word against the row's number times the row's entry of x · W.
  Over the 49 tiles of a chunk the running total therefore grows to the sum over all 100352 rows (a sum over
  49 · 2048 indices regrouped into 49 blocks), and the last tile stores it times the message's weight: message e of
  the output is the gather of the specification. Only commutative addition, 0 + x = x and the reading of the 0/1
  entries are used; no finiteness.
-/
import proofs.«115179_j73220602462691_1_alg».proof.Proof.KI.Reg0
import proofs.«115179_j73220602462691_1_alg».proof.Proof.Spec
import proofs.«115179_j73220602462691_1_alg».proof.Proof.SpecBlocks
import proofs.«115179_j73220602462691_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

local notation "HIT" => Cert.Spec.hit

/-! ## The schedule's index maps in closed form -/

theorem idx0_0 (t : Fin cfg0.N) : win0_0.index t (0 : Fin 2) = t.val % 49 := by
  show (BitVec.ofNat 32 (grid0.coords t 1).val).toNat = _
  rw [BitVec.toNat_ofNat, coords1]
  exact Nat.mod_eq_of_lt (by have := Nat.mod_lt t.val (show 0 < 49 by decide); omega)
theorem idx0_1 (t : Fin cfg0.N) : win0_0.index t (1 : Fin 2) = 0 := rfl
theorem idx1_0 (t : Fin cfg0.N) : win0_1.index t (0 : Fin 2) = 0 := rfl
theorem idx1_1 (t : Fin cfg0.N) : win0_1.index t (1 : Fin 2) = 0 := rfl
theorem idxE (t : Fin cfg0.N) : (BitVec.ofNat 32 (grid0.coords t 0).val).toNat = t.val / 49 := by
  rw [BitVec.toNat_ofNat, coords0]
  have hN : t.val < 15582 := lt_of_lt_of_eq t.isLt (show cfg0.N = 15582 from N_0)
  exact Nat.mod_eq_of_lt (by omega)
theorem idx2_0 (t : Fin cfg0.N) : win0_2.index t (0 : Fin 2) = t.val / 49 := idxE t
theorem idx2_1 (t : Fin cfg0.N) : win0_2.index t (1 : Fin 2) = 0 := rfl
theorem idx3_0 (t : Fin cfg0.N) : win0_3.index t (0 : Fin 2) = t.val / 49 := idxE t
theorem idx3_1 (t : Fin cfg0.N) : win0_3.index t (1 : Fin 2) = 0 := rfl
theorem idx4_0 (t : Fin cfg0.N) : win0_4.index t (0 : Fin 2) = t.val / 49 := idxE t
theorem idx4_1 (t : Fin cfg0.N) : win0_4.index t (1 : Fin 2) = 0 := rfl

/-! ## The body's arithmetic at an entry, over the extended reals -/

/-- The 0/1 entry the kernel computes from an equality test of two words is their match weight. -/
theorem hit_word (a b : BitVec 32) :
    (FloatOps.sitofp (F := Ideal) .f32 ((IntOp.cmpi .eq a b).setWidth 32) : EReal) = HIT a b := by
  unfold Cert.Spec.hit
  show ((((BitVec.ofBool (a == b)).setWidth 32).toInt : ℝ) : EReal) = _
  by_cases h : a = b
  · rw [if_pos h, show (a == b) = true from by simpa using h]
    have e : ((BitVec.ofBool true).setWidth 32 : BitVec 32).toInt = 1 := by decide
    rw [e]; norm_num
  · rw [if_neg h, show (a == b) = false from by simpa using h]
    have e : ((BitVec.ofBool false).setWidth 32 : BitVec 32).toInt = 0 := by decide
    rw [e]; norm_num

/-- Row number within a tile plus the tile's first row, as words: the row number in the whole array. -/
theorem row_word (a j : ℕ) : BitVec.ofNat 32 j + BitVec.ofNat 32 a * 2048#32 = BitVec.ofNat 32 (a * 2048 + j) := by
  rw [Nat.add_comm, BitVec.ofNat_add, BitVec.ofNat_mul]

/-- A column broadcast along the rows: entry (p, c) is the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero block. -/
theorem pay1_apply (j : S4096x64.Idx) : k0_pay1 (F := Ideal) j = 0 := by
  unfold k0_pay1
  simp only [shapeCast_self]
  exact Ideal.ofBits_zero_f32

/-- One tile's step at entry (r, d): the running total plus, over the tile's 2048 rows, the match weight of the
    message's source word against the row's number times the row's entry of x · W. -/
theorem pay2_apply (i : grid0.Coords) (v7 : Vec Ideal S4096x1 .i32) (v15 : Vec Ideal S2048x26 .f32) (v18 : Vec Ideal S26x64 .f32)
    (v21 : Vec Ideal S4096x64 .f32) (r : Fin 4096) (d : Fin 64) :
    k0_pay2 i v7 v15 v18 v21 (ix2 r d)
      = v21 (ix2 r d) + ∑ j : Fin 2048, HIT (v7 (ix2 r (0 : Fin 1))) (BitVec.ofNat 32 ((i 1).val * 2048 + j.val))
          * ∑ k : Fin 26, v15 (ix2 j k) * v18 (ix2 k d) := by
  unfold k0_pay2
  simp only [shapeCast_self]
  refine congrArg (fun z => v21 (ix2 r d) + z) ?_
  refine (PlainMatmul.apply_zero (M := 4096) (K := 2048) (N := 64) _ _ r d).trans ?_
  refine Finset.sum_congr rfl fun j _ => ?_
  refine congrArg₂ (· * ·) ?_ ?_
  · refine (hit_word _ _).trans ?_
    refine congrArg₂ HIT ?_ ?_
    · exact broadcastTo_a1_ab_apply _ _ r j
    · refine (broadcastTo_1b_ab_apply _ _ r j).trans ?_
      show BitVec.ofNat 32 (0 * 2048 + j.val) + BitVec.ofNat 32 (i 1).val * 2048#32 = _
      rw [Nat.zero_mul, Nat.zero_add]
      exact row_word _ _
  · exact PlainMatmul.apply_zero (M := 2048) (K := 26) (N := 64) _ _ j d

/-- The store of the last tile at entry (r, d): the total times the message's weight. -/
theorem pay3_apply (v31 : Vec Ideal S4096x64 .f32) (v32 : Vec Ideal S4096x1 .f32) (r : Fin 4096) (d : Fin 64) :
    k0_pay3 v31 v32 (ix2 r d) = v31 (ix2 r d) * v32 (ix2 r (0 : Fin 1)) := by
  unfold k0_pay3
  simp only [shapeCast_self]
  refine congrArg (fun z => v31 (ix2 r d) * z) ?_
  exact broadcastTo_a1_ab_apply _ _ r d

/-! ## The arrays as the region finds them, and the blocks read off them -/

variable (V : (c : Dev nD) → (b : Ref sig .tc) → Buf (Elt Ideal) ((c : Thread nD τ).loc b))

abbrev X (c : Dev nD) : Fin 100352 → Fin 26 → EReal := fun n k => V c main_v36 (ix2 n k)
abbrev W (c : Dev nD) : Fin 26 → Fin 64 → EReal := fun k d => V c main_arg2 (ix2 k d)
abbrev SRC (c : Dev nD) : Fin 1302528 → BitVec 32 := fun e => V c main_v33 (ix2 e (0 : Fin 1))
abbrev NRM (c : Dev nD) : Fin 1302528 → EReal := fun e => V c main_v35 (ix2 e (0 : Fin 1))

/-- The x tile of point `t`: rows (t mod 49) · 2048 + j. -/
theorem blk0_apply (c : Dev nD) (t : Fin cfg0.N) (j : Fin 2048) (k : Fin 26) (n : Fin 100352)
    (hn : n.val = t.val % 49 * 2048 + j.val) : iblk V c 0 t (ix2 j k) = X V c n k := by
  show V c main_v36 (((cfg0.win 0).blk t).view.emb (ix2 j k)) = V c main_v36 (ix2 n k)
  refine congrArg (V c main_v36) (funext fun a => Fin.ext ?_)
  match a with
  | ⟨0, _⟩ => show win0_0.index t (0 : Fin 2) * 2048 + 1 * j.val = n.val; rw [idx0_0]; omega
  | ⟨1, _⟩ => show win0_0.index t (1 : Fin 2) * 26 + 1 * k.val = k.val; rw [idx0_1]; omega

/-- The weight matrix is one block. -/
theorem blk1_apply (c : Dev nD) (t : Fin cfg0.N) (k : Fin 26) (d : Fin 64) : iblk V c 1 t (ix2 k d) = W V c k d := by
  show V c main_arg2 (((cfg0.win 1).blk t).view.emb (ix2 k d)) = V c main_arg2 (ix2 k d)
  refine congrArg (V c main_arg2) (funext fun a => Fin.ext ?_)
  match a with
  | ⟨0, _⟩ => show win0_1.index t (0 : Fin 2) * 26 + 1 * k.val = k.val; rw [idx1_0]; omega
  | ⟨1, _⟩ => show win0_1.index t (1 : Fin 2) * 64 + 1 * d.val = d.val; rw [idx1_1]; omega

/-- The source words of point `t`'s chunk: messages (t / 49) · 4096 + r. -/
theorem blk2_apply (c : Dev nD) (t : Fin cfg0.N) (r : Fin 4096) (e : Fin 1302528)
    (he : e.val = t.val / 49 * 4096 + r.val) : iblk V c 2 t (ix2 r (0 : Fin 1)) = SRC V c e := by
  show V c main_v33 (((cfg0.win 2).blk t).view.emb (ix2 r (0 : Fin 1))) = V c main_v33 (ix2 e (0 : Fin 1))
  refine congrArg (V c main_v33) (funext fun a => Fin.ext ?_)
  match a with
  | ⟨0, _⟩ => show win0_2.index t (0 : Fin 2) * 4096 + 1 * r.val = e.val; rw [idx2_0]; omega
  | ⟨1, _⟩ => show win0_2.index t (1 : Fin 2) * 1 + 1 * 0 = 0; rw [idx2_1]

/-- The weights of the same messages. -/
theorem blk3_apply (c : Dev nD) (t : Fin cfg0.N) (r : Fin 4096) (e : Fin 1302528)
    (he : e.val = t.val / 49 * 4096 + r.val) : iblk V c 3 t (ix2 r (0 : Fin 1)) = NRM V c e := by
  show V c main_v35 (((cfg0.win 3).blk t).view.emb (ix2 r (0 : Fin 1))) = V c main_v35 (ix2 e (0 : Fin 1))
  refine congrArg (V c main_v35) (funext fun a => Fin.ext ?_)
  match a with
  | ⟨0, _⟩ => show win0_3.index t (0 : Fin 2) * 4096 + 1 * r.val = e.val; rw [idx3_0]; omega
  | ⟨1, _⟩ => show win0_3.index t (1 : Fin 2) * 1 + 1 * 0 = 0; rw [idx3_1]

/-! ## The running total is a partial sum over the tiles -/

/-- Tile `a`'s contribution to message `e`, feature `d`. -/
def tile (c : Dev nD) (e : Fin 1302528) (d : Fin 64) (a : Fin 49) : EReal :=
  ∑ j : Fin 2048, HIT (SRC V c e) (BitVec.ofNat 32 (a.val * 2048 + j.val))
    * Cert.Spec.mm (X V c) (W V c) ⟨a.val * 2048 + j.val, Cert.Spec.blk_lt a.isLt j.isLt⟩ d

/-- One step of the body at point `t`: the total it is handed plus the point's tile. -/
theorem step_apply (c : Dev nD) (t : Fin cfg0.N) (acc : Vec Ideal S4096x64 .f32) (r : Fin 4096) (d : Fin 64)
    (e : Fin 1302528) (he : e.val = t.val / 49 * 4096 + r.val) (a : Fin 49) (ha : a.val = t.val % 49) :
    k0_pay2 (grid0.coords t) (iblk V c 2 t) (iblk V c 0 t) (iblk V c 1 t) acc (ix2 r d)
      = acc (ix2 r d) + tile V c e d a := by
  refine (pay2_apply (grid0.coords t) (iblk V c 2 t) (iblk V c 0 t) (iblk V c 1 t) acc r d).trans ?_
  refine congrArg (fun z => acc (ix2 r d) + z) ?_
  unfold tile
  refine Finset.sum_congr rfl fun j _ => ?_
  refine congrArg₂ (· * ·) ?_ ?_
  · rw [blk2_apply V c t r e he, coords1, ha]
  · unfold Cert.Spec.mm
    refine Finset.sum_congr rfl fun k _ => ?_
    rw [blk0_apply V c t j k ⟨a.val * 2048 + j.val, Cert.Spec.blk_lt a.isLt j.isLt⟩ (by show a.val * 2048 + j.val = _; rw [ha]),
      blk1_apply V c t k d]

/-- After the body at position `n` the scratch holds, at row r and feature d, the sum of the tiles up to the
    position's own — by induction on the position. -/
theorem acc_eq (c : Dev nD) (n : ℕ) : ∀ (hn : n < cfg0.N) (r : Fin 4096) (d : Fin 64) (e : Fin 1302528)
    (_ : e.val = n / 49 * 4096 + r.val), accAt V c n hn (ix2 r d) = Cert.Spec.accUpto (tile V c e d) (n % 49) := by
  induction n with
  | zero =>
    intro hn r d e he
    refine (congrFun (accAt_first V c ⟨0, hn⟩ (Nat.zero_mod _)) (ix2 r d)).trans ?_
    refine (step_apply V c ⟨0, hn⟩ (k0_pay1 (F := Ideal)) r d e he ⟨0, by decide⟩ rfl).trans ?_
    rw [pay1_apply, zero_add]
    exact (Cert.Spec.accUpto_zero _ (by decide)).symm
  | succ n ih =>
    intro hn r d e he
    by_cases h0 : (n + 1) % 49 = 0
    · refine (congrFun (accAt_first V c ⟨n + 1, hn⟩ h0) (ix2 r d)).trans ?_
      refine (step_apply V c ⟨n + 1, hn⟩ (k0_pay1 (F := Ideal)) r d e he ⟨0, by decide⟩ h0.symm).trans ?_
      rw [pay1_apply, zero_add, h0]
      exact (Cert.Spec.accUpto_zero _ (by decide)).symm
    · have hlt : n % 49 + 1 < 49 := by omega
      refine (congrFun (accAt_step V c ⟨n + 1, hn⟩ h0) (ix2 r d)).trans ?_
      refine (step_apply V c ⟨n + 1, hn⟩ _ r d e he ⟨n % 49 + 1, hlt⟩ (by show n % 49 + 1 = (n + 1) % 49; omega)).trans ?_
      rw [show (n + 1) % 49 = n % 49 + 1 from by omega, Cert.Spec.accUpto_succ _ _ hlt]
      refine congrArg (fun z => z + tile V c e d ⟨n % 49 + 1, hlt⟩) ?_
      exact ih (Nat.lt_of_succ_lt hn) r d e (by rw [he]; congr 2; omega)

/-! ## What the last tile stores, and the array after the region -/

/-- At a last tile the output block holds, at row r and feature d, the gather of the specification for the
    chunk's message r: the 49 tiles are all 100352 rows. -/
theorem out_apply (c : Dev nD) (t : Fin cfg0.N) (h1 : t.val % 49 = 48) (r : Fin 4096) (d : Fin 64)
    (e : Fin 1302528) (he : e.val = t.val / 49 * 4096 + r.val) :
    k0_pay3 (accAt V c t.val t.isLt) (iblk V c 3 t) (ix2 r d)
      = Cert.Spec.gather (X V c) (W V c) (SRC V c) (NRM V c) e d := by
  refine (pay3_apply (accAt V c t.val t.isLt) (iblk V c 3 t) r d).trans ?_
  rw [acc_eq V c t.val t.isLt r d e he, h1, Cert.Spec.accUpto_last _ 48 (by decide), blk3_apply V c t r e he]
  unfold Cert.Spec.gather
  refine congrArg (fun z => z * NRM V c e) ?_
  exact (Cert.Spec.sum_nodes fun n => HIT (SRC V c e) (BitVec.ofNat 32 n.val) * Cert.Spec.mm (X V c) (W V c) n d).symm

/-- The whole output array the blocks are blocks of. -/
abbrev G (c : Dev nD) : Buf (Elt Ideal) ((cfg0.win 4).arr.view.loc (c.tc : Thread nD τ)) :=
  fun i => Cert.Spec.gather (X V c) (W V c) (SRC V c) (NRM V c) (i 0) (i 1)

/-- What a last tile writes back is its block of that array. -/
theorem flushed_eq (c : Dev nD) (t : Fin cfg0.N) (hf : (cfg0.win 4).flush t = true) :
    (dat V c).flushed 4 t = ((cfg0.win 4).blk t).view.read (Elt Ideal) (G V c) := by
  have h1 : t.val % 49 = 48 := (flush0_4 t).mp hf
  have hN : t.val < 15582 := lt_of_lt_of_eq t.isLt (show cfg0.N = 15582 from N_0)
  show (cfg0.win 4).cut (grid0.coords t) ((dat V c).after 4 t) = _
  rw [after4]
  funext y
  obtain ⟨r, d, rfl⟩ : ∃ (r : Fin 4096) (d : Fin 64), y = ix2 r d := ⟨y 0, y 1, eq_ix2 y⟩
  show k0_pay3 (accAt V c t.val t.isLt) (iblk V c 3 t) (ix2 r d) = G V c (((cfg0.win 4).blk t).view.emb (ix2 r d))
  refine (out_apply V c t h1 r d ⟨t.val / 49 * 4096 + r.val, by have := r.isLt; omega⟩ rfl).trans ?_
  refine congrArg₂ (Cert.Spec.gather (X V c) (W V c) (SRC V c) (NRM V c)) (Fin.ext ?_) (Fin.ext ?_)
  · show t.val / 49 * 4096 + r.val = win0_4.index t (0 : Fin 2) * 4096 + 1 * r.val
    rw [idx4_0]; omega
  · show d.val = win0_4.index t (1 : Fin 2) * 64 + 1 * d.val
    rw [idx4_1]; omega

/-- THE OUTPUT ARRAY after the region, entry by entry: message `e`, feature `d` is the gather of the
    specification of the entry contents of the four input arrays. -/
theorem final (V : (c : Dev nD) → (b : Ref sig .tc) → Buf (Elt Ideal) ((c : Thread nD τ).loc b)) (c : Dev nD)
    (e : Fin 1302528) (d : Fin 64) :
    (dat (F := Ideal) V c).arrAt 4 cfg0.N (ValueIdx.ix2 e d)
      = Cert.Spec.gather (N := 100352) (fun n k => V c main_v36 (ValueIdx.ix2 n k)) (fun k d' => V c main_arg2 (ValueIdx.ix2 k d'))
          (fun e' => V c main_v33 (ValueIdx.ix2 e' 0)) (fun e' => V c main_v35 (ValueIdx.ix2 e' 0)) e d := by
  have hN : cfg0.N = 15582 := N_0
  have hlt : e.val / 4096 * 49 + 48 < cfg0.N := by rw [hN]; have := e.isLt; omega
  have h1 : (e.val / 4096 * 49 + 48) % 49 = 48 := by omega
  have hf : (cfg0.win 4).flush ⟨e.val / 4096 * 49 + 48, hlt⟩ = true := (flush0_4 _).mpr h1
  refine ((dat V c).arrAt_apply_of_mem 4 (G V c) (fun t hf => flushed_eq V c t hf) cfg0.N ⟨e.val / 4096 * 49 + 48, hlt⟩
    (ix2 e d) hlt hf ?_).trans rfl
  show ix2 e d ∈ ((View.whole main_v37).slice (win0_4.rect ⟨e.val / 4096 * 49 + 48, hlt⟩)).set
  rw [View.set_slice_whole, Rect.mem_set_unit]
  intro a
  match a with
  | ⟨0, _⟩ =>
    show win0_4.index ⟨e.val / 4096 * 49 + 48, hlt⟩ (0 : Fin 2) * 4096 ≤ e.val
      ∧ e.val < win0_4.index ⟨e.val / 4096 * 49 + 48, hlt⟩ (0 : Fin 2) * 4096 + 4096
    rw [idx4_0]; show (e.val / 4096 * 49 + 48) / 49 * 4096 ≤ e.val ∧ e.val < (e.val / 4096 * 49 + 48) / 49 * 4096 + 4096
    omega
  | ⟨1, _⟩ =>
    show win0_4.index ⟨e.val / 4096 * 49 + 48, hlt⟩ (1 : Fin 2) * 64 ≤ d.val
      ∧ d.val < win0_4.index ⟨e.val / 4096 * 49 + 48, hlt⟩ (1 : Fin 2) * 64 + 64
    rw [idx4_1]; have := d.isLt; omega

end Cert.KernelIdeal.Reg0

end
-- ==== Proof.KI.Reg1Pay.lean ====
/-
  The arithmetic of one grid point of the scatter step, entry by entry, on the extended reals.

  At row r of the row block nt and feature d the body adds to the running total the sum, over the 4096 messages
  j of the chunk, of the 0/1 weight "the destination word of message j names row nt·2048 + r" times entry (j, d)
  of the chunk's messages; the block it finally stores is the total plus the bias, clamped at zero.
-/
import proofs.«115179_j73220602462691_1_alg».proof.Proof.Gen.KernelIdeal.Skeleton
import proofs.«115179_j73220602462691_1_alg».proof.Proof.Spec
import proofs.«115179_j73220602462691_1_alg».proof.Proof.LibPlainMatmul
import Idealize.ShloMosaic.Lib.ValueIdx
import Idealize.ShloMosaic.Lib.ValueLayout
import Idealize.ShloMosaic.Lib.Pipeline.Value

set_option maxRecDepth 16384

noncomputable section

namespace Cert.KernelIdeal.Reg1

open Cert.KernelIdeal Cert.KernelIdeal.Gen
open Idealize.ShloMosaic Idealize.ShloMosaic.ValueIdx

/-- The 0/1 weight as the body computes it: the comparison's bit, widened to a word, read as a number. -/
theorem onehot_eq (a b : BitVec 32) :
    (FloatOps.sitofp (F := Ideal) .f32 ((IntOp.cmpi .eq a b).setWidth 32) : EReal) = Cert.Spec.hit a b := by
  show (((((BitVec.ofBool (a == b)).setWidth 32).toInt : ℤ) : ℝ) : EReal) = if a = b then 1 else 0
  by_cases h : a = b
  · rw [if_pos h, show (a == b) = true from by simpa using h,
      show ((BitVec.ofBool true).setWidth 32).toInt = 1 from by decide]
    simp
  · rw [if_neg h, show (a == b) = false from by simpa using h,
      show ((BitVec.ofBool false).setWidth 32).toInt = 0 from by decide]
    simp

/-- The row number nt·2048 + r as a 32-bit word: the products and sums stay below 2^32. -/
theorem row_word (nt r : ℕ) (hnt : nt < 49) (hr : r < 2048) :
    BitVec.ofNat 32 r + BitVec.ofNat 32 nt * 2048#32 = BitVec.ofNat 32 (nt * 2048 + r) := by
  apply BitVec.eq_of_toNat_eq
  simp only [BitVec.toNat_add, BitVec.toNat_mul, BitVec.toNat_ofNat]
  omega

/-- A column copied along the rows, read at an entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    have := p.isLt
    split <;> omega
  | ⟨1, _⟩ => rfl

/-- The zero block. -/
theorem pay1_apply (r : Fin 2048) (d : Fin 64) : k1_pay1 (F := Ideal) (ix2 r d) = 0 := by
  unfold k1_pay1
  simp only [shapeCast_self]
  exact Ideal.ofBits_zero_f32

/-- One chunk's contribution added to the running total. -/
theorem pay2_apply (i : grid1.Coords) (v7 : Vec Ideal S1x4096 .i32) (v15 : Vec Ideal S2048x64 .f32) (v16 : Vec Ideal S4096x64 .bf16)
    (r : Fin 2048) (d : Fin 64) :
    k1_pay2 (F := Ideal) i v7 v15 v16 (ix2 r d)
      = v15 (ix2 r d) + ∑ j : Fin 4096, Cert.Spec.hit (BitVec.ofNat 32 r.val + BitVec.ofNat 32 (i 0).val * 2048#32) (v7 (ix2 (0 : Fin 1) j)) * v16 (ix2 j d) := by
  unfold k1_pay2
  simp only [shapeCast_self]
  refine congrArg (v15 (ix2 r d) + ·) ?_
  refine (PlainMatmul.apply_zero (M := 2048) (K := 4096) (N := 64) (φ₁ := .bf16) (φ₂ := .bf16) _ v16 r d).trans ?_
  refine Finset.sum_congr rfl fun j _ => ?_
  refine congrArg (· * v16 (ix2 j d)) ?_
  show FloatOps.sitofp (F := Ideal) .f32 ((IntOp.cmpi .eq
      (broadcastTo S2048x4096 (addi (iota .tc S2048x1 32 [0] iota_S2048x1_d0_w32) (broadcast S2048x1 (Scalar.muli (BitVec.ofNat 32 (i 0).val) 2048#32))) broadcasts_S2048x1_S2048x4096 (ix2 r j))
      (broadcastTo S2048x4096 v7 broadcasts_S1x4096_S2048x4096 (ix2 r j))).setWidth 32) = _
  rw [broadcastTo_1b_ab_apply, broadcastTo_a1_ab_apply]
  show FloatOps.sitofp (F := Ideal) .f32 ((IntOp.cmpi .eq (iota .tc S2048x1 32 [0] iota_S2048x1_d0_w32 (ix2 r (0 : Fin 1)) + BitVec.ofNat 32 (i 0).val * 2048#32) (v7 (ix2 (0 : Fin 1) j))).setWidth 32) = _
  rw [iota_single_apply]
  exact onehot_eq _ _

/-- The stored block: total plus bias, clamped at zero. -/
theorem pay3_apply (v26 : Vec Ideal S2048x64 .f32) (v27 : Vec Ideal S1x64 .f32) (r : Fin 2048) (d : Fin 64) :
    k1_pay3 (F := Ideal) v26 v27 (ix2 r d) = max (v26 (ix2 r d) + v27 (ix2 (0 : Fin 1) d)) 0 := by
  unfold k1_pay3
  simp only [shapeCast_self]
  show max (v26 (ix2 r d) + broadcastTo S2048x64 v27 broadcasts_S1x64_S2048x64 (ix2 r d)) (Ideal.ofBits .f32 0x00000000#32) = _
  rw [broadcastTo_1b_ab_apply, Ideal.ofBits_zero_f32]

end Cert.KernelIdeal.Reg1

end
-- ==== Proof.KI.Reg1Value.lean ====
/-
  What the scatter step of the first layer leaves in its result array, entry by entry, on the extended reals.

  Row block p of the result is written once, by the last of the 318 chunks of that row block.  By then the running
  total at row r and feature d has collected, chunk after chunk, the products "0/1 weight of (row p·2048 + r, message
  e)" times "entry (e, d) of the messages" for every message e of every chunk: the chunks are consecutive stretches
  of 4096 messages, so the total is the sum over all 1302528 messages.  Adding the bias and clamping at zero gives the
  layer's row as the specification states it.
-/
import proofs.«115179_j73220602462691_1_alg».proof.Proof.KI.Reg1
import proofs.«115179_j73220602462691_1_alg».proof.Proof.KI.Reg1Pay
import proofs.«115179_j73220602462691_1_alg».proof.Proof.Spec
import proofs.«115179_j73220602462691_1_alg».proof.Proof.SpecBlocks
import Idealize.ShloMosaic.Lib.ValueIdx
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)
open Cert.Spec

variable (V : (c : Dev nD) → (b : Ref sig .tc) → Buf (Elt Ideal) ((c : Thread nD τ).loc b))

/-! ## Where each window's block sits at a point -/

theorem toNat_word (n : ℕ) (h : n < 2 ^ 32) : (BitVec.ofNat 32 n).toNat = n := by
  rw [BitVec.toNat_ofNat]; exact Nat.mod_eq_of_lt h

theorem chunk_lt (t : Fin cfg1.N) : (grid1.coords t 1).val < 318 := (grid1.coords t 1).isLt
theorem tile_lt (t : Fin cfg1.N) : (grid1.coords t 0).val < 49 := (grid1.coords t 0).isLt

/-- The messages' window is at block (chunk, 0), -/
theorem index_0 (t : Fin cfg1.N) : win1_0.index t 0 = t.val % 318 ∧ win1_0.index t 1 = 0 := by
  refine ⟨?_, rfl⟩
  show (BitVec.ofNat 32 (grid1.coords t 1).val).toNat = _
  rw [toNat_word _ (by have := chunk_lt t; omega), coords_1]
/-- the destination words' at block (0, chunk), -/
theorem index_1 (t : Fin cfg1.N) : win1_1.index t 0 = 0 ∧ win1_1.index t 1 = t.val % 318 := by
  refine ⟨rfl, ?_⟩
  show (BitVec.ofNat 32 (grid1.coords t 1).val).toNat = _
  rw [toNat_word _ (by have := chunk_lt t; omega), coords_1]
/-- the bias's at block (0, 0), -/
theorem index_2 (t : Fin cfg1.N) : win1_2.index t 0 = 0 ∧ win1_2.index t 1 = 0 := ⟨rfl, rfl⟩
/-- the result's at block (row block, 0). -/
theorem index_3 (t : Fin cfg1.N) : win1_3.index t 0 = t.val / 318 ∧ win1_3.index t 1 = 0 := by
  refine ⟨?_, rfl⟩
  show (BitVec.ofNat 32 (grid1.coords t 0).val).toNat = _
  rw [toNat_word _ (by have := tile_lt t; omega), coords_0]

/-- Message j of chunk k, as a message of the whole array. -/
def gmsg (k : Fin 318) (j : Fin 4096) : Fin 1302528 := ⟨k.val * 4096 + j.val, by have := k.isLt; have := j.isLt; omega⟩

/-- The chunk of point t. -/
def chunkOf (t : Fin cfg1.N) : Fin 318 := ⟨t.val % 318, Nat.mod_lt _ (by decide)⟩

/-- Entry (j, d) of the chunk's messages is entry (k·4096 + j, d) of all the messages. -/
theorem iblk0_apply (c : Dev nD) (t : Fin cfg1.N) (j : Fin 4096) (d : Fin 64) :
    (iblk V c 0 t : Vec Ideal S4096x64 .bf16) (ix2 j d) = V c main_v37 (ix2 (gmsg (chunkOf t) j) d) := by
  unfold iblk
  rw [View.read_apply]
  show V c main_v37 _ = V c main_v37 _
  congr 1
  funext a
  apply Fin.ext
  match a with
  | ⟨0, _⟩ => show win1_0.index t 0 * 4096 + 1 * j.val = t.val % 318 * 4096 + j.val; rw [(index_0 t).1]; omega
  | ⟨1, _⟩ => show win1_0.index t 1 * 64 + 1 * d.val = d.val; rw [(index_0 t).2]; omega

/-- Destination word j of the chunk is destination word k·4096 + j. -/
theorem iblk1_apply (c : Dev nD) (t : Fin cfg1.N) (j : Fin 4096) :
    (iblk V c 1 t : Vec Ideal S1x4096 .i32) (ix2 0 j) = V c main_v34 (ix2 0 (gmsg (chunkOf t) j)) := by
  unfold iblk
  rw [View.read_apply]
  show V c main_v34 _ = V c main_v34 _
  congr 1
  funext a
  apply Fin.ext
  match a with
  | ⟨0, _⟩ => show win1_1.index t 0 * 1 + 1 * 0 = 0; rw [(index_1 t).1]
  | ⟨1, _⟩ => show win1_1.index t 1 * 4096 + 1 * j.val = t.val % 318 * 4096 + j.val; rw [(index_1 t).2]; omega

/-- The bias block is the bias. -/
theorem iblk2_apply (c : Dev nD) (t : Fin cfg1.N) (d : Fin 64) :
    (iblk V c 2 t : Vec Ideal S1x64 .f32) (ix2 0 d) = V c main_v38 (ix2 0 d) := by
  unfold iblk
  rw [View.read_apply]
  show V c main_v38 _ = V c main_v38 _
  congr 1
  funext a
  apply Fin.ext
  match a with
  | ⟨0, _⟩ => show 0 * 1 + 1 * 0 = 0; rfl
  | ⟨1, _⟩ => show 0 * 64 + 1 * d.val = d.val; omega

/-! ## The running total is the sum over the chunks so far -/

/-- Chunk k's contribution to row n at feature d: the chunk's messages weighted by whether their destination word
    names row n. -/
def chunk (c : Dev nD) (n : ℕ) (d : Fin 64) (k : Fin 318) : EReal :=
  ∑ j : Fin 4096, hit (BitVec.ofNat 32 n) (V c main_v34 (ix2 0 (gmsg k j))) * V c main_v37 (ix2 (gmsg k j) d)

/-- One point's step: the total before, plus the chunk's contribution. -/
theorem step_apply (c : Dev nD) (t : Fin cfg1.N) (xs : Vec Ideal S2048x64 .f32) (r : Fin 2048) (d : Fin 64) :
    k1_pay2 (F := Ideal) (grid1.coords t) (iblk V c 1 t) xs (iblk V c 0 t) (ix2 r d)
      = xs (ix2 r d) + chunk V c (t.val / 318 * 2048 + r.val) d (chunkOf t) := by
  refine (pay2_apply (grid1.coords t) (iblk V c 1 t) xs (iblk V c 0 t) r d).trans ?_
  refine congrArg (xs (ix2 r d) + ·) ?_
  unfold chunk
  refine Finset.sum_congr rfl fun j _ => ?_
  refine congrArg₂ (· * ·) (congrArg₂ hit ?_ (iblk1_apply V c t j)) (iblk0_apply V c t j d)
  rw [coords_0, word_row]

theorem accAt_congr (c : Dev nD) {n n' : ℕ} (e : n = n') (h : n < cfg1.N) (h' : n' < cfg1.N) :
    accAt V c n h = accAt V c n' h' := by subst e; rfl

/-- After chunk k of row block q the total at (r, d) is the sum of the contributions of chunks 0 … k. -/
theorem accAt_eq (c : Dev nD) (q : ℕ) (hq : q < 49) (r : Fin 2048) (d : Fin 64) :
    ∀ (k : ℕ) (hk : k < 318) (h : q * 318 + k < cfg1.N),
      accAt V c (q * 318 + k) h (ix2 r d) = accUpto (chunk V c (q * 2048 + r.val) d) k
  | 0, hk, h => by
    have e := accAt_first V c ⟨q * 318 + 0, h⟩ (by show (q * 318 + 0) % 318 = 0; omega)
    refine (congrFun e (ix2 r d)).trans ?_
    refine (step_apply V c ⟨q * 318 + 0, h⟩ (k1_pay1 (F := Ideal)) r d).trans ?_
    rw [pay1_apply, zero_add, accUpto_zero _ (by omega)]
    have e1 : (q * 318 + 0) / 318 = q := by omega
    show chunk V c ((q * 318 + 0) / 318 * 2048 + r.val) d (chunkOf ⟨q * 318 + 0, h⟩) = _
    rw [e1]
    exact congrArg (chunk V c (q * 2048 + r.val) d) (Fin.ext (by show (q * 318 + 0) % 318 = 0; omega))
  | k + 1, hk, h => by
    have e := accAt_next V c ⟨q * 318 + (k + 1), h⟩ (by show ¬(q * 318 + (k + 1)) % 318 = 0; omega)
    refine (congrFun e (ix2 r d)).trans ?_
    refine (step_apply V c ⟨q * 318 + (k + 1), h⟩ _ r d).trans ?_
    rw [accUpto_succ _ k hk]
    have ih := accAt_eq c q hq r d k (by omega) (by omega)
    have e1 : (q * 318 + (k + 1)) / 318 = q := by omega
    refine congrArg₂ (· + ·) ?_ ?_
    · show accAt V c (q * 318 + (k + 1) - 1) _ (ix2 r d) = _
      exact ih
    · show chunk V c ((q * 318 + (k + 1)) / 318 * 2048 + r.val) d (chunkOf ⟨q * 318 + (k + 1), h⟩) = _
      rw [e1]
      exact congrArg (chunk V c (q * 2048 + r.val) d) (Fin.ext (by show (q * 318 + (k + 1)) % 318 = k + 1; omega))

/-- After the last chunk of a row block: the contributions of all 318 chunks. -/
theorem acc_last (c : Dev nD) (t : Fin cfg1.N) (h317 : t.val % 318 = 317) (r : Fin 2048) (d : Fin 64) :
    accAt V c t.val t.isLt (ix2 r d) = accUpto (chunk V c (t.val / 318 * 2048 + r.val) d) 317 := by
  have hN : t.val < 15582 := lt_of_lt_of_eq t.isLt (show cfg1.N = 15582 from N_1)
  have ht : t.val = t.val / 318 * 318 + 317 := by omega
  have key := accAt_eq V c (t.val / 318) (by omega) r d 317 (by omega) (by rw [← ht]; exact t.isLt)
  rw [accAt_congr V c ht t.isLt (by rw [← ht]; exact t.isLt), key]

/-! ## The result array -/

/-- The layer at row n and feature m (zero outside the array: no such entry is read). -/
def Gat (c : Dev nD) (n m : ℕ) : EReal :=
  if h : n < 100352 ∧ m < 64 then
    scatterRelu (M := 1302528) (N := 100352) (fun e d' => V c main_v37 (ix2 e d')) (fun e => V c main_v34 (ix2 0 e))
      (fun d' => V c main_v38 (ix2 0 d')) ⟨n, h.1⟩ ⟨m, h.2⟩
  else 0

/-- The layer's rows, as contents of the result array. -/
def G (c : Dev nD) : Buf (Elt Ideal) ((c : Thread nD τ).loc main_v39) := fun idx => Gat V c (idx 0).val (idx 1).val

/-- What the last chunk of a row block stores at an entry of the block. -/
theorem out_entry (c : Dev nD) (t : Fin cfg1.N) (h317 : t.val % 318 = 317) (y : S2048x64.Idx) :
    k1_pay3 (F := Ideal) (accAt V c t.val t.isLt) (iblk V c 2 t) y = Gat V c (t.val / 318 * 2048 + (y 0).val) (y 1).val := by
  have hN : t.val < 15582 := lt_of_lt_of_eq t.isLt (show cfg1.N = 15582 from N_1)
  obtain ⟨r, d, rfl⟩ : ∃ (r : Fin 2048) (d : Fin 64), y = ix2 r d := ⟨y 0, y 1, eq_ix2 y⟩
  have hp : t.val / 318 < 49 := by omega
  have hr : t.val / 318 * 2048 + r.val < 100352 := by have := r.isLt; omega
  show _ = Gat V c (t.val / 318 * 2048 + r.val) d.val
  unfold Gat
  rw [dif_pos ⟨hr, d.isLt⟩]
  refine (pay3_apply (accAt V c t.val t.isLt) (iblk V c 2 t) r d).trans ?_
  refine Eq.trans ?_ (scatterRelu_chunks (fun e d' => V c main_v37 (ix2 e d')) (fun e => V c main_v34 (ix2 0 e))
    (fun d' => V c main_v38 (ix2 0 d')) ⟨t.val / 318, hp⟩ r d hr).symm
  exact congrArg₂ max (congrArg₂ (· + ·) (acc_last V c t h317 r d) (iblk2_apply V c t d)) rfl

/-- What the last chunk of a row block writes back is that block of the layer's rows. -/
theorem flushed_eq (c : Dev nD) (t : Fin cfg1.N) (hf : (cfg1.win 3).flush t = true) :
    (dat (F := Ideal) V c).flushed 3 t = ((cfg1.win 3).blk t).view.read (Elt Ideal) (G V c) := by
  have h317 := (flush1_3 t).mp hf
  show (cfg1.win 3).cut (grid1.coords t) ((dat V c).after 3 t) = _
  rw [after3]
  funext y
  rw [View.read_apply]
  show k1_pay3 (F := Ideal) (accAt V c t.val t.isLt) (iblk V c 2 t) y
    = Gat V c (win1_3.index t 0 * 2048 + 1 * (y 0).val) (win1_3.index t 1 * 64 + 1 * (y 1).val)
  rw [(index_3 t).1, (index_3 t).2, Nat.one_mul, Nat.one_mul, Nat.zero_mul, Nat.zero_add]
  exact out_entry V c t h317 y

/-- Every row of the result lies in the block the last chunk of its row block writes back. -/
theorem cover (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 100352 := (i 0).isLt
  have h1 : (i 1 : Nat) < 64 := (i 1).isLt
  have hN : cfg1.N = 15582 := N_1
  have hlt : (i 0 : Nat) / 2048 * 318 + 317 < cfg1.N := by rw [hN]; omega
  refine ⟨⟨(i 0 : Nat) / 2048 * 318 + 317, hlt⟩, (flush1_3 _).mpr (by show ((i 0 : Nat) / 2048 * 318 + 317) % 318 = 317; omega), ?_⟩
  show i ∈ ((View.whole main_v39).slice (win1_3.rect ⟨(i 0 : Nat) / 2048 * 318 + 317, hlt⟩)).set
  rw [View.set_slice_whole, Rect.mem_set_unit]
  intro a
  match a with
  | ⟨0, _⟩ =>
    show win1_3.index ⟨(i 0 : Nat) / 2048 * 318 + 317, hlt⟩ 0 * 2048 ≤ (i 0 : Nat)
      ∧ (i 0 : Nat) < win1_3.index ⟨(i 0 : Nat) / 2048 * 318 + 317, hlt⟩ 0 * 2048 + 2048
    rw [(index_3 ⟨(i 0 : Nat) / 2048 * 318 + 317, hlt⟩).1]
    show ((i 0 : Nat) / 2048 * 318 + 317) / 318 * 2048 ≤ (i 0 : Nat) ∧ (i 0 : Nat) < ((i 0 : Nat) / 2048 * 318 + 317) / 318 * 2048 + 2048
    omega
  | ⟨1, _⟩ =>
    show win1_3.index ⟨(i 0 : Nat) / 2048 * 318 + 317, hlt⟩ 1 * 64 ≤ (i 1 : Nat)
      ∧ (i 1 : Nat) < win1_3.index ⟨(i 0 : Nat) / 2048 * 318 + 317, hlt⟩ 1 * 64 + 64
    rw [(index_3 ⟨(i 0 : Nat) / 2048 * 318 + 317, hlt⟩).2]
    omega

/-- The result array after the region: the layer's rows, entry by entry. -/
theorem final (V : (c : Dev nD) → (b : Ref sig .tc) → Buf (Elt Ideal) ((c : Thread nD τ).loc b)) (c : Dev nD) (i : Fin 100352) (d : Fin 64) :
    (dat (F := Ideal) V c).arrAt 3 cfg1.N (ValueIdx.ix2 i d)
      = Cert.Spec.scatterRelu (M := 1302528) (fun e d' => V c main_v37 (ValueIdx.ix2 e d')) (fun e => V c main_v34 (ValueIdx.ix2 0 e))
          (fun d' => V c main_v38 (ValueIdx.ix2 0 d')) i d := by
  have key := (dat V c).arrAt_eq_of_cover 3 (G V c) (flushed_eq V c) (cover c)
  refine (congrFun key (ix2 i d)).trans ?_
  show Gat V c i.val d.val = _
  unfold Gat
  rw [dif_pos ⟨i.isLt, d.isLt⟩]

end Cert.KernelIdeal.Reg1

end
-- ==== Proof.LibPrefixSums.lean ====
/-
  Sums of an initial stretch of finitely many terms. For terms f 0, …, f (N−1) of a commutative additive monoid,
  upto f a  is the sum of the terms whose index is at most a — written as a sum over all indices with the later terms
  replaced by zero, so that no index arithmetic on the index type is needed. It starts at the first term, grows by one
  term at a time, and is the whole sum once a reaches N − 1. Nothing but commutative addition is used, so the statements
  hold on the extended reals without any finiteness.
-/
import Mathlib

noncomputable section

namespace PrefixSums

open Finset

variable {M : Type*} [AddCommMonoid M] {N : ℕ}

/-- The sum of the terms of index at most `a`. -/
def upto (f : Fin N → M) (a : ℕ) : M := ∑ j : Fin N, if j.val ≤ a then f j else 0

/-- One term alone, as a sum over all indices. -/
theorem single (f : Fin N → M) (b : ℕ) (hb : b < N) : (∑ j : Fin N, if j.val = b then f j else 0) = f ⟨b, hb⟩ := by
  rw [Finset.sum_eq_single (⟨b, hb⟩ : Fin N)]
  · exact if_pos rfl
  · intro j _ hj
    exact if_neg fun h => hj (Fin.ext h)
  · intro h; exact absurd (Finset.mem_univ _) h

/-- Up to index 0 there is the first term only. -/
theorem upto_zero (f : Fin N → M) (hN : 0 < N) : upto f 0 = f ⟨0, hN⟩ := by
  unfold upto
  rw [← single f 0 hN]
  refine Finset.sum_congr rfl fun j _ => ?_
  by_cases h : j.val = 0
  · rw [if_pos (by omega), if_pos h]
  · rw [if_neg (by omega), if_neg h]

/-- One more term. -/
theorem upto_succ (f : Fin N → M) (a : ℕ) (h : a + 1 < N) : upto f (a + 1) = upto f a + f ⟨a + 1, h⟩ := by
  unfold upto
  rw [← single f (a + 1) h, ← Finset.sum_add_distrib]
  refine Finset.sum_congr rfl fun j _ => ?_
  by_cases h1 : j.val ≤ a
  · rw [if_pos (by omega), if_pos h1, if_neg (by omega), add_zero]
  · by_cases h2 : j.val = a + 1
    · rw [if_pos (by omega), if_neg h1, if_pos h2, zero_add]
    · rw [if_neg (by omega), if_neg h1, if_neg h2, add_zero]

/-- From the last index on it is the whole sum. -/
theorem upto_all (f : Fin N → M) (a : ℕ) (h : N ≤ a + 1) : upto f a = ∑ j, f j := by
  unfold upto
  exact Finset.sum_congr rfl fun j _ => if_pos (by have := j.isLt; omega)

end PrefixSums

end
-- ==== Proof.LibBlockSums.lean ====
/-
  Finite sums regrouped into blocks. A sum over the m·n indices 0, …, m·n − 1 is the sum over the m blocks of n
  consecutive indices of the sums inside each block: index i·n + j is entry j of block i. Nothing is asked of the
  summands beyond commutative addition, so the regrouping holds on the extended reals without any finiteness.
-/
import Mathlib.Algebra.BigOperators.Fin
import Mathlib.Logic.Equiv.Fin.Basic

noncomputable section

namespace BlockSums

open Finset

/-- A sum over Fin N, N = m·n, regrouped into m blocks of n: g i j is any naming of index i·n + j. -/
theorem sum_blocks {M : Type*} [AddCommMonoid M] {m n N : ℕ} (hN : N = m * n) (g : Fin m → Fin n → Fin N)
    (hg : ∀ i j, (g i j).val = i.val * n + j.val) (f : Fin N → M) :
    ∑ r, f r = ∑ i : Fin m, ∑ j : Fin n, f (g i j) := by
  subst hN
  have hp : ∀ p : Fin m × Fin n, g p.1 p.2 = finProdFinEquiv p := fun p =>
    Fin.ext (by rw [hg, finProdFinEquiv_apply_val, Nat.mul_comm, Nat.add_comm])
  calc ∑ r, f r = ∑ p : Fin m × Fin n, f (finProdFinEquiv p) := (Equiv.sum_comp finProdFinEquiv f).symm
    _ = ∑ p : Fin m × Fin n, f (g p.1 p.2) := by simp only [hp]
    _ = ∑ i : Fin m, ∑ j : Fin n, f (g i j) := Fintype.sum_prod_type _

end BlockSums

end
-- ==== Proof.KI.Reg2Value.lean ====
/-
  The value of the second gather: after the region, entry (e, d) of the message array is the sum over ALL 100352 node
  rows n of  [source word of message e names row n] · (h · W)(n, d),  times the weight of message e.  The kernel
  reaches it chunk by chunk: within a chunk the running block after tile nt holds the sum over the rows of tiles
  0 … nt (each tile contributes the product of its 0/1 selector with its rows of h · W), so after the 49th tile it
  holds the whole sum; the chunk's last point scales it by the weights and writes it back, and the 318 chunks tile
  the array.  Only commutative-monoid laws of the extended reals and 0 + x = x are used.
-/
import proofs.«115179_j73220602462691_1_alg».proof.Proof.KI.Reg2
import proofs.«115179_j73220602462691_1_alg».proof.Proof.Spec
import proofs.«115179_j73220602462691_1_alg».proof.Proof.LibPlainMatmul
import proofs.«115179_j73220602462691_1_alg».proof.Proof.LibPrefixSums
import proofs.«115179_j73220602462691_1_alg».proof.Proof.LibBlockSums
import Idealize.ShloMosaic.PureOps.Ideal.Laws
import Idealize.ShloMosaic.Lib.ValueIdx
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open scoped BigOperators

/-! ## What each case's stores leave, as the kernel's stored values -/

section Pieces
variable {F : FTy → Type} [FloatOps F]

theorem hz : (![0, 0] : Fin 2 → Nat) = fun _ => 0 := funext fun a => by fin_cases a <;> rfl

/-- A first-tile point leaves the accumulation step applied to the zero block. -/
theorem sout_A_eq (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : condFirst i) (hc1 : ¬condLast i) (x0 : Vec F S2048x64 .f32) (x1 : Vec F S64x32 .f32) (x2 : Vec F S4096x1 .i32) (x3 : Vec F S4096x1 .f32) :
    sout_A c i arg2 harg2 arg3 harg3 arg4 harg4 arg5 harg5 arg6 harg6 arg7 harg7 hc0 hc1 x0 x1 x2 x3 = k2_pay2 i x2 x0 x1 (k2_pay1 (F := F)) := by
  unfold sout_A
  rw [View.read_writes_eq_canon _ _ _ (scover_A c i arg2 harg2 arg3 harg3 arg4 harg4 arg5 harg5 arg6 harg6 arg7 harg7 hc0 hc1 x0 x1 x2 x3)]
  unfold kernelRun_A
  dsimp only
  sl_unfold_words
  rw [View.canon_cons_unit_zero (S := S4096x32) hz, View.readCov_unit_zero (S := S4096x32) _ hz]
  simp only [View.readAt_eq_ld, harg2.read_unread, harg3.read_unread, harg4.read_unread,
    View.ld_unit_zero (S := S2048x64) hz, View.ld_unit_zero (S := S64x32) hz, View.ld_unit_zero (S := S4096x1) hz]

/-- A middle-tile point leaves the accumulation step applied to what the point before left. -/
theorem sout_B_eq (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : ¬condLast i) (x0 : Vec F S2048x64 .f32) (x1 : Vec F S64x32 .f32) (x2 : Vec F S4096x1 .i32) (x3 : Vec F S4096x1 .f32) (xs : Vec F S4096x32 .f32) :
    sout_B c i arg2 harg2 arg3 harg3 arg4 harg4 arg5 harg5 arg6 harg6 arg7 harg7 hc0 hc1 x0 x1 x2 x3 xs = k2_pay2 i x2 x0 x1 xs := by
  unfold sout_B
  rw [View.read_writes_eq_canon _ _ _ (scover_B c i arg2 harg2 arg3 harg3 arg4 harg4 arg5 harg5 arg6 harg6 arg7 harg7 hc0 hc1 x0 x1 x2 x3 xs)]
  unfold kernelRun_B
  dsimp only
  sl_unfold_words
  rw [View.canon_unit_zero (S := S4096x32) hz]
  simp only [View.readAt_eq_ld, harg2.read_unread, harg3.read_unread, harg4.read_unread, harg7.read_unread,
    View.ld_unit_zero (S := S2048x64) hz, View.ld_unit_zero (S := S64x32) hz, View.ld_unit_zero (S := S4096x1) hz,
    View.ld_unit_zero (S := S4096x32) hz]

/-- So does a last-tile point, -/
theorem sout_C_eq (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) :
    sout_C c i arg2 harg2 arg3 harg3 arg4 harg4 arg5 harg5 arg6 harg6 arg7 harg7 hc0 hc1 x0 x1 x2 x3 xs = k2_pay2 i x2 x0 x1 xs := by
  unfold sout_C
  rw [View.read_writes_eq_canon _ _ _ (scover_C c i arg2 harg2 arg3 harg3 arg4 harg4 arg5 harg5 arg6 harg6 arg7 harg7 hc0 hc1 x0 x1 x2 x3 xs)]
  unfold kernelRun_C
  dsimp only
  sl_unfold_words
  rw [View.canon_unit_zero (S := S4096x32) hz]
  simp only [View.readAt_eq_ld, harg2.read_unread, harg3.read_unread, harg4.read_unread, harg7.read_unread,
    View.ld_unit_zero (S := S2048x64) hz, View.ld_unit_zero (S := S64x32) hz, View.ld_unit_zero (S := S4096x1) hz,
    View.ld_unit_zero (S := S4096x32) hz]

/-- and it stores, as the output block, that running block scaled by the message weights. -/
theorem out_C_eq (c : Dev nD) (i : grid2.Coords) (arg2 : Memref sig .tc .vmem S2048x64 .f32) (harg2 : arg2.IsWhole) (arg3 : Memref sig .tc .vmem S64x32 .f32) (harg3 : arg3.IsWhole) (arg4 : Memref sig .tc .vmem S4096x1 .i32) (harg4 : arg4.IsWhole) (arg5 : Memref sig .tc .vmem S4096x1 .f32) (harg5 : arg5.IsWhole) (arg6 : Memref sig .tc .vmem S4096x32 .bf16) (harg6 : arg6.IsWhole) (arg7 : Memref sig .tc .vmem S4096x32 .f32) (harg7 : arg7.IsWhole) (hc0 : ¬condFirst i) (hc1 : condLast i) (x0 : Vec F S2048x64 .f32) (x1 : Vec F S64x32 .f32) (x2 : Vec F S4096x1 .i32) (x3 : Vec F S4096x1 .f32) (xs : Vec F S4096x32 .f32) :
    out_C c i arg2 harg2 arg3 harg3 arg4 harg4 arg5 harg5 arg6 harg6 arg7 harg7 hc0 hc1 x0 x1 x2 x3 xs = k2_pay3 (k2_pay2 i x2 x0 x1 xs) x3 := by
  unfold out_C
  rw [View.read_writes_eq_canon _ _ _ (cover_C c i arg2 harg2 arg3 harg3 arg4 harg4 arg5 harg5 arg6 harg6 arg7 harg7 hc0 hc1 x0 x1 x2 x3 xs)]
  unfold kernelRun_C
  dsimp only
  sl_unfold_words
  rw [View.canon_unit_zero (S := S4096x32) hz, View.readCov_unit_zero (S := S4096x32) _ hz]
  simp only [View.readAt_eq_ld, harg2.read_unread, harg3.read_unread, harg4.read_unread, harg5.read_unread, harg7.read_unread,
    View.ld_unit_zero (S := S2048x64) hz, View.ld_unit_zero (S := S64x32) hz, View.ld_unit_zero (S := S4096x1) hz,
    View.ld_unit_zero (S := S4096x32) hz]

variable (V : (c : Dev nD) → (b : Ref sig .tc) → Buf (Elt F) ((c : Thread nD τ).loc b))

/-- The components of a pair given as a pair. -/
theorem snd_of_eq {α β : Type} {p : α × β} {a : α} {b : β} (h : p = (a, b)) : p.2 = b := by rw [h]
theorem fst_of_eq {α β : Type} {p : α × β} {a : α} {b : β} (h : p = (a, b)) : p.1 = a := by rw [h]

/-- The running block after a point that opens a chunk. -/
theorem scratch_first (c : Dev nD) (t : Fin cfg2.N) (h0 : t.val % 49 = 0) :
    (outsAt V c t.val t.isLt).2 = k2_pay2 (grid2.coords t) (iblk V c 2 t) (iblk V c 0 t) (iblk V c 1 t) (k2_pay1 (F := F)) := by
  have h1 : ¬t.val % 49 = 48 := by omega
  exact (snd_of_eq (outsAt_A V c t h0 h1)).trans
    (sout_A_eq c (grid2.coords t) (ms0 t) (hs0 t) (ms1 t) (hs1 t) (ms2 t) (hs2 t) (ms3 t) (hs3 t) (ms4 t) (hs4 t) scM (Memref.isWhole_whole _) ((hFirst t).mpr h0) (fun h => h1 ((hLast t).mp h)) (iblk V c 0 t) (iblk V c 1 t) (iblk V c 2 t) (iblk V c 3 t))

/-- The running block after any other point, over what the point before left. -/
theorem scratch_step (c : Dev nD) (t : Fin cfg2.N) (h0 : ¬t.val % 49 = 0) :
    (outsAt V c t.val t.isLt).2 = k2_pay2 (grid2.coords t) (iblk V c 2 t) (iblk V c 0 t) (iblk V c 1 t)
      (outsAt V c (t.val - 1) (Nat.lt_of_le_of_lt (Nat.sub_le _ _) t.isLt)).2 := by
  by_cases h1 : t.val % 49 = 48
  · exact (snd_of_eq (outsAt_C V c t h0 h1)).trans
      (sout_C_eq c (grid2.coords t) (ms0 t) (hs0 t) (ms1 t) (hs1 t) (ms2 t) (hs2 t) (ms3 t) (hs3 t) (ms4 t) (hs4 t) scM (Memref.isWhole_whole _) (fun h => h0 ((hFirst t).mp h)) ((hLast t).mpr h1) (iblk V c 0 t) (iblk V c 1 t) (iblk V c 2 t) (iblk V c 3 t)
        (outsAt V c (t.val - 1) (Nat.lt_of_le_of_lt (Nat.sub_le _ _) t.isLt)).2)
  · exact (snd_of_eq (outsAt_B V c t h0 h1)).trans
      (sout_B_eq c (grid2.coords t) (ms0 t) (hs0 t) (ms1 t) (hs1 t) (ms2 t) (hs2 t) (ms3 t) (hs3 t) (ms4 t) (hs4 t) scM (Memref.isWhole_whole _) (fun h => h0 ((hFirst t).mp h)) (fun h => h1 ((hLast t).mp h)) (iblk V c 0 t) (iblk V c 1 t) (iblk V c 2 t) (iblk V c 3 t)
        (outsAt V c (t.val - 1) (Nat.lt_of_le_of_lt (Nat.sub_le _ _) t.isLt)).2)

/-- The output block a point that closes a chunk stores. -/
theorem out_last (c : Dev nD) (t : Fin cfg2.N) (h1 : t.val % 49 = 48) :
    (outsAt V c t.val t.isLt).1 = k2_pay3 (outsAt V c t.val t.isLt).2 (iblk V c 3 t) := by
  have h0 : ¬t.val % 49 = 0 := by omega
  have e1 := (fst_of_eq (outsAt_C V c t h0 h1)).trans
    (out_C_eq c (grid2.coords t) (ms0 t) (hs0 t) (ms1 t) (hs1 t) (ms2 t) (hs2 t) (ms3 t) (hs3 t) (ms4 t) (hs4 t) scM (Memref.isWhole_whole _) (fun h => h0 ((hFirst t).mp h)) ((hLast t).mpr h1) (iblk V c 0 t) (iblk V c 1 t) (iblk V c 2 t) (iblk V c 3 t)
      (outsAt V c (t.val - 1) (Nat.lt_of_le_of_lt (Nat.sub_le _ _) t.isLt)).2)
  exact e1.trans (congrArg (k2_pay3 · (iblk V c 3 t)) (scratch_step V c t h0).symm)

end Pieces

/-! ## Where a point's blocks sit in their arrays -/

section Blocks
variable {F : FTy → Type} [FloatOps F]
variable (V : (c : Dev nD) → (b : Ref sig .tc) → Buf (Elt F) ((c : Thread nD τ).loc b))

theorem word_nat (n : ℕ) (h : n < 4294967296) : (BitVec.ofNat 32 n).toNat = n := by
  rw [BitVec.toNat_ofNat]; exact Nat.mod_eq_of_lt h

/-- The block index of each window at point `t`. -/
theorem idx0 (t : Fin cfg2.N) : win2_0.index t 0 = t.val % 49 ∧ win2_0.index t 1 = 0 := by
  refine ⟨?_, rfl⟩
  show (BitVec.ofNat 32 (grid2.coords t 1).val).toNat = _
  rw [coords1, word_nat _ (by omega)]
theorem idx1 (t : Fin cfg2.N) : win2_1.index t 0 = 0 ∧ win2_1.index t 1 = 0 := ⟨rfl, rfl⟩
theorem idx2 (t : Fin cfg2.N) : win2_2.index t 0 = t.val / 49 ∧ win2_2.index t 1 = 0 := by
  refine ⟨?_, rfl⟩
  show (BitVec.ofNat 32 (grid2.coords t 0).val).toNat = _
  rw [coords0, word_nat _ (by have := lt_N t; omega)]
theorem idx3 (t : Fin cfg2.N) : win2_3.index t 0 = t.val / 49 ∧ win2_3.index t 1 = 0 := by
  refine ⟨?_, rfl⟩
  show (BitVec.ofNat 32 (grid2.coords t 0).val).toNat = _
  rw [coords0, word_nat _ (by have := lt_N t; omega)]
theorem idx4 (t : Fin cfg2.N) : win2_4.index t 0 = t.val / 49 ∧ win2_4.index t 1 = 0 := by
  refine ⟨?_, rfl⟩
  show (BitVec.ofNat 32 (grid2.coords t 0).val).toNat = _
  rw [coords0, word_nat _ (by have := lt_N t; omega)]

/-- Row `j` of the tile of hidden features at point `t` is row `nt · 2048 + j` of the array. -/
theorem iblk0_apply (c : Dev nD) (t : Fin cfg2.N) (j : Fin 2048) (k : Fin 64) (n : Fin 100352) (hn : n.val = t.val % 49 * 2048 + j.val) :
    (iblk V c 0 t : Vec F S2048x64 .f32) (ix2 j k) = V c main_v39 (ix2 n k) := by
  unfold iblk
  rw [View.read_apply]
  show V c main_v39 _ = V c main_v39 _
  refine congrArg (V c main_v39) (funext fun a => Fin.ext ?_)
  match a with
  | ⟨0, _⟩ => show win2_0.index t 0 * 2048 + 1 * j.val = n.val; rw [(idx0 t).1, hn]; omega
  | ⟨1, _⟩ => show win2_0.index t 1 * 64 + 1 * k.val = k.val; rw [(idx0 t).2]; omega

/-- The weight matrix is one block. -/
theorem iblk1_apply (c : Dev nD) (t : Fin cfg2.N) (k : Fin 64) (d : Fin 32) :
    (iblk V c 1 t : Vec F S64x32 .f32) (ix2 k d) = V c main_arg4 (ix2 k d) := by
  unfold iblk
  rw [View.read_apply]
  show V c main_arg4 _ = V c main_arg4 _
  refine congrArg (V c main_arg4) (funext fun a => Fin.ext ?_)
  match a with
  | ⟨0, _⟩ => show win2_1.index t 0 * 64 + 1 * k.val = k.val; rw [(idx1 t).1]; omega
  | ⟨1, _⟩ => show win2_1.index t 1 * 32 + 1 * d.val = d.val; rw [(idx1 t).2]; omega

/-- Message `r` of the chunk at point `t` is message `ec · 4096 + r`: its source word, -/
theorem iblk2_apply (c : Dev nD) (t : Fin cfg2.N) (r : Fin 4096) (e : Fin 1302528) (he : e.val = t.val / 49 * 4096 + r.val) :
    (iblk V c 2 t : Vec F S4096x1 .i32) (ix2 r (0 : Fin 1)) = V c main_v33 (ix2 e (0 : Fin 1)) := by
  unfold iblk
  rw [View.read_apply]
  show V c main_v33 _ = V c main_v33 _
  refine congrArg (V c main_v33) (funext fun a => Fin.ext ?_)
  match a with
  | ⟨0, _⟩ => show win2_2.index t 0 * 4096 + 1 * r.val = e.val; rw [(idx2 t).1, he]; omega
  | ⟨1, _⟩ => show win2_2.index t 1 * 1 + 1 * 0 = 0; rw [(idx2 t).2]

/-- and its weight. -/
theorem iblk3_apply (c : Dev nD) (t : Fin cfg2.N) (r : Fin 4096) (e : Fin 1302528) (he : e.val = t.val / 49 * 4096 + r.val) :
    (iblk V c 3 t : Vec F S4096x1 .f32) (ix2 r (0 : Fin 1)) = V c main_v35 (ix2 e (0 : Fin 1)) := by
  unfold iblk
  rw [View.read_apply]
  show V c main_v35 _ = V c main_v35 _
  refine congrArg (V c main_v35) (funext fun a => Fin.ext ?_)
  match a with
  | ⟨0, _⟩ => show win2_3.index t 0 * 4096 + 1 * r.val = e.val; rw [(idx3 t).1, he]; omega
  | ⟨1, _⟩ => show win2_3.index t 1 * 1 + 1 * 0 = 0; rw [(idx3 t).2]

end Blocks

/-! ## The 0/1 selector entry and the row numbers of a tile -/

/-- The selector entry the kernel computes from two index words — compare, widen to a 32-bit word, convert to a
    float — is 1 where the words agree and 0 elsewhere. -/
theorem sel_eq_hit (a b : BitVec 32) :
    FloatOps.sitofp (F := Ideal) .f32 ((IntOp.cmpi .eq a b).setWidth 32) = Cert.Spec.hit a b := by
  unfold Cert.Spec.hit
  by_cases h : a = b
  · subst h
    rw [if_pos rfl]
    show (((((IntOp.cmpi .eq a a).setWidth 32).toInt : ℝ)) : EReal) = 1
    have e : (IntOp.cmpi .eq a a).setWidth 32 = 1#32 := by
      unfold IntOp.cmpi; simp
    rw [e]; norm_num
  · rw [if_neg h]
    show (((((IntOp.cmpi .eq a b).setWidth 32).toInt : ℝ)) : EReal) = 0
    have e : (IntOp.cmpi .eq a b).setWidth 32 = 0#32 := by
      unfold IntOp.cmpi; rw [show (a == b) = false from beq_eq_false_iff_ne.mpr h]; rfl
    rw [e]; norm_num

/-- Column `j` of node tile `nt` (49 tiles of 2048 rows) carries the row number `nt · 2048 + j`: no wrap below 2³². -/
theorem tile_row (nt j : ℕ) (hnt : nt < 49) (hj : j < 2048) :
    IntOp.addi (BitVec.ofNat 32 (0 * 2048 + j)) (IntOp.muli (BitVec.ofNat 32 nt) 2048#32) = BitVec.ofNat 32 (nt * 2048 + j) := by
  unfold IntOp.addi IntOp.muli
  apply BitVec.eq_of_toNat_eq
  simp only [BitVec.toNat_add, BitVec.toNat_mul, BitVec.toNat_ofNat]
  omega

/-! ## The three stored values, entry by entry, on the extended reals -/

/-- The zero block. -/
theorem pay1_apply (r : Fin 4096) (d : Fin 32) : (k2_pay1 (F := Ideal)) (ix2 r d) = 0 := by
  unfold k2_pay1
  show shapeCast S4096x32 (broadcast S4096x32 (Scalar.ofBits (F := Ideal) .f32 0x00000000#32)) shapeCasts_S4096x32_S4096x32 (ix2 r d) = 0
  rw [shapeCast_self]
  exact Ideal.ofBits_zero_f32

/-- The running block after a tile: what it held plus, for each row `j` of the tile, the selector entry of the
    message's source word against the row's number times the row of `h · W`. -/
theorem pay2_apply (i : grid2.Coords) (v7 : Vec Ideal S4096x1 .i32) (v15 : Vec Ideal S2048x64 .f32) (v18 : Vec Ideal S64x32 .f32)
    (v21 : Vec Ideal S4096x32 .f32) (r : Fin 4096) (d : Fin 32) :
    k2_pay2 i v7 v15 v18 v21 (ix2 r d)
      = v21 (ix2 r d) + ∑ j : Fin 2048, Cert.Spec.hit (v7 (ix2 r (0 : Fin 1))) (BitVec.ofNat 32 ((i 1).val * 2048 + j.val))
          * ∑ k : Fin 64, v15 (ix2 j k) * v18 (ix2 k d) := by
  unfold k2_pay2
  (try dsimp only)
  rw [shapeCast_self]
  show v21 (ix2 r d) + _ = _
  refine congrArg (v21 (ix2 r d) + ·) ?_
  refine (PlainMatmul.apply_zero _ _ r d).trans ?_
  refine Finset.sum_congr rfl fun j _ => ?_
  have hi : (i 1).val < 49 := (i 1).isLt
  have hj : j.val < 2048 := j.isLt
  refine congrArg₂ (fun (a b : EReal) => a * b) ?_ ?_
  · -- the selector entry
    refine (sel_eq_hit _ _).trans ?_
    refine congrArg₂ Cert.Spec.hit ?_ ?_
    · rw [broadcastTo_apply (k := ix2 r (0 : Fin 1)) (hk := by intro a; match a with | ⟨0, _⟩ => rfl | ⟨1, _⟩ => rfl), shapeCast_self]
    · rw [broadcastTo_apply (k := ix2 (0 : Fin 1) j) (hk := by intro a; match a with | ⟨0, _⟩ => rfl | ⟨1, _⟩ => rfl)]
      exact tile_row (i 1).val j.val hi hj
  · -- the row of h · W
    refine (PlainMatmul.apply_zero _ _ j d).trans ?_
    refine Finset.sum_congr rfl fun k _ => ?_
    show (shapeCast S2048x64 v15 shapeCasts_S2048x64_S2048x64) (ix2 j k) * v18 (ix2 k d) = _
    rw [shapeCast_self]

/-- The output block: the running block, each message's row times the message's weight. -/
theorem pay3_apply (v31 : Vec Ideal S4096x32 .f32) (v32 : Vec Ideal S4096x1 .f32) (r : Fin 4096) (d : Fin 32) :
    k2_pay3 v31 v32 (ix2 r d) = v31 (ix2 r d) * v32 (ix2 r (0 : Fin 1)) := by
  unfold k2_pay3
  (try dsimp only)
  show v31 (ix2 r d) * _ = _
  refine congrArg (v31 (ix2 r d) * ·) ?_
  rw [broadcastTo_apply (k := ix2 r (0 : Fin 1)) (hk := by intro a; match a with | ⟨0, _⟩ => rfl | ⟨1, _⟩ => rfl), shapeCast_self]

/-! ## The running block is a sum over the tiles seen so far -/

section Value
variable (V : (c : Dev nD) → (b : Ref sig .tc) → Buf (Elt Ideal) ((c : Thread nD τ).loc b))

/-- The arrays the region is entered with, as plain functions: hidden features, weights, source words, message weights. -/
abbrev hX (c : Dev nD) : Fin 100352 → Fin 64 → EReal := fun n k => V c main_v39 (ix2 n k)
abbrev hW (c : Dev nD) : Fin 64 → Fin 32 → EReal := fun k d' => V c main_arg4 (ix2 k d')
abbrev hSrc (c : Dev nD) : Fin 1302528 → BitVec 32 := fun e' => V c main_v33 (ix2 e' (0 : Fin 1))
abbrev hNrm (c : Dev nD) : Fin 1302528 → EReal := fun e' => V c main_v35 (ix2 e' (0 : Fin 1))

/-- The blocks of the four inputs at point `t`, at their literal shapes. -/
abbrev blkH (c : Dev nD) (t : Fin cfg2.N) : Vec Ideal S2048x64 .f32 := iblk V c 0 t
abbrev blkW (c : Dev nD) (t : Fin cfg2.N) : Vec Ideal S64x32 .f32 := iblk V c 1 t
abbrev blkS (c : Dev nD) (t : Fin cfg2.N) : Vec Ideal S4096x1 .i32 := iblk V c 2 t
abbrev blkN (c : Dev nD) (t : Fin cfg2.N) : Vec Ideal S4096x1 .f32 := iblk V c 3 t

/-- Message `e`'s term for node row `n`: the 0/1 weight of its source word against the row's number, times entry
    `(n, d)` of `h · W`. -/
def term (c : Dev nD) (e : Fin 1302528) (d : Fin 32) (n : Fin 100352) : EReal :=
  Cert.Spec.hit (hSrc V c e) (BitVec.ofNat 32 n.val) * Cert.Spec.mm (hX V c) (hW V c) n d

/-- Row `j` of node tile `i`. -/
def rowOf (i : Fin 49) (j : Fin 2048) : Fin 100352 := ⟨i.val * 2048 + j.val, by have := i.isLt; have := j.isLt; omega⟩

/-- The terms of one node tile, summed. -/
def tileSum (c : Dev nD) (e : Fin 1302528) (d : Fin 32) (i : Fin 49) : EReal := ∑ j : Fin 2048, term V c e d (rowOf i j)

/-- What the accumulation step adds at point `t` is the tile sum of the point's tile for the point's messages. -/
theorem step_eq (c : Dev nD) (t : Fin cfg2.N) (r : Fin 4096) (d : Fin 32) (e : Fin 1302528) (he : e.val = t.val / 49 * 4096 + r.val)
    (i : Fin 49) (hi : i.val = t.val % 49) :
    (∑ j : Fin 2048, Cert.Spec.hit (blkS V c t (ix2 r (0 : Fin 1))) (BitVec.ofNat 32 ((grid2.coords t 1).val * 2048 + j.val))
        * ∑ k : Fin 64, blkH V c t (ix2 j k) * blkW V c t (ix2 k d))
      = tileSum V c e d i := by
  unfold tileSum
  refine Finset.sum_congr rfl fun j _ => ?_
  have hc : (grid2.coords t 1).val * 2048 + j.val = (rowOf i j).val := by
    show _ = i.val * 2048 + j.val
    rw [coords1, hi]
  show _ = Cert.Spec.hit (hSrc V c e) (BitVec.ofNat 32 (rowOf i j).val)
      * ∑ k : Fin 64, hX V c (rowOf i j) k * hW V c k d
  refine congrArg₂ (fun (a b : EReal) => a * b) (congrArg₂ Cert.Spec.hit (iblk2_apply V c t r e he) (congrArg (BitVec.ofNat 32) hc)) ?_
  refine Finset.sum_congr rfl fun k _ => ?_
  exact congrArg₂ (fun (a b : EReal) => a * b)
    (iblk0_apply V c t j k (rowOf i j) (by show i.val * 2048 + j.val = _; rw [hi])) (iblk1_apply V c t k d)

/-- At a point that opens a chunk the running block ends at the first tile's sum; -/
theorem first_apply (c : Dev nD) (t : Fin cfg2.N) (h0 : t.val % 49 = 0) (r : Fin 4096) (d : Fin 32) (e : Fin 1302528)
    (he : e.val = t.val / 49 * 4096 + r.val) :
    (outsAt V c t.val t.isLt).2 (ix2 r d) = tileSum V c e d ⟨0, by norm_num⟩ := by
  rw [scratch_first V c t h0]
  refine (pay2_apply (grid2.coords t) (blkS V c t) (blkH V c t) (blkW V c t) (k2_pay1 (F := Ideal)) r d).trans ?_
  rw [pay1_apply, zero_add]
  exact step_eq V c t r d e he ⟨0, by norm_num⟩ h0.symm

/-- at any other point it grows by the point's tile sum. -/
theorem step_apply (c : Dev nD) (t : Fin cfg2.N) (h0 : ¬t.val % 49 = 0) (r : Fin 4096) (d : Fin 32) (e : Fin 1302528)
    (he : e.val = t.val / 49 * 4096 + r.val) (i : Fin 49) (hi : i.val = t.val % 49) :
    (outsAt V c t.val t.isLt).2 (ix2 r d)
      = (outsAt V c (t.val - 1) (Nat.lt_of_le_of_lt (Nat.sub_le _ _) t.isLt)).2 (ix2 r d) + tileSum V c e d i := by
  rw [scratch_step V c t h0]
  refine (pay2_apply (grid2.coords t) (blkS V c t) (blkH V c t) (blkW V c t) _ r d).trans ?_
  rw [step_eq V c t r d e he i hi]

/-- THE ACCUMULATION: after point `n` (chunk `n / 49`, tile `n % 49`) the running block's entry `(r, d)` is the sum of
    the tile sums of tiles `0 … n % 49` for message `(n / 49) · 4096 + r`. -/
theorem scratch_eq (c : Dev nD) : ∀ (n : ℕ) (hn : n < cfg2.N) (r : Fin 4096) (d : Fin 32) (e : Fin 1302528), e.val = n / 49 * 4096 + r.val →
    (outsAt V c n hn).2 (ix2 r d) = PrefixSums.upto (tileSum V c e d) (n % 49)
  | 0, hn, r, d, e, he => by
    refine (first_apply V c ⟨0, hn⟩ (Nat.zero_mod _) r d e he).trans ?_
    exact (PrefixSums.upto_zero _ (by norm_num)).symm
  | n + 1, hn, r, d, e, he => by
    have hN : n + 1 < 15582 := lt_of_lt_of_eq hn N_2
    by_cases h0 : (n + 1) % 49 = 0
    · refine (first_apply V c ⟨n + 1, hn⟩ h0 r d e he).trans ?_
      rw [h0]
      exact (PrefixSums.upto_zero _ (by norm_num)).symm
    · have hlt : (n + 1) % 49 < 49 := Nat.mod_lt _ (by norm_num)
      have hm : (n + 1) % 49 = n % 49 + 1 := by omega
      have hq : (n + 1) / 49 = n / 49 := by omega
      have hs' : n % 49 + 1 < 49 := by omega
      have ih := scratch_eq c n (Nat.lt_of_succ_lt hn) r d e (by rw [he, hq])
      refine (step_apply V c ⟨n + 1, hn⟩ h0 r d e he ⟨n % 49 + 1, hs'⟩ hm.symm).trans ?_
      refine (congrArg (· + tileSum V c e d ⟨n % 49 + 1, hs'⟩) ih).trans ?_
      rw [hm]
      exact (PrefixSums.upto_succ _ _ hs').symm

/-- The kernel's whole result as one function of the message and the feature. -/
def G (c : Dev nD) : Buf (Elt Ideal) ((cfg2.win 4).arr.view.loc (c.tc : Thread nD τ)) :=
  fun i => Cert.Spec.gather (hX V c) (hW V c) (hSrc V c) (hNrm V c) (i 0) (i 1)

/-- The message's whole sum regrouped by node tiles. -/
theorem gather_eq (c : Dev nD) (e : Fin 1302528) (d : Fin 32) :
    Cert.Spec.gather (hX V c) (hW V c) (hSrc V c) (hNrm V c) e d = (∑ i : Fin 49, tileSum V c e d i) * hNrm V c e := by
  unfold Cert.Spec.gather tileSum
  refine congrArg (· * hNrm V c e) ?_
  exact BlockSums.sum_blocks (m := 49) (n := 2048) (by norm_num) rowOf (fun i j => rfl) (term V c e d)

/-- What a chunk's last point writes back is the chunk's block of `G`. -/
theorem flushed_eq (c : Dev nD) (t : Fin cfg2.N) (hf : (cfg2.win 4).flush t = true) :
    (dat V c).flushed 4 t = ((cfg2.win 4).blk t).view.read (Elt Ideal) (G V c) := by
  have h1 : t.val % 49 = 48 := (flush2_4 t).mp hf
  have hN := lt_N t
  show (cfg2.win 4).cut (grid2.coords t) ((dat V c).after 4 t) = _
  rw [after4, out_last V c t h1]
  funext y
  obtain ⟨r, d, rfl⟩ : ∃ (r : Fin 4096) (d : Fin 32), y = ix2 r d := ⟨y 0, y 1, eq_ix2 y⟩
  have hlt : t.val / 49 * 4096 + r.val < 1302528 := by have := r.isLt; omega
  have e0 : ((((cfg2.win 4).blk t).view.emb (ix2 r d)) 0 : Fin 1302528) = ⟨t.val / 49 * 4096 + r.val, hlt⟩ :=
    Fin.ext (by show win2_4.index t 0 * 4096 + 1 * r.val = t.val / 49 * 4096 + r.val; rw [(idx4 t).1]; omega)
  have e1 : ((((cfg2.win 4).blk t).view.emb (ix2 r d)) 1 : Fin 32) = d :=
    Fin.ext (by show win2_4.index t 1 * 32 + 1 * d.val = d.val; rw [(idx4 t).2]; omega)
  have hG : G V c (((cfg2.win 4).blk t).view.emb (ix2 r d))
      = (∑ i : Fin 49, tileSum V c ⟨t.val / 49 * 4096 + r.val, hlt⟩ d i) * hNrm V c ⟨t.val / 49 * 4096 + r.val, hlt⟩ :=
    (congrArg₂ (fun a b => Cert.Spec.gather (hX V c) (hW V c) (hSrc V c) (hNrm V c) a b) e0 e1).trans (gather_eq V c _ d)
  rw [View.read_apply]
  show k2_pay3 (outsAt V c t.val t.isLt).2 (iblk V c 3 t) (ix2 r d) = G V c _
  rw [hG]
  refine (pay3_apply _ (blkN V c t) r d).trans ?_
  rw [scratch_eq V c t.val t.isLt r d ⟨_, hlt⟩ rfl, h1, PrefixSums.upto_all _ 48 (by norm_num)]
  exact congrArg ((∑ i : Fin 49, tileSum V c ⟨t.val / 49 * 4096 + r.val, hlt⟩ d i) * ·) (iblk3_apply V c t r ⟨_, hlt⟩ rfl)

/-- Every entry of the result lies in the block its chunk's last point writes back. -/
theorem cover (c : Dev nD) (i : ((cfg2.win 4).arr.view.loc (c.tc : Thread nD τ)).2.ty.Idx) :
    ∃ t : Fin cfg2.N, (cfg2.win 4).flush t = true ∧ i ∈ ((cfg2.win 4).blk t).view.set := by
  have h0 : (i 0 : Nat) < 1302528 := (i 0).isLt
  have h1 : (i 1 : Nat) < 32 := (i 1).isLt
  have hlt : (i 0 : Nat) / 4096 * 49 + 48 < cfg2.N := by rw [show cfg2.N = 15582 from N_2]; omega
  have hq : ((i 0 : Nat) / 4096 * 49 + 48) / 49 = (i 0 : Nat) / 4096 := by omega
  refine ⟨⟨(i 0 : Nat) / 4096 * 49 + 48, hlt⟩, (flush2_4 _).mpr (by show ((i 0 : Nat) / 4096 * 49 + 48) % 49 = 48; omega), ?_⟩
  show i ∈ ((View.whole main_v40).slice (win2_4.rect ⟨(i 0 : Nat) / 4096 * 49 + 48, hlt⟩)).set
  rw [View.set_slice_whole, Rect.mem_set_unit]
  intro a
  match a with
  | ⟨0, _⟩ =>
    show win2_4.index ⟨(i 0 : Nat) / 4096 * 49 + 48, hlt⟩ 0 * 4096 ≤ (i 0 : Nat)
      ∧ (i 0 : Nat) < win2_4.index ⟨(i 0 : Nat) / 4096 * 49 + 48, hlt⟩ 0 * 4096 + 4096
    rw [(idx4 ⟨(i 0 : Nat) / 4096 * 49 + 48, hlt⟩).1]
    show ((i 0 : Nat) / 4096 * 49 + 48) / 49 * 4096 ≤ (i 0 : Nat) ∧ (i 0 : Nat) < ((i 0 : Nat) / 4096 * 49 + 48) / 49 * 4096 + 4096
    rw [hq]; omega
  | ⟨1, _⟩ =>
    show win2_4.index ⟨(i 0 : Nat) / 4096 * 49 + 48, hlt⟩ 1 * 32 ≤ (i 1 : Nat)
      ∧ (i 1 : Nat) < win2_4.index ⟨(i 0 : Nat) / 4096 * 49 + 48, hlt⟩ 1 * 32 + 32
    rw [(idx4 ⟨(i 0 : Nat) / 4096 * 49 + 48, hlt⟩).2]; omega

end Value

/-- THE REGION'S RESULT: after the region the message array holds, entry by entry, the kernel-form gather of the
    arrays the region was entered with. -/
theorem final (V : (c : Dev nD) → (b : Ref sig .tc) → Buf (Elt Ideal) ((c : Thread nD τ).loc b)) (c : Dev nD) (e : Fin 1302528) (d : Fin 32) :
    (dat (F := Ideal) V c).arrAt 4 cfg2.N (ValueIdx.ix2 e d)
      = Cert.Spec.gather (N := 100352) (fun n k => V c main_v39 (ValueIdx.ix2 n k)) (fun k d' => V c main_arg4 (ValueIdx.ix2 k d'))
          (fun e' => V c main_v33 (ValueIdx.ix2 e' 0)) (fun e' => V c main_v35 (ValueIdx.ix2 e' 0)) e d :=
  congrFun ((dat V c).arrAt_eq_of_cover 4 (G V c) (flushed_eq V c) (cover c)) (ix2 e d)

end Cert.KernelIdeal.Reg2

end
-- ==== Proof.KI.Reg3Pay.lean ====
/-
  Region 3's arithmetic at an entry, on the extended reals.

  The zero block is zero; the accumulation step adds to entry (r, d) of the accumulator the sum over the chunk's
  messages e of the 0/1 weight "row r of the tile is the word dst e" times entry (e, d) of the message block; the
  read-out at row r is the sum over d of the clamped accumulator entry plus bias, times the weight, plus the bias.
-/
import proofs.«115179_j73220602462691_1_alg».proof.Proof.Gen.KernelIdeal.Skeleton
import proofs.«115179_j73220602462691_1_alg».proof.Proof.Spec
import proofs.«115179_j73220602462691_1_alg».proof.Proof.LibPlainMatmul
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Reg3

open Cert.KernelIdeal Cert.KernelIdeal.Gen
open Idealize.ShloMosaic Idealize.ShloMosaic.ValueIdx
open scoped BigOperators

/-- The zero block is zero. -/
theorem pay1_apply (j : S2048x32.Idx) : k3_pay1 (F := Ideal) j = 0 := by
  unfold k3_pay1
  refine (congrFun (shapeCast_self _ _) j).trans ?_
  exact Ideal.ofBits_zero_f32

/-- The 0/1 entry the body builds from a comparison of two words is the weight of their match. -/
theorem onehot (a b : BitVec 32) :
    (FloatOps.sitofp (F := Ideal) .f32 ((IntOp.cmpi .eq a b).setWidth 32) : EReal) = Cert.Spec.hit a b := by
  unfold Cert.Spec.hit IntOp.cmpi
  by_cases h : a = b
  · subst h
    rw [if_pos rfl]
    have e : (BitVec.ofBool (a == a)).setWidth 32 = 1#32 := by rw [beq_self_eq_true a]; rfl
    rw [e]
    show (((1#32 : BitVec 32).toInt : ℝ) : EReal) = 1
    rw [show (1#32 : BitVec 32).toInt = 1 from by decide]
    simp
  · rw [if_neg h]
    have e : (BitVec.ofBool (a == b)).setWidth 32 = 0#32 := by rw [beq_eq_false_iff_ne.mpr h]; rfl
    rw [e]
    show (((0#32 : BitVec 32).toInt : ℝ) : EReal) = 0
    rw [show (0#32 : BitVec 32).toInt = 0 from by decide]
    simp

/-- Row r of node tile n is named by the word of n · 2048 + r. -/
theorem rowWord (n : ℕ) (r : Fin 2048) :
    addi (iota .tc S2048x1 32 [0] iota_S2048x1_d0_w32) (broadcast S2048x1 (Scalar.muli (BitVec.ofNat 32 n) 2048#32)) (ix2 r 0)
      = BitVec.ofNat 32 (n * 2048 + r.val) := by
  show IntOp.addi (iota .tc S2048x1 32 [0] iota_S2048x1_d0_w32 (ix2 r 0)) (Scalar.muli (BitVec.ofNat 32 n) 2048#32) = _
  rw [iota_single_apply]
  show BitVec.ofNat 32 r.val + BitVec.ofNat 32 n * BitVec.ofNat 32 2048 = _
  rw [← BitVec.ofNat_mul, ← BitVec.ofNat_add, Nat.add_comm]

/-- An entry of the 0/1 matrix: a column of row words against a row of destination words. -/
theorem onehot_entry (a : IVec S2048x1 32) (b : IVec S1x4096 32) (r : Fin 2048) (e : Fin 4096) :
    (truncf .bf16 (sitofp (F := Ideal) .f32 (extui 32 (cmpi .eq (broadcastTo S2048x4096 a broadcasts_S2048x1_S2048x4096)
        (broadcastTo S2048x4096 b broadcasts_S1x4096_S2048x4096)) natLt_1_32)) bitsLt_bf16_f32 : FVec Ideal S2048x4096 .bf16) (ix2 r e)
      = Cert.Spec.hit (a (ix2 r 0)) (b (ix2 0 e)) := by
  show (FloatOps.sitofp (F := Ideal) .f32 ((IntOp.cmpi .eq (broadcastTo S2048x4096 a broadcasts_S2048x1_S2048x4096 (ix2 r e))
      (broadcastTo S2048x4096 b broadcasts_S1x4096_S2048x4096 (ix2 r e))).setWidth 32) : EReal) = _
  rw [broadcastTo_apply a broadcasts_S2048x1_S2048x4096 (ix2 r e) (ix2 r 0) (fun x => by
      match x with
      | ⟨0, _⟩ => rfl
      | ⟨1, _⟩ => rfl),
    broadcastTo_apply b broadcasts_S1x4096_S2048x4096 (ix2 r e) (ix2 0 e) (fun x => by
      match x with
      | ⟨0, _⟩ => rfl
      | ⟨1, _⟩ => rfl)]
  exact onehot _ _

/-- The accumulation step at an entry. -/
theorem pay2_apply (i : grid3.Coords) (v7 : Vec Ideal S1x4096 .i32) (v15 : Vec Ideal S2048x32 .f32) (v16 : Vec Ideal S4096x32 .bf16)
    (r : Fin 2048) (d : Fin 32) :
    k3_pay2 i v7 v15 v16 (ix2 r d)
      = v15 (ix2 r d) + ∑ e : Fin 4096, Cert.Spec.hit (BitVec.ofNat 32 ((i 0).val * 2048 + r.val)) (v7 (ix2 0 e)) * v16 (ix2 e d) := by
  unfold k3_pay2
  dsimp only
  refine (congrFun (shapeCast_self _ _) (ix2 r d)).trans ?_
  refine congrArg (v15 (ix2 r d) + ·) ?_
  refine (PlainMatmul.apply_zero (M := 2048) (K := 4096) (N := 32) _ _ r d).trans ?_
  refine Finset.sum_congr rfl fun e _ => ?_
  refine congrArg₂ (· * ·) ?_ ?_
  · refine (onehot_entry _ _ r e).trans ?_
    exact congrArg₂ Cert.Spec.hit (rowWord (i 0).val r) (congrFun (shapeCast_self v7 _) (ix2 0 e))
  · exact congrFun (shapeCast_self v16 _) (ix2 e d)

/-- The read-out at a row. -/
theorem pay3_apply (v26 : Vec Ideal S2048x32 .f32) (v27 : Vec Ideal S1x32 .f32) (v34 : Vec Ideal S32x1 .f32) (v37 : Vec Ideal S1x1 .f32)
    (r : Fin 2048) :
    k3_pay3 v26 v27 v34 v37 (ix2 r 0)
      = (∑ d : Fin 32, max (v26 (ix2 r d) + v27 (ix2 0 d)) 0 * v34 (ix2 d 0)) + v37 (ix2 0 0) := by
  unfold k3_pay3
  refine congrArg₂ (· + ·) ?_ ?_
  · refine (PlainMatmul.apply_zero (M := 2048) (K := 32) (N := 1) _ _ r 0).trans ?_
    refine Finset.sum_congr rfl fun d _ => ?_
    refine congrArg₂ (· * ·) ?_ rfl
    refine congrArg₂ max (congrArg (v26 (ix2 r d) + ·) ?_) Ideal.ofBits_zero_f32
    refine (broadcastTo_apply _ broadcasts_S1x32_S2048x32 (ix2 r d) (ix2 0 d) (fun x => by
      match x with
      | ⟨0, _⟩ => rfl
      | ⟨1, _⟩ => rfl)).trans ?_
    exact congrFun (shapeCast_self v27 _) (ix2 0 d)
  · refine (broadcastTo_apply _ broadcasts_S1x1_S2048x1 (ix2 r 0) (ix2 0 0) (fun x => by
      match x with
      | ⟨0, _⟩ => rfl
      | ⟨1, _⟩ => rfl)).trans ?_
    exact congrFun (shapeCast_self v37 _) (ix2 0 0)

end Cert.KernelIdeal.Reg3

end
-- ==== Proof.KI.Reg3Value.lean ====
/-
  Region 3's output array, entry by entry.

  Row i of the output lies in node tile i / 2048, at row i % 2048 of the tile.  Over the tile's 318 message chunks
  the accumulator's entry (r, d) grows by one chunk's term at a time: the sum over the chunk's 4096 messages e of
  the 0/1 weight "the word of row i is the word dst e" times the message entry (e, d).  After the last chunk it is the
  sum over all 318 · 4096 = 1302528 messages, and the block stored there is the read-out of that sum: the output
  array ends, at row i, at the last layer's scatter followed by the linear read-out.
-/
import proofs.«115179_j73220602462691_1_alg».proof.Proof.KI.Reg3
import proofs.«115179_j73220602462691_1_alg».proof.Proof.KI.Reg3Pay
import proofs.«115179_j73220602462691_1_alg».proof.Proof.LibBlockSums
import proofs.«115179_j73220602462691_1_alg».proof.Proof.LibPrefixSums
import Idealize.ShloMosaic.Lib.ValueIdx

set_option maxRecDepth 16384

noncomputable section

namespace Cert.KernelIdeal.Reg3

open Cert.KernelIdeal Cert.KernelIdeal.Gen
open Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! ## The block indices at a point -/

theorem toNat_word (n : ℕ) (h : n < 2 ^ 32) : (BitVec.ofNat 32 n).toNat = n := by
  rw [BitVec.toNat_ofNat]; exact Nat.mod_eq_of_lt h

theorem chunk_lt (t : Fin cfg3.N) : (grid3.coords t 1).val < 318 := (grid3.coords t 1).isLt
theorem tile_lt (t : Fin cfg3.N) : (grid3.coords t 0).val < 49 := (grid3.coords t 0).isLt

/-- The message window is at block (chunk, 0), -/
theorem index3_0 (t : Fin cfg3.N) : win3_0.index t 0 = t.val % 318 ∧ win3_0.index t 1 = 0 := by
  refine ⟨?_, rfl⟩
  show (BitVec.ofNat 32 (grid3.coords t 1).val).toNat = _
  rw [toNat_word _ (by have := chunk_lt t; omega), coords3_1]
/-- the destination words' at block (0, chunk), -/
theorem index3_1 (t : Fin cfg3.N) : win3_1.index t 0 = 0 ∧ win3_1.index t 1 = t.val % 318 := by
  refine ⟨rfl, ?_⟩
  show (BitVec.ofNat 32 (grid3.coords t 1).val).toNat = _
  rw [toNat_word _ (by have := chunk_lt t; omega), coords3_1]
/-- the output's at block (node tile, 0). -/
theorem index3_5 (t : Fin cfg3.N) : win3_5.index t 0 = t.val / 318 ∧ win3_5.index t 1 = 0 := by
  refine ⟨?_, rfl⟩
  show (BitVec.ofNat 32 (grid3.coords t 0).val).toNat = _
  rw [toNat_word _ (by have := tile_lt t; omega), coords3_0]

/-- Message e' of chunk j, as a message of the whole array. -/
def gmsg (j : Fin 318) (e' : Fin 4096) : Fin 1302528 := ⟨j.val * 4096 + e'.val, by have := j.isLt; have := e'.isLt; omega⟩

/-- The chunk of point t. -/
def chunk (t : Fin cfg3.N) : Fin 318 := ⟨t.val % 318, Nat.mod_lt _ (by decide)⟩

/-! ## The blocks read at a point, entry by entry -/

theorem blk0_apply (c : Dev nD) (t : Fin cfg3.N) (e' : Fin 4096) (d : Fin 32) :
    (iblk V c 0 t : Vec Ideal S4096x32 .bf16) (ix2 e' d) = V c main_v40 (ix2 (gmsg (chunk t) e') d) := by
  unfold iblk
  rw [View.read_apply]
  show V c main_v40 _ = V c main_v40 _
  congr 1
  funext a
  apply Fin.ext
  match a with
  | ⟨0, _⟩ => show win3_0.index t 0 * 4096 + 1 * e'.val = t.val % 318 * 4096 + e'.val; rw [(index3_0 t).1]; omega
  | ⟨1, _⟩ => show win3_0.index t 1 * 32 + 1 * d.val = d.val; rw [(index3_0 t).2]; omega

theorem blk1_apply (c : Dev nD) (t : Fin cfg3.N) (e' : Fin 4096) :
    (iblk V c 1 t : Vec Ideal S1x4096 .i32) (ix2 0 e') = V c main_v34 (ix2 0 (gmsg (chunk t) e')) := by
  unfold iblk
  rw [View.read_apply]
  show V c main_v34 _ = V c main_v34 _
  congr 1
  funext a
  apply Fin.ext
  match a with
  | ⟨0, _⟩ => show win3_1.index t 0 * 1 + 1 * 0 = 0; rw [(index3_1 t).1]
  | ⟨1, _⟩ => show win3_1.index t 1 * 4096 + 1 * e'.val = t.val % 318 * 4096 + e'.val; rw [(index3_1 t).2]; omega

theorem blk2_apply (c : Dev nD) (t : Fin cfg3.N) (d : Fin 32) :
    (iblk V c 2 t : Vec Ideal S1x32 .f32) (ix2 0 d) = V c main_v41 (ix2 0 d) := by
  unfold iblk
  rw [View.read_apply]
  show V c main_v41 _ = V c main_v41 _
  congr 1
  funext a
  apply Fin.ext
  match a with
  | ⟨0, _⟩ => show 0 * 1 + 1 * 0 = 0; rfl
  | ⟨1, _⟩ => show 0 * 32 + 1 * d.val = d.val; omega

theorem blk3_apply (c : Dev nD) (t : Fin cfg3.N) (d : Fin 32) :
    (iblk V c 3 t : Vec Ideal S32x1 .f32) (ix2 d 0) = V c main_arg6 (ix2 d 0) := by
  unfold iblk
  rw [View.read_apply]
  show V c main_arg6 _ = V c main_arg6 _
  congr 1
  funext a
  apply Fin.ext
  match a with
  | ⟨0, _⟩ => show 0 * 32 + 1 * d.val = d.val; omega
  | ⟨1, _⟩ => show 0 * 1 + 1 * 0 = 0; rfl

theorem blk4_apply (c : Dev nD) (t : Fin cfg3.N) :
    (iblk V c 4 t : Vec Ideal S1x1 .f32) (ix2 0 0) = V c main_v42 (ix2 0 0) := by
  unfold iblk
  rw [View.read_apply]
  show V c main_v42 _ = V c main_v42 _
  congr 1
  funext a
  apply Fin.ext
  match a with
  | ⟨0, _⟩ => show 0 * 1 + 1 * 0 = 0; rfl
  | ⟨1, _⟩ => show 0 * 1 + 1 * 0 = 0; rfl

/-! ## The accumulator, chunk by chunk -/

/-- Chunk j's term of entry (n, d): the chunk's messages weighted by whether their destination word names row n. -/
def term (c : Dev nD) (n : ℕ) (d : Fin 32) (j : Fin 318) : EReal :=
  ∑ e' : Fin 4096, Cert.Spec.hit (BitVec.ofNat 32 n) (V c main_v34 (ix2 0 (gmsg j e'))) * V c main_v40 (ix2 (gmsg j e') d)

/-- One accumulation step on the blocks of point t adds the chunk's term. -/
theorem pay2_blocks (c : Dev nD) (t : Fin cfg3.N) (acc : Vec Ideal S2048x32 .f32) (r : Fin 2048) (d : Fin 32) :
    k3_pay2 (grid3.coords t) (iblk V c 1 t) acc (iblk V c 0 t) (ix2 r d)
      = acc (ix2 r d) + term V c (t.val / 318 * 2048 + r.val) d (chunk t) := by
  refine (pay2_apply (grid3.coords t) (iblk V c 1 t) acc (iblk V c 0 t) r d).trans ?_
  refine congrArg (acc (ix2 r d) + ·) ?_
  unfold term
  refine Finset.sum_congr rfl fun e' _ => ?_
  refine congrArg₂ (· * ·) (congrArg₂ Cert.Spec.hit ?_ (blk1_apply V c t e')) (blk0_apply V c t e' d)
  rw [coords3_0]

/-- After chunk k of node tile q the accumulator's entry (r, d) is the sum of the terms of chunks 0 … k. -/
theorem scr_eq (c : Dev nD) (q : ℕ) (hq : q < 49) (r : Fin 2048) (d : Fin 32) :
    ∀ (k : ℕ) (hk : k < 318) (h : q * 318 + k < cfg3.N),
      scrAt V c (q * 318 + k) h (ix2 r d) = PrefixSums.upto (term V c (q * 2048 + r.val) d) k
  | 0, hk, h => by
    have e := scrAt_first V c ⟨q * 318 + 0, h⟩ (by show (q * 318 + 0) % 318 = 0; omega)
    refine (congrFun e (ix2 r d)).trans ?_
    refine (pay2_blocks V c ⟨q * 318 + 0, h⟩ (k3_pay1 (F := Ideal)) r d).trans ?_
    rw [pay1_apply, zero_add, PrefixSums.upto_zero _ (by omega)]
    have e1 : (q * 318 + 0) / 318 = q := by omega
    show term V c ((q * 318 + 0) / 318 * 2048 + r.val) d (chunk ⟨q * 318 + 0, h⟩) = _
    rw [e1]
    exact congrArg (term V c (q * 2048 + r.val) d) (Fin.ext (by show (q * 318 + 0) % 318 = 0; omega))
  | k + 1, hk, h => by
    have e := scrAt_next V c ⟨q * 318 + (k + 1), h⟩ (by show ¬(q * 318 + (k + 1)) % 318 = 0; omega)
    refine (congrFun e (ix2 r d)).trans ?_
    refine (pay2_blocks V c ⟨q * 318 + (k + 1), h⟩ _ r d).trans ?_
    rw [PrefixSums.upto_succ _ k hk]
    have ih := scr_eq c q hq r d k (by omega) (by omega)
    have e1 : (q * 318 + (k + 1)) / 318 = q := by omega
    refine congrArg₂ (· + ·) ?_ ?_
    · show scrAt V c (q * 318 + (k + 1) - 1) _ (ix2 r d) = _
      exact ih
    · show term V c ((q * 318 + (k + 1)) / 318 * 2048 + r.val) d (chunk ⟨q * 318 + (k + 1), h⟩) = _
      rw [e1]
      exact congrArg (term V c (q * 2048 + r.val) d) (Fin.ext (by show (q * 318 + (k + 1)) % 318 = k + 1; omega))

/-- After the last chunk of a node tile: the sum over every message. -/
theorem scr_last (c : Dev nD) (t : Fin cfg3.N) (h317 : t.val % 318 = 317) (r : Fin 2048) (d : Fin 32) :
    scrAt V c t.val t.isLt (ix2 r d)
      = ∑ e : Fin 1302528, Cert.Spec.hit (BitVec.ofNat 32 (t.val / 318 * 2048 + r.val)) (V c main_v34 (ix2 0 e)) * V c main_v40 (ix2 e d) := by
  have hN : t.val < 15582 := lt_of_lt_of_eq t.isLt (show cfg3.N = 15582 from N_3)
  have ht : t.val = t.val / 318 * 318 + 317 := by omega
  have key := scr_eq V c (t.val / 318) (by omega) r d 317 (by omega) (by rw [← ht]; exact t.isLt)
  have e0 : scrAt V c t.val t.isLt = scrAt V c (t.val / 318 * 318 + 317) (by rw [← ht]; exact t.isLt) := by
    congr 1
  rw [e0, key, PrefixSums.upto_all _ 317 (by omega)]
  unfold term
  exact (BlockSums.sum_blocks (m := 318) (n := 4096) (by decide) gmsg (fun _ _ => rfl)
    (fun e => Cert.Spec.hit (BitVec.ofNat 32 (t.val / 318 * 2048 + r.val)) (V c main_v34 (ix2 0 e)) * V c main_v40 (ix2 e d))).symm

/-! ## The output array -/

/-- The layer and read-out at row n (zero past the array's rows: no such row is read). -/
def Gat (c : Dev nD) (n : ℕ) : EReal :=
  if h : n < 100352 then
    Cert.Spec.scatterFinal (M := 1302528) (N := 100352) (fun e d => V c main_v40 (ix2 e d)) (fun e => V c main_v34 (ix2 0 e))
      (fun d => V c main_v41 (ix2 0 d)) (fun d => V c main_arg6 (ix2 d 0)) (V c main_v42 (ix2 0 0)) ⟨n, h⟩
  else 0

/-- The output array's contents: at (i, 0) the layer and read-out at row i. -/
def G (c : Dev nD) : Buf (Elt Ideal) ((c : Thread nD τ).loc main_v43) := fun idx => Gat V c (idx 0).val

/-- What the last chunk of a node tile stores at row r of the block. -/
theorem out_entry (c : Dev nD) (t : Fin cfg3.N) (h317 : t.val % 318 = 317) (y : S2048x1.Idx) :
    k3_pay3 (scrAt V c t.val t.isLt) (iblk V c 2 t) (iblk V c 3 t) (iblk V c 4 t) y = Gat V c (t.val / 318 * 2048 + (y 0).val) := by
  have hN : t.val < 15582 := lt_of_lt_of_eq t.isLt (show cfg3.N = 15582 from N_3)
  obtain ⟨r, z, rfl⟩ : ∃ (r : Fin 2048) (z : Fin 1), y = ix2 r z := ⟨y 0, y 1, eq_ix2 y⟩
  obtain rfl : z = 0 := Subsingleton.elim _ _
  have hr : t.val / 318 * 2048 + r.val < 100352 := by have := r.isLt; omega
  show _ = Gat V c (t.val / 318 * 2048 + r.val)
  unfold Gat
  rw [dif_pos hr]
  refine (pay3_apply (scrAt V c t.val t.isLt) (iblk V c 2 t) (iblk V c 3 t) (iblk V c 4 t) r).trans ?_
  unfold Cert.Spec.scatterFinal Cert.Spec.scatterRelu
  refine congrArg₂ (· + ·) ?_ (blk4_apply V c t)
  refine Finset.sum_congr rfl fun d _ => ?_
  refine congrArg₂ (· * ·) ?_ (blk3_apply V c t d)
  refine congrArg₂ max (congrArg₂ (· + ·) (scr_last V c t h317 r d) (blk2_apply V c t d)) rfl

/-- What a write-back writes is its block of the output array's contents. -/
theorem flushed_eq (c : Dev nD) (t : Fin cfg3.N) (hf : (cfg3.win 5).flush t = true) :
    (dat V c).flushed 5 t = ((cfg3.win 5).blk t).view.read (Elt Ideal) (G V c) := by
  have h317 := (flush3_5 t).mp hf
  show (cfg3.win 5).cut (grid3.coords t) ((dat V c).after 5 t) = _
  rw [after3_5]
  funext y
  rw [View.read_apply]
  show k3_pay3 (scrAt V c t.val t.isLt) (iblk V c 2 t) (iblk V c 3 t) (iblk V c 4 t) y = Gat V c (win3_5.index t 0 * 2048 + 1 * (y 0).val)
  rw [(index3_5 t).1, Nat.one_mul]
  exact out_entry V c t h317 y

/-- Every row of the output array is in the block written back after the last chunk of its node tile. -/
theorem cover (c : Dev nD) (i : ((cfg3.win 5).arr.view.loc (c.tc : Thread nD τ)).2.ty.Idx) :
    ∃ t : Fin cfg3.N, (cfg3.win 5).flush t = true ∧ i ∈ ((cfg3.win 5).blk t).view.set := by
  have h0 : (i 0 : Nat) < 100352 := (i 0).isLt
  have h1 : (i 1 : Nat) < 1 := (i 1).isLt
  have hN : cfg3.N = 15582 := N_3
  have hlt : (i 0 : Nat) / 2048 * 318 + 317 < cfg3.N := by rw [hN]; omega
  refine ⟨⟨(i 0 : Nat) / 2048 * 318 + 317, hlt⟩, (flush3_5 _).mpr (by show ((i 0 : Nat) / 2048 * 318 + 317) % 318 = 317; omega), ?_⟩
  show i ∈ ((View.whole main_v43).slice (win3_5.rect ⟨(i 0 : Nat) / 2048 * 318 + 317, hlt⟩)).set
  rw [View.set_slice_whole, Rect.mem_set_unit]
  intro a
  match a with
  | ⟨0, _⟩ =>
    show win3_5.index ⟨(i 0 : Nat) / 2048 * 318 + 317, hlt⟩ 0 * 2048 ≤ (i 0 : Nat)
      ∧ (i 0 : Nat) < win3_5.index ⟨(i 0 : Nat) / 2048 * 318 + 317, hlt⟩ 0 * 2048 + 2048
    rw [(index3_5 ⟨(i 0 : Nat) / 2048 * 318 + 317, hlt⟩).1]
    show ((i 0 : Nat) / 2048 * 318 + 317) / 318 * 2048 ≤ (i 0 : Nat) ∧ (i 0 : Nat) < ((i 0 : Nat) / 2048 * 318 + 317) / 318 * 2048 + 2048
    omega
  | ⟨1, _⟩ =>
    show win3_5.index ⟨(i 0 : Nat) / 2048 * 318 + 317, hlt⟩ 1 * 1 ≤ (i 1 : Nat)
      ∧ (i 1 : Nat) < win3_5.index ⟨(i 0 : Nat) / 2048 * 318 + 317, hlt⟩ 1 * 1 + 1
    rw [(index3_5 ⟨(i 0 : Nat) / 2048 * 318 + 317, hlt⟩).2]
    omega

/-- The output array after the region, entry by entry: the last layer's scatter and the linear read-out of the
    arrays the region found. -/
theorem final (V : (c : Dev nD) → (b : Ref sig .tc) → Buf (Elt Ideal) ((c : Thread nD τ).loc b)) (c : Dev nD) (i : Fin 100352) :
    (dat (F := Ideal) V c).arrAt 5 cfg3.N (ValueIdx.ix2 i 0)
      = Cert.Spec.scatterFinal (M := 1302528) (N := 100352) (fun e d => V c main_v40 (ValueIdx.ix2 e d)) (fun e => V c main_v34 (ValueIdx.ix2 0 e))
          (fun d => V c main_v41 (ValueIdx.ix2 0 d)) (fun d => V c main_arg6 (ValueIdx.ix2 d 0)) (V c main_v42 (ValueIdx.ix2 0 0)) i := by
  have key := (dat V c).arrAt_eq_of_cover 5 (G V c) (flushed_eq V c) (cover c)
  refine (congrFun key (ix2 i 0)).trans ?_
  show Gat V c i.val = _
  unfold Gat
  rw [dif_pos i.isLt]

end Cert.KernelIdeal.Reg3

end
-- ==== Proof.LibScatterAdd.lean ====
/-
  Two general facts about an accumulating scatter read at one element of its result.

  1. `ScatterDims.resultIdx?_eq_some_iff`: update index `j` lands on the operand index `i` exactly when, on every operand
     axis, the window's start plus the window coordinate IS `i`'s coordinate (as integers: the start is read signed and is
     not clamped, and an update that leaves the operand lands nowhere).
  2. `sum_filter_two`: a sum over the indices satisfying a predicate that has at most two solutions, `a` (when `ca`)
     and `b` (when `cb`), is the sum of the two terms that are there. In an overlap-add every output sample is met by
     at most two update elements; the same shape serves any scatter whose colliding updates are at most two.
  Together with `Ideal.hostScatterAdd` (the operand element plus the sum of the updates that land on it) they read the
  scatter at an index without listing the updates.
-/
import Idealize.ShloMosaic.PureOps.Ideal

namespace Idealize.ShloMosaic

namespace ScatterDims

variable {s si u : Shape} (d : ScatterDims s si u)

/-- Update index `j` lands on `i` iff start plus window coordinate is `i`'s coordinate on every operand axis. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show d.start j idx a + (d.window j a : Int) = (((d.start j idx a + (d.window j a : Int)).toNat : Nat) : Int)
      omega
    · intro hh
      funext a
      apply Fin.ext
      have := hh a
      show (d.start j idx a + (d.window j a : Int)).toNat = (i a).val
      omega
  · rename_i h
    constructor
    · intro hh; exact absurd hh (by simp)
    · intro hh
      exact absurd (fun a => by have := hh a; have := (i a).isLt; omega) h

end ScatterDims

/-- A sum over the solutions of a predicate with at most two solutions: `a` when `ca` holds, `b` when `cb` holds. -/
theorem sum_filter_two {ι M : Type*} [Fintype ι] [DecidableEq ι] [AddCommMonoid M] (P : ι → Prop) [DecidablePred P]
    (f : ι → M) (a b : ι) (ca cb : Prop) [Decidable ca] [Decidable cb] (hab : a ≠ b)
    (hP : ∀ j, P j ↔ (ca ∧ j = a) ∨ (cb ∧ j = b)) :
    ∑ j ∈ Finset.univ.filter P, f j = (if ca then f a else 0) + (if cb then f b else 0) := by
  by_cases ha : ca <;> by_cases hb : cb
  · have e : Finset.univ.filter P = {a, b} := by
      ext j; simp only [Finset.mem_filter, Finset.mem_univ, true_and, Finset.mem_insert, Finset.mem_singleton, hP j]
      constructor
      · rintro (⟨-, h⟩ | ⟨-, h⟩)
        · exact Or.inl h
        · exact Or.inr h
      · rintro (h | h)
        · exact Or.inl ⟨ha, h⟩
        · exact Or.inr ⟨hb, h⟩
    rw [e, Finset.sum_pair hab, if_pos ha, if_pos hb]
  · have e : Finset.univ.filter P = {a} := by
      ext j; simp only [Finset.mem_filter, Finset.mem_univ, true_and, Finset.mem_singleton, hP j]
      constructor
      · rintro (⟨-, h⟩ | ⟨h, -⟩)
        · exact h
        · exact absurd h hb
      · intro h; exact Or.inl ⟨ha, h⟩
    rw [e, Finset.sum_singleton, if_pos ha, if_neg hb, add_zero]
  · have e : Finset.univ.filter P = {b} := by
      ext j; simp only [Finset.mem_filter, Finset.mem_univ, true_and, Finset.mem_singleton, hP j]
      constructor
      · rintro (⟨h, -⟩ | ⟨-, h⟩)
        · exact absurd h ha
        · exact h
      · intro h; exact Or.inr ⟨hb, h⟩
    rw [e, Finset.sum_singleton, if_neg ha, if_pos hb, zero_add]
  · have e : Finset.univ.filter P = ∅ := by
      ext j; simp only [Finset.mem_filter, Finset.mem_univ, true_and, hP j, Finset.notMem_empty, iff_false]
      rintro (⟨h, -⟩ | ⟨h, -⟩)
      · exact ha h
      · exact hb h
    rw [e, Finset.sum_empty, if_neg ha, if_neg hb, add_zero]

end Idealize.ShloMosaic
-- ==== Proof.LibRowIndexed.lean ====
/-
  Row-indexed gathers and scatters, read at coordinates.

  A table of rows `[N, C]` (or a vector `[N]`) is addressed by a column of index words `[E, 1]`:
  * a scatter (`x.at[idx].add(u)`) lands update row `e` on table row `i` exactly when the word `idx[e, 0]`, read as a
    signed integer and NOT clamped, is `i`; a word outside `[0, N)` lands nowhere;
  * a gather (`x[idx]`) reads, for result row `e`, the table row `nodeOf idx[e, 0]`: the word read signed and clamped
    into `[0, N - 1]`.
  So the accumulating scatter at table row `i` is the operand plus the sum over the edges `e` with `idx[e, 0] = i`.
-/
import Idealize.ShloMosaic.PureOps.Ideal
import Idealize.ShloMosaic.Lib.ValueIdx
import Idealize.ShloMosaic.Lib.Pipeline.Value
import proofs.«115179_j73220602462691_1_alg».proof.Proof.LibScatterAdd

namespace Idealize.ShloMosaic.RowIndexed

open ValueIdx

/-- The row an index word addresses in a gather: read signed, clamped into `[0, N - 1]`. -/
def nodeOf (N : Nat) (hN : 0 < N) {w : Nat} (v : BitVec w) : Fin N := ⟨min v.toInt.toNat (N - 1), by omega⟩

/-! ## Scatter into a table of rows -/

/-- The dimension numbers of `x.at[idx].add(u)` for a table `[N, C]`, index words `[E, 1]`, update rows `[E, C]`. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update entry `(e, c)` lands on table entry `(i, c')` iff the index word of row `e`, read signed, is `i`, and `c = c'`. -/
theorem rowScatter_lands {N E C w : Nat} (wf) (idx : IVec ⟨2, ![E, 1]⟩ w) (e : Fin E) (c : Fin C) (i : Fin N) (c' : Fin C) :
    (rowScatter N E C wf).resultIdx? (ix2 e c) idx = some (ix2 i c') ↔ (idx (ix2 e 0)).toInt = (i.val : Int) ∧ c = c' := by
  rw [ScatterDims.resultIdx?_eq_some_iff]
  have hs0 : (rowScatter N E C wf).start (ix2 e c) idx 0 = (idx (ix2 e 0)).toInt := by
    unfold ScatterDims.start
    rw [dif_pos (show (0 : Fin 2) ∈ (rowScatter N E C wf).scatterDimsToOperandDims from List.mem_singleton.mpr rfl)]
    congr 2
    funext b
    refine Fin.ext ?_
    match b with
    | ⟨0, _⟩ => rfl
    | ⟨1, _⟩ => rfl
  have hs1 : (rowScatter N E C wf).start (ix2 e c) idx 1 = 0 := by
    unfold ScatterDims.start
    rw [dif_neg (show (1 : Fin 2) ∉ ([0] : List (Fin 2)) from by decide)]
  have hw0 : (rowScatter N E C wf).window (ix2 e c) 0 = 0 := by
    unfold ScatterDims.window
    have hm : (0 : Fin 2) ∉ (rowScatter N E C wf).sKept := by
      show (0 : Fin 2) ∉ (List.finRange 2).filter (· ∉ ([0] : List (Fin 2)))
      decide
    rw [dif_neg hm]
  have hw1 : (rowScatter N E C wf).window (ix2 e c) 1 = c.val := by
    unfold ScatterDims.window
    have hm : (1 : Fin 2) ∈ (rowScatter N E C wf).sKept := by
      show (1 : Fin 2) ∈ (List.finRange 2).filter (· ∉ ([0] : List (Fin 2)))
      decide
    rw [dif_pos hm]
    rfl
  constructor
  · intro h
    have h0 := h 0
    have h1 := h 1
    rw [hs0, hw0] at h0
    rw [hs1, hw1] at h1
    have e0 : (((ix2 i c' : (⟨2, ![N, C]⟩ : Shape).Idx) 0).val : Int) = (i.val : Int) := rfl
    have e1 : (((ix2 i c' : (⟨2, ![N, C]⟩ : Shape).Idx) 1).val : Int) = (c'.val : Int) := rfl
    refine ⟨by omega, Fin.ext (by omega)⟩
  · rintro ⟨h0, rfl⟩ a
    match a with
    | ⟨0, _⟩ => show (rowScatter N E C wf).start (ix2 e c) idx 0 + ((rowScatter N E C wf).window (ix2 e c) 0 : Int) = _; rw [hs0, hw0, h0]; simp
    | ⟨1, _⟩ => show (rowScatter N E C wf).start (ix2 e c) idx 1 + ((rowScatter N E C wf).window (ix2 e c) 1 : Int) = _; rw [hs1, hw1]; simp

/-- The accumulating scatter at table entry `(i, c)`: the operand there plus the update entries `(e, c)` of the edges
    `e` whose index word is `i`. -/
theorem rowScatter_add_apply {N E C w : Nat} (wf) (x : (⟨2, ![N, C]⟩ : Shape).Idx → EReal) (idx : IVec ⟨2, ![E, 1]⟩ w)
    (upd : (⟨2, ![E, C]⟩ : Shape).Idx → EReal) (i : Fin N) (c : Fin C) :
    Ideal.hostScatterAdd (rowScatter N E C wf) x idx upd (ix2 i c)
      = x (ix2 i c) + ∑ e ∈ Finset.univ.filter (fun e : Fin E => (idx (ix2 e 0)).toInt = (i.val : Int)), upd (ix2 e c) := by
  unfold Ideal.hostScatterAdd
  congr 1
  rw [Finset.sum_filter, sum_idx2, Finset.sum_filter]
  refine Finset.sum_congr rfl fun e _ => ?_
  simp only [rowScatter_lands]
  by_cases h : (idx (ix2 e 0)).toInt = (i.val : Int)
  · simp only [h, true_and, if_true]
    rw [Finset.sum_ite_eq' Finset.univ c (fun c' => upd (ix2 e c'))]
    simp
  · simp only [h, false_and, if_false]
    exact Finset.sum_const_zero

/-! ## Scatter into a vector -/

/-- The dimension numbers of `x.at[idx].add(u)` for a vector `[N]`, index words `[E, 1]`, updates `[E]`. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands on vector entry `i` iff the index word of row `e`, read signed, is `i`. -/
theorem vecScatter_lands {N E w : Nat} (wf) (idx : IVec ⟨2, ![E, 1]⟩ w) (e : Fin E) (i : Fin N) :
    (vecScatter N E wf).resultIdx? (ix1 e) idx = some (ix1 i) ↔ (idx (ix2 e 0)).toInt = (i.val : Int) := by
  rw [ScatterDims.resultIdx?_eq_some_iff]
  have hs0 : (vecScatter N E wf).start (ix1 e) idx 0 = (idx (ix2 e 0)).toInt := by
    unfold ScatterDims.start
    rw [dif_pos (show (0 : Fin 1) ∈ (vecScatter N E wf).scatterDimsToOperandDims from List.mem_singleton.mpr rfl)]
    congr 2
    funext b
    refine Fin.ext ?_
    match b with
    | ⟨0, _⟩ => rfl
    | ⟨1, _⟩ => rfl
  have hw0 : (vecScatter N E wf).window (ix1 e) 0 = 0 := by
    unfold ScatterDims.window
    have hm : (0 : Fin 1) ∉ (vecScatter N E wf).sKept := by
      show (0 : Fin 1) ∉ (List.finRange 1).filter (· ∉ ([0] : List (Fin 1)))
      decide
    rw [dif_neg hm]
  have e0 : (((ix1 i : (⟨1, ![N]⟩ : Shape).Idx) 0).val : Int) = (i.val : Int) := rfl
  constructor
  · intro h
    have h0 := h 0
    rw [hs0, hw0] at h0
    omega
  · intro h0 a
    obtain rfl : a = 0 := Subsingleton.elim _ _
    rw [hs0, hw0, h0]; omega

/-- A sum over the index set of a vector is the sum over its one coordinate. -/
theorem sum_idx1 {M : Type*} [AddCommMonoid M] {n : Nat} (f : (⟨1, ![n]⟩ : Shape).Idx → M) :
    ∑ i, f i = ∑ a : Fin n, f (ix1 a) :=
  (Fintype.sum_equiv (⟨fun i => i 0, ix1, fun i => (eq_ix1 i).symm, fun _ => rfl⟩ : (⟨1, ![n]⟩ : Shape).Idx ≃ Fin n)
    f (fun a => f (ix1 a)) (fun i => congrArg f (eq_ix1 i)))

/-- The accumulating scatter at vector entry `i`: the operand there plus the updates of the edges whose index word is `i`. -/
theorem vecScatter_add_apply {N E w : Nat} (wf) (x : (⟨1, ![N]⟩ : Shape).Idx → EReal) (idx : IVec ⟨2, ![E, 1]⟩ w)
    (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : Int)), upd (ix1 e) := by
  unfold Ideal.hostScatterAdd
  congr 1
  rw [Finset.sum_filter, sum_idx1, Finset.sum_filter]
  refine Finset.sum_congr rfl fun e _ => ?_
  simp only [vecScatter_lands]

/-! ## Gathers of rows and of vector entries -/

/-- The dimension numbers of `x[idx]` for a table `[N, C]` and index words `[E, 1]`: whole rows, `[E, C]`. -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result entry `(e, c)` of a row gather is the table's entry `(nodeOf idx[e, 0], c)`. -/
theorem rowGather_apply {α : Type} {N E C w : Nat} (hN : 0 < N) (wf) (x : (⟨2, ![N, C]⟩ : Shape).Idx → α)
    (idx : IVec ⟨2, ![E, 1]⟩ w) (e : Fin E) (c : Fin C) :
    Host.gather (rowGather N E C wf) x idx (ix2 e c) = x (ix2 (nodeOf N hN (idx (ix2 e 0))) c) := by
  unfold Host.gather
  congr 1
  funext a
  refine Fin.ext ?_
  match a with
  | ⟨0, _⟩ =>
    show (rowGather N E C wf).start (ix2 e c) idx 0 + (rowGather N E C wf).batchCoord (ix2 e c) 0 + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1 + (rowGather N E C wf).offCoord (ix2 e c) 1 = c.val
    rw [GatherDims.batchCoord_eq_zero _ _ _ List.not_mem_nil]
    have hs : (rowGather N E C wf).start (ix2 e c) idx 1 = 0 := by
      unfold GatherDims.start
      rw [dif_neg (show (1 : Fin 2) ∉ ([0] : List (Fin 2)) from by decide)]
    have ho : (rowGather N E C wf).offCoord (ix2 e c) 1 = c.val := by
      unfold GatherDims.offCoord
      have hm : (1 : Fin 2) ∈ (rowGather N E C wf).sKept :=
        (GatherDims.mem_sKept _ _).mpr ⟨fun h => absurd (List.mem_singleton.mp h) (show (1 : Fin 2) ≠ 0 from by decide), List.not_mem_nil⟩
      rw [dif_pos hm]
      rfl
    rw [hs, ho]; simp

/-- The dimension numbers of `x[idx]` for a vector `[N]` and index words `[E, 1]`: entries, `[E]`. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` of a vector gather is the vector's entry `nodeOf idx[e, 0]`. -/
theorem vecGather_apply {α : Type} {N E w : Nat} (hN : 0 < N) (wf) (x : (⟨1, ![N]⟩ : Shape).Idx → α)
    (idx : IVec ⟨2, ![E, 1]⟩ w) (e : Fin E) :
    Host.gather (vecGather N E wf) x idx (ix1 e) = x (ix1 (nodeOf N hN (idx (ix2 e 0)))) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Small reads used with the above -/

/-- At the exact values the host's accumulating scatter is the sum form. -/
theorem scatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl

/-- A scalar broadcast to any shape reads the scalar everywhere. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- A vector of `E` entries kept as a column `[E, 1]` reads entry `e` at `(e, 0)`. -/
theorem col_apply {E : Nat} {α : Type} (h : (⟨1, ![E]⟩ : Shape).BroadcastsInDim ⟨2, ![E, 1]⟩ ![0])
    (v : (⟨1, ![E]⟩ : Shape).Idx → α) (e : Fin E) : broadcastInDim ⟨2, ![E, 1]⟩ ![0] h v (ix2 e (0 : Fin 1)) = v (ix1 e) :=
  broadcastInDim_apply _ h v (ix2 e (0 : Fin 1)) (ix1 e) (fun a => match a with
    | ⟨0, _⟩ => by
      show e.val = if E = 1 then 0 else e.val
      split
      · have := e.isLt; omega
      · rfl)

end Idealize.ShloMosaic.RowIndexed
-- ==== Proof.Ref.Edge.lean ====
/-
  The messages of the graph convolution, as the reference reads them off `edge_index`.

  The reference lists 1300000 messages: the 1200000 edges (source word in row 0 of `edge_index`, destination word in
  row 1) followed by one self loop per node (both words the node's number).  A message's weight is
  `deg^(-1/2)[src] · deg^(-1/2)[dst]`, where `deg` counts the messages arriving at a node; it is carried here as the
  composition of the operations that compute it, never opened.  A feature gather reads, for message `e`, the row its
  source word names after a negative word has had the node count added and the result has been clamped into the table.
-/
import proofs.«115179_j73220602462691_1_alg».proof.ReferenceIdeal
import proofs.«115179_j73220602462691_1_alg».proof.Proof.Gen.ReferenceIdeal
import proofs.«115179_j73220602462691_1_alg».proof.Proof.LibRowIndexed
import Idealize.ShloMosaic.PureOps.Ideal
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx

/-! ## The word vectors -/

/-- The source words of the messages: row 0 of `edge_index`, then the node numbers. -/
def srcV (a1 : IVec S2x1200000 32) : IVec S1300000 32 :=
  concatenate S1300000 0 [⟨S1200000, (shapeCast _ (extractStridedSlice S1x1200000 ![0, 0] a1 slices_S2x1200000_S1x1200000_0_0) shapeCasts_S1x1200000_S1200000)⟩, ⟨S100000, (iotaInDim S100000 32 0)⟩] concatenates_S1200000_S100000_S1300000_d0

/-- The destination words of the messages: row 1 of `edge_index`, then the node numbers. -/
def dstV (a1 : IVec S2x1200000 32) : IVec S1300000 32 :=
  concatenate S1300000 0 [⟨S1200000, (shapeCast _ (extractStridedSlice S1x1200000 ![1, 0] a1 slices_S2x1200000_S1x1200000_1_0) shapeCasts_S1x1200000_S1200000)⟩, ⟨S100000, (iotaInDim S100000 32 0)⟩] concatenates_S1200000_S100000_S1300000_d0

/-- Message `e`'s source word. -/
def srcW (a1 : IVec S2x1200000 32) : Fin 1300000 → BitVec 32 := fun e => srcV a1 (ix1 e)

/-- Message `e`'s destination word. -/
def dstW (a1 : IVec S2x1200000 32) : Fin 1300000 → BitVec 32 := fun e => dstV a1 (ix1 e)

/-- A vector of words with the node count added to the negative ones (an index counted from the end). -/
def wrapV (v : IVec S1300000 32) : IVec S1300000 32 :=
  select (cmpi .slt v (broadcastInDim S1300000 ![] bcast_S_S1300000 (constantI S_ 32 0#32))) (addi v (broadcastInDim S1300000 ![] bcast_S_S1300000 (constantI S_ 32 100000#32))) v

/-- A vector of words kept as a column. -/
def colV (v : IVec S1300000 32) : IVec S1300000x1 32 :=
  broadcastInDim S1300000x1 ![0] bcast_S1300000_S1300000x1_0 v

/-! ## The weights -/

/-- The number of messages arriving at each node: ones scattered by the destination words, from zero. -/
def degV (a1 : IVec S2x1200000 32) : FVec Ideal S100000 .f32 :=
  Host.scatterAdd scatter_S100000_S1300000x1_S1300000_n_0_0_1 (broadcastInDim S100000 ![] bcast_S_S100000 (constant S_ .f32 0x00000000#32)) (colV (dstV a1)) (broadcastInDim S1300000 ![] bcast_S_S1300000 (constant S_ .f32 0x3F800000#32))

/-- `deg^(-1/2)` where the count is positive, zero elsewhere. -/
def disV (a1 : IVec S2x1200000 32) : FVec Ideal S100000 .f32 :=
  select (cmpf .ogt (degV a1) (broadcastInDim S100000 ![] bcast_S_S100000 (constant S_ .f32 0x00000000#32))) (Host.rsqrt (degV a1)) (broadcastInDim S100000 ![] bcast_S_S100000 (id (constant S_ .f32 0x00000000#32)))

/-- The messages' weights: `deg^(-1/2)` read at the source word times `deg^(-1/2)` read at the destination word. -/
def nrmV (a1 : IVec S2x1200000 32) : FVec Ideal S1300000 .f32 :=
  mulf (Host.gather gather_S100000_S1300000x1_S1300000_n_0_n_n_0_1_1 (disV a1) (colV (wrapV (srcV a1)))) (Host.gather gather_S100000_S1300000x1_S1300000_n_0_n_n_0_1_1 (disV a1) (colV (wrapV (dstV a1))))

/-- Message `e`'s weight. -/
def nrmR (a1 : IVec S2x1200000 32) : Fin 1300000 → EReal := fun e => nrmV a1 (ix1 e)

/-! ## The row a feature gather reads -/

/-- The row of the feature table read for message `e`: its source word, the node count added if negative, read signed
    and clamped into the table. -/
def srcRow (a1 : IVec S2x1200000 32) : Fin 1300000 → Fin 100000 :=
  fun e => RowIndexed.nodeOf 100000 (by decide) (wrapV (srcV a1) (ix1 e))

/-! ## Reading the word vectors -/

/-- Below 1200000 a message is an edge: its words are the two rows of `edge_index`. -/
theorem srcW_edge (a1 : IVec S2x1200000 32) (e : Fin 1300000) (h : e.val < 1200000) :
    srcW a1 e = a1 (ix2 (0 : Fin 2) (⟨e.val, h⟩ : Fin 1200000)) := by
  unfold srcW srcV
  rw [concatenate_pair_apply_left (t := S1300000) (s₁ := S1200000) (s₂ := S100000) (0 : Fin 1) _ _ concatenates_S1200000_S100000_S1300000_d0 (ix1 e) rfl
    (ix1 (⟨e.val, h⟩ : Fin 1200000)) (fun b => by obtain rfl : b = 0 := Subsingleton.elim _ _; rfl)]
  rw [shapeCast_apply _ shapeCasts_S1x1200000_S1200000 (ix1 (⟨e.val, h⟩ : Fin 1200000)) (ix2 (0 : Fin 1) (⟨e.val, h⟩ : Fin 1200000))
    (by rw [Shape.rowMajor_val_two, Shape.rowMajor_val_one]; show 0 * 1200000 + e.val = e.val; omega)]
  exact extractStridedSlice_apply ![0, 0] a1 slices_S2x1200000_S1x1200000_0_0 _ (ix2 (0 : Fin 2) (⟨e.val, h⟩ : Fin 1200000))
    (fun a => match a with
      | ⟨0, _⟩ => rfl
      | ⟨1, _⟩ => by show e.val = 0 + e.val; omega)

theorem dstW_edge (a1 : IVec S2x1200000 32) (e : Fin 1300000) (h : e.val < 1200000) :
    dstW a1 e = a1 (ix2 (1 : Fin 2) (⟨e.val, h⟩ : Fin 1200000)) := by
  unfold dstW dstV
  rw [concatenate_pair_apply_left (t := S1300000) (s₁ := S1200000) (s₂ := S100000) (0 : Fin 1) _ _ concatenates_S1200000_S100000_S1300000_d0 (ix1 e) rfl
    (ix1 (⟨e.val, h⟩ : Fin 1200000)) (fun b => by obtain rfl : b = 0 := Subsingleton.elim _ _; rfl)]
  rw [shapeCast_apply _ shapeCasts_S1x1200000_S1200000 (ix1 (⟨e.val, h⟩ : Fin 1200000)) (ix2 (0 : Fin 1) (⟨e.val, h⟩ : Fin 1200000))
    (by rw [Shape.rowMajor_val_two, Shape.rowMajor_val_one]; show 0 * 1200000 + e.val = e.val; omega)]
  exact extractStridedSlice_apply ![1, 0] a1 slices_S2x1200000_S1x1200000_1_0 _ (ix2 (1 : Fin 2) (⟨e.val, h⟩ : Fin 1200000))
    (fun a => match a with
      | ⟨0, _⟩ => rfl
      | ⟨1, _⟩ => by show e.val = 0 + e.val; omega)

/-- From 1200000 on a message is a self loop: both words are the node's number. -/
theorem srcW_loop (a1 : IVec S2x1200000 32) (e : Fin 1300000) (h : 1200000 ≤ e.val) :
    srcW a1 e = BitVec.ofNat 32 (e.val - 1200000) := by
  unfold srcW srcV
  rw [concatenate_pair_apply_right (t := S1300000) (s₁ := S1200000) (s₂ := S100000) (0 : Fin 1) _ _ concatenates_S1200000_S100000_S1300000_d0 (ix1 e) rfl rfl
    (ix1 (⟨e.val - 1200000, by have := e.isLt; omega⟩ : Fin 100000))
    (fun b hb => absurd (Subsingleton.elim _ _) hb)
    (by show e.val - 1200000 + 1200000 = e.val; omega)]
  rfl

theorem dstW_loop (a1 : IVec S2x1200000 32) (e : Fin 1300000) (h : 1200000 ≤ e.val) :
    dstW a1 e = BitVec.ofNat 32 (e.val - 1200000) := by
  unfold dstW dstV
  rw [concatenate_pair_apply_right (t := S1300000) (s₁ := S1200000) (s₂ := S100000) (0 : Fin 1) _ _ concatenates_S1200000_S100000_S1300000_d0 (ix1 e) rfl rfl
    (ix1 (⟨e.val - 1200000, by have := e.isLt; omega⟩ : Fin 100000))
    (fun b hb => absurd (Subsingleton.elim _ _) hb)
    (by show e.val - 1200000 + 1200000 = e.val; omega)]
  rfl

/-! ## The wrap, at one word -/

/-- The wrap at one entry: the word plus the node count if the word is negative, the word itself otherwise. -/
theorem wrapV_apply (v : IVec S1300000 32) (j : S1300000.Idx) :
    wrapV v j = Scalar.select (IntOp.cmpi .slt (v j) 0#32) (IntOp.addi (v j) 100000#32) (v j) := by
  unfold wrapV
  rw [select_apply]
  show Scalar.select (IntOp.cmpi .slt (v j) (broadcastInDim S1300000 ![] bcast_S_S1300000 (constantI S_ 32 0#32) j))
    (IntOp.addi (v j) (broadcastInDim S1300000 ![] bcast_S_S1300000 (constantI S_ 32 100000#32) j)) (v j) = _
  rw [RowIndexed.bcast_scalar_apply, RowIndexed.bcast_scalar_apply]
  rfl

/-- A word that names a row (its value as a natural number is below the node count) is not moved by the wrap. -/
theorem wrapV_of_lt (v : IVec S1300000 32) (j : S1300000.Idx) (h : (v j).toNat < 100000) : wrapV v j = v j := by
  rw [wrapV_apply]
  have hs : (v j).slt 0#32 = false := by
    rw [BitVec.slt_eq_decide, decide_eq_false_iff_not]
    have : (v j).toInt = ((v j).toNat : Int) := by
      rw [BitVec.toInt_eq_toNat_cond, if_pos (by omega)]
    rw [this]; simp
  have hc : IntOp.cmpi .slt (v j) 0#32 = 0#1 := by
    show BitVec.ofBool ((v j).slt 0#32) = 0#1
    rw [hs]; rfl
  rw [hc, select_zero]

/-- When message `e`'s source word names a row, that row is the one the feature gather reads. -/
theorem srcRow_spec (a1 : IVec S2x1200000 32) (e : Fin 1300000) (h : (srcW a1 e).toNat < 100000) :
    srcW a1 e = BitVec.ofNat 32 (srcRow a1 e).val := by
  have hw : wrapV (srcV a1) (ix1 e) = srcW a1 e := wrapV_of_lt (srcV a1) (ix1 e) h
  have hi : (srcW a1 e).toInt = ((srcW a1 e).toNat : Int) := by
    rw [BitVec.toInt_eq_toNat_cond, if_pos (by omega)]
  have hv : (srcRow a1 e).val = (srcW a1 e).toNat := by
    show min (wrapV (srcV a1) (ix1 e)).toInt.toNat (100000 - 1) = _
    rw [hw, hi]
    simp only [Int.toNat_natCast]
    omega
  rw [hv, BitVec.ofNat_toNat, BitVec.setWidth_eq]

/-! ## Words in range -/

/-- If every entry of `edge_index` is a word below the node count, every message's source word names a row. -/
theorem srcW_lt (a1 : IVec S2x1200000 32) (h : ∀ j, (a1 j).toNat < 100000) (e : Fin 1300000) :
    (srcW a1 e).toNat < 100000 := by
  by_cases he : e.val < 1200000
  · rw [srcW_edge a1 e he]; exact h _
  · rw [srcW_loop a1 e (by omega), BitVec.toNat_ofNat]
    have := e.isLt
    exact lt_of_le_of_lt (Nat.mod_le _ _) (by omega)

/-- The same for the destination words. -/
theorem dstW_lt (a1 : IVec S2x1200000 32) (h : ∀ j, (a1 j).toNat < 100000) (e : Fin 1300000) :
    (dstW a1 e).toNat < 100000 := by
  by_cases he : e.val < 1200000
  · rw [dstW_edge a1 e he]; exact h _
  · rw [dstW_loop a1 e (by omega), BitVec.toNat_ofNat]
    have := e.isLt
    exact lt_of_le_of_lt (Nat.mod_le _ _) (by omega)

end Cert.ReferenceIdeal.RefValue

end
-- ==== Proof.KI.HostEdge.lean ====
/-
  The kernel program's host side, first part: the message lists and the weights.

  Before its first region the program builds, from `edge_index`, the source words and destination words of the
  1300000 messages (row 0, resp. row 1, followed by the node numbers) and the messages' weights
  `deg^(-1/2)[src] · deg^(-1/2)[dst]`.  These are the same operations, in the same order, as the reference applies to
  `edge_index`; each buffer is identified here with the reference's term for it, the weight chain as one function that
  is never opened.  Every statement reads one buffer of the valuation after a stretch of host operations as a term
  over the launch contents of `edge_index`.
-/
import proofs.«115179_j73220602462691_1_alg».proof.Proof.Gen.KernelIdeal.Regions
import proofs.«115179_j73220602462691_1_alg».proof.Proof.Ref.Edge
import Idealize.ShloMosaic.Lib.IdealHost

noncomputable section

namespace Cert.KernelIdeal.HostValue

open Cert.KernelIdeal Cert.KernelIdeal.Gen
open Idealize.ShloMosaic Idealize.ShloMosaic.TcCoe Idealize.ShloMosaic.StableHlo Idealize.ShloMosaic.ValueIdx
open Cert.ReferenceIdeal.RefValue (srcV dstV wrapV colV degV disV nrmV srcW dstW nrmR)

variable (m : (ℓ : Loc nD τ sig) → Buf (Elt Ideal) ℓ) (outs : Outs (F := Ideal)) (c : Dev nD)

/-! ## The first stretch: the two word vectors, the degree's sign and inverse square root -/

/-- After the first stretch `%5` holds the messages' source words. -/
theorem V1_v5 : (V1 m c main_v5 : S1300000.Idx → BitVec 32) = srcV (m ((c : Thread nD τ).loc main_arg1)) := by
  show StableHlo.after hostOps0 (V0 m c) (Proc.devRef .tc main_v5) = _
  after_results
  all_goals rfl

/-- After the first stretch `%6` holds the messages' destination words. -/
theorem V1_v6 : (V1 m c main_v6 : S1300000.Idx → BitVec 32) = dstV (m ((c : Thread nD τ).loc main_arg1)) := by
  show StableHlo.after hostOps0 (V0 m c) (Proc.devRef .tc main_v6) = _
  after_results
  all_goals rfl

/-- `%12`: where the degree is positive. -/
theorem V1_v12 : (V1 m c main_v12 : S100000.Idx → BitVec 1)
    = cmpf .ogt (degV (m ((c : Thread nD τ).loc main_arg1))) (broadcastInDim S100000 ![] bcast_S_S100000 (constant (F := Ideal) S_ .f32 0x00000000#32)) := by
  show StableHlo.after hostOps0 (V0 m c) (Proc.devRef .tc main_v12) = _
  after_results
  all_goals rfl

/-- `%13`: the degree's inverse square root. -/
theorem V1_v13 : (V1 m c main_v13 : S100000.Idx → EReal) = Host.rsqrt (degV (m ((c : Thread nD τ).loc main_arg1))) := by
  show StableHlo.after hostOps0 (V0 m c) (Proc.devRef .tc main_v13) = _
  after_results
  all_goals rfl

/-- The zero the `where` puts at a node without messages. -/
theorem V1_cst_2 : (V1 m c main_cst_2 : S_.Idx → EReal) = constant (F := Ideal) S_ .f32 0x00000000#32 := by
  show StableHlo.after hostOps0 (V0 m c) (Proc.devRef .tc main_cst_2) = _
  after_results
  all_goals rfl

/-! ## The second stretch: `deg^(-1/2)` where the degree is positive, zero elsewhere -/

/-- After the second stretch `%14` holds `deg^(-1/2)`, zero where the degree is not positive. -/
theorem V2_v14 : (V2 m c main_v14 : S100000.Idx → EReal) = disV (m ((c : Thread nD τ).loc main_arg1)) := by
  have e : (V2 m c main_v14 : S100000.Idx → EReal)
      = select (V1 m c main_v12 : S100000.Idx → BitVec 1) (V1 m c main_v13 : S100000.Idx → EReal)
          (broadcastInDim S100000 ![] bcast_S_S100000 (id (V1 m c main_cst_2 : S_.Idx → EReal))) := by
    show StableHlo.after hostOps0_1 (V1 m c) (Proc.devRef .tc main_v14) = _
    generalize V1 m c = W
    after_results
    all_goals rfl
  rw [e, V1_v12, V1_v13, V1_cst_2]
  all_goals rfl

/-! ## The third stretch: the weights -/

/-- No later stretch writes `%5`: it still holds the source words after the third. -/
theorem V3_v5 : (V3 m c main_v5 : S1300000.Idx → BitVec 32) = srcV (m ((c : Thread nD τ).loc main_arg1)) :=
  (V3_of m c main_v5 (by decide)).trans <| (V2_of m c main_v5 (by decide)).trans (V1_v5 m c)

/-- No later stretch writes `%6`: it still holds the destination words after the third. -/
theorem V3_v6 : (V3 m c main_v6 : S1300000.Idx → BitVec 32) = dstV (m ((c : Thread nD τ).loc main_arg1)) :=
  (V3_of m c main_v6 (by decide)).trans <| (V2_of m c main_v6 (by decide)).trans (V1_v6 m c)

/-- After the third stretch `%29` holds the messages' weights: the reference's chain applied to `edge_index`. -/
theorem V3_v29 : (V3 m c main_v29 : S1300000.Idx → EReal) = nrmV (m ((c : Thread nD τ).loc main_arg1)) := by
  have e : (V3 m c main_v29 : S1300000.Idx → EReal)
      = (mulf (F := Ideal) (s := S1300000) (φ := .f32)
             (Host.gather gather_S100000_S1300000x1_S1300000_n_0_n_n_0_1_1 (V2 m c main_v14 : S100000.Idx → EReal)
                (colV (wrapV (V2 m c main_v5 : S1300000.Idx → BitVec 32))))
             (Host.gather gather_S100000_S1300000x1_S1300000_n_0_n_n_0_1_1 (V2 m c main_v14 : S100000.Idx → EReal)
                (colV (wrapV (V2 m c main_v6 : S1300000.Idx → BitVec 32)))) : S1300000.Idx → EReal) := by
    show StableHlo.after hostOps0_2 (V2 m c) (Proc.devRef .tc main_v29) = _
    generalize V2 m c = W
    after_results_simp
    all_goals rfl
  rw [e, V2_v14, V2_of m c main_v5 (by decide), V1_v5, V2_of m c main_v6 (by decide), V1_v6]
  all_goals rfl

/-- The padding word of the source words: the integer zero. -/
theorem V3_c_6 : (V3 m c main_c_6 : S_.Idx → BitVec 32) = constantI S_ 32 0#32 := by
  show StableHlo.after hostOps0_2 (V2 m c) (Proc.devRef .tc main_c_6) = _
  generalize V2 m c = W
  after_results
  all_goals rfl

end Cert.KernelIdeal.HostValue

end
-- ==== Proof.KI.HostPad.lean ====
/-
  The kernel program's host side, second part: the padded operands.

  The source words, the destination words and the weights of the 1300000 messages are each continued by 2528 padding
  entries to 1302528 = 318 · 4096 (the integer zero for the words; the integer zero converted to a float for the
  weights) and then laid out as the regions read them: the source words and the weights as one column, the destination
  words as one row.  Every statement reads one buffer of the valuation after a stretch of host operations as the
  operations' term over the reference's word vectors and weight chain.
-/
import proofs.«115179_j73220602462691_1_alg».proof.Proof.KI.HostEdge

noncomputable section

namespace Cert.KernelIdeal.HostValue

open Cert.KernelIdeal Cert.KernelIdeal.Gen
open Idealize.ShloMosaic Idealize.ShloMosaic.TcCoe Idealize.ShloMosaic.StableHlo Idealize.ShloMosaic.ValueIdx
open Cert.ReferenceIdeal.RefValue (srcV dstV wrapV colV degV disV nrmV srcW dstW nrmR)

variable (m : (ℓ : Loc nD τ sig) → Buf (Elt Ideal) ℓ) (outs : Outs (F := Ideal)) (c : Dev nD)

/-! ## The three padded vectors -/

/-- `%30`: the source words continued by 2528 zero words. -/
theorem V4_v30 : (V4 m c main_v30 : S1302528.Idx → BitVec 32)
    = pad S1302528 ![0] ![2528] ![0] (srcV (m ((c : Thread nD τ).loc main_arg1))) (constantI S_ 32 0#32)
        pads_S1300000_S1302528_025280 h_S_ := by
  have e : (V4 m c main_v30 : S1302528.Idx → BitVec 32)
      = pad S1302528 ![0] ![2528] ![0] (V3 m c main_v5 : S1300000.Idx → BitVec 32)
          (id (V3 m c main_c_6 : S_.Idx → BitVec 32)) pads_S1300000_S1302528_025280 h_S_ := by
    show StableHlo.after hostOps0_3 (V3 m c) (Proc.devRef .tc main_v30) = _
    generalize V3 m c = W
    after_results
    all_goals rfl
  rw [e, V3_c_6, V3_v5]
  all_goals rfl

/-- The padding word of the destination words: the integer zero. -/
theorem V5_c_7 : (V5 m c main_c_7 : S_.Idx → BitVec 32) = constantI S_ 32 0#32 := by
  show StableHlo.after hostOps0_4 (V4 m c) (Proc.devRef .tc main_c_7) = _
  generalize V4 m c = W
  after_results
  all_goals rfl

/-- `%31`: the destination words continued by 2528 zero words. -/
theorem V6_v31 : (V6 m c main_v31 : S1302528.Idx → BitVec 32)
    = pad S1302528 ![0] ![2528] ![0] (dstV (m ((c : Thread nD τ).loc main_arg1))) (constantI S_ 32 0#32)
        pads_S1300000_S1302528_025280 h_S_ := by
  have e : (V6 m c main_v31 : S1302528.Idx → BitVec 32)
      = pad S1302528 ![0] ![2528] ![0] (V5 m c main_v6 : S1300000.Idx → BitVec 32)
          (id (V5 m c main_c_7 : S_.Idx → BitVec 32)) pads_S1300000_S1302528_025280 h_S_ := by
    show StableHlo.after hostOps0_5 (V5 m c) (Proc.devRef .tc main_v31) = _
    generalize V5 m c = W
    after_results
    all_goals rfl
  rw [e, V5_c_7, V5_of m c main_v6 (by decide), V4_of m c main_v6 (by decide), V3_v6]
  all_goals rfl

/-- The integer zero the weights' padding value is converted from. -/
theorem V7_c_8 : (V7 m c main_c_8 : S_.Idx → BitVec 32) = constantI S_ 32 0#32 := by
  show StableHlo.after hostOps0_6 (V6 m c) (Proc.devRef .tc main_c_8) = _
  generalize V6 m c = W
  after_results
  all_goals rfl

/-- `%32`: the weights continued by 2528 copies of the integer zero converted to a float. -/
theorem V8_v32 : (V8 m c main_v32 : S1302528.Idx → EReal)
    = pad S1302528 ![0] ![2528] ![0] (nrmV (m ((c : Thread nD τ).loc main_arg1)))
        (sitofp (F := Ideal) .f32 (constantI S_ 32 0#32)) pads_S1300000_S1302528_025280 h_S_ := by
  have e : (V8 m c main_v32 : S1302528.Idx → EReal)
      = pad S1302528 ![0] ![2528] ![0] (V7 m c main_v29 : S1300000.Idx → EReal)
          (sitofp (F := Ideal) .f32 (V7 m c main_c_8 : S_.Idx → BitVec 32)) pads_S1300000_S1302528_025280 h_S_ := by
    show StableHlo.after hostOps0_7 (V7 m c) (Proc.devRef .tc main_v32) = _
    generalize V7 m c = W
    after_results
    all_goals rfl
  rw [e, V7_c_8, V7_of m c main_v29 (by decide), V6_of m c main_v29 (by decide), V5_of m c main_v29 (by decide),
    V4_of m c main_v29 (by decide), V3_v29]
  all_goals rfl

/-! ## The columns and the row -/

/-- `%33`: the padded source words as one column. -/
theorem V9_v33 : (V9 m c main_v33 : S1302528x1.Idx → BitVec 32)
    = shapeCast S1302528x1 (pad S1302528 ![0] ![2528] ![0] (srcV (m ((c : Thread nD τ).loc main_arg1))) (constantI S_ 32 0#32)
        pads_S1300000_S1302528_025280 h_S_) shapeCasts_S1302528_S1302528x1 := by
  have e : (V9 m c main_v33 : S1302528x1.Idx → BitVec 32)
      = shapeCast S1302528x1 (V8 m c main_v30 : S1302528.Idx → BitVec 32) shapeCasts_S1302528_S1302528x1 := by
    show StableHlo.after hostOps0_8 (V8 m c) (Proc.devRef .tc main_v33) = _
    generalize V8 m c = W
    after_results
    all_goals rfl
  rw [e, V8_of m c main_v30 (by decide), V7_of m c main_v30 (by decide), V6_of m c main_v30 (by decide),
    V5_of m c main_v30 (by decide), V4_v30]

/-- `%34`: the padded destination words as one row. -/
theorem V9_v34 : (V9 m c main_v34 : S1x1302528.Idx → BitVec 32)
    = shapeCast S1x1302528 (pad S1302528 ![0] ![2528] ![0] (dstV (m ((c : Thread nD τ).loc main_arg1))) (constantI S_ 32 0#32)
        pads_S1300000_S1302528_025280 h_S_) shapeCasts_S1302528_S1x1302528 := by
  have e : (V9 m c main_v34 : S1x1302528.Idx → BitVec 32)
      = shapeCast S1x1302528 (V8 m c main_v31 : S1302528.Idx → BitVec 32) shapeCasts_S1302528_S1x1302528 := by
    show StableHlo.after hostOps0_8 (V8 m c) (Proc.devRef .tc main_v34) = _
    generalize V8 m c = W
    after_results
    all_goals rfl
  rw [e, V8_of m c main_v31 (by decide), V7_of m c main_v31 (by decide), V6_v31]

/-- `%35`: the padded weights as one column. -/
theorem V9_v35 : (V9 m c main_v35 : S1302528x1.Idx → EReal)
    = shapeCast S1302528x1 (pad S1302528 ![0] ![2528] ![0] (nrmV (m ((c : Thread nD τ).loc main_arg1)))
        (sitofp (F := Ideal) .f32 (constantI S_ 32 0#32)) pads_S1300000_S1302528_025280 h_S_) shapeCasts_S1302528_S1302528x1 := by
  have e : (V9 m c main_v35 : S1302528x1.Idx → EReal)
      = shapeCast S1302528x1 (V8 m c main_v32 : S1302528.Idx → EReal) shapeCasts_S1302528_S1302528x1 := by
    show StableHlo.after hostOps0_8 (V8 m c) (Proc.devRef .tc main_v35) = _
    generalize V8 m c = W
    after_results
    all_goals rfl
  rw [e, V8_v32]

/-- The integer zero the node features' padding value is converted from. -/
theorem V9_c_9 : (V9 m c main_c_9 : S_.Idx → BitVec 32) = constantI S_ 32 0#32 := by
  show StableHlo.after hostOps0_8 (V8 m c) (Proc.devRef .tc main_c_9) = _
  generalize V8 m c = W
  after_results
  all_goals rfl

end Cert.KernelIdeal.HostValue

end
-- ==== Proof.KI.HostLayout.lean ====
/-
  Layout operations read at an index, for the shapes the host side of a padded message-passing program meets: a vector
  cast to one column, a vector or the rows of a matrix continued by copies of a padding value, two vectors laid end to
  end, and one row of a two-row matrix read as a vector.  Each is the library's general statement at these ranks with
  the index written by its coordinates.
-/
import Idealize.ShloMosaic.Lib.KernelVsHost
import Idealize.ShloMosaic.Lib.IdealHost
import Idealize.ShloMosaic.Lib.ValueLayout

noncomputable section

namespace Cert.KernelIdeal.HostValue.Layout

open Idealize.ShloMosaic Idealize.ShloMosaic.ValueIdx

variable {α : Type}

/-- A vector cast to one column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of `n` entries continued by `p` copies of the padding value reads the vector below `n` and the padding
    value from `n` on. -/
theorem pad_tail_apply {n n' p : ℕ} (x : (⟨1, ![n]⟩ : Shape).Idx → α) (v : (⟨0, ![]⟩ : Shape).Idx → α)
    (h : (⟨1, ![n]⟩ : Shape).Pads ![0] ![p] ![0] ⟨1, ![n']⟩) (hu : 0 < (⟨0, ![]⟩ : Shape).numel) (e : Fin n') :
    pad ⟨1, ![n']⟩ ![0] ![p] ![0] x v h hu (ix1 e) = if he : e.val < n then x (ix1 ⟨e.val, he⟩) else v ix0 := by
  split
  · next he =>
    exact pad_apply_of_inside _ _ _ x v h hu (ix1 e) (ix1 ⟨e.val, he⟩) (fun a => by
      match a with
      | ⟨0, _⟩ => show e.val = 0 + e.val * (0 + 1); omega)
  · next he =>
    rw [pad_apply_of_not_inside _ _ _ x v h hu (ix1 e) (0 : Fin 1) (by
      rintro ⟨_, _, h3⟩
      have h4 : (e.val - 0) / 1 < n := h3
      omega)]
    exact congrArg v (eq_ix0 _)

/-- The rows of an `n × k` matrix continued by `p` rows of the padding value. -/
theorem pad_rows_apply {n n' p k : ℕ} (x : (⟨2, ![n, k]⟩ : Shape).Idx → α) (v : (⟨0, ![]⟩ : Shape).Idx → α)
    (h : (⟨2, ![n, k]⟩ : Shape).Pads ![0, 0] ![p, 0] ![0, 0] ⟨2, ![n', k]⟩) (hu : 0 < (⟨0, ![]⟩ : Shape).numel)
    (r : Fin n') (c : Fin k) :
    pad ⟨2, ![n', k]⟩ ![0, 0] ![p, 0] ![0, 0] x v h hu (ix2 r c)
      = if hr : r.val < n then x (ix2 ⟨r.val, hr⟩ c) else v ix0 := by
  split
  · next hr =>
    exact pad_apply_of_inside _ _ _ x v h hu (ix2 r c) (ix2 ⟨r.val, hr⟩ c) (fun a => by
      match a with
      | ⟨0, _⟩ => show r.val = 0 + r.val * (0 + 1); omega
      | ⟨1, _⟩ => show c.val = 0 + c.val * (0 + 1); omega)
  · next hr =>
    rw [pad_apply_of_not_inside _ _ _ x v h hu (ix2 r c) (0 : Fin 2) (by
      rintro ⟨_, _, h3⟩
      have h4 : (r.val - 0) / 1 < n := h3
      omega)]
    exact congrArg v (eq_ix0 _)

/-- Two vectors laid end to end read the first below its length and the second, moved back by that length, from
    there on. -/
theorem concat_vec_apply {n₁ n₂ n : ℕ} (hn : n = n₁ + n₂) (x₁ : (⟨1, ![n₁]⟩ : Shape).Idx → α)
    (x₂ : (⟨1, ![n₂]⟩ : Shape).Idx → α)
    (h : Shape.Concatenates [(⟨1, ![n₁]⟩ : Shape), ⟨1, ![n₂]⟩] ⟨1, ![n]⟩ 0) (e : Fin n) :
    concatenate ⟨1, ![n]⟩ 0 [⟨⟨1, ![n₁]⟩, x₁⟩, ⟨⟨1, ![n₂]⟩, x₂⟩] h (ix1 e)
      = if he : e.val < n₁ then x₁ (ix1 ⟨e.val, he⟩)
        else x₂ (ix1 ⟨e.val - n₁, by have := e.isLt; omega⟩) := by
  split
  · next he =>
    exact concatenate_pair_apply_left 0 x₁ x₂ h (ix1 e) rfl (ix1 ⟨e.val, he⟩) (fun b => by
      match b with
      | ⟨0, _⟩ => rfl)
  · next he =>
    exact concatenate_pair_apply_right 0 x₁ x₂ h (ix1 e) rfl rfl (ix1 ⟨e.val - n₁, by have := e.isLt; omega⟩)
      (fun b hb => by
        match b, hb with
        | ⟨0, _⟩, hb => exact absurd rfl hb)
      (by show (e.val - n₁) + n₁ = e.val; omega)

/-- Row `r` of a two-row matrix, cut out and read as a vector, is the matrix's row `r`. -/
theorem row_of_two_apply {n : ℕ} (o : ℕ) (r : Fin 2) (hr : r.val = o) (a : (⟨2, ![2, n]⟩ : Shape).Idx → α)
    (hs : (⟨2, ![2, n]⟩ : Shape).Slices ![o, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![o, 0] a hs) hc (ix1 e) = a (ix2 r e) := by
  rw [shapeCast_1a_a_apply]
  exact slice2_axis0_apply o a hs (0 : Fin 1) e r (by rw [hr]; exact (Nat.add_zero o).symm)

/-- The first `m` rows of a one-column matrix. -/
theorem head_rows_apply {n m : ℕ} (x : (⟨2, ![n, 1]⟩ : Shape).Idx → α)
    (hs : (⟨2, ![n, 1]⟩ : Shape).Slices ![0, 0] ⟨2, ![m, 1]⟩) (i : Fin m) (hi : i.val < n) (u : Fin 1) :
    extractStridedSlice ⟨2, ![m, 1]⟩ ![0, 0] x hs (ix2 i u) = x (ix2 ⟨i.val, hi⟩ u) :=
  slice2_axis0_apply 0 x hs i u ⟨i.val, hi⟩ (Nat.zero_add _).symm

end Cert.KernelIdeal.HostValue.Layout

end
-- ==== Proof.KI.HostReads.lean ====
/-
  The kernel program's host side, third part: what every region's operands hold when the region is entered, and the
  program's result.

  Read at an index, a padded column or row is the message's word or weight below 1300000 and zero from there on; the
  padded node features are the rows of `x` below 100000 and rows of zeros from there on; a bias enters its region as one
  row; a region's output is whatever the region left (a parameter here); and the program's result is the first 100000
  rows of what the last region left.  A buffer that no later item writes keeps its contents, so the second layer's
  regions read the same word and weight operands as the first layer's.
-/
import proofs.«115179_j73220602462691_1_alg».proof.Proof.KI.HostPad
import proofs.«115179_j73220602462691_1_alg».proof.Proof.KI.HostLayout
import proofs.«115179_j73220602462691_1_alg».proof.Proof.Spec

noncomputable section

namespace Cert.KernelIdeal.HostValue

open Cert.KernelIdeal Cert.KernelIdeal.Gen
open Idealize.ShloMosaic Idealize.ShloMosaic.TcCoe Idealize.ShloMosaic.StableHlo Idealize.ShloMosaic.ValueIdx
open Cert.ReferenceIdeal.RefValue (srcV dstV wrapV colV degV disV nrmV srcW dstW nrmR)

variable (m : (ℓ : Loc nD τ sig) → Buf (Elt Ideal) ℓ) (outs : Outs (F := Ideal)) (c : Dev nD)

/-- The integer zero converted to a float is the real zero. -/
theorem sitofp_zero_apply :
    (sitofp (F := Ideal) .f32 (constantI S_ 32 0#32) : S_.Idx → EReal) ix0 = 0 := by
  show (((0#32 : BitVec 32).toInt : ℝ) : EReal) = 0
  simp

/-! ## Region 0's operands, when it is entered -/

/-- No stretch before region 0 writes `r`: it holds its launch contents. -/
theorem V10_launch (r : Ref sig .tc) (h0 : r ∉ hostOps0_W := by decide) (h1 : r ∉ hostOps0_1_W := by decide)
    (h2 : r ∉ hostOps0_2_W := by decide) (h3 : r ∉ hostOps0_3_W := by decide) (h4 : r ∉ hostOps0_4_W := by decide)
    (h5 : r ∉ hostOps0_5_W := by decide) (h6 : r ∉ hostOps0_6_W := by decide) (h7 : r ∉ hostOps0_7_W := by decide)
    (h8 : r ∉ hostOps0_8_W := by decide) (h9 : r ∉ hostOps0_9_W := by decide) :
    V10 m c r = m ((c : Thread nD τ).loc r) :=
  (V10_of m c r h9).trans <| (V9_of m c r h8).trans <| (V8_of m c r h7).trans <| (V7_of m c r h6).trans <|
    (V6_of m c r h5).trans <| (V5_of m c r h4).trans <| (V4_of m c r h3).trans <| (V3_of m c r h2).trans <|
    (V2_of m c r h1).trans (V1_of m c r h0)

/-- Region 0's source-word column: message `e`'s source word below 1300000, the zero word from there on. -/
theorem V10_v33 (e : Fin 1302528) :
    (V10 m c main_v33 : S1302528x1.Idx → BitVec 32) (ix2 e (0 : Fin 1))
      = Cert.Spec.padW 1302528 (srcW (m ((c : Thread nD τ).loc main_arg1))) e := by
  rw [V10_of m c main_v33 (by decide), V9_v33, Layout.shapeCast_a_a1_apply, Layout.pad_tail_apply]
  all_goals rfl

/-- Region 0's weight column: message `e`'s weight below 1300000, zero from there on. -/
theorem V10_v35 (e : Fin 1302528) :
    (V10 m c main_v35 : S1302528x1.Idx → EReal) (ix2 e (0 : Fin 1))
      = Cert.Spec.padR 1302528 (nrmR (m ((c : Thread nD τ).loc main_arg1))) e := by
  rw [V10_of m c main_v35 (by decide), V9_v35, Layout.shapeCast_a_a1_apply, Layout.pad_tail_apply, sitofp_zero_apply]
  all_goals rfl

/-- Region 0's node features: row `n` of `x` below 100000, a row of zeros from there on. -/
theorem V10_v36 (n : Fin 100352) (k : Fin 26) :
    (V10 m c main_v36 : S100352x26.Idx → EReal) (ix2 n k)
      = Cert.Spec.padX 100352 (fun n k => (m ((c : Thread nD τ).loc main_arg0) : S100000x26.Idx → EReal) (ix2 n k)) n k := by
  have e : (V10 m c main_v36 : S100352x26.Idx → EReal)
      = pad S100352x26 ![0, 0] ![352, 0] ![0, 0] (V9 m c main_arg0 : S100000x26.Idx → EReal)
          (sitofp (F := Ideal) .f32 (V9 m c main_c_9 : S_.Idx → BitVec 32)) pads_S100000x26_S100352x26_03520_000 h_S_ := by
    show StableHlo.after hostOps0_9 (V9 m c) (Proc.devRef .tc main_v36) = _
    generalize V9 m c = W
    after_results
    all_goals rfl
  rw [e, V9_c_9, Layout.pad_rows_apply, sitofp_zero_apply]
  rw [V9_of m c main_arg0 (by decide), V8_of m c main_arg0 (by decide), V7_of m c main_arg0 (by decide),
    V6_of m c main_arg0 (by decide), V5_of m c main_arg0 (by decide), V4_of m c main_arg0 (by decide),
    V3_of m c main_arg0 (by decide), V2_of m c main_arg0 (by decide), V1_of m c main_arg0 (by decide)]
  all_goals rfl

/-- Region 0's weight matrix is the first layer's, as launched. -/
theorem V10_arg2 : V10 m c main_arg2 = m ((c : Thread nD τ).loc main_arg2) := V10_launch m c main_arg2

/-! ## Region 1's operands (entered at V12) -/

/-- Region 1 reads the messages region 0 left. -/
theorem V12_v37 : V12 m outs c main_v37 = outs 11 main_v37 c := by
  rw [V12_of m outs c main_v37 (by decide)]
  exact Function.update_self ..

/-- The destination-word row after region 0: message `e`'s destination word below 1300000, the zero word from there on. -/
theorem V11_v34 (e : Fin 1302528) :
    (V11 m outs c main_v34 : S1x1302528.Idx → BitVec 32) (ix2 (0 : Fin 1) e)
      = Cert.Spec.padW 1302528 (dstW (m ((c : Thread nD τ).loc main_arg1))) e := by
  rw [V11_of m outs c main_v34 (by decide), V10_of m c main_v34 (by decide), V9_v34, shapeCast_a_1a_apply, Layout.pad_tail_apply]
  all_goals rfl

/-- Region 1's destination-word row. -/
theorem V12_v34 (e : Fin 1302528) :
    (V12 m outs c main_v34 : S1x1302528.Idx → BitVec 32) (ix2 (0 : Fin 1) e)
      = Cert.Spec.padW 1302528 (dstW (m ((c : Thread nD τ).loc main_arg1))) e := by
  rw [V12_of m outs c main_v34 (by decide)]; exact V11_v34 m outs c e

/-- A buffer no stretch before region 0 writes, other than region 0's output, holds its launch contents after region 0. -/
theorem V11_launch (r : Ref sig .tc) (h : r ∉ ([main_v37] : List (Ref sig .tc)) := by decide)
    (h0 : r ∉ hostOps0_W := by decide) (h1 : r ∉ hostOps0_1_W := by decide)
    (h2 : r ∉ hostOps0_2_W := by decide) (h3 : r ∉ hostOps0_3_W := by decide) (h4 : r ∉ hostOps0_4_W := by decide)
    (h5 : r ∉ hostOps0_5_W := by decide) (h6 : r ∉ hostOps0_6_W := by decide) (h7 : r ∉ hostOps0_7_W := by decide)
    (h8 : r ∉ hostOps0_8_W := by decide) (h9 : r ∉ hostOps0_9_W := by decide) :
    V11 m outs c r = m ((c : Thread nD τ).loc r) :=
  (V11_of m outs c r h).trans (V10_launch m c r h0 h1 h2 h3 h4 h5 h6 h7 h8 h9)

/-- Region 1's bias row is the first layer's bias. -/
theorem V12_v38 (d : Fin 64) :
    (V12 m outs c main_v38 : S1x64.Idx → EReal) (ix2 (0 : Fin 1) d)
      = (m ((c : Thread nD τ).loc main_arg3) : S64.Idx → EReal) (ix1 d) := by
  have e : (V12 m outs c main_v38 : S1x64.Idx → EReal)
      = shapeCast S1x64 (V11 m outs c main_arg3 : S64.Idx → EReal) shapeCasts_S64_S1x64 := by
    show StableHlo.after hostOps1 (V11 m outs c) (Proc.devRef .tc main_v38) = _
    generalize V11 m outs c = W
    after_results
    all_goals rfl
  rw [e, shapeCast_a_1a_apply, V11_launch m outs c main_arg3]

/-! ## Region 2's operands (entered at V13) -/

/-- Region 2 reads the node features region 1 left. -/
theorem V13_v39 : V13 m outs c main_v39 = outs 13 main_v39 c := Function.update_self ..

/-- Region 2's weight matrix is the second layer's, as launched. -/
theorem V13_arg4 : V13 m outs c main_arg4 = m ((c : Thread nD τ).loc main_arg4) :=
  (V13_of m outs c main_arg4 (by decide)).trans <| (V12_of m outs c main_arg4 (by decide)).trans
    (V11_launch m outs c main_arg4)

/-- Region 2's source-word column is region 0's. -/
theorem V13_v33 (e : Fin 1302528) :
    (V13 m outs c main_v33 : S1302528x1.Idx → BitVec 32) (ix2 e (0 : Fin 1))
      = Cert.Spec.padW 1302528 (srcW (m ((c : Thread nD τ).loc main_arg1))) e := by
  rw [V13_of m outs c main_v33 (by decide), V12_of m outs c main_v33 (by decide), V11_of m outs c main_v33 (by decide)]
  exact V10_v33 m c e

/-- Region 2's weight column is region 0's. -/
theorem V13_v35 (e : Fin 1302528) :
    (V13 m outs c main_v35 : S1302528x1.Idx → EReal) (ix2 e (0 : Fin 1))
      = Cert.Spec.padR 1302528 (nrmR (m ((c : Thread nD τ).loc main_arg1))) e := by
  rw [V13_of m outs c main_v35 (by decide), V12_of m outs c main_v35 (by decide), V11_of m outs c main_v35 (by decide)]
  exact V10_v35 m c e

/-! ## Region 3's operands (entered at V15) -/

/-- What region 2 left in its output. -/
theorem V14_v40 : V14 m outs c main_v40 = outs 14 main_v40 c := Function.update_self ..

/-- Region 3 reads the messages region 2 left. -/
theorem V15_v40 : V15 m outs c main_v40 = outs 14 main_v40 c :=
  (V15_of m outs c main_v40 (by decide)).trans (V14_v40 m outs c)

/-- A buffer that no stretch and no region up to region 2 may change holds its launch contents after region 2. -/
theorem V14_launch (r : Ref sig .tc) (h14 : r ∉ ([main_v40] : List (Ref sig .tc)) := by decide)
    (h13 : r ∉ ([main_v39] : List (Ref sig .tc)) := by decide) (h12 : r ∉ hostOps1_W := by decide)
    (h : r ∉ ([main_v37] : List (Ref sig .tc)) := by decide)
    (h0 : r ∉ hostOps0_W := by decide) (h1 : r ∉ hostOps0_1_W := by decide)
    (h2 : r ∉ hostOps0_2_W := by decide) (h3 : r ∉ hostOps0_3_W := by decide) (h4 : r ∉ hostOps0_4_W := by decide)
    (h5 : r ∉ hostOps0_5_W := by decide) (h6 : r ∉ hostOps0_6_W := by decide) (h7 : r ∉ hostOps0_7_W := by decide)
    (h8 : r ∉ hostOps0_8_W := by decide) (h9 : r ∉ hostOps0_9_W := by decide) :
    V14 m outs c r = m ((c : Thread nD τ).loc r) :=
  (V14_of m outs c r h14).trans <| (V13_of m outs c r h13).trans <| (V12_of m outs c r h12).trans
    (V11_launch m outs c r h h0 h1 h2 h3 h4 h5 h6 h7 h8 h9)

/-- Region 3's destination-word row is region 1's. -/
theorem V15_v34 (e : Fin 1302528) :
    (V15 m outs c main_v34 : S1x1302528.Idx → BitVec 32) (ix2 (0 : Fin 1) e)
      = Cert.Spec.padW 1302528 (dstW (m ((c : Thread nD τ).loc main_arg1))) e := by
  rw [V15_of m outs c main_v34 (by decide), V14_of m outs c main_v34 (by decide), V13_of m outs c main_v34 (by decide)]
  exact V12_v34 m outs c e

/-- Region 3's bias row is the second layer's bias. -/
theorem V15_v41 (d : Fin 32) :
    (V15 m outs c main_v41 : S1x32.Idx → EReal) (ix2 (0 : Fin 1) d)
      = (m ((c : Thread nD τ).loc main_arg5) : S32.Idx → EReal) (ix1 d) := by
  have e : (V15 m outs c main_v41 : S1x32.Idx → EReal)
      = shapeCast S1x32 (V14 m outs c main_arg5 : S32.Idx → EReal) shapeCasts_S32_S1x32 := by
    show StableHlo.after hostOps3 (V14 m outs c) (Proc.devRef .tc main_v41) = _
    generalize V14 m outs c = W
    after_results
    all_goals rfl
  rw [e, shapeCast_a_1a_apply, V14_launch m outs c main_arg5]

/-- Region 3's read-out bias is the one entry of `bl`. -/
theorem V15_v42 :
    (V15 m outs c main_v42 : S1x1.Idx → EReal) (ix2 (0 : Fin 1) (0 : Fin 1))
      = (m ((c : Thread nD τ).loc main_arg7) : S1.Idx → EReal) (ix1 (0 : Fin 1)) := by
  have e : (V15 m outs c main_v42 : S1x1.Idx → EReal)
      = shapeCast S1x1 (V14 m outs c main_arg7 : S1.Idx → EReal) shapeCasts_S1_S1x1 := by
    show StableHlo.after hostOps3 (V14 m outs c) (Proc.devRef .tc main_v42) = _
    generalize V14 m outs c = W
    after_results
    all_goals rfl
  rw [e, shapeCast_a_1a_apply, V14_launch m outs c main_arg7]

/-- Region 3's read-out weights are `Wl`, as launched. -/
theorem V15_arg6 : V15 m outs c main_arg6 = m ((c : Thread nD τ).loc main_arg6) :=
  (V15_of m outs c main_arg6 (by decide)).trans (V14_launch m outs c main_arg6)

/-! ## The result -/

/-- What region 3 left in its output. -/
theorem V16_v43 : V16 m outs c main_v43 = outs 16 main_v43 c := Function.update_self ..

/-- THE RESULT: row `i` of the program's result is row `i` of what region 3 left, for the 100000 nodes. -/
theorem V17_v44 (i : Fin 100000) :
    (V17 m outs c main_v44 : S100000x1.Idx → EReal) (ix2 i (0 : Fin 1))
      = (outs 16 main_v43 c : S100352x1.Idx → EReal) (ix2 (⟨i.val, by have := i.isLt; omega⟩ : Fin 100352) (0 : Fin 1)) := by
  have e : (V17 m outs c main_v44 : S100000x1.Idx → EReal)
      = extractStridedSlice S100000x1 ![0, 0] (V16 m outs c main_v43 : S100352x1.Idx → EReal) slices_S100352x1_S100000x1_0_0 := by
    show StableHlo.after hostOps4 (V16 m outs c) (Proc.devRef .tc main_v44) = _
    generalize V16 m outs c = W
    after_results
    all_goals rfl
  rw [e, Layout.head_rows_apply _ _ i (by have := i.isLt; omega), V16_v43]

end Cert.KernelIdeal.HostValue

end
-- ==== Proof.KI.KernelValue.lean ====
/-
  The kernel program's result as a function of its arguments.

  Region by region the output array is the padded 0/1-weight form of one layer (`Cert.Spec.gather`,
  `scatterRelu`, `scatterFinal`) of the arrays the region was entered with; the host operations between the regions
  only re-lay the arguments (padding with zeros, columns, rows) and compute the messages' words and weights.  Composed,
  the result at node `i` is `Cert.Spec.kernelModel` of the arguments, the messages' source and destination words and
  their weights.
-/
import proofs.«115179_j73220602462691_1_alg».proof.Proof.KI.Run
import proofs.«115179_j73220602462691_1_alg».proof.Proof.KI.Reg0Value
import proofs.«115179_j73220602462691_1_alg».proof.Proof.KI.Reg1Value
import proofs.«115179_j73220602462691_1_alg».proof.Proof.KI.Reg2Value
import proofs.«115179_j73220602462691_1_alg».proof.Proof.KI.Reg3Value
import proofs.«115179_j73220602462691_1_alg».proof.Proof.KI.HostReads
import proofs.«115179_j73220602462691_1_alg».proof.Proof.Spec
import Idealize.ShloMosaic.Lib.ValueIdx

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.Run Cert.KernelIdeal.HostValue Cert.Spec
open Cert.ReferenceIdeal.RefValue (srcW dstW nrmR)

variable (m : (ℓ : Loc nD τ sig) → Buf (Elt Ideal) ℓ) (c : Dev nD)

/-- The arguments as plain functions of coordinates. -/
abbrev aX : Fin 100000 → Fin 26 → EReal := fun n k => (m ((c : Thread nD τ).loc main_arg0) : S100000x26.Idx → EReal) (ix2 n k)
abbrev aW1 : Fin 26 → Fin 64 → EReal := fun k d => (m ((c : Thread nD τ).loc main_arg2) : S26x64.Idx → EReal) (ix2 k d)
abbrev aB1 : Fin 64 → EReal := fun d => (m ((c : Thread nD τ).loc main_arg3) : S64.Idx → EReal) (ix1 d)
abbrev aW2 : Fin 64 → Fin 32 → EReal := fun k d => (m ((c : Thread nD τ).loc main_arg4) : S64x32.Idx → EReal) (ix2 k d)
abbrev aB2 : Fin 32 → EReal := fun d => (m ((c : Thread nD τ).loc main_arg5) : S32.Idx → EReal) (ix1 d)
abbrev aWl : Fin 32 → EReal := fun d => (m ((c : Thread nD τ).loc main_arg6) : S32x1.Idx → EReal) (ix2 d (0 : Fin 1))
abbrev aBl : EReal := (m ((c : Thread nD τ).loc main_arg7) : S1.Idx → EReal) (ix1 (0 : Fin 1))
abbrev aE : IVec S2x1200000 32 := m ((c : Thread nD τ).loc main_arg1)

/-- The padded words and weights every region reads. -/
abbrev srcP : Fin 1302528 → BitVec 32 := padW 1302528 (srcW (aE m c))
abbrev dstP : Fin 1302528 → BitVec 32 := padW 1302528 (dstW (aE m c))
abbrev nrmP : Fin 1302528 → EReal := padR 1302528 (nrmR (aE m c))

/-- The first layer's messages. -/
abbrev M1 : Fin 1302528 → Fin 64 → EReal := gather (N := 100352) (padX 100352 (aX m c)) (aW1 m c) (srcP m c) (nrmP m c)
/-- The first layer's rows, padded rows included. -/
abbrev H1 : Fin 100352 → Fin 64 → EReal := scatterRelu (M := 1302528) (M1 m c) (dstP m c) (aB1 m c)
/-- The second layer's messages. -/
abbrev M2 : Fin 1302528 → Fin 32 → EReal := gather (N := 100352) (H1 m c) (aW2 m c) (srcP m c) (nrmP m c)

/-- The layer functions respect equality of their arguments. -/
theorem gather_congr {N K D M : ℕ} {x x' : Fin N → Fin K → EReal} {w w' : Fin K → Fin D → EReal}
    {s s' : Fin M → BitVec 32} {r r' : Fin M → EReal} (hx : x = x') (hw : w = w') (hs : s = s') (hr : r = r')
    (e : Fin M) (d : Fin D) : gather x w s r e d = gather x' w' s' r' e d := by
  subst hx hw hs hr; rfl
theorem scatterRelu_congr {M D N : ℕ} {g g' : Fin M → Fin D → EReal} {s s' : Fin M → BitVec 32} {b b' : Fin D → EReal}
    (hg : g = g') (hs : s = s') (hb : b = b') (i : Fin N) (d : Fin D) :
    scatterRelu g s b i d = scatterRelu g' s' b' i d := by
  subst hg hs hb; rfl
theorem scatterFinal_congr {M D N : ℕ} {g g' : Fin M → Fin D → EReal} {s s' : Fin M → BitVec 32} {b b' : Fin D → EReal}
    {wl wl' : Fin D → EReal} {bl bl' : EReal} (hg : g = g') (hs : s = s') (hb : b = b') (hw : wl = wl') (hl : bl = bl')
    (i : Fin N) : scatterFinal g s b wl bl i = scatterFinal g' s' b' wl' bl' i := by
  subst hg hs hb hw hl; rfl

/-- Region 0 leaves the first layer's messages. -/
theorem msgs1 (e : Fin 1302528) (d : Fin 64) :
    (outs m 11 main_v37 c : S1302528x64.Idx → EReal) (ix2 e d) = M1 m c e d := by
  refine (congrFun (outs_11 m c) _).trans ?_
  refine (Reg0.final (En0 m) c e d).trans ?_
  exact gather_congr (funext fun n => funext fun k => V10_v36 m c n k)
    (funext fun k => funext fun d' => congrFun (V10_arg2 m c) _)
    (funext fun e' => V10_v33 m c e') (funext fun e' => V10_v35 m c e') e d

/-- Region 1 leaves the first layer's rows. -/
theorem rows1 (n : Fin 100352) (d : Fin 64) :
    (outs m 13 main_v39 c : S100352x64.Idx → EReal) (ix2 n d) = H1 m c n d := by
  refine (congrFun (outs_13 m c) _).trans ?_
  refine (Reg1.final (En1 m) c n d).trans ?_
  exact scatterRelu_congr
    (funext fun e => funext fun d' => (congrFun (V12_v37 m (outs m) c) _).trans (msgs1 m c e d'))
    (funext fun e => V12_v34 m (outs m) c e) (funext fun d' => V12_v38 m (outs m) c d') n d

/-- Region 2 leaves the second layer's messages. -/
theorem msgs2 (e : Fin 1302528) (d : Fin 32) :
    (outs m 14 main_v40 c : S1302528x32.Idx → EReal) (ix2 e d) = M2 m c e d := by
  refine (congrFun (outs_14 m c) _).trans ?_
  refine (Reg2.final (En2 m) c e d).trans ?_
  exact gather_congr
    (funext fun n => funext fun k => (congrFun (V13_v39 m (outs m) c) _).trans (rows1 m c n k))
    (funext fun k => funext fun d' => congrFun (V13_arg4 m (outs m) c) _)
    (funext fun e' => V13_v33 m (outs m) c e') (funext fun e' => V13_v35 m (outs m) c e') e d

/-- The program's result at node `i`. -/
theorem kernel_value (i : Fin 100000) :
    (V17 m (outs m) c main_v44 : S100000x1.Idx → EReal) (ix2 i (0 : Fin 1))
      = kernelModel (aX m c) (aW1 m c) (aB1 m c) (aW2 m c) (aB2 m c) (aWl m c) (aBl m c)
          (srcW (aE m c)) (dstW (aE m c)) (nrmR (aE m c)) i := by
  have hi : i.val < 100352 := by have := i.isLt; omega
  refine (V17_v44 m (outs m) c i).trans ?_
  refine (congrFun (outs_16 m c) _).trans ?_
  refine (Reg3.final (En3 m) c ⟨i.val, hi⟩).trans ?_
  exact scatterFinal_congr
    (funext fun e => funext fun d => (congrFun (V15_v40 m (outs m) c) _).trans (msgs2 m c e d))
    (funext fun e => V15_v34 m (outs m) c e) (funext fun d => V15_v41 m (outs m) c d)
    (funext fun d => congrFun (V15_arg6 m (outs m) c) _) (V15_v42 m (outs m) c) ⟨i.val, hi⟩

end Cert.KernelIdeal.KernelValue

end
-- ==== Proof.Ref.Layer.lean ====
/-
  One graph-convolution layer's aggregation, read at one entry.

  Messages `e` carry the row of a table `xw` that their source word names (read signed, clamped into the table), scaled
  by a weight; they are added, from the zero table, into the rows their destination words name (read signed, not
  clamped: a word that names no row lands nowhere).  Entry `(i, d)` of the result is therefore the sum, over the
  messages whose destination word is the number `i`, of the weight times entry `d` of the row read.  Only the laws of a
  commutative monoid are used.
-/
import Idealize.ShloMosaic.PureOps.Ideal
import Idealize.ShloMosaic.PureOps.Ideal.Laws
import Idealize.ShloMosaic.Lib.ValueIdx
import Idealize.ShloMosaic.Lib.Pipeline.Value
import proofs.«115179_j73220602462691_1_alg».proof.Proof.LibRowIndexed

noncomputable section

namespace Cert.ReferenceIdeal.RefValue

open Idealize.ShloMosaic Idealize.ShloMosaic.ValueIdx Idealize.ShloMosaic.RowIndexed
open scoped BigOperators

/-- A 32-bit word read as a signed integer is the number `i < 2^31` exactly when it is the word of `i`. -/
theorem word_toInt_eq_iff (w : BitVec 32) (i : Nat) (hi : i < 2 ^ 31) : w.toInt = (i : Int) ↔ w = BitVec.ofNat 32 i := by
  constructor
  · intro h
    have hw := w.isLt
    have : w.toNat = i := by
      rw [BitVec.toInt_eq_toNat_cond] at h
      split at h <;> omega
    rw [← this, BitVec.ofNat_toNat, BitVec.setWidth_eq]
  · rintro rfl
    rw [BitVec.toInt_eq_toNat_cond, BitVec.toNat_ofNat]
    have : i % 2 ^ 32 = i := Nat.mod_eq_of_lt (by omega)
    rw [this, if_pos (by omega)]

/-- A column `[E, 1]` repeated along a second axis reads its entry `(e, 0)` at every `(e, d)`. -/
theorem colD_apply {E D : Nat} {α : Type} (h : (⟨2, ![E, 1]⟩ : Shape).BroadcastsInDim ⟨2, ![E, D]⟩ ![0, 1])
    (v : (⟨2, ![E, 1]⟩ : Shape).Idx → α) (e : Fin E) (d : Fin D) :
    broadcastInDim ⟨2, ![E, D]⟩ ![0, 1] h v (ix2 e d) = v (ix2 e (0 : Fin 1)) :=
  broadcastInDim_apply _ h v (ix2 e d) (ix2 e (0 : Fin 1)) (fun a => match a with
    | ⟨0, _⟩ => by
      show e.val = if E = 1 then 0 else e.val
      split
      · have := e.isLt; omega
      · rfl
    | ⟨1, _⟩ => by
      show (0 : Nat) = if (1 : Nat) = 1 then 0 else d.val
      rw [if_pos rfl])

/-- A row `[D]` kept as `[1, D]` and repeated over `N` rows reads its entry `d` at every `(n, d)`. -/
theorem rowN_apply {N D : Nat} {α : Type} (h1 : (⟨1, ![D]⟩ : Shape).BroadcastsInDim ⟨2, ![1, D]⟩ ![1])
    (h2 : (⟨2, ![1, D]⟩ : Shape).BroadcastsInDim ⟨2, ![N, D]⟩ ![0, 1])
    (v : (⟨1, ![D]⟩ : Shape).Idx → α) (n : Fin N) (d : Fin D) :
    broadcastInDim ⟨2, ![N, D]⟩ ![0, 1] h2 (broadcastInDim ⟨2, ![1, D]⟩ ![1] h1 v) (ix2 n d) = v (ix1 d) := by
  rw [broadcastInDim_apply _ h2 _ (ix2 n d) (ix2 (0 : Fin 1) d) (fun a => match a with
    | ⟨0, _⟩ => by
      show (0 : Nat) = if (1 : Nat) = 1 then 0 else n.val
      rw [if_pos rfl]
    | ⟨1, _⟩ => by
      show d.val = if D = 1 then 0 else d.val
      split
      · have := d.isLt; omega
      · rfl)]
  exact broadcastInDim_apply _ h1 v (ix2 (0 : Fin 1) d) (ix1 d) (fun a => match a with
    | ⟨0, _⟩ => by
      show d.val = if D = 1 then 0 else d.val
      split
      · have := d.isLt; omega
      · rfl)

/-- The aggregation of one layer at entry `(i, d)`: the messages whose destination word is `i`, each its weight times
    entry `d` of the row its source word reads. -/
theorem conv_apply {N E D : Nat} (hN : 0 < N) (hN31 : N ≤ 2 ^ 31)
    (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (hz : (⟨0, ![]⟩ : Shape).BroadcastsInDim ⟨2, ![N, D]⟩ ![])
    (hc : (⟨1, ![E]⟩ : Shape).BroadcastsInDim ⟨2, ![E, 1]⟩ ![0])
    (hd : (⟨2, ![E, 1]⟩ : Shape).BroadcastsInDim ⟨2, ![E, D]⟩ ![0, 1])
    (xw : FVec Ideal ⟨2, ![N, D]⟩ .f32) (dst src : IVec ⟨1, ![E]⟩ 32) (nrm : FVec Ideal ⟨1, ![E]⟩ .f32)
    (i : Fin N) (d : Fin D) :
    Host.scatterAdd (rowScatter N E D wfS)
        (broadcastInDim ⟨2, ![N, D]⟩ ![] hz (constant (F := Ideal) ⟨0, ![]⟩ .f32 0x00000000#32))
        (broadcastInDim ⟨2, ![E, 1]⟩ ![0] hc dst)
        (mulf (broadcastInDim ⟨2, ![E, D]⟩ ![0, 1] hd (broadcastInDim ⟨2, ![E, 1]⟩ ![0] hc nrm))
          (Host.gather (rowGather N E D wfG) xw (broadcastInDim ⟨2, ![E, 1]⟩ ![0] hc src))) (ix2 i d)
      = ∑ e : Fin E, if dst (ix1 e) = BitVec.ofNat 32 i.val then nrm (ix1 e) * xw (ix2 (nodeOf N hN (src (ix1 e))) d) else 0 := by
  rw [scatterAdd_ideal, rowScatter_add_apply, bcast_scalar_apply, Finset.sum_filter]
  have h0 : (constant (F := Ideal) ⟨0, ![]⟩ .f32 0x00000000#32) ix0 = 0 := Ideal.ofBits_zero_f32
  rw [h0, zero_add]
  refine Finset.sum_congr rfl fun e _ => ?_
  rw [col_apply, mulf_apply, colD_apply, col_apply, rowGather_apply hN, col_apply]
  have hi : i.val < 2 ^ 31 := by have := i.isLt; omega
  by_cases h : dst (ix1 e) = BitVec.ofNat 32 i.val
  · rw [if_pos h, if_pos ((word_toInt_eq_iff _ _ hi).mpr h)]
  · rw [if_neg h, if_neg (fun h' => h ((word_toInt_eq_iff _ _ hi).mp h'))]

end Cert.ReferenceIdeal.RefValue

end
-- ==== Proof.Ref.Value.lean ====
/-
  The reference's result is the specification's `refModel`.

  The reference's result is the composition of its operations, which the generated reading names stage by stage: the
  last stage is the result.  The stages that depend on the contents of index words — the two accumulating
  scatters and the two row gathers — are read here: per layer, entry `(i, d)` of the scatter from the zero table is the
  sum, over the messages whose destination word is `i`, of the message's weight times entry `d` of the row of `x · w`
  its source word reads; the bias is added and the result clamped at zero; the second layer does the same to the first
  layer's output; a last product with a column and a constant give the result.  The word vectors and the weights are
  the ones named in the module on the messages: the stages that compute them are the same compositions, by unfolding.
-/
import proofs.«115179_j73220602462691_1_alg».proof.Proof.Ref.ReadP
import proofs.«115179_j73220602462691_1_alg».proof.Proof.Spec
import proofs.«115179_j73220602462691_1_alg».proof.Proof.Ref.Edge
import proofs.«115179_j73220602462691_1_alg».proof.Proof.Ref.Layer

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.ValueIdx Idealize.ShloMosaic.RowIndexed
open scoped BigOperators

variable (x0 : (⟨S100000x26, .f32⟩ : BufTy).Contents (Elt Ideal)) (a1 : (⟨S2x1200000, .i32⟩ : BufTy).Contents (Elt Ideal))
  (x2 : (⟨S26x64, .f32⟩ : BufTy).Contents (Elt Ideal)) (x3 : (⟨S64, .f32⟩ : BufTy).Contents (Elt Ideal))
  (x4 : (⟨S64x32, .f32⟩ : BufTy).Contents (Elt Ideal)) (x5 : (⟨S32, .f32⟩ : BufTy).Contents (Elt Ideal))
  (x6 : (⟨S32x1, .f32⟩ : BufTy).Contents (Elt Ideal)) (x7 : (⟨S1, .f32⟩ : BufTy).Contents (Elt Ideal))

/-! ## The stages that compute words and weights are the named compositions -/

theorem v6_eq : val_main_v6 (F := Ideal) a1 = dstV a1 := rfl
theorem v54_eq : val_main_v54 (F := Ideal) a1 = dstV a1 := rfl
theorem v36_eq : val_main_v36 (F := Ideal) a1 = wrapV (srcV a1) := rfl
theorem v84_eq : val_main_v84 (F := Ideal) a1 = wrapV (srcV a1) := rfl
theorem v29_eq : val_main_v29 (F := Ideal) a1 = nrmV a1 := rfl
theorem v77_eq : val_main_v77 (F := Ideal) a1 = nrmV a1 := rfl

/-! ## The first layer -/

/-- The first product `x · w1` at an entry. -/
theorem v30_mm (r : Fin 100000) (d : Fin 64) :
    val_main_v30 (F := Ideal) x0 x2 (ix2 r d)
      = Cert.Spec.mm (fun n k => x0 (ix2 n k)) (fun k d => x2 (ix2 k d)) r d := by
  rw [val_main_v30_apply]
  unfold Cert.Spec.mm
  refine Finset.sum_congr rfl fun k _ => ?_
  have el : lidx_main_v30 (ix2 r d) k = ix2 r k := funext fun a => by
    match a with
    | ⟨0, _⟩ => rfl
    | ⟨1, _⟩ => rfl
  have er : ridx_main_v30 (ix2 r d) k = ix2 k d := funext fun a => by
    match a with
    | ⟨0, _⟩ => rfl
    | ⟨1, _⟩ => rfl
  rw [el, er]

/-- The first aggregation at an entry. -/
theorem v43_apply (i : Fin 100000) (d : Fin 64) :
    val_main_v43 (F := Ideal) x0 a1 x2 (ix2 i d)
      = ∑ e : Fin 1300000, if dstW a1 e = BitVec.ofNat 32 i.val
          then nrmR a1 e * val_main_v30 (F := Ideal) x0 x2 (ix2 (srcRow a1 e) d) else 0 := by
  have h := conv_apply (N := 100000) (E := 1300000) (D := 64) (by decide) (by decide)
    scatter_S100000x64_S1300000x1_S1300000x64_1_0_0_1_wf gather_S100000x64_S1300000x1_S1300000x64_1_0_n_n_0_1_164_wf
    bcast_S_S100000x64 bcast_S1300000_S1300000x1_0 bcast_S1300000x1_S1300000x64_0_1
    (val_main_v30 (F := Ideal) x0 x2) (dstV a1) (wrapV (srcV a1)) (nrmV a1) i d
  refine Eq.trans ?_ h
  unfold val_main_v43 val_main_v42 val_main_v40 val_main_v39 val_main_v31 val_main_v38 val_main_v37 val_main_v41 val_main_cst_8
  rw [v6_eq, v36_eq, v29_eq]
  rfl

/-- The first layer's output: the aggregation plus the bias, clamped at zero. -/
theorem v47_apply (n : Fin 100000) (k : Fin 64) :
    val_main_v47 (F := Ideal) x0 a1 x2 x3 (ix2 n k)
      = max (Cert.Spec.refLayer (fun n k => x0 (ix2 n k)) (fun k d => x2 (ix2 k d)) (fun d => x3 (ix1 d))
          (srcRow a1) (dstW a1) (nrmR a1) n k) 0 := by
  have hb : val_main_v45 (F := Ideal) x3 (ix2 n k) = x3 (ix1 k) := by
    unfold val_main_v45 val_main_v44
    exact rowN_apply bcast_S64_S1x64_1 bcast_S1x64_S100000x64_0_1 x3 n k
  have hz : val_main_call1_v0 (F := Ideal) (ix2 n k) = 0 := by
    unfold val_main_call1_v0 val_main_call1_cst
    rw [bcast_scalar_apply]
    exact Ideal.ofBits_zero_f32
  rw [val_main_v47_apply, val_main_v46_apply, v43_apply, hb, hz]
  simp only [v30_mm]
  rfl

/-! ## The second layer -/

/-- The second product `h1 · w2` at an entry, `h1` the first layer's output. -/
theorem v78_mm (r : Fin 100000) (d : Fin 32) :
    val_main_v78 (F := Ideal) x0 a1 x2 x3 x4 (ix2 r d)
      = Cert.Spec.mm (fun n k => max (Cert.Spec.refLayer (fun n k => x0 (ix2 n k)) (fun k d => x2 (ix2 k d))
          (fun d => x3 (ix1 d)) (srcRow a1) (dstW a1) (nrmR a1) n k) 0) (fun k d => x4 (ix2 k d)) r d := by
  rw [val_main_v78_apply]
  unfold Cert.Spec.mm
  refine Finset.sum_congr rfl fun k _ => ?_
  have el : lidx_main_v78 (ix2 r d) k = ix2 r k := funext fun a => by
    match a with
    | ⟨0, _⟩ => rfl
    | ⟨1, _⟩ => rfl
  have er : ridx_main_v78 (ix2 r d) k = ix2 k d := funext fun a => by
    match a with
    | ⟨0, _⟩ => rfl
    | ⟨1, _⟩ => rfl
  rw [el, er, v47_apply]

/-- The second aggregation at an entry. -/
theorem v91_apply (i : Fin 100000) (d : Fin 32) :
    val_main_v91 (F := Ideal) x0 a1 x2 x3 x4 (ix2 i d)
      = ∑ e : Fin 1300000, if dstW a1 e = BitVec.ofNat 32 i.val
          then nrmR a1 e * val_main_v78 (F := Ideal) x0 a1 x2 x3 x4 (ix2 (srcRow a1 e) d) else 0 := by
  have h := conv_apply (N := 100000) (E := 1300000) (D := 32) (by decide) (by decide)
    scatter_S100000x32_S1300000x1_S1300000x32_1_0_0_1_wf gather_S100000x32_S1300000x1_S1300000x32_1_0_n_n_0_1_132_wf
    bcast_S_S100000x32 bcast_S1300000_S1300000x1_0 bcast_S1300000x1_S1300000x32_0_1
    (val_main_v78 (F := Ideal) x0 a1 x2 x3 x4) (dstV a1) (wrapV (srcV a1)) (nrmV a1) i d
  refine Eq.trans ?_ h
  unfold val_main_v91 val_main_v90 val_main_v88 val_main_v87 val_main_v79 val_main_v86 val_main_v85 val_main_v89 val_main_cst_19
  rw [v54_eq, v84_eq, v77_eq]
  rfl

/-- The second layer's output. -/
theorem v95_apply (n : Fin 100000) (d : Fin 32) :
    val_main_v95 (F := Ideal) x0 a1 x2 x3 x4 x5 (ix2 n d)
      = max (Cert.Spec.refLayer (fun n k => max (Cert.Spec.refLayer (fun n k => x0 (ix2 n k)) (fun k d => x2 (ix2 k d))
            (fun d => x3 (ix1 d)) (srcRow a1) (dstW a1) (nrmR a1) n k) 0) (fun k d => x4 (ix2 k d)) (fun d => x5 (ix1 d))
          (srcRow a1) (dstW a1) (nrmR a1) n d) 0 := by
  have hb : val_main_v93 (F := Ideal) x5 (ix2 n d) = x5 (ix1 d) := by
    unfold val_main_v93 val_main_v92
    exact rowN_apply bcast_S32_S1x32_1 bcast_S1x32_S100000x32_0_1 x5 n d
  have hz : val_main_call3_v0 (F := Ideal) (ix2 n d) = 0 := by
    unfold val_main_call3_v0 val_main_call3_cst
    rw [bcast_scalar_apply]
    exact Ideal.ofBits_zero_f32
  rw [val_main_v95_apply, val_main_v94_apply, v91_apply, hb, hz]
  simp only [v78_mm]
  rfl

/-! ## The read-out -/

/-- The reference's result as one function of its arguments: `refModel` at the row. -/
def refOut : (⟨S100000x1, .f32⟩ : BufTy).Contents (Elt Ideal) := fun j =>
  Cert.Spec.refModel (fun n k => x0 (ix2 n k)) (fun k d => x2 (ix2 k d)) (fun d => x3 (ix1 d))
    (fun k d => x4 (ix2 k d)) (fun d => x5 (ix1 d)) (fun d => x6 (ix2 d (0 : Fin 1))) (x7 (ix1 (0 : Fin 1)))
    (srcRow a1) (dstW a1) (nrmR a1) ⟨(j 0).val, idx2_lt0 j⟩

/-- The last stage at row `i` is `refModel`. -/
theorem result_eq (i : Fin 100000) :
    val_main_v99 (F := Ideal) x0 a1 x2 x3 x4 x5 x6 x7 (ix2 i (0 : Fin 1))
      = Cert.Spec.refModel (fun n k => x0 (ix2 n k)) (fun k d => x2 (ix2 k d)) (fun d => x3 (ix1 d))
          (fun k d => x4 (ix2 k d)) (fun d => x5 (ix1 d)) (fun d => x6 (ix2 d (0 : Fin 1))) (x7 (ix1 (0 : Fin 1)))
          (srcRow a1) (dstW a1) (nrmR a1) i := by
  have hb : val_main_v98 (F := Ideal) x7 (ix2 i (0 : Fin 1)) = x7 (ix1 (0 : Fin 1)) := by
    rw [val_main_v98_apply, val_main_v97_apply]
    refine congrArg x7 (funext fun a => ?_)
    match a with
    | ⟨0, _⟩ => rfl
  rw [val_main_v99_apply, val_main_v96_apply, hb]
  unfold Cert.Spec.refModel
  show (∑ k : Fin 32, _) + _ = (∑ d : Fin 32, _) + _
  refine congrArg (fun t : EReal => t + x7 (ix1 (0 : Fin 1))) ?_
  refine Finset.sum_congr rfl fun k _ => ?_
  have el : lidx_main_v96 (ix2 i (0 : Fin 1)) k = ix2 i k := funext fun a => by
    match a with
    | ⟨0, _⟩ => rfl
    | ⟨1, _⟩ => rfl
  have er : ridx_main_v96 (ix2 i (0 : Fin 1)) k = ix2 k (0 : Fin 1) := funext fun a => by
    match a with
    | ⟨0, _⟩ => rfl
    | ⟨1, _⟩ => rfl
  rw [el, er, v95_apply]

/-- The last stage is `refOut`. -/
theorem val_eq_refOut :
    val_main_v99 (F := Ideal) x0 a1 x2 x3 x4 x5 x6 x7 = refOut x0 a1 x2 x3 x4 x5 x6 x7 := by
  funext j
  obtain ⟨p, q, rfl⟩ : ∃ (p : Fin 100000) (q : Fin 1), j = ix2 p q := ⟨j 0, j 1, eq_ix2 j⟩
  obtain rfl : q = 0 := Subsingleton.elim _ _
  rw [result_eq]
  rfl

end Cert.ReferenceIdeal.RefValue

end
-- ==== Proof.Ref.RunSpec.lean ====
/-
  The reference's run, with its result stated by the specification.

  Every weakly fair execution of the reference terminates with its result buffer at the composition of its operations
  applied to the arguments' contents at launch (the run read back operation by operation); that composition is the last
  stage of the reading, which is `refModel` row by row.
-/
import proofs.«115179_j73220602462691_1_alg».proof.Proof.Ref.RunP
import proofs.«115179_j73220602462691_1_alg».proof.Proof.Ref.Value

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

set_option maxRecDepth 8192 in
/-- The run's term for the result buffer is the reading's last stage. -/
theorem res_eq_val (m : (ℓ : Loc nD τ sig) → Buf (Elt Ideal) ℓ) (c : Dev nD) :
    Cert.ReferenceIdeal.ValueP.res_main_v99 (F := Ideal) m c
      = ReadP.val_main_v99 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v99; rfl

/-- Every weakly fair execution of the reference terminates with its result buffer at `refOut` of the arguments'
    launch contents, and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c).1.trans ((res_eq_val m c).trans (val_eq_refOut _ _ _ _ _ _ _ _)), (h c).2⟩)
    (Cert.ReferenceIdeal.ValueP.run (F := Ideal) m ρ)

end Cert.ReferenceIdeal.RefValue

end
-- ==== Proof.SpecBridge.lean ====
/-
  The two forms of the graph-convolution computation agree when every source word names a row.

  The kernel's form weights every row of a table by a 0/1 match with the message's source word and sums over all
  rows; when the word is the word of a row number below 2^32 exactly one weight is 1, so the sum is that row.  The
  kernel's arrays are continued by zeros: a message beyond the real ones has weight 0, so it carries 0 and adds 0
  to every row; a table row beyond the real ones is never named by a real message.  Only the laws of a commutative
  monoid for + and ·, together with 0·y = 0, y·0 = 0 and 1·y = y (true for every extended real), are used.
-/
import proofs.«115179_j73220602462691_1_alg».proof.Proof.Spec
import Mathlib.Algebra.BigOperators.Fin

noncomputable section

namespace Cert.Spec

open scoped BigOperators

/-! ## Index words -/

/-- Numbers below 2^32 with equal index words are equal. -/
theorem ofNat_inj_of_lt {a b : ℕ} (ha : a < 2 ^ 32) (hb : b < 2 ^ 32)
    (h : BitVec.ofNat 32 a = BitVec.ofNat 32 b) : a = b := by
  have h' := congrArg BitVec.toNat h
  simp only [BitVec.toNat_ofNat] at h'
  rw [Nat.mod_eq_of_lt ha, Nat.mod_eq_of_lt hb] at h'
  exact h'

theorem hit_self (a : BitVec 32) : hit a a = 1 := if_pos rfl

theorem hit_ne {a b : BitVec 32} (h : a ≠ b) : hit a b = 0 := if_neg h

/-! ## Arrays continued by zeros -/

theorem padW_castLE {M M' : ℕ} (h : M ≤ M') (s : Fin M → BitVec 32) (e : Fin M) :
    padW M' s (Fin.castLE h e) = s e := by
  unfold padW
  rw [dif_pos (show (Fin.castLE h e).val < M from e.isLt)]
  rfl

theorem padR_castLE {M M' : ℕ} (h : M ≤ M') (s : Fin M → EReal) (e : Fin M) :
    padR M' s (Fin.castLE h e) = s e := by
  unfold padR
  rw [dif_pos (show (Fin.castLE h e).val < M from e.isLt)]
  rfl

theorem padR_of_le {M M' : ℕ} (s : Fin M → EReal) (e : Fin M') (h : M ≤ e.val) : padR M' s e = 0 := by
  unfold padR
  rw [dif_neg (Nat.not_lt.mpr h)]

theorem padX_castLE {N N' K : ℕ} (h : N ≤ N') (x : Fin N → Fin K → EReal) (n : Fin N) (k : Fin K) :
    padX N' x (Fin.castLE h n) k = x n k := by
  unfold padX
  rw [dif_pos (show (Fin.castLE h n).val < N from n.isLt)]
  rfl

/-- A sum over a longer range of terms that vanish beyond the shorter range is the sum over the shorter range. -/
theorem sum_pad {M M' : ℕ} (h : M ≤ M') (f : Fin M' → EReal) (hf : ∀ e : Fin M', M ≤ e.val → f e = 0) :
    ∑ e : Fin M', f e = ∑ e : Fin M, f (Fin.castLE h e) := by
  obtain ⟨k, rfl⟩ := Nat.exists_eq_add_of_le h
  rw [Fin.sum_univ_add]
  have hz : ∑ i : Fin k, f (Fin.natAdd M i) = 0 := by
    apply Finset.sum_eq_zero
    intro i _
    apply hf
    simp only [Fin.coe_natAdd]
    exact Nat.le_add_right M i.val
  rw [hz, add_zero]
  rfl

/-! ## One message -/

/-- Rows that agree give equal entries of the product. -/
theorem mm_congr_row {N N' K D : ℕ} (x : Fin N → Fin K → EReal) (x' : Fin N' → Fin K → EReal)
    (w : Fin K → Fin D → EReal) (n : Fin N) (n' : Fin N') (h : ∀ k, x' n' k = x n k) (d : Fin D) :
    mm x' w n' d = mm x w n d := by
  unfold mm
  apply Finset.sum_congr rfl
  intro k _
  rw [h k]

/-- A message whose source word is the word of row `r` carries row `r` of `x · w` times its weight. -/
theorem gather_of_src {N K D M : ℕ} (hN : N ≤ 2 ^ 32) (x : Fin N → Fin K → EReal) (w : Fin K → Fin D → EReal)
    (src : Fin M → BitVec 32) (nrm : Fin M → EReal) (e : Fin M) (r : Fin N)
    (h : src e = BitVec.ofNat 32 r.val) (d : Fin D) :
    gather x w src nrm e d = mm x w r d * nrm e := by
  unfold gather
  congr 1
  rw [Finset.sum_eq_single r]
  · rw [h, hit_self, one_mul]
  · intro n _ hn
    rw [h, hit_ne, zero_mul]
    intro hc
    apply hn
    apply Fin.ext
    exact (ofNat_inj_of_lt (lt_of_lt_of_le r.isLt hN) (lt_of_lt_of_le n.isLt hN) hc).symm
  · intro hr
    exact absurd (Finset.mem_univ r) hr

/-- A message of weight zero carries zero. -/
theorem gather_of_nrm_zero {N K D M : ℕ} (x : Fin N → Fin K → EReal) (w : Fin K → Fin D → EReal)
    (src : Fin M → BitVec 32) (nrm : Fin M → EReal) (e : Fin M) (h : nrm e = 0) (d : Fin D) :
    gather x w src nrm e d = 0 := by
  unfold gather
  rw [h, mul_zero]

/-- The weighted message at a row, in the reference's form. -/
theorem hit_mul_msg (i dw : BitVec 32) (a r : EReal) :
    hit i dw * (a * r) = if dw = i then r * a else 0 := by
  unfold hit
  by_cases hc : dw = i
  · rw [if_pos hc.symm, if_pos hc, one_mul, mul_comm]
  · rw [if_neg (fun h => hc h.symm), if_neg hc, zero_mul]

/-! ## One layer -/

/-- A layer in the kernel's form, over a table and messages continued by zeros, at any row of the longer table, is
    the clamped sum over the real messages in the reference's form. -/
theorem layer_bridge {N N' K D M M' : ℕ} (hN : N ≤ N') (hN' : N' ≤ 2 ^ 32) (hM : M ≤ M')
    (T' : Fin N' → Fin K → EReal) (T : Fin N → Fin K → EReal)
    (hT : ∀ (n : Fin N) (k : Fin K), T' (Fin.castLE hN n) k = T n k)
    (w : Fin K → Fin D → EReal) (b : Fin D → EReal)
    (src dst : Fin M → BitVec 32) (nrm : Fin M → EReal) (srcRow : Fin M → Fin N)
    (hsrc : ∀ e, src e = BitVec.ofNat 32 (srcRow e).val) (i : Fin N') (d : Fin D) :
    scatterRelu (gather T' w (padW M' src) (padR M' nrm)) (padW M' dst) b i d
      = max ((∑ e : Fin M, if dst e = BitVec.ofNat 32 i.val then nrm e * mm T w (srcRow e) d else 0) + b d) 0 := by
  unfold scatterRelu
  congr 2
  rw [sum_pad hM]
  · apply Finset.sum_congr rfl
    intro e _
    have hs : padW M' src (Fin.castLE hM e) = BitVec.ofNat 32 (Fin.castLE hN (srcRow e)).val := by
      rw [padW_castLE, hsrc e]
      rfl
    rw [gather_of_src hN' T' w (padW M' src) (padR M' nrm) (Fin.castLE hM e) (Fin.castLE hN (srcRow e)) hs d,
      padW_castLE, padR_castLE, hit_mul_msg,
      mm_congr_row T T' w (srcRow e) (Fin.castLE hN (srcRow e)) (hT (srcRow e)) d]
  · intro e he
    rw [gather_of_nrm_zero T' w (padW M' src) (padR M' nrm) e (padR_of_le nrm e he) d, mul_zero]

/-! ## The whole computation -/

theorem kernelModel_eq_refModel (x : Fin 100000 → Fin 26 → EReal) (w1 : Fin 26 → Fin 64 → EReal) (b1 : Fin 64 → EReal)
    (w2 : Fin 64 → Fin 32 → EReal) (b2 : Fin 32 → EReal) (wl : Fin 32 → EReal) (bl : EReal)
    (src dst : Fin 1300000 → BitVec 32) (nrm : Fin 1300000 → EReal) (srcRow : Fin 1300000 → Fin 100000)
    (hsrc : ∀ e, src e = BitVec.ofNat 32 (srcRow e).val) :
    kernelModel x w1 b1 w2 b2 wl bl src dst nrm = refModel x w1 b1 w2 b2 wl bl srcRow dst nrm := by
  funext i
  have hN : (100000 : ℕ) ≤ 100352 := by omega
  have hN' : (100352 : ℕ) ≤ 2 ^ 32 := by omega
  have hM : (1300000 : ℕ) ≤ 1302528 := by omega
  -- the first layer at a real row, in the reference's form
  have h1 : ∀ (n : Fin 100000) (k : Fin 64),
      scatterRelu (gather (padX 100352 x) w1 (padW 1302528 src) (padR 1302528 nrm)) (padW 1302528 dst) b1
        (Fin.castLE hN n) k = (fun n d => max (refLayer x w1 b1 srcRow dst nrm n d) 0) n k := by
    intro n k
    exact layer_bridge hN hN' hM (padX 100352 x) x (padX_castLE hN x) w1 b1 src dst nrm srcRow hsrc
      (Fin.castLE hN n) k
  -- the second layer at a real row
  have h2 : ∀ d : Fin 32,
      scatterRelu (N := 100352)
        (gather (scatterRelu (N := 100352) (gather (padX 100352 x) w1 (padW 1302528 src) (padR 1302528 nrm))
          (padW 1302528 dst) b1) w2 (padW 1302528 src) (padR 1302528 nrm)) (padW 1302528 dst) b2
        (Fin.castLE hN i) d
        = max (refLayer (fun n d => max (refLayer x w1 b1 srcRow dst nrm n d) 0) w2 b2 srcRow dst nrm i d) 0 := by
    intro d
    exact layer_bridge hN hN' hM _ _ h1 w2 b2 src dst nrm srcRow hsrc (Fin.castLE hN i) d
  show (∑ d : Fin 32, scatterRelu (N := 100352)
        (gather (scatterRelu (N := 100352) (gather (padX 100352 x) w1 (padW 1302528 src) (padR 1302528 nrm))
          (padW 1302528 dst) b1) w2 (padW 1302528 src) (padR 1302528 nrm)) (padW 1302528 dst) b2
        (Fin.castLE hN i) d * wl d) + bl
      = (∑ d : Fin 32,
          max (refLayer (fun n d => max (refLayer x w1 b1 srcRow dst nrm n d) 0) w2 b2 srcRow dst nrm i d) 0 * wl d) + bl
  exact congrArg (· + bl) (Finset.sum_congr rfl fun d _ => congrArg (· * wl d) (h2 d))

/-- A word is the word of its own number. -/
theorem eq_ofNat_toNat (w : BitVec 32) : w = BitVec.ofNat 32 w.toNat := by
  apply BitVec.eq_of_toNat_eq
  rw [BitVec.toNat_ofNat, Nat.mod_eq_of_lt w.isLt]

/-- The same with the rows read off the source words, when every source word is below the number of nodes. -/
theorem kernelModel_eq_refModel_of_lt (x : Fin 100000 → Fin 26 → EReal) (w1 : Fin 26 → Fin 64 → EReal)
    (b1 : Fin 64 → EReal) (w2 : Fin 64 → Fin 32 → EReal) (b2 : Fin 32 → EReal) (wl : Fin 32 → EReal) (bl : EReal)
    (src dst : Fin 1300000 → BitVec 32) (nrm : Fin 1300000 → EReal) (hlt : ∀ e, (src e).toNat < 100000) :
    kernelModel x w1 b1 w2 b2 wl bl src dst nrm
      = refModel x w1 b1 w2 b2 wl bl (fun e => ⟨(src e).toNat, hlt e⟩) dst nrm :=
  kernelModel_eq_refModel x w1 b1 w2 b2 wl bl src dst nrm (fun e => ⟨(src e).toNat, hlt e⟩)
    (fun e => eq_ofNat_toNat (src e))

end Cert.Spec

end
-- ==== Proof.PreRange.lean ====
/-
  The index range read out of the precondition.

  The precondition's last conjunct says that every entry of the edge array, read signed, is at least 0 and below
  100000: an array of one-bit words (a signed comparison against each constant, joined by "and") reduced by "and"
  over both axes into one word, which the claim states is 1.  A reduction by "and" that is 1 met only 1s, so both
  comparisons hold at every entry; a 32-bit word that is nonnegative and below 100000 read signed is below 100000
  read unsigned.
-/
import proofs.«115179_j73220602462691_1_alg».proof.Pre_finite_inputs
import Idealize.ShloMosaic.Lib.ValueIdx
import Idealize.ShloMosaic.Lib.ReduceAll

noncomputable section

namespace Cert.PreRange

open Idealize.ShloMosaic Idealize.ShloMosaic.ValueIdx
open Cert.Pre_finite_inputs

/-- The scalar shape has one index. -/
instance : Subsingleton S_.Idx := ⟨fun a b => funext fun d => d.elim0⟩

/-- A word at least 0 and below 100000, read signed, is below 100000 read unsigned. -/
theorem toNat_lt_of_signed (w : BitVec 32) (h0 : (0#32 : BitVec 32).toInt ≤ w.toInt)
    (h1 : w.toInt < (100000#32 : BitVec 32).toInt) : w.toNat < 100000 := by
  have e0 : (0#32 : BitVec 32).toInt = 0 := by decide
  have e1 : (100000#32 : BitVec 32).toInt = 100000 := by decide
  rw [e0] at h0
  rw [e1] at h1
  have hw := w.isLt
  rw [BitVec.toInt_eq_toNat_cond] at h0 h1
  split at h0 <;> omega

/-- Under the precondition every entry of the edge array names a node: it is below 100000 read unsigned. -/
theorem edge_in_range {F : FTy → Type} [FloatOps F] [Facts]
    {a0 : FVec F S100000x26 .f32} {a1 : IVec S2x1200000 32} {a2 : FVec F S26x64 .f32} {a3 : FVec F S64 .f32}
    {a4 : FVec F S64x32 .f32} {a5 : FVec F S32 .f32} {a6 : FVec F S32x1 .f32} {a7 : FVec F S1 .f32}
    (h : fn (F := F) a0 a1 a2 a3 a4 a5 a6 a7 = fun _ => 1#1) (j : Fin 2) (e : Fin 1200000) :
    (a1 (ix2 j e)).toNat < 100000 := by
  have h0 := congrFun h ix0
  dsimp only [fn, fn_part1, fn_part2] at h0
  have h1 : IntOp.andi _ _ = 1#1 := h0
  have h2 := Host.reduce_andi_all _ _ _ _ _ (IntOp.andi_eq_one.1 h1).2 (ix2 j e)
  have h3 : IntOp.andi (IntOp.cmpi .sge (a1 (ix2 j e)) (0#32)) (IntOp.cmpi .slt (a1 (ix2 j e)) (100000#32)) = 1#1 := h2
  have h4 := IntOp.andi_eq_one.1 h3
  exact toNat_lt_of_signed _ (IntOp.cmpi_sge.1 h4.1) (IntOp.cmpi_slt.1 h4.2)

end Cert.PreRange

end
-- ==== Proof.lean ====
/-
  A two-layer graph convolution with a linear read-out, for 100000 nodes and 1300000 messages (1200000 edges and one
  self loop per node).  A layer sends along every message the source node's row of `x · w`, scaled by the message's
  weight `deg^(-1/2)[src] · deg^(-1/2)[dst]`, into the destination node's row, adds a bias and clamps at zero.

  The reference gathers the source rows and sums the messages by destination.  The kernel does both with 0/1
  matrices: for a chunk of 4096 messages and a tile of 2048 nodes it builds the matrix of matches between the
  messages' words and the tile's node numbers and multiplies it with the tile's rows, accumulating over the tiles
  (or, to scatter, over the chunks) in a buffer it keeps between grid points, over arrays padded with zeros to
  1302528 messages and 100352 nodes.  On the extended reals `0 · y = 0` and `1 · y = y` hold for every `y`, so a
  sum of matches times rows is the one matching row, the padding contributes nothing, and the two programs agree
  as soon as every source word names a node — which the precondition states (every entry of `edge_index` lies in
  `[0, 100000)`).  No finiteness is used: only that `+` and `·` are commutative and associative.

  Frames: each kernel region runs through its three cases (first point of the accumulated axis: the buffer is
  zeroed; every point: a product is added; last point: the output block is stored), and the program's run threads
  the four regions and the host operations between them.
-/
import proofs.«115179_j73220602462691_1_alg».proof.Defs
import proofs.«115179_j73220602462691_1_alg».proof.Proof.Gen.Kernel
import proofs.«115179_j73220602462691_1_alg».proof.Proof.Gen.KernelIdeal
import proofs.«115179_j73220602462691_1_alg».proof.Proof.Gen.ReferenceIdeal
import proofs.«115179_j73220602462691_1_alg».proof.Proof.Gen.Pre_finite_inputs
import proofs.«115179_j73220602462691_1_alg».proof.Proof.K.Run
import proofs.«115179_j73220602462691_1_alg».proof.Proof.KI.Run
import proofs.«115179_j73220602462691_1_alg».proof.Proof.KI.KernelValue
import proofs.«115179_j73220602462691_1_alg».proof.Proof.Ref.RunSpec
import proofs.«115179_j73220602462691_1_alg».proof.Proof.SpecBridge
import proofs.«115179_j73220602462691_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_k : Cert.frame_Kernel := fun m ρ _ => Cert.Kernel.Run.frame (F := Bits) m ρ

/-- So does the idealized kernel program. -/
theorem frame_ki : Cert.frame_KernelIdeal := fun m ρ _ => Cert.KernelIdeal.Run.frame (F := Ideal) m ρ

/-- The reference's run with its result dropped. -/
theorem frame_ri : Cert.frame_ReferenceIdeal := fun m ρ _ =>
  (θ_run Cert.ReferenceIdeal.defs _ _).mono (fun _ h c => (h c).2) (Cert.ReferenceIdeal.RefValue.run_spec m ρ)

/-- Every message's source word names a node: an edge's by the precondition, a self loop's because it is the
    node's own number. -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 1300000) :
    (Cert.ReferenceIdeal.RefValue.srcW (Cert.KernelIdeal.KernelValue.aE m c) e).toNat < 100000 :=
  Cert.ReferenceIdeal.RefValue.srcW_lt _ (fun j => by
    obtain ⟨p, q, rfl⟩ : ∃ (p : Fin 2) (q : Fin 1200000), j = ix2 p q := ⟨j 0, j 1, eq_ix2 j⟩
    exact Cert.PreRange.edge_in_range (hpre c) p q) e

/-- Run from memories that agree on the arguments, the two idealized programs end with the same result: the
    kernel's is the padded 0/1-weight model of the arguments, the reference's the direct one, and the two models
    agree when every source word names a node. -/
theorem algebraic : Cert.algebraic_KernelIdeal_ReferenceIdeal := by
  intro m ρ m' ρ' hpre hagree
  refine ⟨fun c => Cert.KernelIdeal.Gen.V17 m (Cert.KernelIdeal.Run.outs m) c Cert.KernelIdeal.main_v44,
    Cert.KernelIdeal.Run.run_result (F := Ideal) m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]
  funext j
  obtain ⟨i, u, rfl⟩ : ∃ (i : Fin 100000) (u : Fin 1), j = ix2 i u := ⟨j 0, j 1, eq_ix2 j⟩
  obtain rfl : u = 0 := Subsingleton.elim _ _
  refine Eq.trans ?_ (Cert.KernelIdeal.KernelValue.kernel_value m c i).symm
  rw [Cert.Spec.kernelModel_eq_refModel _ _ _ _ _ _ _ _ _ _ (Cert.ReferenceIdeal.RefValue.srcRow (Cert.KernelIdeal.KernelValue.aE m c))
    (fun e => Cert.ReferenceIdeal.RefValue.srcRow_spec _ e (src_in_range m hpre c e))]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
